-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v951)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v951) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v733) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S8x32x3 : Shape := ⟨3, ![8, 32, 3]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S8x32x3 : S_.BroadcastsInDim S8x32x3 (![] : Fin 0 → Fin S8x32x3.rank)
  reducesTo_S8x32x3_S_d0_1_2 : S8x32x3.ReducesTo [0, 1, 2] S_

variable [Facts]

def fn {F : FTy → Type} [FloatOps F] (main_arg0 : FVec F S262144x32 .f32) (main_arg1 : FVec F S8x32x3 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S8x32x3 .f32 := Host.absf main_arg1
  let main_cst_0 : FVec F S_ .f32 := constant S_ .f32 0x7F800000#32
  let main_v5 : FVec F S8x32x3 .f32 := broadcastInDim S8x32x3 ![] bcast_S_S8x32x3 main_cst_0
  let main_v6 : IVec S8x32x3 1 := cmpf .olt main_v4 main_v5
  let main_c_1 : IVec S_ 1 := constantI S_ 1 1#1
  let main_v7 : IVec S_ 1 := (fun x v => Host.reduce IntOp.andi x v reducesTo_S8x32x3_S_d0_1_2 h_S_) main_v6 main_c_1
  let main_v8 : IVec S_ 1 := andi main_v3 main_v7
  main_v8
-- ==== Kernel.lean ====
abbrev S262144x32 : Shape := ⟨2, ![262144, 32]⟩
abbrev S8x32x3 : Shape := ⟨3, ![8, 32, 3]⟩
abbrev S4x4 : Shape := ⟨2, ![4, 4]⟩
abbrev S_ : Shape := ⟨0, ![]⟩
abbrev S32x4x4 : Shape := ⟨3, ![32, 4, 4]⟩
abbrev S1x32x1 : Shape := ⟨3, ![1, 32, 1]⟩
abbrev S32 : Shape := ⟨1, ![32]⟩
abbrev S32x1 : Shape := ⟨2, ![32, 1]⟩
abbrev S32x4 : Shape := ⟨2, ![32, 4]⟩
abbrev S32x1x4 : Shape := ⟨3, ![32, 1, 4]⟩
abbrev S32x1x1 : Shape := ⟨3, ![32, 1, 1]⟩
abbrev S1x32 : Shape := ⟨2, ![1, 32]⟩
abbrev S3x32 : Shape := ⟨2, ![3, 32]⟩
abbrev S65536x128 : Shape := ⟨2, ![65536, 128]⟩
abbrev S1x3x1x32 : Shape := ⟨4, ![1, 3, 1, 32]⟩
abbrev S1x3x4x32 : Shape := ⟨4, ![1, 3, 4, 32]⟩
abbrev S3x128 : Shape := ⟨2, ![3, 128]⟩
abbrev S8192x128 : Shape := ⟨2, ![8192, 128]⟩
abbrev S1x128 : Shape := ⟨2, ![1, 128]⟩
abbrev S128 : Shape := ⟨1, ![128]⟩

abbrev nBuf : Space → Nat
  | .hbm => 1031
  | .vmem => 5
  | .smem => 0
  | _ => 0

abbrev hbmTy0_0 (i : Nat) : BufTy := match i % 128 with
  | 0 => ⟨S262144x32, .f32⟩
  | 1 => ⟨S8x32x3, .f32⟩
  | 2 => ⟨S4x4, .i32⟩
  | 3 => ⟨S4x4, .i32⟩
  | 4 => ⟨S_, .i32⟩
  | 5 => ⟨S4x4, .i32⟩
  | 6 => ⟨S4x4, .i32⟩
  | 7 => ⟨S4x4, .i1⟩
  | 8 => ⟨S4x4, .f32⟩
  | 9 => ⟨S32x4x4, .f32⟩
  | 10 => ⟨S1x32x1, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S32x1, .f32⟩
  | 25 => ⟨S32x1, .f32⟩
  | 26 => ⟨S32x1, .f32⟩
  | 27 => ⟨S32x1, .f32⟩
  | 28 => ⟨S32x4, .f32⟩
  | 29 => ⟨S32x1, .f32⟩
  | 30 => ⟨S32x1, .f32⟩
  | 31 => ⟨S32x1, .f32⟩
  | 32 => ⟨S32x1, .f32⟩
  | 33 => ⟨S32x4, .f32⟩
  | 34 => ⟨S32x1, .f32⟩
  | 35 => ⟨S32x1, .f32⟩
  | 36 => ⟨S32x1, .f32⟩
  | 37 => ⟨S32x1, .f32⟩
  | 38 => ⟨S32x4, .f32⟩
  | 39 => ⟨S32x1, .f32⟩
  | 40 => ⟨S32x1, .f32⟩
  | 41 => ⟨S32x1, .f32⟩
  | 42 => ⟨S32x1, .f32⟩
  | 43 => ⟨S32x4, .f32⟩
  | 44 => ⟨S32x1x4, .f32⟩
  | 45 => ⟨S32x1x4, .f32⟩
  | 46 => ⟨S32x1x4, .f32⟩
  | 47 => ⟨S32x1x4, .f32⟩
  | 48 => ⟨S32x4x4, .f32⟩
  | 49 => ⟨S1x32x1, .f32⟩
  | 50 => ⟨S32, .f32⟩
  | 51 => ⟨S_, .f32⟩
  | 52 => ⟨S32, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S32x1, .f32⟩
  | 64 => ⟨S32x1, .f32⟩
  | 65 => ⟨S32x1, .f32⟩
  | 66 => ⟨S32x1, .f32⟩
  | 67 => ⟨S32x4, .f32⟩
  | 68 => ⟨S32x1, .f32⟩
  | 69 => ⟨S32x1, .f32⟩
  | 70 => ⟨S32x1, .f32⟩
  | 71 => ⟨S32x1, .f32⟩
  | 72 => ⟨S32x4, .f32⟩
  | 73 => ⟨S32x1, .f32⟩
  | 74 => ⟨S32x1, .f32⟩
  | 75 => ⟨S32x1, .f32⟩
  | 76 => ⟨S32x1, .f32⟩
  | 77 => ⟨S32x4, .f32⟩
  | 78 => ⟨S32x1, .f32⟩
  | 79 => ⟨S32x1, .f32⟩
  | 80 => ⟨S32x1, .f32⟩
  | 81 => ⟨S32x1, .f32⟩
  | 82 => ⟨S32x4, .f32⟩
  | 83 => ⟨S32x1x4, .f32⟩
  | 84 => ⟨S32x1x4, .f32⟩
  | 85 => ⟨S32x1x4, .f32⟩
  | 86 => ⟨S32x1x4, .f32⟩
  | 87 => ⟨S32x4x4, .f32⟩
  | 88 => ⟨S1x32x1, .f32⟩
  | 89 => ⟨S32, .f32⟩
  | 90 => ⟨S_, .f32⟩
  | 91 => ⟨S32, .f32⟩
  | 92 => ⟨S32, .f32⟩
  | 93 => ⟨S32, .f32⟩
  | 94 => ⟨S_, .f32⟩
  | 95 => ⟨S32, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S32x1, .f32⟩
  | 103 => ⟨S32x1, .f32⟩
  | 104 => ⟨S32x1, .f32⟩
  | 105 => ⟨S32x1, .f32⟩
  | 106 => ⟨S32x4, .f32⟩
  | 107 => ⟨S32x1, .f32⟩
  | 108 => ⟨S32x1, .f32⟩
  | 109 => ⟨S32x1, .f32⟩
  | 110 => ⟨S32x1, .f32⟩
  | 111 => ⟨S32x4, .f32⟩
  | 112 => ⟨S32x1, .f32⟩
  | 113 => ⟨S32x1, .f32⟩
  | 114 => ⟨S32x1, .f32⟩
  | 115 => ⟨S32x1, .f32⟩
  | 116 => ⟨S32x4, .f32⟩
  | 117 => ⟨S32x1, .f32⟩
  | 118 => ⟨S32x1, .f32⟩
  | 119 => ⟨S32x1, .f32⟩
  | 120 => ⟨S32x1, .f32⟩
  | 121 => ⟨S32x4, .f32⟩
  | 122 => ⟨S32x1x4, .f32⟩
  | 123 => ⟨S32x1x4, .f32⟩
  | 124 => ⟨S32x1x4, .f32⟩
  | 125 => ⟨S32x1x4, .f32⟩
  | 126 => ⟨S32x4x4, .f32⟩
  | 127 => ⟨S32x4x4, .f32⟩
  | _ => ⟨S262144x32, .f32⟩

abbrev hbmTy0_1 (i : Nat) : BufTy := match i % 128 with
  | 0 => ⟨S32x4x4, .f32⟩
  | 1 => ⟨S32x4x4, .f32⟩
  | 2 => ⟨S1x32x1, .f32⟩
  | 3 => ⟨S32, .f32⟩
  | 4 => ⟨S_, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S32x1, .f32⟩
  | 17 => ⟨S32x1, .f32⟩
  | 18 => ⟨S32x1, .f32⟩
  | 19 => ⟨S32x1, .f32⟩
  | 20 => ⟨S32x4, .f32⟩
  | 21 => ⟨S32x1, .f32⟩
  | 22 => ⟨S32x1, .f32⟩
  | 23 => ⟨S32x1, .f32⟩
  | 24 => ⟨S32x1, .f32⟩
  | 25 => ⟨S32x4, .f32⟩
  | 26 => ⟨S32x1, .f32⟩
  | 27 => ⟨S32x1, .f32⟩
  | 28 => ⟨S32x1, .f32⟩
  | 29 => ⟨S32x1, .f32⟩
  | 30 => ⟨S32x4, .f32⟩
  | 31 => ⟨S32x1, .f32⟩
  | 32 => ⟨S32x1, .f32⟩
  | 33 => ⟨S32x1, .f32⟩
  | 34 => ⟨S32x1, .f32⟩
  | 35 => ⟨S32x4, .f32⟩
  | 36 => ⟨S32x1x4, .f32⟩
  | 37 => ⟨S32x1x4, .f32⟩
  | 38 => ⟨S32x1x4, .f32⟩
  | 39 => ⟨S32x1x4, .f32⟩
  | 40 => ⟨S32x4x4, .f32⟩
  | 41 => ⟨S1x32x1, .f32⟩
  | 42 => ⟨S32, .f32⟩
  | 43 => ⟨S_, .f32⟩
  | 44 => ⟨S32, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S32x1, .f32⟩
  | 56 => ⟨S32x1, .f32⟩
  | 57 => ⟨S32x1, .f32⟩
  | 58 => ⟨S32x1, .f32⟩
  | 59 => ⟨S32x4, .f32⟩
  | 60 => ⟨S32x1, .f32⟩
  | 61 => ⟨S32x1, .f32⟩
  | 62 => ⟨S32x1, .f32⟩
  | 63 => ⟨S32x1, .f32⟩
  | 64 => ⟨S32x4, .f32⟩
  | 65 => ⟨S32x1, .f32⟩
  | 66 => ⟨S32x1, .f32⟩
  | 67 => ⟨S32x1, .f32⟩
  | 68 => ⟨S32x1, .f32⟩
  | 69 => ⟨S32x4, .f32⟩
  | 70 => ⟨S32x1, .f32⟩
  | 71 => ⟨S32x1, .f32⟩
  | 72 => ⟨S32x1, .f32⟩
  | 73 => ⟨S32x1, .f32⟩
  | 74 => ⟨S32x4, .f32⟩
  | 75 => ⟨S32x1x4, .f32⟩
  | 76 => ⟨S32x1x4, .f32⟩
  | 77 => ⟨S32x1x4, .f32⟩
  | 78 => ⟨S32x1x4, .f32⟩
  | 79 => ⟨S32x4x4, .f32⟩
  | 80 => ⟨S1x32x1, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S32x1, .f32⟩
  | 95 => ⟨S32x1, .f32⟩
  | 96 => ⟨S32x1, .f32⟩
  | 97 => ⟨S32x1, .f32⟩
  | 98 => ⟨S32x4, .f32⟩
  | 99 => ⟨S32x1, .f32⟩
  | 100 => ⟨S32x1, .f32⟩
  | 101 => ⟨S32x1, .f32⟩
  | 102 => ⟨S32x1, .f32⟩
  | 103 => ⟨S32x4, .f32⟩
  | 104 => ⟨S32x1, .f32⟩
  | 105 => ⟨S32x1, .f32⟩
  | 106 => ⟨S32x1, .f32⟩
  | 107 => ⟨S32x1, .f32⟩
  | 108 => ⟨S32x4, .f32⟩
  | 109 => ⟨S32x1, .f32⟩
  | 110 => ⟨S32x1, .f32⟩
  | 111 => ⟨S32x1, .f32⟩
  | 112 => ⟨S32x1, .f32⟩
  | 113 => ⟨S32x4, .f32⟩
  | 114 => ⟨S32x1x4, .f32⟩
  | 115 => ⟨S32x1x4, .f32⟩
  | 116 => ⟨S32x1x4, .f32⟩
  | 117 => ⟨S32x1x4, .f32⟩
  | 118 => ⟨S32x4x4, .f32⟩
  | 119 => ⟨S32x4x4, .f32⟩
  | 120 => ⟨S32x4x4, .f32⟩
  | 121 => ⟨S32x4x4, .f32⟩
  | 122 => ⟨S1x32x1, .f32⟩
  | 123 => ⟨S32, .f32⟩
  | 124 => ⟨S_, .f32⟩
  | 125 => ⟨S32, .f32⟩
  | 126 => ⟨S32, .f32⟩
  | 127 => ⟨S32, .f32⟩
  | _ => ⟨S262144x32, .f32⟩

abbrev hbmTy0_2 (i : Nat) : BufTy := match i % 128 with
  | 0 => ⟨S_, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S32, .f32⟩
  | 8 => ⟨S32x1, .f32⟩
  | 9 => ⟨S32x1, .f32⟩
  | 10 => ⟨S32x1, .f32⟩
  | 11 => ⟨S32x1, .f32⟩
  | 12 => ⟨S32x4, .f32⟩
  | 13 => ⟨S32x1, .f32⟩
  | 14 => ⟨S32x1, .f32⟩
  | 15 => ⟨S32x1, .f32⟩
  | 16 => ⟨S32x1, .f32⟩
  | 17 => ⟨S32x4, .f32⟩
  | 18 => ⟨S32x1, .f32⟩
  | 19 => ⟨S32x1, .f32⟩
  | 20 => ⟨S32x1, .f32⟩
  | 21 => ⟨S32x1, .f32⟩
  | 22 => ⟨S32x4, .f32⟩
  | 23 => ⟨S32x1, .f32⟩
  | 24 => ⟨S32x1, .f32⟩
  | 25 => ⟨S32x1, .f32⟩
  | 26 => ⟨S32x1, .f32⟩
  | 27 => ⟨S32x4, .f32⟩
  | 28 => ⟨S32x1x4, .f32⟩
  | 29 => ⟨S32x1x4, .f32⟩
  | 30 => ⟨S32x1x4, .f32⟩
  | 31 => ⟨S32x1x4, .f32⟩
  | 32 => ⟨S32x4x4, .f32⟩
  | 33 => ⟨S1x32x1, .f32⟩
  | 34 => ⟨S32, .f32⟩
  | 35 => ⟨S_, .f32⟩
  | 36 => ⟨S32, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S32x1, .f32⟩
  | 48 => ⟨S32x1, .f32⟩
  | 49 => ⟨S32x1, .f32⟩
  | 50 => ⟨S32x1, .f32⟩
  | 51 => ⟨S32x4, .f32⟩
  | 52 => ⟨S32x1, .f32⟩
  | 53 => ⟨S32x1, .f32⟩
  | 54 => ⟨S32x1, .f32⟩
  | 55 => ⟨S32x1, .f32⟩
  | 56 => ⟨S32x4, .f32⟩
  | 57 => ⟨S32x1, .f32⟩
  | 58 => ⟨S32x1, .f32⟩
  | 59 => ⟨S32x1, .f32⟩
  | 60 => ⟨S32x1, .f32⟩
  | 61 => ⟨S32x4, .f32⟩
  | 62 => ⟨S32x1, .f32⟩
  | 63 => ⟨S32x1, .f32⟩
  | 64 => ⟨S32x1, .f32⟩
  | 65 => ⟨S32x1, .f32⟩
  | 66 => ⟨S32x4, .f32⟩
  | 67 => ⟨S32x1x4, .f32⟩
  | 68 => ⟨S32x1x4, .f32⟩
  | 69 => ⟨S32x1x4, .f32⟩
  | 70 => ⟨S32x1x4, .f32⟩
  | 71 => ⟨S32x4x4, .f32⟩
  | 72 => ⟨S1x32x1, .f32⟩
  | 73 => ⟨S32, .f32⟩
  | 74 => ⟨S_, .f32⟩
  | 75 => ⟨S32, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S32x1, .f32⟩
  | 87 => ⟨S32x1, .f32⟩
  | 88 => ⟨S32x1, .f32⟩
  | 89 => ⟨S32x1, .f32⟩
  | 90 => ⟨S32x4, .f32⟩
  | 91 => ⟨S32x1, .f32⟩
  | 92 => ⟨S32x1, .f32⟩
  | 93 => ⟨S32x1, .f32⟩
  | 94 => ⟨S32x1, .f32⟩
  | 95 => ⟨S32x4, .f32⟩
  | 96 => ⟨S32x1, .f32⟩
  | 97 => ⟨S32x1, .f32⟩
  | 98 => ⟨S32x1, .f32⟩
  | 99 => ⟨S32x1, .f32⟩
  | 100 => ⟨S32x4, .f32⟩
  | 101 => ⟨S32x1, .f32⟩
  | 102 => ⟨S32x1, .f32⟩
  | 103 => ⟨S32x1, .f32⟩
  | 104 => ⟨S32x1, .f32⟩
  | 105 => ⟨S32x4, .f32⟩
  | 106 => ⟨S32x1x4, .f32⟩
  | 107 => ⟨S32x1x4, .f32⟩
  | 108 => ⟨S32x1x4, .f32⟩
  | 109 => ⟨S32x1x4, .f32⟩
  | 110 => ⟨S32x4x4, .f32⟩
  | 111 => ⟨S32x4x4, .f32⟩
  | 112 => ⟨S32x4x4, .f32⟩
  | 113 => ⟨S32x4x4, .f32⟩
  | 114 => ⟨S1x32x1, .f32⟩
  | 115 => ⟨S32, .f32⟩
  | 116 => ⟨S_, .f32⟩
  | 117 => ⟨S32, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S262144x32, .f32⟩

abbrev hbmTy0_3 (i : Nat) : BufTy := match i % 128 with
  | 0 => ⟨S32x1, .f32⟩
  | 1 => ⟨S32x1, .f32⟩
  | 2 => ⟨S32x1, .f32⟩
  | 3 => ⟨S32x1, .f32⟩
  | 4 => ⟨S32x4, .f32⟩
  | 5 => ⟨S32x1, .f32⟩
  | 6 => ⟨S32x1, .f32⟩
  | 7 => ⟨S32x1, .f32⟩
  | 8 => ⟨S32x1, .f32⟩
  | 9 => ⟨S32x4, .f32⟩
  | 10 => ⟨S32x1, .f32⟩
  | 11 => ⟨S32x1, .f32⟩
  | 12 => ⟨S32x1, .f32⟩
  | 13 => ⟨S32x1, .f32⟩
  | 14 => ⟨S32x4, .f32⟩
  | 15 => ⟨S32x1, .f32⟩
  | 16 => ⟨S32x1, .f32⟩
  | 17 => ⟨S32x1, .f32⟩
  | 18 => ⟨S32x1, .f32⟩
  | 19 => ⟨S32x4, .f32⟩
  | 20 => ⟨S32x1x4, .f32⟩
  | 21 => ⟨S32x1x4, .f32⟩
  | 22 => ⟨S32x1x4, .f32⟩
  | 23 => ⟨S32x1x4, .f32⟩
  | 24 => ⟨S32x4x4, .f32⟩
  | 25 => ⟨S1x32x1, .f32⟩
  | 26 => ⟨S32, .f32⟩
  | 27 => ⟨S_, .f32⟩
  | 28 => ⟨S32, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S32x1, .f32⟩
  | 40 => ⟨S32x1, .f32⟩
  | 41 => ⟨S32x1, .f32⟩
  | 42 => ⟨S32x1, .f32⟩
  | 43 => ⟨S32x4, .f32⟩
  | 44 => ⟨S32x1, .f32⟩
  | 45 => ⟨S32x1, .f32⟩
  | 46 => ⟨S32x1, .f32⟩
  | 47 => ⟨S32x1, .f32⟩
  | 48 => ⟨S32x4, .f32⟩
  | 49 => ⟨S32x1, .f32⟩
  | 50 => ⟨S32x1, .f32⟩
  | 51 => ⟨S32x1, .f32⟩
  | 52 => ⟨S32x1, .f32⟩
  | 53 => ⟨S32x4, .f32⟩
  | 54 => ⟨S32x1, .f32⟩
  | 55 => ⟨S32x1, .f32⟩
  | 56 => ⟨S32x1, .f32⟩
  | 57 => ⟨S32x1, .f32⟩
  | 58 => ⟨S32x4, .f32⟩
  | 59 => ⟨S32x1x4, .f32⟩
  | 60 => ⟨S32x1x4, .f32⟩
  | 61 => ⟨S32x1x4, .f32⟩
  | 62 => ⟨S32x1x4, .f32⟩
  | 63 => ⟨S32x4x4, .f32⟩
  | 64 => ⟨S1x32x1, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S32x1, .f32⟩
  | 79 => ⟨S32x1, .f32⟩
  | 80 => ⟨S32x1, .f32⟩
  | 81 => ⟨S32x1, .f32⟩
  | 82 => ⟨S32x4, .f32⟩
  | 83 => ⟨S32x1, .f32⟩
  | 84 => ⟨S32x1, .f32⟩
  | 85 => ⟨S32x1, .f32⟩
  | 86 => ⟨S32x1, .f32⟩
  | 87 => ⟨S32x4, .f32⟩
  | 88 => ⟨S32x1, .f32⟩
  | 89 => ⟨S32x1, .f32⟩
  | 90 => ⟨S32x1, .f32⟩
  | 91 => ⟨S32x1, .f32⟩
  | 92 => ⟨S32x4, .f32⟩
  | 93 => ⟨S32x1, .f32⟩
  | 94 => ⟨S32x1, .f32⟩
  | 95 => ⟨S32x1, .f32⟩
  | 96 => ⟨S32x1, .f32⟩
  | 97 => ⟨S32x4, .f32⟩
  | 98 => ⟨S32x1x4, .f32⟩
  | 99 => ⟨S32x1x4, .f32⟩
  | 100 => ⟨S32x1x4, .f32⟩
  | 101 => ⟨S32x1x4, .f32⟩
  | 102 => ⟨S32x4x4, .f32⟩
  | 103 => ⟨S32x4x4, .f32⟩
  | 104 => ⟨S32x4x4, .f32⟩
  | 105 => ⟨S32x4x4, .f32⟩
  | 106 => ⟨S1x32x1, .f32⟩
  | 107 => ⟨S32, .f32⟩
  | 108 => ⟨S_, .f32⟩
  | 109 => ⟨S32, .f32⟩
  | 110 => ⟨S32, .f32⟩
  | 111 => ⟨S32, .f32⟩
  | 112 => ⟨S_, .f32⟩
  | 113 => ⟨S32, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S32x1, .f32⟩
  | 121 => ⟨S32x1, .f32⟩
  | 122 => ⟨S32x1, .f32⟩
  | 123 => ⟨S32x1, .f32⟩
  | 124 => ⟨S32x4, .f32⟩
  | 125 => ⟨S32x1, .f32⟩
  | 126 => ⟨S32x1, .f32⟩
  | 127 => ⟨S32x1, .f32⟩
  | _ => ⟨S262144x32, .f32⟩

abbrev hbmTy0_4 (i : Nat) : BufTy := match i % 128 with
  | 0 => ⟨S32x1, .f32⟩
  | 1 => ⟨S32x4, .f32⟩
  | 2 => ⟨S32x1, .f32⟩
  | 3 => ⟨S32x1, .f32⟩
  | 4 => ⟨S32x1, .f32⟩
  | 5 => ⟨S32x1, .f32⟩
  | 6 => ⟨S32x4, .f32⟩
  | 7 => ⟨S32x1, .f32⟩
  | 8 => ⟨S32x1, .f32⟩
  | 9 => ⟨S32x1, .f32⟩
  | 10 => ⟨S32x1, .f32⟩
  | 11 => ⟨S32x4, .f32⟩
  | 12 => ⟨S32x1x4, .f32⟩
  | 13 => ⟨S32x1x4, .f32⟩
  | 14 => ⟨S32x1x4, .f32⟩
  | 15 => ⟨S32x1x4, .f32⟩
  | 16 => ⟨S32x4x4, .f32⟩
  | 17 => ⟨S1x32x1, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S32x1, .f32⟩
  | 32 => ⟨S32x1, .f32⟩
  | 33 => ⟨S32x1, .f32⟩
  | 34 => ⟨S32x1, .f32⟩
  | 35 => ⟨S32x4, .f32⟩
  | 36 => ⟨S32x1, .f32⟩
  | 37 => ⟨S32x1, .f32⟩
  | 38 => ⟨S32x1, .f32⟩
  | 39 => ⟨S32x1, .f32⟩
  | 40 => ⟨S32x4, .f32⟩
  | 41 => ⟨S32x1, .f32⟩
  | 42 => ⟨S32x1, .f32⟩
  | 43 => ⟨S32x1, .f32⟩
  | 44 => ⟨S32x1, .f32⟩
  | 45 => ⟨S32x4, .f32⟩
  | 46 => ⟨S32x1, .f32⟩
  | 47 => ⟨S32x1, .f32⟩
  | 48 => ⟨S32x1, .f32⟩
  | 49 => ⟨S32x1, .f32⟩
  | 50 => ⟨S32x4, .f32⟩
  | 51 => ⟨S32x1x4, .f32⟩
  | 52 => ⟨S32x1x4, .f32⟩
  | 53 => ⟨S32x1x4, .f32⟩
  | 54 => ⟨S32x1x4, .f32⟩
  | 55 => ⟨S32x4x4, .f32⟩
  | 56 => ⟨S1x32x1, .f32⟩
  | 57 => ⟨S32, .f32⟩
  | 58 => ⟨S_, .f32⟩
  | 59 => ⟨S32, .f32⟩
  | 60 => ⟨S32, .f32⟩
  | 61 => ⟨S32, .f32⟩
  | 62 => ⟨S_, .f32⟩
  | 63 => ⟨S32, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S32x1, .f32⟩
  | 71 => ⟨S32x1, .f32⟩
  | 72 => ⟨S32x1, .f32⟩
  | 73 => ⟨S32x1, .f32⟩
  | 74 => ⟨S32x4, .f32⟩
  | 75 => ⟨S32x1, .f32⟩
  | 76 => ⟨S32x1, .f32⟩
  | 77 => ⟨S32x1, .f32⟩
  | 78 => ⟨S32x1, .f32⟩
  | 79 => ⟨S32x4, .f32⟩
  | 80 => ⟨S32x1, .f32⟩
  | 81 => ⟨S32x1, .f32⟩
  | 82 => ⟨S32x1, .f32⟩
  | 83 => ⟨S32x1, .f32⟩
  | 84 => ⟨S32x4, .f32⟩
  | 85 => ⟨S32x1, .f32⟩
  | 86 => ⟨S32x1, .f32⟩
  | 87 => ⟨S32x1, .f32⟩
  | 88 => ⟨S32x1, .f32⟩
  | 89 => ⟨S32x4, .f32⟩
  | 90 => ⟨S32x1x4, .f32⟩
  | 91 => ⟨S32x1x4, .f32⟩
  | 92 => ⟨S32x1x4, .f32⟩
  | 93 => ⟨S32x1x4, .f32⟩
  | 94 => ⟨S32x4x4, .f32⟩
  | 95 => ⟨S32x4x4, .f32⟩
  | 96 => ⟨S32x4x4, .f32⟩
  | 97 => ⟨S32x4x4, .f32⟩
  | 98 => ⟨S1x32x1, .f32⟩
  | 99 => ⟨S32, .f32⟩
  | 100 => ⟨S_, .f32⟩
  | 101 => ⟨S32, .f32⟩
  | 102 => ⟨S32, .f32⟩
  | 103 => ⟨S32, .f32⟩
  | 104 => ⟨S_, .f32⟩
  | 105 => ⟨S32, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S32x1, .f32⟩
  | 113 => ⟨S32x1, .f32⟩
  | 114 => ⟨S32x1, .f32⟩
  | 115 => ⟨S32x1, .f32⟩
  | 116 => ⟨S32x4, .f32⟩
  | 117 => ⟨S32x1, .f32⟩
  | 118 => ⟨S32x1, .f32⟩
  | 119 => ⟨S32x1, .f32⟩
  | 120 => ⟨S32x1, .f32⟩
  | 121 => ⟨S32x4, .f32⟩
  | 122 => ⟨S32x1, .f32⟩
  | 123 => ⟨S32x1, .f32⟩
  | 124 => ⟨S32x1, .f32⟩
  | 125 => ⟨S32x1, .f32⟩
  | 126 => ⟨S32x4, .f32⟩
  | 127 => ⟨S32x1, .f32⟩
  | _ => ⟨S262144x32, .f32⟩

abbrev hbmTy0_5 (i : Nat) : BufTy := match i % 128 with
  | 0 => ⟨S32x1, .f32⟩
  | 1 => ⟨S32x1, .f32⟩
  | 2 => ⟨S32x1, .f32⟩
  | 3 => ⟨S32x4, .f32⟩
  | 4 => ⟨S32x1x4, .f32⟩
  | 5 => ⟨S32x1x4, .f32⟩
  | 6 => ⟨S32x1x4, .f32⟩
  | 7 => ⟨S32x1x4, .f32⟩
  | 8 => ⟨S32x4x4, .f32⟩
  | 9 => ⟨S1x32x1, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S32x1, .f32⟩
  | 24 => ⟨S32x1, .f32⟩
  | 25 => ⟨S32x1, .f32⟩
  | 26 => ⟨S32x1, .f32⟩
  | 27 => ⟨S32x4, .f32⟩
  | 28 => ⟨S32x1, .f32⟩
  | 29 => ⟨S32x1, .f32⟩
  | 30 => ⟨S32x1, .f32⟩
  | 31 => ⟨S32x1, .f32⟩
  | 32 => ⟨S32x4, .f32⟩
  | 33 => ⟨S32x1, .f32⟩
  | 34 => ⟨S32x1, .f32⟩
  | 35 => ⟨S32x1, .f32⟩
  | 36 => ⟨S32x1, .f32⟩
  | 37 => ⟨S32x4, .f32⟩
  | 38 => ⟨S32x1, .f32⟩
  | 39 => ⟨S32x1, .f32⟩
  | 40 => ⟨S32x1, .f32⟩
  | 41 => ⟨S32x1, .f32⟩
  | 42 => ⟨S32x4, .f32⟩
  | 43 => ⟨S32x1x4, .f32⟩
  | 44 => ⟨S32x1x4, .f32⟩
  | 45 => ⟨S32x1x4, .f32⟩
  | 46 => ⟨S32x1x4, .f32⟩
  | 47 => ⟨S32x4x4, .f32⟩
  | 48 => ⟨S1x32x1, .f32⟩
  | 49 => ⟨S32, .f32⟩
  | 50 => ⟨S_, .f32⟩
  | 51 => ⟨S32, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S32x1, .f32⟩
  | 63 => ⟨S32x1, .f32⟩
  | 64 => ⟨S32x1, .f32⟩
  | 65 => ⟨S32x1, .f32⟩
  | 66 => ⟨S32x4, .f32⟩
  | 67 => ⟨S32x1, .f32⟩
  | 68 => ⟨S32x1, .f32⟩
  | 69 => ⟨S32x1, .f32⟩
  | 70 => ⟨S32x1, .f32⟩
  | 71 => ⟨S32x4, .f32⟩
  | 72 => ⟨S32x1, .f32⟩
  | 73 => ⟨S32x1, .f32⟩
  | 74 => ⟨S32x1, .f32⟩
  | 75 => ⟨S32x1, .f32⟩
  | 76 => ⟨S32x4, .f32⟩
  | 77 => ⟨S32x1, .f32⟩
  | 78 => ⟨S32x1, .f32⟩
  | 79 => ⟨S32x1, .f32⟩
  | 80 => ⟨S32x1, .f32⟩
  | 81 => ⟨S32x4, .f32⟩
  | 82 => ⟨S32x1x4, .f32⟩
  | 83 => ⟨S32x1x4, .f32⟩
  | 84 => ⟨S32x1x4, .f32⟩
  | 85 => ⟨S32x1x4, .f32⟩
  | 86 => ⟨S32x4x4, .f32⟩
  | 87 => ⟨S32x4x4, .f32⟩
  | 88 => ⟨S32x4x4, .f32⟩
  | 89 => ⟨S32x4x4, .f32⟩
  | 90 => ⟨S1x32x1, .f32⟩
  | 91 => ⟨S32, .f32⟩
  | 92 => ⟨S_, .f32⟩
  | 93 => ⟨S32, .f32⟩
  | 94 => ⟨S32, .f32⟩
  | 95 => ⟨S32, .f32⟩
  | 96 => ⟨S_, .f32⟩
  | 97 => ⟨S32, .f32⟩
  | 98 => ⟨S32, .f32⟩
  | 99 => ⟨S32, .f32⟩
  | 100 => ⟨S_, .f32⟩
  | 101 => ⟨S32, .f32⟩
  | 102 => ⟨S32, .f32⟩
  | 103 => ⟨S32, .f32⟩
  | 104 => ⟨S32x1, .f32⟩
  | 105 => ⟨S32x1, .f32⟩
  | 106 => ⟨S32x1, .f32⟩
  | 107 => ⟨S32x1, .f32⟩
  | 108 => ⟨S32x4, .f32⟩
  | 109 => ⟨S32x1, .f32⟩
  | 110 => ⟨S32x1, .f32⟩
  | 111 => ⟨S32x1, .f32⟩
  | 112 => ⟨S32x1, .f32⟩
  | 113 => ⟨S32x4, .f32⟩
  | 114 => ⟨S32x1, .f32⟩
  | 115 => ⟨S32x1, .f32⟩
  | 116 => ⟨S32x1, .f32⟩
  | 117 => ⟨S32x1, .f32⟩
  | 118 => ⟨S32x4, .f32⟩
  | 119 => ⟨S32x1, .f32⟩
  | 120 => ⟨S32x1, .f32⟩
  | 121 => ⟨S32x1, .f32⟩
  | 122 => ⟨S32x1, .f32⟩
  | 123 => ⟨S32x4, .f32⟩
  | 124 => ⟨S32x1x4, .f32⟩
  | 125 => ⟨S32x1x4, .f32⟩
  | 126 => ⟨S32x1x4, .f32⟩
  | 127 => ⟨S32x1x4, .f32⟩
  | _ => ⟨S262144x32, .f32⟩

abbrev hbmTy0_6 (i : Nat) : BufTy := match i % 128 with
  | 0 => ⟨S32x4x4, .f32⟩
  | 1 => ⟨S1x32x1, .f32⟩
  | 2 => ⟨S32, .f32⟩
  | 3 => ⟨S_, .f32⟩
  | 4 => ⟨S32, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S32x1, .f32⟩
  | 16 => ⟨S32x1, .f32⟩
  | 17 => ⟨S32x1, .f32⟩
  | 18 => ⟨S32x1, .f32⟩
  | 19 => ⟨S32x4, .f32⟩
  | 20 => ⟨S32x1, .f32⟩
  | 21 => ⟨S32x1, .f32⟩
  | 22 => ⟨S32x1, .f32⟩
  | 23 => ⟨S32x1, .f32⟩
  | 24 => ⟨S32x4, .f32⟩
  | 25 => ⟨S32x1, .f32⟩
  | 26 => ⟨S32x1, .f32⟩
  | 27 => ⟨S32x1, .f32⟩
  | 28 => ⟨S32x1, .f32⟩
  | 29 => ⟨S32x4, .f32⟩
  | 30 => ⟨S32x1, .f32⟩
  | 31 => ⟨S32x1, .f32⟩
  | 32 => ⟨S32x1, .f32⟩
  | 33 => ⟨S32x1, .f32⟩
  | 34 => ⟨S32x4, .f32⟩
  | 35 => ⟨S32x1x4, .f32⟩
  | 36 => ⟨S32x1x4, .f32⟩
  | 37 => ⟨S32x1x4, .f32⟩
  | 38 => ⟨S32x1x4, .f32⟩
  | 39 => ⟨S32x4x4, .f32⟩
  | 40 => ⟨S1x32x1, .f32⟩
  | 41 => ⟨S32, .f32⟩
  | 42 => ⟨S_, .f32⟩
  | 43 => ⟨S32, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S32x1, .f32⟩
  | 55 => ⟨S32x1, .f32⟩
  | 56 => ⟨S32x1, .f32⟩
  | 57 => ⟨S32x1, .f32⟩
  | 58 => ⟨S32x4, .f32⟩
  | 59 => ⟨S32x1, .f32⟩
  | 60 => ⟨S32x1, .f32⟩
  | 61 => ⟨S32x1, .f32⟩
  | 62 => ⟨S32x1, .f32⟩
  | 63 => ⟨S32x4, .f32⟩
  | 64 => ⟨S32x1, .f32⟩
  | 65 => ⟨S32x1, .f32⟩
  | 66 => ⟨S32x1, .f32⟩
  | 67 => ⟨S32x1, .f32⟩
  | 68 => ⟨S32x4, .f32⟩
  | 69 => ⟨S32x1, .f32⟩
  | 70 => ⟨S32x1, .f32⟩
  | 71 => ⟨S32x1, .f32⟩
  | 72 => ⟨S32x1, .f32⟩
  | 73 => ⟨S32x4, .f32⟩
  | 74 => ⟨S32x1x4, .f32⟩
  | 75 => ⟨S32x1x4, .f32⟩
  | 76 => ⟨S32x1x4, .f32⟩
  | 77 => ⟨S32x1x4, .f32⟩
  | 78 => ⟨S32x4x4, .f32⟩
  | 79 => ⟨S32x4x4, .f32⟩
  | 80 => ⟨S32x4x4, .f32⟩
  | 81 => ⟨S32x4x4, .f32⟩
  | 82 => ⟨S1x32x1, .f32⟩
  | 83 => ⟨S32, .f32⟩
  | 84 => ⟨S_, .f32⟩
  | 85 => ⟨S32, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S32x1, .f32⟩
  | 97 => ⟨S32x1, .f32⟩
  | 98 => ⟨S32x1, .f32⟩
  | 99 => ⟨S32x1, .f32⟩
  | 100 => ⟨S32x4, .f32⟩
  | 101 => ⟨S32x1, .f32⟩
  | 102 => ⟨S32x1, .f32⟩
  | 103 => ⟨S32x1, .f32⟩
  | 104 => ⟨S32x1, .f32⟩
  | 105 => ⟨S32x4, .f32⟩
  | 106 => ⟨S32x1, .f32⟩
  | 107 => ⟨S32x1, .f32⟩
  | 108 => ⟨S32x1, .f32⟩
  | 109 => ⟨S32x1, .f32⟩
  | 110 => ⟨S32x4, .f32⟩
  | 111 => ⟨S32x1, .f32⟩
  | 112 => ⟨S32x1, .f32⟩
  | 113 => ⟨S32x1, .f32⟩
  | 114 => ⟨S32x1, .f32⟩
  | 115 => ⟨S32x4, .f32⟩
  | 116 => ⟨S32x1x4, .f32⟩
  | 117 => ⟨S32x1x4, .f32⟩
  | 118 => ⟨S32x1x4, .f32⟩
  | 119 => ⟨S32x1x4, .f32⟩
  | 120 => ⟨S32x4x4, .f32⟩
  | 121 => ⟨S1x32x1, .f32⟩
  | 122 => ⟨S32, .f32⟩
  | 123 => ⟨S_, .f32⟩
  | 124 => ⟨S32, .f32⟩
  | 125 => ⟨S32, .f32⟩
  | 126 => ⟨S32, .f32⟩
  | 127 => ⟨S_, .f32⟩
  | _ => ⟨S262144x32, .f32⟩

abbrev hbmTy0_7 (i : Nat) : BufTy := match i % 128 with
  | 0 => ⟨S32, .f32⟩
  | 1 => ⟨S32, .f32⟩
  | 2 => ⟨S32, .f32⟩
  | 3 => ⟨S_, .f32⟩
  | 4 => ⟨S32, .f32⟩
  | 5 => ⟨S32, .f32⟩
  | 6 => ⟨S32, .f32⟩
  | 7 => ⟨S32x1, .f32⟩
  | 8 => ⟨S32x1, .f32⟩
  | 9 => ⟨S32x1, .f32⟩
  | 10 => ⟨S32x1, .f32⟩
  | 11 => ⟨S32x4, .f32⟩
  | 12 => ⟨S32x1, .f32⟩
  | 13 => ⟨S32x1, .f32⟩
  | 14 => ⟨S32x1, .f32⟩
  | 15 => ⟨S32x1, .f32⟩
  | 16 => ⟨S32x4, .f32⟩
  | 17 => ⟨S32x1, .f32⟩
  | 18 => ⟨S32x1, .f32⟩
  | 19 => ⟨S32x1, .f32⟩
  | 20 => ⟨S32x1, .f32⟩
  | 21 => ⟨S32x4, .f32⟩
  | 22 => ⟨S32x1, .f32⟩
  | 23 => ⟨S32x1, .f32⟩
  | 24 => ⟨S32x1, .f32⟩
  | 25 => ⟨S32x1, .f32⟩
  | 26 => ⟨S32x4, .f32⟩
  | 27 => ⟨S32x1x4, .f32⟩
  | 28 => ⟨S32x1x4, .f32⟩
  | 29 => ⟨S32x1x4, .f32⟩
  | 30 => ⟨S32x1x4, .f32⟩
  | 31 => ⟨S32x4x4, .f32⟩
  | 32 => ⟨S1x32x1, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32x1, .f32⟩
  | 47 => ⟨S32x1, .f32⟩
  | 48 => ⟨S32x1, .f32⟩
  | 49 => ⟨S32x1, .f32⟩
  | 50 => ⟨S32x4, .f32⟩
  | 51 => ⟨S32x1, .f32⟩
  | 52 => ⟨S32x1, .f32⟩
  | 53 => ⟨S32x1, .f32⟩
  | 54 => ⟨S32x1, .f32⟩
  | 55 => ⟨S32x4, .f32⟩
  | 56 => ⟨S32x1, .f32⟩
  | 57 => ⟨S32x1, .f32⟩
  | 58 => ⟨S32x1, .f32⟩
  | 59 => ⟨S32x1, .f32⟩
  | 60 => ⟨S32x4, .f32⟩
  | 61 => ⟨S32x1, .f32⟩
  | 62 => ⟨S32x1, .f32⟩
  | 63 => ⟨S32x1, .f32⟩
  | 64 => ⟨S32x1, .f32⟩
  | 65 => ⟨S32x4, .f32⟩
  | 66 => ⟨S32x1x4, .f32⟩
  | 67 => ⟨S32x1x4, .f32⟩
  | 68 => ⟨S32x1x4, .f32⟩
  | 69 => ⟨S32x1x4, .f32⟩
  | 70 => ⟨S32x4x4, .f32⟩
  | 71 => ⟨S32x4x4, .f32⟩
  | 72 => ⟨S32x4x4, .f32⟩
  | 73 => ⟨S32x4x4, .f32⟩
  | 74 => ⟨S32x1x1, .f32⟩
  | 75 => ⟨S32, .f32⟩
  | 76 => ⟨S32x1x1, .f32⟩
  | 77 => ⟨S32, .f32⟩
  | 78 => ⟨S32x1x1, .f32⟩
  | 79 => ⟨S32, .f32⟩
  | 80 => ⟨S32x1x1, .f32⟩
  | 81 => ⟨S32, .f32⟩
  | 82 => ⟨S32x1x1, .f32⟩
  | 83 => ⟨S32, .f32⟩
  | 84 => ⟨S32x1x1, .f32⟩
  | 85 => ⟨S32, .f32⟩
  | 86 => ⟨S32x1x1, .f32⟩
  | 87 => ⟨S32, .f32⟩
  | 88 => ⟨S32x1x1, .f32⟩
  | 89 => ⟨S32, .f32⟩
  | 90 => ⟨S32, .f32⟩
  | 91 => ⟨S32, .f32⟩
  | 92 => ⟨S32, .f32⟩
  | 93 => ⟨S32, .f32⟩
  | 94 => ⟨S32, .f32⟩
  | 95 => ⟨S32, .f32⟩
  | 96 => ⟨S32, .f32⟩
  | 97 => ⟨S32, .f32⟩
  | 98 => ⟨S32, .f32⟩
  | 99 => ⟨S32, .f32⟩
  | 100 => ⟨S32, .f32⟩
  | 101 => ⟨S32, .f32⟩
  | 102 => ⟨S32, .f32⟩
  | 103 => ⟨S32, .f32⟩
  | 104 => ⟨S32, .f32⟩
  | 105 => ⟨S32, .f32⟩
  | 106 => ⟨S32, .f32⟩
  | 107 => ⟨S32, .f32⟩
  | 108 => ⟨S32, .f32⟩
  | 109 => ⟨S32, .f32⟩
  | 110 => ⟨S32, .f32⟩
  | 111 => ⟨S_, .f32⟩
  | 112 => ⟨S32, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S1x32, .f32⟩
  | 126 => ⟨S1x32, .f32⟩
  | 127 => ⟨S1x32, .f32⟩
  | _ => ⟨S262144x32, .f32⟩

abbrev hbmTy0_8 (i : Nat) : BufTy := match i % 128 with
  | 0 => ⟨S3x32, .f32⟩
  | 1 => ⟨S65536x128, .f32⟩
  | 2 => ⟨S1x3x1x32, .f32⟩
  | 3 => ⟨S1x3x4x32, .f32⟩
  | 4 => ⟨S3x128, .f32⟩
  | 5 => ⟨S65536x128, .f32⟩
  | 6 => ⟨S262144x32, .f32⟩
  | _ => ⟨S262144x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S262144x32, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S3x128, .f32⟩
  | .local _ .vmem, ⟨3, _⟩ => ⟨S8192x128, .f32⟩
  | .local _ .vmem, ⟨4, _⟩ => ⟨S8192x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_6 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_cst_8 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_cst_9 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_cst_10 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_cst_11 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_cst_12 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_cst_13 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_cst_14 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_cst_15 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_cst_16 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_cst_17 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_cst_18 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_cst_19 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_cst_20 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_cst_21 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_cst_22 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩
abbrev main_v296 : Ref sig .tc := ⟨.hbm, 323, rfl⟩
abbrev main_v297 : Ref sig .tc := ⟨.hbm, 324, rfl⟩
abbrev main_v298 : Ref sig .tc := ⟨.hbm, 325, rfl⟩
abbrev main_v299 : Ref sig .tc := ⟨.hbm, 326, rfl⟩
abbrev main_v300 : Ref sig .tc := ⟨.hbm, 327, rfl⟩
abbrev main_v301 : Ref sig .tc := ⟨.hbm, 328, rfl⟩
abbrev main_v302 : Ref sig .tc := ⟨.hbm, 329, rfl⟩
abbrev main_cst_23 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_cst_24 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_cst_25 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_cst_26 : Ref sig .tc := ⟨.hbm, 372, rfl⟩
abbrev main_v342 : Ref sig .tc := ⟨.hbm, 373, rfl⟩
abbrev main_v343 : Ref sig .tc := ⟨.hbm, 374, rfl⟩
abbrev main_v344 : Ref sig .tc := ⟨.hbm, 375, rfl⟩
abbrev main_cst_27 : Ref sig .tc := ⟨.hbm, 376, rfl⟩
abbrev main_v345 : Ref sig .tc := ⟨.hbm, 377, rfl⟩
abbrev main_v346 : Ref sig .tc := ⟨.hbm, 378, rfl⟩
abbrev main_v347 : Ref sig .tc := ⟨.hbm, 379, rfl⟩
abbrev main_cst_28 : Ref sig .tc := ⟨.hbm, 380, rfl⟩
abbrev main_v348 : Ref sig .tc := ⟨.hbm, 381, rfl⟩
abbrev main_v349 : Ref sig .tc := ⟨.hbm, 382, rfl⟩
abbrev main_v350 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_v357 : Ref sig .tc := ⟨.hbm, 390, rfl⟩
abbrev main_v358 : Ref sig .tc := ⟨.hbm, 391, rfl⟩
abbrev main_v359 : Ref sig .tc := ⟨.hbm, 392, rfl⟩
abbrev main_v360 : Ref sig .tc := ⟨.hbm, 393, rfl⟩
abbrev main_v361 : Ref sig .tc := ⟨.hbm, 394, rfl⟩
abbrev main_v362 : Ref sig .tc := ⟨.hbm, 395, rfl⟩
abbrev main_v363 : Ref sig .tc := ⟨.hbm, 396, rfl⟩
abbrev main_v364 : Ref sig .tc := ⟨.hbm, 397, rfl⟩
abbrev main_v365 : Ref sig .tc := ⟨.hbm, 398, rfl⟩
abbrev main_v366 : Ref sig .tc := ⟨.hbm, 399, rfl⟩
abbrev main_v367 : Ref sig .tc := ⟨.hbm, 400, rfl⟩
abbrev main_v368 : Ref sig .tc := ⟨.hbm, 401, rfl⟩
abbrev main_v369 : Ref sig .tc := ⟨.hbm, 402, rfl⟩
abbrev main_v370 : Ref sig .tc := ⟨.hbm, 403, rfl⟩
abbrev main_v371 : Ref sig .tc := ⟨.hbm, 404, rfl⟩
abbrev main_v372 : Ref sig .tc := ⟨.hbm, 405, rfl⟩
abbrev main_v373 : Ref sig .tc := ⟨.hbm, 406, rfl⟩
abbrev main_v374 : Ref sig .tc := ⟨.hbm, 407, rfl⟩
abbrev main_v375 : Ref sig .tc := ⟨.hbm, 408, rfl⟩
abbrev main_v376 : Ref sig .tc := ⟨.hbm, 409, rfl⟩
abbrev main_v377 : Ref sig .tc := ⟨.hbm, 410, rfl⟩
abbrev main_cst_29 : Ref sig .tc := ⟨.hbm, 411, rfl⟩
abbrev main_v378 : Ref sig .tc := ⟨.hbm, 412, rfl⟩
abbrev main_v379 : Ref sig .tc := ⟨.hbm, 413, rfl⟩
abbrev main_v380 : Ref sig .tc := ⟨.hbm, 414, rfl⟩
abbrev main_cst_30 : Ref sig .tc := ⟨.hbm, 415, rfl⟩
abbrev main_v381 : Ref sig .tc := ⟨.hbm, 416, rfl⟩
abbrev main_v382 : Ref sig .tc := ⟨.hbm, 417, rfl⟩
abbrev main_v383 : Ref sig .tc := ⟨.hbm, 418, rfl⟩
abbrev main_cst_31 : Ref sig .tc := ⟨.hbm, 419, rfl⟩
abbrev main_v384 : Ref sig .tc := ⟨.hbm, 420, rfl⟩
abbrev main_v385 : Ref sig .tc := ⟨.hbm, 421, rfl⟩
abbrev main_v386 : Ref sig .tc := ⟨.hbm, 422, rfl⟩
abbrev main_v387 : Ref sig .tc := ⟨.hbm, 423, rfl⟩
abbrev main_v388 : Ref sig .tc := ⟨.hbm, 424, rfl⟩
abbrev main_v389 : Ref sig .tc := ⟨.hbm, 425, rfl⟩
abbrev main_v390 : Ref sig .tc := ⟨.hbm, 426, rfl⟩
abbrev main_v391 : Ref sig .tc := ⟨.hbm, 427, rfl⟩
abbrev main_v392 : Ref sig .tc := ⟨.hbm, 428, rfl⟩
abbrev main_v393 : Ref sig .tc := ⟨.hbm, 429, rfl⟩
abbrev main_v394 : Ref sig .tc := ⟨.hbm, 430, rfl⟩
abbrev main_v395 : Ref sig .tc := ⟨.hbm, 431, rfl⟩
abbrev main_v396 : Ref sig .tc := ⟨.hbm, 432, rfl⟩
abbrev main_v397 : Ref sig .tc := ⟨.hbm, 433, rfl⟩
abbrev main_v398 : Ref sig .tc := ⟨.hbm, 434, rfl⟩
abbrev main_v399 : Ref sig .tc := ⟨.hbm, 435, rfl⟩
abbrev main_v400 : Ref sig .tc := ⟨.hbm, 436, rfl⟩
abbrev main_v401 : Ref sig .tc := ⟨.hbm, 437, rfl⟩
abbrev main_v402 : Ref sig .tc := ⟨.hbm, 438, rfl⟩
abbrev main_v403 : Ref sig .tc := ⟨.hbm, 439, rfl⟩
abbrev main_v404 : Ref sig .tc := ⟨.hbm, 440, rfl⟩
abbrev main_v405 : Ref sig .tc := ⟨.hbm, 441, rfl⟩
abbrev main_v406 : Ref sig .tc := ⟨.hbm, 442, rfl⟩
abbrev main_v407 : Ref sig .tc := ⟨.hbm, 443, rfl⟩
abbrev main_v408 : Ref sig .tc := ⟨.hbm, 444, rfl⟩
abbrev main_v409 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_cst_32 : Ref sig .tc := ⟨.hbm, 450, rfl⟩
abbrev main_v414 : Ref sig .tc := ⟨.hbm, 451, rfl⟩
abbrev main_v415 : Ref sig .tc := ⟨.hbm, 452, rfl⟩
abbrev main_v416 : Ref sig .tc := ⟨.hbm, 453, rfl⟩
abbrev main_cst_33 : Ref sig .tc := ⟨.hbm, 454, rfl⟩
abbrev main_v417 : Ref sig .tc := ⟨.hbm, 455, rfl⟩
abbrev main_v418 : Ref sig .tc := ⟨.hbm, 456, rfl⟩
abbrev main_v419 : Ref sig .tc := ⟨.hbm, 457, rfl⟩
abbrev main_cst_34 : Ref sig .tc := ⟨.hbm, 458, rfl⟩
abbrev main_v420 : Ref sig .tc := ⟨.hbm, 459, rfl⟩
abbrev main_v421 : Ref sig .tc := ⟨.hbm, 460, rfl⟩
abbrev main_v422 : Ref sig .tc := ⟨.hbm, 461, rfl⟩
abbrev main_v423 : Ref sig .tc := ⟨.hbm, 462, rfl⟩
abbrev main_v424 : Ref sig .tc := ⟨.hbm, 463, rfl⟩
abbrev main_v425 : Ref sig .tc := ⟨.hbm, 464, rfl⟩
abbrev main_v426 : Ref sig .tc := ⟨.hbm, 465, rfl⟩
abbrev main_v427 : Ref sig .tc := ⟨.hbm, 466, rfl⟩
abbrev main_v428 : Ref sig .tc := ⟨.hbm, 467, rfl⟩
abbrev main_v429 : Ref sig .tc := ⟨.hbm, 468, rfl⟩
abbrev main_v430 : Ref sig .tc := ⟨.hbm, 469, rfl⟩
abbrev main_v431 : Ref sig .tc := ⟨.hbm, 470, rfl⟩
abbrev main_v432 : Ref sig .tc := ⟨.hbm, 471, rfl⟩
abbrev main_v433 : Ref sig .tc := ⟨.hbm, 472, rfl⟩
abbrev main_v434 : Ref sig .tc := ⟨.hbm, 473, rfl⟩
abbrev main_v435 : Ref sig .tc := ⟨.hbm, 474, rfl⟩
abbrev main_v436 : Ref sig .tc := ⟨.hbm, 475, rfl⟩
abbrev main_v437 : Ref sig .tc := ⟨.hbm, 476, rfl⟩
abbrev main_v438 : Ref sig .tc := ⟨.hbm, 477, rfl⟩
abbrev main_v439 : Ref sig .tc := ⟨.hbm, 478, rfl⟩
abbrev main_v440 : Ref sig .tc := ⟨.hbm, 479, rfl⟩
abbrev main_v441 : Ref sig .tc := ⟨.hbm, 480, rfl⟩
abbrev main_v442 : Ref sig .tc := ⟨.hbm, 481, rfl⟩
abbrev main_v443 : Ref sig .tc := ⟨.hbm, 482, rfl⟩
abbrev main_v444 : Ref sig .tc := ⟨.hbm, 483, rfl⟩
abbrev main_v445 : Ref sig .tc := ⟨.hbm, 484, rfl⟩
abbrev main_v446 : Ref sig .tc := ⟨.hbm, 485, rfl⟩
abbrev main_v447 : Ref sig .tc := ⟨.hbm, 486, rfl⟩
abbrev main_v448 : Ref sig .tc := ⟨.hbm, 487, rfl⟩
abbrev main_v449 : Ref sig .tc := ⟨.hbm, 488, rfl⟩
abbrev main_v450 : Ref sig .tc := ⟨.hbm, 489, rfl⟩
abbrev main_v451 : Ref sig .tc := ⟨.hbm, 490, rfl⟩
abbrev main_v452 : Ref sig .tc := ⟨.hbm, 491, rfl⟩
abbrev main_cst_35 : Ref sig .tc := ⟨.hbm, 492, rfl⟩
abbrev main_v453 : Ref sig .tc := ⟨.hbm, 493, rfl⟩
abbrev main_v454 : Ref sig .tc := ⟨.hbm, 494, rfl⟩
abbrev main_v455 : Ref sig .tc := ⟨.hbm, 495, rfl⟩
abbrev main_cst_36 : Ref sig .tc := ⟨.hbm, 496, rfl⟩
abbrev main_v456 : Ref sig .tc := ⟨.hbm, 497, rfl⟩
abbrev main_v457 : Ref sig .tc := ⟨.hbm, 498, rfl⟩
abbrev main_v458 : Ref sig .tc := ⟨.hbm, 499, rfl⟩
abbrev main_cst_37 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_v468 : Ref sig .tc := ⟨.hbm, 510, rfl⟩
abbrev main_v469 : Ref sig .tc := ⟨.hbm, 511, rfl⟩
abbrev main_v470 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_v479 : Ref sig .tc := ⟨.hbm, 521, rfl⟩
abbrev main_v480 : Ref sig .tc := ⟨.hbm, 522, rfl⟩
abbrev main_v481 : Ref sig .tc := ⟨.hbm, 523, rfl⟩
abbrev main_v482 : Ref sig .tc := ⟨.hbm, 524, rfl⟩
abbrev main_v483 : Ref sig .tc := ⟨.hbm, 525, rfl⟩
abbrev main_v484 : Ref sig .tc := ⟨.hbm, 526, rfl⟩
abbrev main_v485 : Ref sig .tc := ⟨.hbm, 527, rfl⟩
abbrev main_v486 : Ref sig .tc := ⟨.hbm, 528, rfl⟩
abbrev main_v487 : Ref sig .tc := ⟨.hbm, 529, rfl⟩
abbrev main_v488 : Ref sig .tc := ⟨.hbm, 530, rfl⟩
abbrev main_cst_38 : Ref sig .tc := ⟨.hbm, 531, rfl⟩
abbrev main_v489 : Ref sig .tc := ⟨.hbm, 532, rfl⟩
abbrev main_v490 : Ref sig .tc := ⟨.hbm, 533, rfl⟩
abbrev main_v491 : Ref sig .tc := ⟨.hbm, 534, rfl⟩
abbrev main_cst_39 : Ref sig .tc := ⟨.hbm, 535, rfl⟩
abbrev main_v492 : Ref sig .tc := ⟨.hbm, 536, rfl⟩
abbrev main_v493 : Ref sig .tc := ⟨.hbm, 537, rfl⟩
abbrev main_v494 : Ref sig .tc := ⟨.hbm, 538, rfl⟩
abbrev main_cst_40 : Ref sig .tc := ⟨.hbm, 539, rfl⟩
abbrev main_v495 : Ref sig .tc := ⟨.hbm, 540, rfl⟩
abbrev main_v496 : Ref sig .tc := ⟨.hbm, 541, rfl⟩
abbrev main_v497 : Ref sig .tc := ⟨.hbm, 542, rfl⟩
abbrev main_v498 : Ref sig .tc := ⟨.hbm, 543, rfl⟩
abbrev main_v499 : Ref sig .tc := ⟨.hbm, 544, rfl⟩
abbrev main_v500 : Ref sig .tc := ⟨.hbm, 545, rfl⟩
abbrev main_v501 : Ref sig .tc := ⟨.hbm, 546, rfl⟩
abbrev main_v502 : Ref sig .tc := ⟨.hbm, 547, rfl⟩
abbrev main_v503 : Ref sig .tc := ⟨.hbm, 548, rfl⟩
abbrev main_v504 : Ref sig .tc := ⟨.hbm, 549, rfl⟩
abbrev main_v505 : Ref sig .tc := ⟨.hbm, 550, rfl⟩
abbrev main_v506 : Ref sig .tc := ⟨.hbm, 551, rfl⟩
abbrev main_v507 : Ref sig .tc := ⟨.hbm, 552, rfl⟩
abbrev main_v508 : Ref sig .tc := ⟨.hbm, 553, rfl⟩
abbrev main_v509 : Ref sig .tc := ⟨.hbm, 554, rfl⟩
abbrev main_v510 : Ref sig .tc := ⟨.hbm, 555, rfl⟩
abbrev main_v511 : Ref sig .tc := ⟨.hbm, 556, rfl⟩
abbrev main_v512 : Ref sig .tc := ⟨.hbm, 557, rfl⟩
abbrev main_v513 : Ref sig .tc := ⟨.hbm, 558, rfl⟩
abbrev main_v514 : Ref sig .tc := ⟨.hbm, 559, rfl⟩
abbrev main_v515 : Ref sig .tc := ⟨.hbm, 560, rfl⟩
abbrev main_v516 : Ref sig .tc := ⟨.hbm, 561, rfl⟩
abbrev main_v517 : Ref sig .tc := ⟨.hbm, 562, rfl⟩
abbrev main_v518 : Ref sig .tc := ⟨.hbm, 563, rfl⟩
abbrev main_v519 : Ref sig .tc := ⟨.hbm, 564, rfl⟩
abbrev main_v520 : Ref sig .tc := ⟨.hbm, 565, rfl⟩
abbrev main_v521 : Ref sig .tc := ⟨.hbm, 566, rfl⟩
abbrev main_v522 : Ref sig .tc := ⟨.hbm, 567, rfl⟩
abbrev main_v523 : Ref sig .tc := ⟨.hbm, 568, rfl⟩
abbrev main_v524 : Ref sig .tc := ⟨.hbm, 569, rfl⟩
abbrev main_cst_41 : Ref sig .tc := ⟨.hbm, 570, rfl⟩
abbrev main_v525 : Ref sig .tc := ⟨.hbm, 571, rfl⟩
abbrev main_v526 : Ref sig .tc := ⟨.hbm, 572, rfl⟩
abbrev main_v527 : Ref sig .tc := ⟨.hbm, 573, rfl⟩
abbrev main_cst_42 : Ref sig .tc := ⟨.hbm, 574, rfl⟩
abbrev main_v528 : Ref sig .tc := ⟨.hbm, 575, rfl⟩
abbrev main_v529 : Ref sig .tc := ⟨.hbm, 576, rfl⟩
abbrev main_v530 : Ref sig .tc := ⟨.hbm, 577, rfl⟩
abbrev main_cst_43 : Ref sig .tc := ⟨.hbm, 578, rfl⟩
abbrev main_v531 : Ref sig .tc := ⟨.hbm, 579, rfl⟩
abbrev main_v532 : Ref sig .tc := ⟨.hbm, 580, rfl⟩
abbrev main_v533 : Ref sig .tc := ⟨.hbm, 581, rfl⟩
abbrev main_v534 : Ref sig .tc := ⟨.hbm, 582, rfl⟩
abbrev main_v535 : Ref sig .tc := ⟨.hbm, 583, rfl⟩
abbrev main_v536 : Ref sig .tc := ⟨.hbm, 584, rfl⟩
abbrev main_v537 : Ref sig .tc := ⟨.hbm, 585, rfl⟩
abbrev main_v538 : Ref sig .tc := ⟨.hbm, 586, rfl⟩
abbrev main_v539 : Ref sig .tc := ⟨.hbm, 587, rfl⟩
abbrev main_v540 : Ref sig .tc := ⟨.hbm, 588, rfl⟩
abbrev main_v541 : Ref sig .tc := ⟨.hbm, 589, rfl⟩
abbrev main_v542 : Ref sig .tc := ⟨.hbm, 590, rfl⟩
abbrev main_v543 : Ref sig .tc := ⟨.hbm, 591, rfl⟩
abbrev main_v544 : Ref sig .tc := ⟨.hbm, 592, rfl⟩
abbrev main_v545 : Ref sig .tc := ⟨.hbm, 593, rfl⟩
abbrev main_v546 : Ref sig .tc := ⟨.hbm, 594, rfl⟩
abbrev main_v547 : Ref sig .tc := ⟨.hbm, 595, rfl⟩
abbrev main_v548 : Ref sig .tc := ⟨.hbm, 596, rfl⟩
abbrev main_v549 : Ref sig .tc := ⟨.hbm, 597, rfl⟩
abbrev main_v550 : Ref sig .tc := ⟨.hbm, 598, rfl⟩
abbrev main_v551 : Ref sig .tc := ⟨.hbm, 599, rfl⟩
abbrev main_v552 : Ref sig .tc := ⟨.hbm, 600, rfl⟩
abbrev main_v553 : Ref sig .tc := ⟨.hbm, 601, rfl⟩
abbrev main_v554 : Ref sig .tc := ⟨.hbm, 602, rfl⟩
abbrev main_v555 : Ref sig .tc := ⟨.hbm, 603, rfl⟩
abbrev main_v556 : Ref sig .tc := ⟨.hbm, 604, rfl⟩
abbrev main_v557 : Ref sig .tc := ⟨.hbm, 605, rfl⟩
abbrev main_v558 : Ref sig .tc := ⟨.hbm, 606, rfl⟩
abbrev main_v559 : Ref sig .tc := ⟨.hbm, 607, rfl⟩
abbrev main_v560 : Ref sig .tc := ⟨.hbm, 608, rfl⟩
abbrev main_v561 : Ref sig .tc := ⟨.hbm, 609, rfl⟩
abbrev main_v562 : Ref sig .tc := ⟨.hbm, 610, rfl⟩
abbrev main_v563 : Ref sig .tc := ⟨.hbm, 611, rfl⟩
abbrev main_cst_44 : Ref sig .tc := ⟨.hbm, 612, rfl⟩
abbrev main_v564 : Ref sig .tc := ⟨.hbm, 613, rfl⟩
abbrev main_v565 : Ref sig .tc := ⟨.hbm, 614, rfl⟩
abbrev main_v566 : Ref sig .tc := ⟨.hbm, 615, rfl⟩
abbrev main_cst_45 : Ref sig .tc := ⟨.hbm, 616, rfl⟩
abbrev main_v567 : Ref sig .tc := ⟨.hbm, 617, rfl⟩
abbrev main_v568 : Ref sig .tc := ⟨.hbm, 618, rfl⟩
abbrev main_v569 : Ref sig .tc := ⟨.hbm, 619, rfl⟩
abbrev main_cst_46 : Ref sig .tc := ⟨.hbm, 620, rfl⟩
abbrev main_v570 : Ref sig .tc := ⟨.hbm, 621, rfl⟩
abbrev main_v571 : Ref sig .tc := ⟨.hbm, 622, rfl⟩
abbrev main_v572 : Ref sig .tc := ⟨.hbm, 623, rfl⟩
abbrev main_v573 : Ref sig .tc := ⟨.hbm, 624, rfl⟩
abbrev main_v574 : Ref sig .tc := ⟨.hbm, 625, rfl⟩
abbrev main_v575 : Ref sig .tc := ⟨.hbm, 626, rfl⟩
abbrev main_v576 : Ref sig .tc := ⟨.hbm, 627, rfl⟩
abbrev main_v577 : Ref sig .tc := ⟨.hbm, 628, rfl⟩
abbrev main_v578 : Ref sig .tc := ⟨.hbm, 629, rfl⟩
abbrev main_v579 : Ref sig .tc := ⟨.hbm, 630, rfl⟩
abbrev main_v580 : Ref sig .tc := ⟨.hbm, 631, rfl⟩
abbrev main_v581 : Ref sig .tc := ⟨.hbm, 632, rfl⟩
abbrev main_v582 : Ref sig .tc := ⟨.hbm, 633, rfl⟩
abbrev main_v583 : Ref sig .tc := ⟨.hbm, 634, rfl⟩
abbrev main_v584 : Ref sig .tc := ⟨.hbm, 635, rfl⟩
abbrev main_v585 : Ref sig .tc := ⟨.hbm, 636, rfl⟩
abbrev main_v586 : Ref sig .tc := ⟨.hbm, 637, rfl⟩
abbrev main_v587 : Ref sig .tc := ⟨.hbm, 638, rfl⟩
abbrev main_v588 : Ref sig .tc := ⟨.hbm, 639, rfl⟩
abbrev main_v589 : Ref sig .tc := ⟨.hbm, 640, rfl⟩
abbrev main_v590 : Ref sig .tc := ⟨.hbm, 641, rfl⟩
abbrev main_v591 : Ref sig .tc := ⟨.hbm, 642, rfl⟩
abbrev main_v592 : Ref sig .tc := ⟨.hbm, 643, rfl⟩
abbrev main_v593 : Ref sig .tc := ⟨.hbm, 644, rfl⟩
abbrev main_v594 : Ref sig .tc := ⟨.hbm, 645, rfl⟩
abbrev main_v595 : Ref sig .tc := ⟨.hbm, 646, rfl⟩
abbrev main_v596 : Ref sig .tc := ⟨.hbm, 647, rfl⟩
abbrev main_v597 : Ref sig .tc := ⟨.hbm, 648, rfl⟩
abbrev main_v598 : Ref sig .tc := ⟨.hbm, 649, rfl⟩
abbrev main_v599 : Ref sig .tc := ⟨.hbm, 650, rfl⟩
abbrev main_cst_47 : Ref sig .tc := ⟨.hbm, 651, rfl⟩
abbrev main_v600 : Ref sig .tc := ⟨.hbm, 652, rfl⟩
abbrev main_v601 : Ref sig .tc := ⟨.hbm, 653, rfl⟩
abbrev main_v602 : Ref sig .tc := ⟨.hbm, 654, rfl⟩
abbrev main_cst_48 : Ref sig .tc := ⟨.hbm, 655, rfl⟩
abbrev main_v603 : Ref sig .tc := ⟨.hbm, 656, rfl⟩
abbrev main_v604 : Ref sig .tc := ⟨.hbm, 657, rfl⟩
abbrev main_v605 : Ref sig .tc := ⟨.hbm, 658, rfl⟩
abbrev main_cst_49 : Ref sig .tc := ⟨.hbm, 659, rfl⟩
abbrev main_v606 : Ref sig .tc := ⟨.hbm, 660, rfl⟩
abbrev main_v607 : Ref sig .tc := ⟨.hbm, 661, rfl⟩
abbrev main_v608 : Ref sig .tc := ⟨.hbm, 662, rfl⟩
abbrev main_v609 : Ref sig .tc := ⟨.hbm, 663, rfl⟩
abbrev main_v610 : Ref sig .tc := ⟨.hbm, 664, rfl⟩
abbrev main_v611 : Ref sig .tc := ⟨.hbm, 665, rfl⟩
abbrev main_v612 : Ref sig .tc := ⟨.hbm, 666, rfl⟩
abbrev main_v613 : Ref sig .tc := ⟨.hbm, 667, rfl⟩
abbrev main_v614 : Ref sig .tc := ⟨.hbm, 668, rfl⟩
abbrev main_v615 : Ref sig .tc := ⟨.hbm, 669, rfl⟩
abbrev main_v616 : Ref sig .tc := ⟨.hbm, 670, rfl⟩
abbrev main_v617 : Ref sig .tc := ⟨.hbm, 671, rfl⟩
abbrev main_v618 : Ref sig .tc := ⟨.hbm, 672, rfl⟩
abbrev main_v619 : Ref sig .tc := ⟨.hbm, 673, rfl⟩
abbrev main_v620 : Ref sig .tc := ⟨.hbm, 674, rfl⟩
abbrev main_v621 : Ref sig .tc := ⟨.hbm, 675, rfl⟩
abbrev main_v622 : Ref sig .tc := ⟨.hbm, 676, rfl⟩
abbrev main_v623 : Ref sig .tc := ⟨.hbm, 677, rfl⟩
abbrev main_v624 : Ref sig .tc := ⟨.hbm, 678, rfl⟩
abbrev main_v625 : Ref sig .tc := ⟨.hbm, 679, rfl⟩
abbrev main_v626 : Ref sig .tc := ⟨.hbm, 680, rfl⟩
abbrev main_v627 : Ref sig .tc := ⟨.hbm, 681, rfl⟩
abbrev main_v628 : Ref sig .tc := ⟨.hbm, 682, rfl⟩
abbrev main_v629 : Ref sig .tc := ⟨.hbm, 683, rfl⟩
abbrev main_v630 : Ref sig .tc := ⟨.hbm, 684, rfl⟩
abbrev main_v631 : Ref sig .tc := ⟨.hbm, 685, rfl⟩
abbrev main_v632 : Ref sig .tc := ⟨.hbm, 686, rfl⟩
abbrev main_v633 : Ref sig .tc := ⟨.hbm, 687, rfl⟩
abbrev main_v634 : Ref sig .tc := ⟨.hbm, 688, rfl⟩
abbrev main_v635 : Ref sig .tc := ⟨.hbm, 689, rfl⟩
abbrev main_cst_50 : Ref sig .tc := ⟨.hbm, 690, rfl⟩
abbrev main_v636 : Ref sig .tc := ⟨.hbm, 691, rfl⟩
abbrev main_v637 : Ref sig .tc := ⟨.hbm, 692, rfl⟩
abbrev main_v638 : Ref sig .tc := ⟨.hbm, 693, rfl⟩
abbrev main_cst_51 : Ref sig .tc := ⟨.hbm, 694, rfl⟩
abbrev main_v639 : Ref sig .tc := ⟨.hbm, 695, rfl⟩
abbrev main_v640 : Ref sig .tc := ⟨.hbm, 696, rfl⟩
abbrev main_v641 : Ref sig .tc := ⟨.hbm, 697, rfl⟩
abbrev main_cst_52 : Ref sig .tc := ⟨.hbm, 698, rfl⟩
abbrev main_v642 : Ref sig .tc := ⟨.hbm, 699, rfl⟩
abbrev main_v643 : Ref sig .tc := ⟨.hbm, 700, rfl⟩
abbrev main_v644 : Ref sig .tc := ⟨.hbm, 701, rfl⟩
abbrev main_v645 : Ref sig .tc := ⟨.hbm, 702, rfl⟩
abbrev main_v646 : Ref sig .tc := ⟨.hbm, 703, rfl⟩
abbrev main_v647 : Ref sig .tc := ⟨.hbm, 704, rfl⟩
abbrev main_v648 : Ref sig .tc := ⟨.hbm, 705, rfl⟩
abbrev main_v649 : Ref sig .tc := ⟨.hbm, 706, rfl⟩
abbrev main_v650 : Ref sig .tc := ⟨.hbm, 707, rfl⟩
abbrev main_v651 : Ref sig .tc := ⟨.hbm, 708, rfl⟩
abbrev main_v652 : Ref sig .tc := ⟨.hbm, 709, rfl⟩
abbrev main_v653 : Ref sig .tc := ⟨.hbm, 710, rfl⟩
abbrev main_v654 : Ref sig .tc := ⟨.hbm, 711, rfl⟩
abbrev main_v655 : Ref sig .tc := ⟨.hbm, 712, rfl⟩
abbrev main_v656 : Ref sig .tc := ⟨.hbm, 713, rfl⟩
abbrev main_v657 : Ref sig .tc := ⟨.hbm, 714, rfl⟩
abbrev main_v658 : Ref sig .tc := ⟨.hbm, 715, rfl⟩
abbrev main_v659 : Ref sig .tc := ⟨.hbm, 716, rfl⟩
abbrev main_v660 : Ref sig .tc := ⟨.hbm, 717, rfl⟩
abbrev main_v661 : Ref sig .tc := ⟨.hbm, 718, rfl⟩
abbrev main_v662 : Ref sig .tc := ⟨.hbm, 719, rfl⟩
abbrev main_v663 : Ref sig .tc := ⟨.hbm, 720, rfl⟩
abbrev main_v664 : Ref sig .tc := ⟨.hbm, 721, rfl⟩
abbrev main_v665 : Ref sig .tc := ⟨.hbm, 722, rfl⟩
abbrev main_v666 : Ref sig .tc := ⟨.hbm, 723, rfl⟩
abbrev main_v667 : Ref sig .tc := ⟨.hbm, 724, rfl⟩
abbrev main_v668 : Ref sig .tc := ⟨.hbm, 725, rfl⟩
abbrev main_v669 : Ref sig .tc := ⟨.hbm, 726, rfl⟩
abbrev main_v670 : Ref sig .tc := ⟨.hbm, 727, rfl⟩
abbrev main_v671 : Ref sig .tc := ⟨.hbm, 728, rfl⟩
abbrev main_v672 : Ref sig .tc := ⟨.hbm, 729, rfl⟩
abbrev main_v673 : Ref sig .tc := ⟨.hbm, 730, rfl⟩
abbrev main_v674 : Ref sig .tc := ⟨.hbm, 731, rfl⟩
abbrev main_cst_53 : Ref sig .tc := ⟨.hbm, 732, rfl⟩
abbrev main_v675 : Ref sig .tc := ⟨.hbm, 733, rfl⟩
abbrev main_v676 : Ref sig .tc := ⟨.hbm, 734, rfl⟩
abbrev main_v677 : Ref sig .tc := ⟨.hbm, 735, rfl⟩
abbrev main_cst_54 : Ref sig .tc := ⟨.hbm, 736, rfl⟩
abbrev main_v678 : Ref sig .tc := ⟨.hbm, 737, rfl⟩
abbrev main_v679 : Ref sig .tc := ⟨.hbm, 738, rfl⟩
abbrev main_v680 : Ref sig .tc := ⟨.hbm, 739, rfl⟩
abbrev main_cst_55 : Ref sig .tc := ⟨.hbm, 740, rfl⟩
abbrev main_v681 : Ref sig .tc := ⟨.hbm, 741, rfl⟩
abbrev main_v682 : Ref sig .tc := ⟨.hbm, 742, rfl⟩
abbrev main_v683 : Ref sig .tc := ⟨.hbm, 743, rfl⟩
abbrev main_v684 : Ref sig .tc := ⟨.hbm, 744, rfl⟩
abbrev main_v685 : Ref sig .tc := ⟨.hbm, 745, rfl⟩
abbrev main_v686 : Ref sig .tc := ⟨.hbm, 746, rfl⟩
abbrev main_v687 : Ref sig .tc := ⟨.hbm, 747, rfl⟩
abbrev main_v688 : Ref sig .tc := ⟨.hbm, 748, rfl⟩
abbrev main_v689 : Ref sig .tc := ⟨.hbm, 749, rfl⟩
abbrev main_v690 : Ref sig .tc := ⟨.hbm, 750, rfl⟩
abbrev main_v691 : Ref sig .tc := ⟨.hbm, 751, rfl⟩
abbrev main_v692 : Ref sig .tc := ⟨.hbm, 752, rfl⟩
abbrev main_v693 : Ref sig .tc := ⟨.hbm, 753, rfl⟩
abbrev main_v694 : Ref sig .tc := ⟨.hbm, 754, rfl⟩
abbrev main_v695 : Ref sig .tc := ⟨.hbm, 755, rfl⟩
abbrev main_v696 : Ref sig .tc := ⟨.hbm, 756, rfl⟩
abbrev main_v697 : Ref sig .tc := ⟨.hbm, 757, rfl⟩
abbrev main_v698 : Ref sig .tc := ⟨.hbm, 758, rfl⟩
abbrev main_v699 : Ref sig .tc := ⟨.hbm, 759, rfl⟩
abbrev main_v700 : Ref sig .tc := ⟨.hbm, 760, rfl⟩
abbrev main_v701 : Ref sig .tc := ⟨.hbm, 761, rfl⟩
abbrev main_v702 : Ref sig .tc := ⟨.hbm, 762, rfl⟩
abbrev main_v703 : Ref sig .tc := ⟨.hbm, 763, rfl⟩
abbrev main_v704 : Ref sig .tc := ⟨.hbm, 764, rfl⟩
abbrev main_v705 : Ref sig .tc := ⟨.hbm, 765, rfl⟩
abbrev main_v706 : Ref sig .tc := ⟨.hbm, 766, rfl⟩
abbrev main_v707 : Ref sig .tc := ⟨.hbm, 767, rfl⟩
abbrev main_v708 : Ref sig .tc := ⟨.hbm, 768, rfl⟩
abbrev main_v709 : Ref sig .tc := ⟨.hbm, 769, rfl⟩
abbrev main_v710 : Ref sig .tc := ⟨.hbm, 770, rfl⟩
abbrev main_cst_56 : Ref sig .tc := ⟨.hbm, 771, rfl⟩
abbrev main_v711 : Ref sig .tc := ⟨.hbm, 772, rfl⟩
abbrev main_v712 : Ref sig .tc := ⟨.hbm, 773, rfl⟩
abbrev main_v713 : Ref sig .tc := ⟨.hbm, 774, rfl⟩
abbrev main_cst_57 : Ref sig .tc := ⟨.hbm, 775, rfl⟩
abbrev main_v714 : Ref sig .tc := ⟨.hbm, 776, rfl⟩
abbrev main_v715 : Ref sig .tc := ⟨.hbm, 777, rfl⟩
abbrev main_v716 : Ref sig .tc := ⟨.hbm, 778, rfl⟩
abbrev main_cst_58 : Ref sig .tc := ⟨.hbm, 779, rfl⟩
abbrev main_v717 : Ref sig .tc := ⟨.hbm, 780, rfl⟩
abbrev main_v718 : Ref sig .tc := ⟨.hbm, 781, rfl⟩
abbrev main_v719 : Ref sig .tc := ⟨.hbm, 782, rfl⟩
abbrev main_v720 : Ref sig .tc := ⟨.hbm, 783, rfl⟩
abbrev main_v721 : Ref sig .tc := ⟨.hbm, 784, rfl⟩
abbrev main_v722 : Ref sig .tc := ⟨.hbm, 785, rfl⟩
abbrev main_v723 : Ref sig .tc := ⟨.hbm, 786, rfl⟩
abbrev main_v724 : Ref sig .tc := ⟨.hbm, 787, rfl⟩
abbrev main_v725 : Ref sig .tc := ⟨.hbm, 788, rfl⟩
abbrev main_v726 : Ref sig .tc := ⟨.hbm, 789, rfl⟩
abbrev main_v727 : Ref sig .tc := ⟨.hbm, 790, rfl⟩
abbrev main_v728 : Ref sig .tc := ⟨.hbm, 791, rfl⟩
abbrev main_v729 : Ref sig .tc := ⟨.hbm, 792, rfl⟩
abbrev main_v730 : Ref sig .tc := ⟨.hbm, 793, rfl⟩
abbrev main_v731 : Ref sig .tc := ⟨.hbm, 794, rfl⟩
abbrev main_v732 : Ref sig .tc := ⟨.hbm, 795, rfl⟩
abbrev main_v733 : Ref sig .tc := ⟨.hbm, 796, rfl⟩
abbrev main_v734 : Ref sig .tc := ⟨.hbm, 797, rfl⟩
abbrev main_v735 : Ref sig .tc := ⟨.hbm, 798, rfl⟩
abbrev main_v736 : Ref sig .tc := ⟨.hbm, 799, rfl⟩
abbrev main_v737 : Ref sig .tc := ⟨.hbm, 800, rfl⟩
abbrev main_v738 : Ref sig .tc := ⟨.hbm, 801, rfl⟩
abbrev main_v739 : Ref sig .tc := ⟨.hbm, 802, rfl⟩
abbrev main_v740 : Ref sig .tc := ⟨.hbm, 803, rfl⟩
abbrev main_v741 : Ref sig .tc := ⟨.hbm, 804, rfl⟩
abbrev main_v742 : Ref sig .tc := ⟨.hbm, 805, rfl⟩
abbrev main_v743 : Ref sig .tc := ⟨.hbm, 806, rfl⟩
abbrev main_v744 : Ref sig .tc := ⟨.hbm, 807, rfl⟩
abbrev main_v745 : Ref sig .tc := ⟨.hbm, 808, rfl⟩
abbrev main_v746 : Ref sig .tc := ⟨.hbm, 809, rfl⟩
abbrev main_cst_59 : Ref sig .tc := ⟨.hbm, 810, rfl⟩
abbrev main_v747 : Ref sig .tc := ⟨.hbm, 811, rfl⟩
abbrev main_v748 : Ref sig .tc := ⟨.hbm, 812, rfl⟩
abbrev main_v749 : Ref sig .tc := ⟨.hbm, 813, rfl⟩
abbrev main_cst_60 : Ref sig .tc := ⟨.hbm, 814, rfl⟩
abbrev main_v750 : Ref sig .tc := ⟨.hbm, 815, rfl⟩
abbrev main_v751 : Ref sig .tc := ⟨.hbm, 816, rfl⟩
abbrev main_v752 : Ref sig .tc := ⟨.hbm, 817, rfl⟩
abbrev main_cst_61 : Ref sig .tc := ⟨.hbm, 818, rfl⟩
abbrev main_v753 : Ref sig .tc := ⟨.hbm, 819, rfl⟩
abbrev main_v754 : Ref sig .tc := ⟨.hbm, 820, rfl⟩
abbrev main_v755 : Ref sig .tc := ⟨.hbm, 821, rfl⟩
abbrev main_v756 : Ref sig .tc := ⟨.hbm, 822, rfl⟩
abbrev main_v757 : Ref sig .tc := ⟨.hbm, 823, rfl⟩
abbrev main_v758 : Ref sig .tc := ⟨.hbm, 824, rfl⟩
abbrev main_v759 : Ref sig .tc := ⟨.hbm, 825, rfl⟩
abbrev main_v760 : Ref sig .tc := ⟨.hbm, 826, rfl⟩
abbrev main_v761 : Ref sig .tc := ⟨.hbm, 827, rfl⟩
abbrev main_v762 : Ref sig .tc := ⟨.hbm, 828, rfl⟩
abbrev main_v763 : Ref sig .tc := ⟨.hbm, 829, rfl⟩
abbrev main_v764 : Ref sig .tc := ⟨.hbm, 830, rfl⟩
abbrev main_v765 : Ref sig .tc := ⟨.hbm, 831, rfl⟩
abbrev main_v766 : Ref sig .tc := ⟨.hbm, 832, rfl⟩
abbrev main_v767 : Ref sig .tc := ⟨.hbm, 833, rfl⟩
abbrev main_v768 : Ref sig .tc := ⟨.hbm, 834, rfl⟩
abbrev main_v769 : Ref sig .tc := ⟨.hbm, 835, rfl⟩
abbrev main_v770 : Ref sig .tc := ⟨.hbm, 836, rfl⟩
abbrev main_v771 : Ref sig .tc := ⟨.hbm, 837, rfl⟩
abbrev main_v772 : Ref sig .tc := ⟨.hbm, 838, rfl⟩
abbrev main_v773 : Ref sig .tc := ⟨.hbm, 839, rfl⟩
abbrev main_v774 : Ref sig .tc := ⟨.hbm, 840, rfl⟩
abbrev main_v775 : Ref sig .tc := ⟨.hbm, 841, rfl⟩
abbrev main_v776 : Ref sig .tc := ⟨.hbm, 842, rfl⟩
abbrev main_v777 : Ref sig .tc := ⟨.hbm, 843, rfl⟩
abbrev main_v778 : Ref sig .tc := ⟨.hbm, 844, rfl⟩
abbrev main_v779 : Ref sig .tc := ⟨.hbm, 845, rfl⟩
abbrev main_v780 : Ref sig .tc := ⟨.hbm, 846, rfl⟩
abbrev main_v781 : Ref sig .tc := ⟨.hbm, 847, rfl⟩
abbrev main_v782 : Ref sig .tc := ⟨.hbm, 848, rfl⟩
abbrev main_v783 : Ref sig .tc := ⟨.hbm, 849, rfl⟩
abbrev main_v784 : Ref sig .tc := ⟨.hbm, 850, rfl⟩
abbrev main_v785 : Ref sig .tc := ⟨.hbm, 851, rfl⟩
abbrev main_cst_62 : Ref sig .tc := ⟨.hbm, 852, rfl⟩
abbrev main_v786 : Ref sig .tc := ⟨.hbm, 853, rfl⟩
abbrev main_v787 : Ref sig .tc := ⟨.hbm, 854, rfl⟩
abbrev main_v788 : Ref sig .tc := ⟨.hbm, 855, rfl⟩
abbrev main_cst_63 : Ref sig .tc := ⟨.hbm, 856, rfl⟩
abbrev main_v789 : Ref sig .tc := ⟨.hbm, 857, rfl⟩
abbrev main_v790 : Ref sig .tc := ⟨.hbm, 858, rfl⟩
abbrev main_v791 : Ref sig .tc := ⟨.hbm, 859, rfl⟩
abbrev main_cst_64 : Ref sig .tc := ⟨.hbm, 860, rfl⟩
abbrev main_v792 : Ref sig .tc := ⟨.hbm, 861, rfl⟩
abbrev main_v793 : Ref sig .tc := ⟨.hbm, 862, rfl⟩
abbrev main_v794 : Ref sig .tc := ⟨.hbm, 863, rfl⟩
abbrev main_v795 : Ref sig .tc := ⟨.hbm, 864, rfl⟩
abbrev main_v796 : Ref sig .tc := ⟨.hbm, 865, rfl⟩
abbrev main_v797 : Ref sig .tc := ⟨.hbm, 866, rfl⟩
abbrev main_v798 : Ref sig .tc := ⟨.hbm, 867, rfl⟩
abbrev main_v799 : Ref sig .tc := ⟨.hbm, 868, rfl⟩
abbrev main_v800 : Ref sig .tc := ⟨.hbm, 869, rfl⟩
abbrev main_v801 : Ref sig .tc := ⟨.hbm, 870, rfl⟩
abbrev main_v802 : Ref sig .tc := ⟨.hbm, 871, rfl⟩
abbrev main_v803 : Ref sig .tc := ⟨.hbm, 872, rfl⟩
abbrev main_v804 : Ref sig .tc := ⟨.hbm, 873, rfl⟩
abbrev main_v805 : Ref sig .tc := ⟨.hbm, 874, rfl⟩
abbrev main_v806 : Ref sig .tc := ⟨.hbm, 875, rfl⟩
abbrev main_v807 : Ref sig .tc := ⟨.hbm, 876, rfl⟩
abbrev main_v808 : Ref sig .tc := ⟨.hbm, 877, rfl⟩
abbrev main_v809 : Ref sig .tc := ⟨.hbm, 878, rfl⟩
abbrev main_v810 : Ref sig .tc := ⟨.hbm, 879, rfl⟩
abbrev main_v811 : Ref sig .tc := ⟨.hbm, 880, rfl⟩
abbrev main_v812 : Ref sig .tc := ⟨.hbm, 881, rfl⟩
abbrev main_v813 : Ref sig .tc := ⟨.hbm, 882, rfl⟩
abbrev main_v814 : Ref sig .tc := ⟨.hbm, 883, rfl⟩
abbrev main_v815 : Ref sig .tc := ⟨.hbm, 884, rfl⟩
abbrev main_v816 : Ref sig .tc := ⟨.hbm, 885, rfl⟩
abbrev main_v817 : Ref sig .tc := ⟨.hbm, 886, rfl⟩
abbrev main_v818 : Ref sig .tc := ⟨.hbm, 887, rfl⟩
abbrev main_v819 : Ref sig .tc := ⟨.hbm, 888, rfl⟩
abbrev main_v820 : Ref sig .tc := ⟨.hbm, 889, rfl⟩
abbrev main_v821 : Ref sig .tc := ⟨.hbm, 890, rfl⟩
abbrev main_cst_65 : Ref sig .tc := ⟨.hbm, 891, rfl⟩
abbrev main_v822 : Ref sig .tc := ⟨.hbm, 892, rfl⟩
abbrev main_v823 : Ref sig .tc := ⟨.hbm, 893, rfl⟩
abbrev main_v824 : Ref sig .tc := ⟨.hbm, 894, rfl⟩
abbrev main_cst_66 : Ref sig .tc := ⟨.hbm, 895, rfl⟩
abbrev main_v825 : Ref sig .tc := ⟨.hbm, 896, rfl⟩
abbrev main_v826 : Ref sig .tc := ⟨.hbm, 897, rfl⟩
abbrev main_v827 : Ref sig .tc := ⟨.hbm, 898, rfl⟩
abbrev main_cst_67 : Ref sig .tc := ⟨.hbm, 899, rfl⟩
abbrev main_v828 : Ref sig .tc := ⟨.hbm, 900, rfl⟩
abbrev main_v829 : Ref sig .tc := ⟨.hbm, 901, rfl⟩
abbrev main_v830 : Ref sig .tc := ⟨.hbm, 902, rfl⟩
abbrev main_v831 : Ref sig .tc := ⟨.hbm, 903, rfl⟩
abbrev main_v832 : Ref sig .tc := ⟨.hbm, 904, rfl⟩
abbrev main_v833 : Ref sig .tc := ⟨.hbm, 905, rfl⟩
abbrev main_v834 : Ref sig .tc := ⟨.hbm, 906, rfl⟩
abbrev main_v835 : Ref sig .tc := ⟨.hbm, 907, rfl⟩
abbrev main_v836 : Ref sig .tc := ⟨.hbm, 908, rfl⟩
abbrev main_v837 : Ref sig .tc := ⟨.hbm, 909, rfl⟩
abbrev main_v838 : Ref sig .tc := ⟨.hbm, 910, rfl⟩
abbrev main_v839 : Ref sig .tc := ⟨.hbm, 911, rfl⟩
abbrev main_v840 : Ref sig .tc := ⟨.hbm, 912, rfl⟩
abbrev main_v841 : Ref sig .tc := ⟨.hbm, 913, rfl⟩
abbrev main_v842 : Ref sig .tc := ⟨.hbm, 914, rfl⟩
abbrev main_v843 : Ref sig .tc := ⟨.hbm, 915, rfl⟩
abbrev main_v844 : Ref sig .tc := ⟨.hbm, 916, rfl⟩
abbrev main_v845 : Ref sig .tc := ⟨.hbm, 917, rfl⟩
abbrev main_v846 : Ref sig .tc := ⟨.hbm, 918, rfl⟩
abbrev main_v847 : Ref sig .tc := ⟨.hbm, 919, rfl⟩
abbrev main_v848 : Ref sig .tc := ⟨.hbm, 920, rfl⟩
abbrev main_v849 : Ref sig .tc := ⟨.hbm, 921, rfl⟩
abbrev main_v850 : Ref sig .tc := ⟨.hbm, 922, rfl⟩
abbrev main_v851 : Ref sig .tc := ⟨.hbm, 923, rfl⟩
abbrev main_v852 : Ref sig .tc := ⟨.hbm, 924, rfl⟩
abbrev main_v853 : Ref sig .tc := ⟨.hbm, 925, rfl⟩
abbrev main_v854 : Ref sig .tc := ⟨.hbm, 926, rfl⟩
abbrev main_v855 : Ref sig .tc := ⟨.hbm, 927, rfl⟩
abbrev main_v856 : Ref sig .tc := ⟨.hbm, 928, rfl⟩
abbrev main_v857 : Ref sig .tc := ⟨.hbm, 929, rfl⟩
abbrev main_cst_68 : Ref sig .tc := ⟨.hbm, 930, rfl⟩
abbrev main_v858 : Ref sig .tc := ⟨.hbm, 931, rfl⟩
abbrev main_v859 : Ref sig .tc := ⟨.hbm, 932, rfl⟩
abbrev main_v860 : Ref sig .tc := ⟨.hbm, 933, rfl⟩
abbrev main_cst_69 : Ref sig .tc := ⟨.hbm, 934, rfl⟩
abbrev main_v861 : Ref sig .tc := ⟨.hbm, 935, rfl⟩
abbrev main_v862 : Ref sig .tc := ⟨.hbm, 936, rfl⟩
abbrev main_v863 : Ref sig .tc := ⟨.hbm, 937, rfl⟩
abbrev main_cst_70 : Ref sig .tc := ⟨.hbm, 938, rfl⟩
abbrev main_v864 : Ref sig .tc := ⟨.hbm, 939, rfl⟩
abbrev main_v865 : Ref sig .tc := ⟨.hbm, 940, rfl⟩
abbrev main_v866 : Ref sig .tc := ⟨.hbm, 941, rfl⟩
abbrev main_v867 : Ref sig .tc := ⟨.hbm, 942, rfl⟩
abbrev main_v868 : Ref sig .tc := ⟨.hbm, 943, rfl⟩
abbrev main_v869 : Ref sig .tc := ⟨.hbm, 944, rfl⟩
abbrev main_v870 : Ref sig .tc := ⟨.hbm, 945, rfl⟩
abbrev main_v871 : Ref sig .tc := ⟨.hbm, 946, rfl⟩
abbrev main_v872 : Ref sig .tc := ⟨.hbm, 947, rfl⟩
abbrev main_v873 : Ref sig .tc := ⟨.hbm, 948, rfl⟩
abbrev main_v874 : Ref sig .tc := ⟨.hbm, 949, rfl⟩
abbrev main_v875 : Ref sig .tc := ⟨.hbm, 950, rfl⟩
abbrev main_v876 : Ref sig .tc := ⟨.hbm, 951, rfl⟩
abbrev main_v877 : Ref sig .tc := ⟨.hbm, 952, rfl⟩
abbrev main_v878 : Ref sig .tc := ⟨.hbm, 953, rfl⟩
abbrev main_v879 : Ref sig .tc := ⟨.hbm, 954, rfl⟩
abbrev main_v880 : Ref sig .tc := ⟨.hbm, 955, rfl⟩
abbrev main_v881 : Ref sig .tc := ⟨.hbm, 956, rfl⟩
abbrev main_v882 : Ref sig .tc := ⟨.hbm, 957, rfl⟩
abbrev main_v883 : Ref sig .tc := ⟨.hbm, 958, rfl⟩
abbrev main_v884 : Ref sig .tc := ⟨.hbm, 959, rfl⟩
abbrev main_v885 : Ref sig .tc := ⟨.hbm, 960, rfl⟩
abbrev main_v886 : Ref sig .tc := ⟨.hbm, 961, rfl⟩
abbrev main_v887 : Ref sig .tc := ⟨.hbm, 962, rfl⟩
abbrev main_v888 : Ref sig .tc := ⟨.hbm, 963, rfl⟩
abbrev main_v889 : Ref sig .tc := ⟨.hbm, 964, rfl⟩
abbrev main_v890 : Ref sig .tc := ⟨.hbm, 965, rfl⟩
abbrev main_v891 : Ref sig .tc := ⟨.hbm, 966, rfl⟩
abbrev main_v892 : Ref sig .tc := ⟨.hbm, 967, rfl⟩
abbrev main_v893 : Ref sig .tc := ⟨.hbm, 968, rfl⟩
abbrev main_v894 : Ref sig .tc := ⟨.hbm, 969, rfl⟩
abbrev main_v895 : Ref sig .tc := ⟨.hbm, 970, rfl⟩
abbrev main_v896 : Ref sig .tc := ⟨.hbm, 971, rfl⟩
abbrev main_v897 : Ref sig .tc := ⟨.hbm, 972, rfl⟩
abbrev main_v898 : Ref sig .tc := ⟨.hbm, 973, rfl⟩
abbrev main_v899 : Ref sig .tc := ⟨.hbm, 974, rfl⟩
abbrev main_v900 : Ref sig .tc := ⟨.hbm, 975, rfl⟩
abbrev main_v901 : Ref sig .tc := ⟨.hbm, 976, rfl⟩
abbrev main_v902 : Ref sig .tc := ⟨.hbm, 977, rfl⟩
abbrev main_v903 : Ref sig .tc := ⟨.hbm, 978, rfl⟩
abbrev main_v904 : Ref sig .tc := ⟨.hbm, 979, rfl⟩
abbrev main_v905 : Ref sig .tc := ⟨.hbm, 980, rfl⟩
abbrev main_v906 : Ref sig .tc := ⟨.hbm, 981, rfl⟩
abbrev main_v907 : Ref sig .tc := ⟨.hbm, 982, rfl⟩
abbrev main_v908 : Ref sig .tc := ⟨.hbm, 983, rfl⟩
abbrev main_v909 : Ref sig .tc := ⟨.hbm, 984, rfl⟩
abbrev main_v910 : Ref sig .tc := ⟨.hbm, 985, rfl⟩
abbrev main_v911 : Ref sig .tc := ⟨.hbm, 986, rfl⟩
abbrev main_v912 : Ref sig .tc := ⟨.hbm, 987, rfl⟩
abbrev main_v913 : Ref sig .tc := ⟨.hbm, 988, rfl⟩
abbrev main_v914 : Ref sig .tc := ⟨.hbm, 989, rfl⟩
abbrev main_v915 : Ref sig .tc := ⟨.hbm, 990, rfl⟩
abbrev main_v916 : Ref sig .tc := ⟨.hbm, 991, rfl⟩
abbrev main_v917 : Ref sig .tc := ⟨.hbm, 992, rfl⟩
abbrev main_v918 : Ref sig .tc := ⟨.hbm, 993, rfl⟩
abbrev main_v919 : Ref sig .tc := ⟨.hbm, 994, rfl⟩
abbrev main_v920 : Ref sig .tc := ⟨.hbm, 995, rfl⟩
abbrev main_v921 : Ref sig .tc := ⟨.hbm, 996, rfl⟩
abbrev main_v922 : Ref sig .tc := ⟨.hbm, 997, rfl⟩
abbrev main_v923 : Ref sig .tc := ⟨.hbm, 998, rfl⟩
abbrev main_v924 : Ref sig .tc := ⟨.hbm, 999, rfl⟩
abbrev main_v925 : Ref sig .tc := ⟨.hbm, 1000, rfl⟩
abbrev main_v926 : Ref sig .tc := ⟨.hbm, 1001, rfl⟩
abbrev main_v927 : Ref sig .tc := ⟨.hbm, 1002, rfl⟩
abbrev main_v928 : Ref sig .tc := ⟨.hbm, 1003, rfl⟩
abbrev main_v929 : Ref sig .tc := ⟨.hbm, 1004, rfl⟩
abbrev main_v930 : Ref sig .tc := ⟨.hbm, 1005, rfl⟩
abbrev main_v931 : Ref sig .tc := ⟨.hbm, 1006, rfl⟩
abbrev main_cst_71 : Ref sig .tc := ⟨.hbm, 1007, rfl⟩
abbrev main_v932 : Ref sig .tc := ⟨.hbm, 1008, rfl⟩
abbrev main_v933 : Ref sig .tc := ⟨.hbm, 1009, rfl⟩
abbrev main_v934 : Ref sig .tc := ⟨.hbm, 1010, rfl⟩
abbrev main_cst_72 : Ref sig .tc := ⟨.hbm, 1011, rfl⟩
abbrev main_v935 : Ref sig .tc := ⟨.hbm, 1012, rfl⟩
abbrev main_v936 : Ref sig .tc := ⟨.hbm, 1013, rfl⟩
abbrev main_v937 : Ref sig .tc := ⟨.hbm, 1014, rfl⟩
abbrev main_cst_73 : Ref sig .tc := ⟨.hbm, 1015, rfl⟩
abbrev main_v938 : Ref sig .tc := ⟨.hbm, 1016, rfl⟩
abbrev main_v939 : Ref sig .tc := ⟨.hbm, 1017, rfl⟩
abbrev main_cst_74 : Ref sig .tc := ⟨.hbm, 1018, rfl⟩
abbrev main_v940 : Ref sig .tc := ⟨.hbm, 1019, rfl⟩
abbrev main_v941 : Ref sig .tc := ⟨.hbm, 1020, rfl⟩
abbrev main_v942 : Ref sig .tc := ⟨.hbm, 1021, rfl⟩
abbrev main_v943 : Ref sig .tc := ⟨.hbm, 1022, rfl⟩
abbrev main_v944 : Ref sig .tc := ⟨.hbm, 1023, rfl⟩
abbrev main_v945 : Ref sig .tc := ⟨.hbm, 1024, rfl⟩
abbrev main_v946 : Ref sig .tc := ⟨.hbm, 1025, rfl⟩
abbrev main_v947 : Ref sig .tc := ⟨.hbm, 1026, rfl⟩
abbrev main_v948 : Ref sig .tc := ⟨.hbm, 1027, rfl⟩
abbrev main_v949 : Ref sig .tc := ⟨.hbm, 1028, rfl⟩
abbrev main_v950 : Ref sig .tc := ⟨.hbm, 1029, rfl⟩
abbrev main_v951 : Ref sig .tc := ⟨.hbm, 1030, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4x4 : S_.BroadcastsInDim S4x4 (![] : Fin 0 → Fin S4x4.rank)
  bcast_S4x4_S32x4x4_1_2 : S4x4.BroadcastsInDim S32x4x4 (![1, 2] : Fin 2 → Fin S32x4x4.rank)
  slices_S8x32x3_S1x32x1_0_0_0 : S8x32x3.Slices ![0, 0, 0] S1x32x1
  shapeCasts_S1x32x1_S32 : S1x32x1.ShapeCasts S32
  bcast_S_S32 : S_.BroadcastsInDim S32 (![] : Fin 0 → Fin S32.rank)
  bcast_S32_S32x1_0 : S32.BroadcastsInDim S32x1 (![0] : Fin 1 → Fin S32x1.rank)
  concatenates_S32x1_S32x1_S32x1_S32x1_S32x4_d1 : Shape.Concatenates [S32x1, S32x1, S32x1, S32x1] S32x4 1
  bcast_S32x4_S32x1x4_0_2 : S32x4.BroadcastsInDim S32x1x4 (![0, 2] : Fin 2 → Fin S32x1x4.rank)
  concatenates_S32x1x4_S32x1x4_S32x1x4_S32x1x4_S32x4x4_d1 : Shape.Concatenates [S32x1x4, S32x1x4, S32x1x4, S32x1x4] S32x4x4 1
  slices_S8x32x3_S1x32x1_0_0_1 : S8x32x3.Slices ![0, 0, 1] S1x32x1
  slices_S8x32x3_S1x32x1_0_0_2 : S8x32x3.Slices ![0, 0, 2] S1x32x1
  slices_S8x32x3_S1x32x1_1_0_0 : S8x32x3.Slices ![1, 0, 0] S1x32x1
  slices_S8x32x3_S1x32x1_1_0_1 : S8x32x3.Slices ![1, 0, 1] S1x32x1
  slices_S8x32x3_S1x32x1_1_0_2 : S8x32x3.Slices ![1, 0, 2] S1x32x1
  slices_S8x32x3_S1x32x1_2_0_0 : S8x32x3.Slices ![2, 0, 0] S1x32x1
  slices_S8x32x3_S1x32x1_2_0_1 : S8x32x3.Slices ![2, 0, 1] S1x32x1
  slices_S8x32x3_S1x32x1_2_0_2 : S8x32x3.Slices ![2, 0, 2] S1x32x1
  slices_S8x32x3_S1x32x1_3_0_0 : S8x32x3.Slices ![3, 0, 0] S1x32x1
  slices_S8x32x3_S1x32x1_3_0_1 : S8x32x3.Slices ![3, 0, 1] S1x32x1
  slices_S8x32x3_S1x32x1_3_0_2 : S8x32x3.Slices ![3, 0, 2] S1x32x1
  slices_S8x32x3_S1x32x1_4_0_0 : S8x32x3.Slices ![4, 0, 0] S1x32x1
  slices_S8x32x3_S1x32x1_4_0_1 : S8x32x3.Slices ![4, 0, 1] S1x32x1
  slices_S8x32x3_S1x32x1_4_0_2 : S8x32x3.Slices ![4, 0, 2] S1x32x1
  slices_S8x32x3_S1x32x1_5_0_0 : S8x32x3.Slices ![5, 0, 0] S1x32x1
  slices_S8x32x3_S1x32x1_5_0_1 : S8x32x3.Slices ![5, 0, 1] S1x32x1
  slices_S8x32x3_S1x32x1_5_0_2 : S8x32x3.Slices ![5, 0, 2] S1x32x1
  slices_S8x32x3_S1x32x1_6_0_0 : S8x32x3.Slices ![6, 0, 0] S1x32x1
  slices_S8x32x3_S1x32x1_6_0_1 : S8x32x3.Slices ![6, 0, 1] S1x32x1
  slices_S8x32x3_S1x32x1_6_0_2 : S8x32x3.Slices ![6, 0, 2] S1x32x1
  slices_S8x32x3_S1x32x1_7_0_0 : S8x32x3.Slices ![7, 0, 0] S1x32x1
  slices_S8x32x3_S1x32x1_7_0_1 : S8x32x3.Slices ![7, 0, 1] S1x32x1
  slices_S8x32x3_S1x32x1_7_0_2 : S8x32x3.Slices ![7, 0, 2] S1x32x1
  slices_S32x4x4_S32x1x1_0_0_0 : S32x4x4.Slices ![0, 0, 0] S32x1x1
  shapeCasts_S32x1x1_S32 : S32x1x1.ShapeCasts S32
  slices_S32x4x4_S32x1x1_0_0_3 : S32x4x4.Slices ![0, 0, 3] S32x1x1
  slices_S32x4x4_S32x1x1_0_1_0 : S32x4x4.Slices ![0, 1, 0] S32x1x1
  slices_S32x4x4_S32x1x1_0_1_3 : S32x4x4.Slices ![0, 1, 3] S32x1x1
  slices_S32x4x4_S32x1x1_0_2_0 : S32x4x4.Slices ![0, 2, 0] S32x1x1
  slices_S32x4x4_S32x1x1_0_2_3 : S32x4x4.Slices ![0, 2, 3] S32x1x1
  slices_S32x4x4_S32x1x1_0_3_0 : S32x4x4.Slices ![0, 3, 0] S32x1x1
  slices_S32x4x4_S32x1x1_0_3_3 : S32x4x4.Slices ![0, 3, 3] S32x1x1
  bcast_S32_S1x32_1 : S32.BroadcastsInDim S1x32 (![1] : Fin 1 → Fin S1x32.rank)
  concatenates_S1x32_S1x32_S1x32_S3x32_d0 : Shape.Concatenates [S1x32, S1x32, S1x32] S3x32 0
  shapeCasts_S262144x32_S65536x128 : S262144x32.ShapeCasts S65536x128
  shapeCasts_S3x32_S1x3x1x32 : S3x32.ShapeCasts S1x3x1x32
  bcast_S1x3x1x32_S1x3x4x32_0_1_2_3 : S1x3x1x32.BroadcastsInDim S1x3x4x32 (![0, 1, 2, 3] : Fin 4 → Fin S1x3x4x32.rank)
  shapeCasts_S1x3x4x32_S3x128 : S1x3x4x32.ShapeCasts S3x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  inb_S3x128_S1x128_1_0 : ∀ a, (![1, 0] : Fin 2 → Nat) a + S1x128.size a ≤ S3x128.size a
  inb_S3x128_S1x128_2_0 : ∀ a, (![2, 0] : Fin 2 → Nat) a + S1x128.size a ≤ S3x128.size a
  broadcasts_S1x128_S8192x128 : S1x128.Broadcasts S8192x128
  shapeCasts_S65536x128_S262144x32 : S65536x128.ShapeCasts S262144x32
  dot_S32x4x4_S32x4x4_S32x4x4_2_1_1_2_0_0_wf : DotDims.WF S32x4x4 S32x4x4 S32x4x4 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)

variable [Facts₀]

def dot_S32x4x4_S32x4x4_S32x4x4_2_1_1_2_0_0 : DotDims S32x4x4 S32x4x4 S32x4x4 where
  lhsContracting := [2]
  rhsContracting := [1]
  lhsNonContracting := [1]
  rhsNonContracting := [2]
  lhsBatch := [0]
  rhsBatch := [0]
  wf := dot_S32x4x4_S32x4x4_S32x4x4_2_1_1_2_0_0_wf

abbrev win0_0 : Pipeline.Window sig grid0 :=
  Pipeline.Window.ofSpec (Memref.whole main_v946) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v949) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v950) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S8x32x3 : Shape := ⟨3, ![8, 32, 3]⟩
abbrev S_ : Shape := ⟨0, ![]⟩
abbrev S1x32x1 : Shape := ⟨3, ![1, 32, 1]⟩
abbrev S32 : Shape := ⟨1, ![32]⟩
abbrev S1x32 : Shape := ⟨2, ![1, 32]⟩

abbrev nBuf : Space → Nat
  | .hbm => 790
  | .vmem => 0
  | .smem => 0
  | _ => 0

abbrev hbmTy0_0 (i : Nat) : BufTy := match i % 128 with
  | 0 => ⟨S262144x32, .f32⟩
  | 1 => ⟨S8x32x3, .f32⟩
  | 2 => ⟨S_, .f32⟩
  | 3 => ⟨S262144x32, .f32⟩
  | 4 => ⟨S_, .f32⟩
  | 5 => ⟨S262144x32, .f32⟩
  | 6 => ⟨S_, .f32⟩
  | 7 => ⟨S262144x32, .f32⟩
  | 8 => ⟨S_, .f32⟩
  | 9 => ⟨S262144x32, .f32⟩
  | 10 => ⟨S_, .f32⟩
  | 11 => ⟨S262144x32, .f32⟩
  | 12 => ⟨S262144x32, .f32⟩
  | 13 => ⟨S262144x32, .f32⟩
  | 14 => ⟨S_, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S262144x32, .f32⟩
  | 21 => ⟨S262144x32, .f32⟩
  | 22 => ⟨S262144x32, .f32⟩
  | 23 => ⟨S262144x32, .f32⟩
  | 24 => ⟨S262144x32, .f32⟩
  | 25 => ⟨S262144x32, .f32⟩
  | 26 => ⟨S262144x32, .f32⟩
  | 27 => ⟨S262144x32, .f32⟩
  | 28 => ⟨S262144x32, .f32⟩
  | 29 => ⟨S262144x32, .f32⟩
  | 30 => ⟨S262144x32, .f32⟩
  | 31 => ⟨S1x32x1, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S1x32, .f32⟩
  | 42 => ⟨S262144x32, .f32⟩
  | 43 => ⟨S262144x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S262144x32, .f32⟩
  | 50 => ⟨S262144x32, .f32⟩
  | 51 => ⟨S262144x32, .f32⟩
  | 52 => ⟨S262144x32, .f32⟩
  | 53 => ⟨S262144x32, .f32⟩
  | 54 => ⟨S262144x32, .f32⟩
  | 55 => ⟨S262144x32, .f32⟩
  | 56 => ⟨S262144x32, .f32⟩
  | 57 => ⟨S262144x32, .f32⟩
  | 58 => ⟨S262144x32, .f32⟩
  | 59 => ⟨S262144x32, .f32⟩
  | 60 => ⟨S262144x32, .f32⟩
  | 61 => ⟨S262144x32, .f32⟩
  | 62 => ⟨S1x32x1, .f32⟩
  | 63 => ⟨S32, .f32⟩
  | 64 => ⟨S1x32, .f32⟩
  | 65 => ⟨S_, .f32⟩
  | 66 => ⟨S1x32, .f32⟩
  | 67 => ⟨S1x32, .f32⟩
  | 68 => ⟨S1x32, .f32⟩
  | 69 => ⟨S_, .f32⟩
  | 70 => ⟨S1x32, .f32⟩
  | 71 => ⟨S1x32, .f32⟩
  | 72 => ⟨S1x32, .f32⟩
  | 73 => ⟨S262144x32, .f32⟩
  | 74 => ⟨S262144x32, .f32⟩
  | 75 => ⟨S262144x32, .f32⟩
  | 76 => ⟨S262144x32, .f32⟩
  | 77 => ⟨S262144x32, .f32⟩
  | 78 => ⟨S262144x32, .f32⟩
  | 79 => ⟨S262144x32, .f32⟩
  | 80 => ⟨S262144x32, .f32⟩
  | 81 => ⟨S262144x32, .f32⟩
  | 82 => ⟨S262144x32, .f32⟩
  | 83 => ⟨S262144x32, .f32⟩
  | 84 => ⟨S262144x32, .f32⟩
  | 85 => ⟨S262144x32, .f32⟩
  | 86 => ⟨S262144x32, .f32⟩
  | 87 => ⟨S262144x32, .f32⟩
  | 88 => ⟨S262144x32, .f32⟩
  | 89 => ⟨S262144x32, .f32⟩
  | 90 => ⟨S262144x32, .f32⟩
  | 91 => ⟨S262144x32, .f32⟩
  | 92 => ⟨S262144x32, .f32⟩
  | 93 => ⟨S1x32x1, .f32⟩
  | 94 => ⟨S32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S_, .f32⟩
  | 101 => ⟨S1x32, .f32⟩
  | 102 => ⟨S1x32, .f32⟩
  | 103 => ⟨S1x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S262144x32, .f32⟩
  | 112 => ⟨S262144x32, .f32⟩
  | 113 => ⟨S262144x32, .f32⟩
  | 114 => ⟨S262144x32, .f32⟩
  | 115 => ⟨S262144x32, .f32⟩
  | 116 => ⟨S262144x32, .f32⟩
  | 117 => ⟨S262144x32, .f32⟩
  | 118 => ⟨S262144x32, .f32⟩
  | 119 => ⟨S1x32, .f32⟩
  | 120 => ⟨S262144x32, .f32⟩
  | 121 => ⟨S262144x32, .f32⟩
  | 122 => ⟨S262144x32, .f32⟩
  | 123 => ⟨S262144x32, .f32⟩
  | 124 => ⟨S262144x32, .f32⟩
  | 125 => ⟨S1x32x1, .f32⟩
  | 126 => ⟨S32, .f32⟩
  | 127 => ⟨S1x32, .f32⟩
  | _ => ⟨S262144x32, .f32⟩

abbrev hbmTy0_1 (i : Nat) : BufTy := match i % 128 with
  | 0 => ⟨S_, .f32⟩
  | 1 => ⟨S1x32, .f32⟩
  | 2 => ⟨S1x32, .f32⟩
  | 3 => ⟨S1x32, .f32⟩
  | 4 => ⟨S_, .f32⟩
  | 5 => ⟨S1x32, .f32⟩
  | 6 => ⟨S1x32, .f32⟩
  | 7 => ⟨S1x32, .f32⟩
  | 8 => ⟨S262144x32, .f32⟩
  | 9 => ⟨S262144x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S262144x32, .f32⟩
  | 21 => ⟨S262144x32, .f32⟩
  | 22 => ⟨S262144x32, .f32⟩
  | 23 => ⟨S262144x32, .f32⟩
  | 24 => ⟨S262144x32, .f32⟩
  | 25 => ⟨S262144x32, .f32⟩
  | 26 => ⟨S262144x32, .f32⟩
  | 27 => ⟨S262144x32, .f32⟩
  | 28 => ⟨S1x32x1, .f32⟩
  | 29 => ⟨S32, .f32⟩
  | 30 => ⟨S1x32, .f32⟩
  | 31 => ⟨S_, .f32⟩
  | 32 => ⟨S1x32, .f32⟩
  | 33 => ⟨S1x32, .f32⟩
  | 34 => ⟨S1x32, .f32⟩
  | 35 => ⟨S_, .f32⟩
  | 36 => ⟨S1x32, .f32⟩
  | 37 => ⟨S1x32, .f32⟩
  | 38 => ⟨S1x32, .f32⟩
  | 39 => ⟨S262144x32, .f32⟩
  | 40 => ⟨S262144x32, .f32⟩
  | 41 => ⟨S262144x32, .f32⟩
  | 42 => ⟨S262144x32, .f32⟩
  | 43 => ⟨S262144x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S262144x32, .f32⟩
  | 50 => ⟨S262144x32, .f32⟩
  | 51 => ⟨S262144x32, .f32⟩
  | 52 => ⟨S262144x32, .f32⟩
  | 53 => ⟨S262144x32, .f32⟩
  | 54 => ⟨S262144x32, .f32⟩
  | 55 => ⟨S262144x32, .f32⟩
  | 56 => ⟨S262144x32, .f32⟩
  | 57 => ⟨S262144x32, .f32⟩
  | 58 => ⟨S262144x32, .f32⟩
  | 59 => ⟨S1x32x1, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S1x32, .f32⟩
  | 66 => ⟨S_, .f32⟩
  | 67 => ⟨S1x32, .f32⟩
  | 68 => ⟨S1x32, .f32⟩
  | 69 => ⟨S1x32, .f32⟩
  | 70 => ⟨S262144x32, .f32⟩
  | 71 => ⟨S262144x32, .f32⟩
  | 72 => ⟨S262144x32, .f32⟩
  | 73 => ⟨S262144x32, .f32⟩
  | 74 => ⟨S262144x32, .f32⟩
  | 75 => ⟨S262144x32, .f32⟩
  | 76 => ⟨S262144x32, .f32⟩
  | 77 => ⟨S262144x32, .f32⟩
  | 78 => ⟨S262144x32, .f32⟩
  | 79 => ⟨S262144x32, .f32⟩
  | 80 => ⟨S262144x32, .f32⟩
  | 81 => ⟨S262144x32, .f32⟩
  | 82 => ⟨S262144x32, .f32⟩
  | 83 => ⟨S262144x32, .f32⟩
  | 84 => ⟨S262144x32, .f32⟩
  | 85 => ⟨S1x32, .f32⟩
  | 86 => ⟨S262144x32, .f32⟩
  | 87 => ⟨S262144x32, .f32⟩
  | 88 => ⟨S262144x32, .f32⟩
  | 89 => ⟨S262144x32, .f32⟩
  | 90 => ⟨S262144x32, .f32⟩
  | 91 => ⟨S1x32x1, .f32⟩
  | 92 => ⟨S32, .f32⟩
  | 93 => ⟨S1x32, .f32⟩
  | 94 => ⟨S_, .f32⟩
  | 95 => ⟨S1x32, .f32⟩
  | 96 => ⟨S1x32, .f32⟩
  | 97 => ⟨S1x32, .f32⟩
  | 98 => ⟨S_, .f32⟩
  | 99 => ⟨S1x32, .f32⟩
  | 100 => ⟨S1x32, .f32⟩
  | 101 => ⟨S1x32, .f32⟩
  | 102 => ⟨S262144x32, .f32⟩
  | 103 => ⟨S262144x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S262144x32, .f32⟩
  | 112 => ⟨S262144x32, .f32⟩
  | 113 => ⟨S262144x32, .f32⟩
  | 114 => ⟨S262144x32, .f32⟩
  | 115 => ⟨S262144x32, .f32⟩
  | 116 => ⟨S262144x32, .f32⟩
  | 117 => ⟨S262144x32, .f32⟩
  | 118 => ⟨S262144x32, .f32⟩
  | 119 => ⟨S262144x32, .f32⟩
  | 120 => ⟨S262144x32, .f32⟩
  | 121 => ⟨S262144x32, .f32⟩
  | 122 => ⟨S1x32x1, .f32⟩
  | 123 => ⟨S32, .f32⟩
  | 124 => ⟨S1x32, .f32⟩
  | 125 => ⟨S_, .f32⟩
  | 126 => ⟨S1x32, .f32⟩
  | 127 => ⟨S1x32, .f32⟩
  | _ => ⟨S262144x32, .f32⟩

abbrev hbmTy0_2 (i : Nat) : BufTy := match i % 128 with
  | 0 => ⟨S1x32, .f32⟩
  | 1 => ⟨S_, .f32⟩
  | 2 => ⟨S1x32, .f32⟩
  | 3 => ⟨S1x32, .f32⟩
  | 4 => ⟨S1x32, .f32⟩
  | 5 => ⟨S262144x32, .f32⟩
  | 6 => ⟨S262144x32, .f32⟩
  | 7 => ⟨S262144x32, .f32⟩
  | 8 => ⟨S262144x32, .f32⟩
  | 9 => ⟨S262144x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S262144x32, .f32⟩
  | 21 => ⟨S262144x32, .f32⟩
  | 22 => ⟨S262144x32, .f32⟩
  | 23 => ⟨S262144x32, .f32⟩
  | 24 => ⟨S262144x32, .f32⟩
  | 25 => ⟨S1x32x1, .f32⟩
  | 26 => ⟨S32, .f32⟩
  | 27 => ⟨S1x32, .f32⟩
  | 28 => ⟨S_, .f32⟩
  | 29 => ⟨S1x32, .f32⟩
  | 30 => ⟨S1x32, .f32⟩
  | 31 => ⟨S1x32, .f32⟩
  | 32 => ⟨S_, .f32⟩
  | 33 => ⟨S1x32, .f32⟩
  | 34 => ⟨S1x32, .f32⟩
  | 35 => ⟨S1x32, .f32⟩
  | 36 => ⟨S262144x32, .f32⟩
  | 37 => ⟨S262144x32, .f32⟩
  | 38 => ⟨S262144x32, .f32⟩
  | 39 => ⟨S262144x32, .f32⟩
  | 40 => ⟨S262144x32, .f32⟩
  | 41 => ⟨S262144x32, .f32⟩
  | 42 => ⟨S262144x32, .f32⟩
  | 43 => ⟨S262144x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S262144x32, .f32⟩
  | 50 => ⟨S262144x32, .f32⟩
  | 51 => ⟨S1x32, .f32⟩
  | 52 => ⟨S262144x32, .f32⟩
  | 53 => ⟨S262144x32, .f32⟩
  | 54 => ⟨S262144x32, .f32⟩
  | 55 => ⟨S262144x32, .f32⟩
  | 56 => ⟨S262144x32, .f32⟩
  | 57 => ⟨S1x32x1, .f32⟩
  | 58 => ⟨S32, .f32⟩
  | 59 => ⟨S1x32, .f32⟩
  | 60 => ⟨S_, .f32⟩
  | 61 => ⟨S1x32, .f32⟩
  | 62 => ⟨S1x32, .f32⟩
  | 63 => ⟨S1x32, .f32⟩
  | 64 => ⟨S_, .f32⟩
  | 65 => ⟨S1x32, .f32⟩
  | 66 => ⟨S1x32, .f32⟩
  | 67 => ⟨S1x32, .f32⟩
  | 68 => ⟨S262144x32, .f32⟩
  | 69 => ⟨S262144x32, .f32⟩
  | 70 => ⟨S262144x32, .f32⟩
  | 71 => ⟨S262144x32, .f32⟩
  | 72 => ⟨S262144x32, .f32⟩
  | 73 => ⟨S262144x32, .f32⟩
  | 74 => ⟨S262144x32, .f32⟩
  | 75 => ⟨S262144x32, .f32⟩
  | 76 => ⟨S262144x32, .f32⟩
  | 77 => ⟨S262144x32, .f32⟩
  | 78 => ⟨S262144x32, .f32⟩
  | 79 => ⟨S262144x32, .f32⟩
  | 80 => ⟨S262144x32, .f32⟩
  | 81 => ⟨S262144x32, .f32⟩
  | 82 => ⟨S262144x32, .f32⟩
  | 83 => ⟨S262144x32, .f32⟩
  | 84 => ⟨S262144x32, .f32⟩
  | 85 => ⟨S262144x32, .f32⟩
  | 86 => ⟨S262144x32, .f32⟩
  | 87 => ⟨S262144x32, .f32⟩
  | 88 => ⟨S1x32x1, .f32⟩
  | 89 => ⟨S32, .f32⟩
  | 90 => ⟨S1x32, .f32⟩
  | 91 => ⟨S_, .f32⟩
  | 92 => ⟨S1x32, .f32⟩
  | 93 => ⟨S1x32, .f32⟩
  | 94 => ⟨S1x32, .f32⟩
  | 95 => ⟨S_, .f32⟩
  | 96 => ⟨S1x32, .f32⟩
  | 97 => ⟨S1x32, .f32⟩
  | 98 => ⟨S1x32, .f32⟩
  | 99 => ⟨S262144x32, .f32⟩
  | 100 => ⟨S262144x32, .f32⟩
  | 101 => ⟨S262144x32, .f32⟩
  | 102 => ⟨S262144x32, .f32⟩
  | 103 => ⟨S262144x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S262144x32, .f32⟩
  | 112 => ⟨S262144x32, .f32⟩
  | 113 => ⟨S262144x32, .f32⟩
  | 114 => ⟨S262144x32, .f32⟩
  | 115 => ⟨S262144x32, .f32⟩
  | 116 => ⟨S262144x32, .f32⟩
  | 117 => ⟨S262144x32, .f32⟩
  | 118 => ⟨S262144x32, .f32⟩
  | 119 => ⟨S1x32x1, .f32⟩
  | 120 => ⟨S32, .f32⟩
  | 121 => ⟨S1x32, .f32⟩
  | 122 => ⟨S_, .f32⟩
  | 123 => ⟨S1x32, .f32⟩
  | 124 => ⟨S1x32, .f32⟩
  | 125 => ⟨S1x32, .f32⟩
  | 126 => ⟨S_, .f32⟩
  | 127 => ⟨S1x32, .f32⟩
  | _ => ⟨S262144x32, .f32⟩

abbrev hbmTy0_3 (i : Nat) : BufTy := match i % 128 with
  | 0 => ⟨S1x32, .f32⟩
  | 1 => ⟨S1x32, .f32⟩
  | 2 => ⟨S262144x32, .f32⟩
  | 3 => ⟨S262144x32, .f32⟩
  | 4 => ⟨S262144x32, .f32⟩
  | 5 => ⟨S262144x32, .f32⟩
  | 6 => ⟨S262144x32, .f32⟩
  | 7 => ⟨S262144x32, .f32⟩
  | 8 => ⟨S262144x32, .f32⟩
  | 9 => ⟨S262144x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S1x32, .f32⟩
  | 18 => ⟨S262144x32, .f32⟩
  | 19 => ⟨S262144x32, .f32⟩
  | 20 => ⟨S262144x32, .f32⟩
  | 21 => ⟨S262144x32, .f32⟩
  | 22 => ⟨S262144x32, .f32⟩
  | 23 => ⟨S1x32x1, .f32⟩
  | 24 => ⟨S32, .f32⟩
  | 25 => ⟨S1x32, .f32⟩
  | 26 => ⟨S_, .f32⟩
  | 27 => ⟨S1x32, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S1x32, .f32⟩
  | 34 => ⟨S262144x32, .f32⟩
  | 35 => ⟨S262144x32, .f32⟩
  | 36 => ⟨S262144x32, .f32⟩
  | 37 => ⟨S262144x32, .f32⟩
  | 38 => ⟨S262144x32, .f32⟩
  | 39 => ⟨S262144x32, .f32⟩
  | 40 => ⟨S262144x32, .f32⟩
  | 41 => ⟨S262144x32, .f32⟩
  | 42 => ⟨S262144x32, .f32⟩
  | 43 => ⟨S262144x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S262144x32, .f32⟩
  | 50 => ⟨S262144x32, .f32⟩
  | 51 => ⟨S262144x32, .f32⟩
  | 52 => ⟨S262144x32, .f32⟩
  | 53 => ⟨S262144x32, .f32⟩
  | 54 => ⟨S1x32x1, .f32⟩
  | 55 => ⟨S32, .f32⟩
  | 56 => ⟨S1x32, .f32⟩
  | 57 => ⟨S_, .f32⟩
  | 58 => ⟨S1x32, .f32⟩
  | 59 => ⟨S1x32, .f32⟩
  | 60 => ⟨S1x32, .f32⟩
  | 61 => ⟨S_, .f32⟩
  | 62 => ⟨S1x32, .f32⟩
  | 63 => ⟨S1x32, .f32⟩
  | 64 => ⟨S1x32, .f32⟩
  | 65 => ⟨S262144x32, .f32⟩
  | 66 => ⟨S262144x32, .f32⟩
  | 67 => ⟨S262144x32, .f32⟩
  | 68 => ⟨S262144x32, .f32⟩
  | 69 => ⟨S262144x32, .f32⟩
  | 70 => ⟨S262144x32, .f32⟩
  | 71 => ⟨S262144x32, .f32⟩
  | 72 => ⟨S262144x32, .f32⟩
  | 73 => ⟨S262144x32, .f32⟩
  | 74 => ⟨S262144x32, .f32⟩
  | 75 => ⟨S262144x32, .f32⟩
  | 76 => ⟨S262144x32, .f32⟩
  | 77 => ⟨S262144x32, .f32⟩
  | 78 => ⟨S262144x32, .f32⟩
  | 79 => ⟨S262144x32, .f32⟩
  | 80 => ⟨S262144x32, .f32⟩
  | 81 => ⟨S262144x32, .f32⟩
  | 82 => ⟨S262144x32, .f32⟩
  | 83 => ⟨S262144x32, .f32⟩
  | 84 => ⟨S262144x32, .f32⟩
  | 85 => ⟨S1x32x1, .f32⟩
  | 86 => ⟨S32, .f32⟩
  | 87 => ⟨S1x32, .f32⟩
  | 88 => ⟨S_, .f32⟩
  | 89 => ⟨S1x32, .f32⟩
  | 90 => ⟨S1x32, .f32⟩
  | 91 => ⟨S1x32, .f32⟩
  | 92 => ⟨S_, .f32⟩
  | 93 => ⟨S1x32, .f32⟩
  | 94 => ⟨S1x32, .f32⟩
  | 95 => ⟨S1x32, .f32⟩
  | 96 => ⟨S262144x32, .f32⟩
  | 97 => ⟨S262144x32, .f32⟩
  | 98 => ⟨S262144x32, .f32⟩
  | 99 => ⟨S262144x32, .f32⟩
  | 100 => ⟨S262144x32, .f32⟩
  | 101 => ⟨S262144x32, .f32⟩
  | 102 => ⟨S262144x32, .f32⟩
  | 103 => ⟨S262144x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S1x32, .f32⟩
  | 112 => ⟨S262144x32, .f32⟩
  | 113 => ⟨S262144x32, .f32⟩
  | 114 => ⟨S262144x32, .f32⟩
  | 115 => ⟨S262144x32, .f32⟩
  | 116 => ⟨S262144x32, .f32⟩
  | 117 => ⟨S1x32x1, .f32⟩
  | 118 => ⟨S32, .f32⟩
  | 119 => ⟨S1x32, .f32⟩
  | 120 => ⟨S_, .f32⟩
  | 121 => ⟨S1x32, .f32⟩
  | 122 => ⟨S1x32, .f32⟩
  | 123 => ⟨S1x32, .f32⟩
  | 124 => ⟨S_, .f32⟩
  | 125 => ⟨S1x32, .f32⟩
  | 126 => ⟨S1x32, .f32⟩
  | 127 => ⟨S1x32, .f32⟩
  | _ => ⟨S262144x32, .f32⟩

abbrev hbmTy0_4 (i : Nat) : BufTy := match i % 128 with
  | 0 => ⟨S262144x32, .f32⟩
  | 1 => ⟨S262144x32, .f32⟩
  | 2 => ⟨S262144x32, .f32⟩
  | 3 => ⟨S262144x32, .f32⟩
  | 4 => ⟨S262144x32, .f32⟩
  | 5 => ⟨S262144x32, .f32⟩
  | 6 => ⟨S262144x32, .f32⟩
  | 7 => ⟨S262144x32, .f32⟩
  | 8 => ⟨S262144x32, .f32⟩
  | 9 => ⟨S262144x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S1x32x1, .f32⟩
  | 21 => ⟨S32, .f32⟩
  | 22 => ⟨S1x32, .f32⟩
  | 23 => ⟨S_, .f32⟩
  | 24 => ⟨S1x32, .f32⟩
  | 25 => ⟨S1x32, .f32⟩
  | 26 => ⟨S1x32, .f32⟩
  | 27 => ⟨S_, .f32⟩
  | 28 => ⟨S1x32, .f32⟩
  | 29 => ⟨S1x32, .f32⟩
  | 30 => ⟨S1x32, .f32⟩
  | 31 => ⟨S262144x32, .f32⟩
  | 32 => ⟨S262144x32, .f32⟩
  | 33 => ⟨S262144x32, .f32⟩
  | 34 => ⟨S262144x32, .f32⟩
  | 35 => ⟨S262144x32, .f32⟩
  | 36 => ⟨S262144x32, .f32⟩
  | 37 => ⟨S262144x32, .f32⟩
  | 38 => ⟨S262144x32, .f32⟩
  | 39 => ⟨S262144x32, .f32⟩
  | 40 => ⟨S262144x32, .f32⟩
  | 41 => ⟨S262144x32, .f32⟩
  | 42 => ⟨S262144x32, .f32⟩
  | 43 => ⟨S262144x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S262144x32, .f32⟩
  | 50 => ⟨S262144x32, .f32⟩
  | 51 => ⟨S1x32x1, .f32⟩
  | 52 => ⟨S32, .f32⟩
  | 53 => ⟨S1x32, .f32⟩
  | 54 => ⟨S_, .f32⟩
  | 55 => ⟨S1x32, .f32⟩
  | 56 => ⟨S1x32, .f32⟩
  | 57 => ⟨S1x32, .f32⟩
  | 58 => ⟨S_, .f32⟩
  | 59 => ⟨S1x32, .f32⟩
  | 60 => ⟨S1x32, .f32⟩
  | 61 => ⟨S1x32, .f32⟩
  | 62 => ⟨S262144x32, .f32⟩
  | 63 => ⟨S262144x32, .f32⟩
  | 64 => ⟨S262144x32, .f32⟩
  | 65 => ⟨S262144x32, .f32⟩
  | 66 => ⟨S262144x32, .f32⟩
  | 67 => ⟨S262144x32, .f32⟩
  | 68 => ⟨S262144x32, .f32⟩
  | 69 => ⟨S262144x32, .f32⟩
  | 70 => ⟨S262144x32, .f32⟩
  | 71 => ⟨S262144x32, .f32⟩
  | 72 => ⟨S262144x32, .f32⟩
  | 73 => ⟨S262144x32, .f32⟩
  | 74 => ⟨S262144x32, .f32⟩
  | 75 => ⟨S262144x32, .f32⟩
  | 76 => ⟨S262144x32, .f32⟩
  | 77 => ⟨S1x32, .f32⟩
  | 78 => ⟨S262144x32, .f32⟩
  | 79 => ⟨S262144x32, .f32⟩
  | 80 => ⟨S262144x32, .f32⟩
  | 81 => ⟨S262144x32, .f32⟩
  | 82 => ⟨S262144x32, .f32⟩
  | 83 => ⟨S1x32x1, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S1x32, .f32⟩
  | 90 => ⟨S_, .f32⟩
  | 91 => ⟨S1x32, .f32⟩
  | 92 => ⟨S1x32, .f32⟩
  | 93 => ⟨S1x32, .f32⟩
  | 94 => ⟨S262144x32, .f32⟩
  | 95 => ⟨S262144x32, .f32⟩
  | 96 => ⟨S262144x32, .f32⟩
  | 97 => ⟨S262144x32, .f32⟩
  | 98 => ⟨S262144x32, .f32⟩
  | 99 => ⟨S262144x32, .f32⟩
  | 100 => ⟨S262144x32, .f32⟩
  | 101 => ⟨S262144x32, .f32⟩
  | 102 => ⟨S262144x32, .f32⟩
  | 103 => ⟨S262144x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S262144x32, .f32⟩
  | 112 => ⟨S262144x32, .f32⟩
  | 113 => ⟨S262144x32, .f32⟩
  | 114 => ⟨S1x32x1, .f32⟩
  | 115 => ⟨S32, .f32⟩
  | 116 => ⟨S1x32, .f32⟩
  | 117 => ⟨S_, .f32⟩
  | 118 => ⟨S1x32, .f32⟩
  | 119 => ⟨S1x32, .f32⟩
  | 120 => ⟨S1x32, .f32⟩
  | 121 => ⟨S_, .f32⟩
  | 122 => ⟨S1x32, .f32⟩
  | 123 => ⟨S1x32, .f32⟩
  | 124 => ⟨S1x32, .f32⟩
  | 125 => ⟨S262144x32, .f32⟩
  | 126 => ⟨S262144x32, .f32⟩
  | 127 => ⟨S262144x32, .f32⟩
  | _ => ⟨S262144x32, .f32⟩

abbrev hbmTy0_5 (i : Nat) : BufTy := match i % 128 with
  | 0 => ⟨S262144x32, .f32⟩
  | 1 => ⟨S262144x32, .f32⟩
  | 2 => ⟨S262144x32, .f32⟩
  | 3 => ⟨S262144x32, .f32⟩
  | 4 => ⟨S262144x32, .f32⟩
  | 5 => ⟨S262144x32, .f32⟩
  | 6 => ⟨S262144x32, .f32⟩
  | 7 => ⟨S262144x32, .f32⟩
  | 8 => ⟨S262144x32, .f32⟩
  | 9 => ⟨S262144x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S1x32x1, .f32⟩
  | 18 => ⟨S32, .f32⟩
  | 19 => ⟨S1x32, .f32⟩
  | 20 => ⟨S_, .f32⟩
  | 21 => ⟨S1x32, .f32⟩
  | 22 => ⟨S1x32, .f32⟩
  | 23 => ⟨S1x32, .f32⟩
  | 24 => ⟨S_, .f32⟩
  | 25 => ⟨S1x32, .f32⟩
  | 26 => ⟨S1x32, .f32⟩
  | 27 => ⟨S1x32, .f32⟩
  | 28 => ⟨S262144x32, .f32⟩
  | 29 => ⟨S262144x32, .f32⟩
  | 30 => ⟨S262144x32, .f32⟩
  | 31 => ⟨S262144x32, .f32⟩
  | 32 => ⟨S262144x32, .f32⟩
  | 33 => ⟨S262144x32, .f32⟩
  | 34 => ⟨S262144x32, .f32⟩
  | 35 => ⟨S262144x32, .f32⟩
  | 36 => ⟨S262144x32, .f32⟩
  | 37 => ⟨S262144x32, .f32⟩
  | 38 => ⟨S262144x32, .f32⟩
  | 39 => ⟨S262144x32, .f32⟩
  | 40 => ⟨S262144x32, .f32⟩
  | 41 => ⟨S262144x32, .f32⟩
  | 42 => ⟨S262144x32, .f32⟩
  | 43 => ⟨S1x32, .f32⟩
  | 44 => ⟨S262144x32, .f32⟩
  | 45 => ⟨S262144x32, .f32⟩
  | 46 => ⟨S262144x32, .f32⟩
  | 47 => ⟨S262144x32, .f32⟩
  | 48 => ⟨S262144x32, .f32⟩
  | 49 => ⟨S1x32x1, .f32⟩
  | 50 => ⟨S32, .f32⟩
  | 51 => ⟨S1x32, .f32⟩
  | 52 => ⟨S_, .f32⟩
  | 53 => ⟨S1x32, .f32⟩
  | 54 => ⟨S1x32, .f32⟩
  | 55 => ⟨S1x32, .f32⟩
  | 56 => ⟨S_, .f32⟩
  | 57 => ⟨S1x32, .f32⟩
  | 58 => ⟨S1x32, .f32⟩
  | 59 => ⟨S1x32, .f32⟩
  | 60 => ⟨S262144x32, .f32⟩
  | 61 => ⟨S262144x32, .f32⟩
  | 62 => ⟨S262144x32, .f32⟩
  | 63 => ⟨S262144x32, .f32⟩
  | 64 => ⟨S262144x32, .f32⟩
  | 65 => ⟨S262144x32, .f32⟩
  | 66 => ⟨S262144x32, .f32⟩
  | 67 => ⟨S262144x32, .f32⟩
  | 68 => ⟨S262144x32, .f32⟩
  | 69 => ⟨S262144x32, .f32⟩
  | 70 => ⟨S262144x32, .f32⟩
  | 71 => ⟨S262144x32, .f32⟩
  | 72 => ⟨S262144x32, .f32⟩
  | 73 => ⟨S262144x32, .f32⟩
  | 74 => ⟨S262144x32, .f32⟩
  | 75 => ⟨S262144x32, .f32⟩
  | 76 => ⟨S262144x32, .f32⟩
  | 77 => ⟨S262144x32, .f32⟩
  | 78 => ⟨S262144x32, .f32⟩
  | 79 => ⟨S262144x32, .f32⟩
  | 80 => ⟨S1x32x1, .f32⟩
  | 81 => ⟨S32, .f32⟩
  | 82 => ⟨S1x32, .f32⟩
  | 83 => ⟨S_, .f32⟩
  | 84 => ⟨S1x32, .f32⟩
  | 85 => ⟨S1x32, .f32⟩
  | 86 => ⟨S1x32, .f32⟩
  | 87 => ⟨S_, .f32⟩
  | 88 => ⟨S1x32, .f32⟩
  | 89 => ⟨S1x32, .f32⟩
  | 90 => ⟨S1x32, .f32⟩
  | 91 => ⟨S262144x32, .f32⟩
  | 92 => ⟨S262144x32, .f32⟩
  | 93 => ⟨S262144x32, .f32⟩
  | 94 => ⟨S262144x32, .f32⟩
  | 95 => ⟨S262144x32, .f32⟩
  | 96 => ⟨S262144x32, .f32⟩
  | 97 => ⟨S262144x32, .f32⟩
  | 98 => ⟨S262144x32, .f32⟩
  | 99 => ⟨S262144x32, .f32⟩
  | 100 => ⟨S262144x32, .f32⟩
  | 101 => ⟨S262144x32, .f32⟩
  | 102 => ⟨S262144x32, .f32⟩
  | 103 => ⟨S262144x32, .f32⟩
  | 104 => ⟨S262144x32, .f32⟩
  | 105 => ⟨S262144x32, .f32⟩
  | 106 => ⟨S262144x32, .f32⟩
  | 107 => ⟨S262144x32, .f32⟩
  | 108 => ⟨S262144x32, .f32⟩
  | 109 => ⟨S262144x32, .f32⟩
  | 110 => ⟨S262144x32, .f32⟩
  | 111 => ⟨S1x32x1, .f32⟩
  | 112 => ⟨S32, .f32⟩
  | 113 => ⟨S1x32, .f32⟩
  | 114 => ⟨S_, .f32⟩
  | 115 => ⟨S1x32, .f32⟩
  | 116 => ⟨S1x32, .f32⟩
  | 117 => ⟨S1x32, .f32⟩
  | 118 => ⟨S_, .f32⟩
  | 119 => ⟨S1x32, .f32⟩
  | 120 => ⟨S1x32, .f32⟩
  | 121 => ⟨S1x32, .f32⟩
  | 122 => ⟨S262144x32, .f32⟩
  | 123 => ⟨S262144x32, .f32⟩
  | 124 => ⟨S262144x32, .f32⟩
  | 125 => ⟨S262144x32, .f32⟩
  | 126 => ⟨S262144x32, .f32⟩
  | 127 => ⟨S262144x32, .f32⟩
  | _ => ⟨S262144x32, .f32⟩

abbrev hbmTy0_6 (i : Nat) : BufTy := match i % 128 with
  | 0 => ⟨S262144x32, .f32⟩
  | 1 => ⟨S262144x32, .f32⟩
  | 2 => ⟨S262144x32, .f32⟩
  | 3 => ⟨S262144x32, .f32⟩
  | 4 => ⟨S262144x32, .f32⟩
  | 5 => ⟨S262144x32, .f32⟩
  | 6 => ⟨S262144x32, .f32⟩
  | 7 => ⟨S262144x32, .f32⟩
  | 8 => ⟨S262144x32, .f32⟩
  | 9 => ⟨S1x32, .f32⟩
  | 10 => ⟨S262144x32, .f32⟩
  | 11 => ⟨S262144x32, .f32⟩
  | 12 => ⟨S262144x32, .f32⟩
  | 13 => ⟨S262144x32, .f32⟩
  | 14 => ⟨S262144x32, .f32⟩
  | 15 => ⟨S262144x32, .f32⟩
  | 16 => ⟨S262144x32, .f32⟩
  | 17 => ⟨S262144x32, .f32⟩
  | 18 => ⟨S262144x32, .f32⟩
  | 19 => ⟨S262144x32, .f32⟩
  | 20 => ⟨S262144x32, .f32⟩
  | 21 => ⟨S262144x32, .f32⟩
  | _ => ⟨S262144x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S262144x32, .f32⟩

abbrev bufTy : (tb : Table) → Fin (tcTables nBuf tb) → BufTy
  | .hbm, ⟨i, _⟩ => hbmTy i
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_7 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_9 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_10 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_11 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_cst_12 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_cst_13 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_14 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_cst_15 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_cst_16 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_cst_17 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_cst_18 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_cst_19 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_cst_20 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_cst_21 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_cst_22 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_cst_23 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_cst_24 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_cst_25 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_cst_26 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_cst_27 : Ref sig .tc := ⟨.hbm, 378, rfl⟩
abbrev main_v348 : Ref sig .tc := ⟨.hbm, 379, rfl⟩
abbrev main_v349 : Ref sig .tc := ⟨.hbm, 380, rfl⟩
abbrev main_v350 : Ref sig .tc := ⟨.hbm, 381, rfl⟩
abbrev main_cst_28 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_v354 : Ref sig .tc := ⟨.hbm, 386, rfl⟩
abbrev main_v355 : Ref sig .tc := ⟨.hbm, 387, rfl⟩
abbrev main_v356 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_v371 : Ref sig .tc := ⟨.hbm, 403, rfl⟩
abbrev main_v372 : Ref sig .tc := ⟨.hbm, 404, rfl⟩
abbrev main_v373 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_cst_29 : Ref sig .tc := ⟨.hbm, 410, rfl⟩
abbrev main_v378 : Ref sig .tc := ⟨.hbm, 411, rfl⟩
abbrev main_v379 : Ref sig .tc := ⟨.hbm, 412, rfl⟩
abbrev main_v380 : Ref sig .tc := ⟨.hbm, 413, rfl⟩
abbrev main_cst_30 : Ref sig .tc := ⟨.hbm, 414, rfl⟩
abbrev main_v381 : Ref sig .tc := ⟨.hbm, 415, rfl⟩
abbrev main_v382 : Ref sig .tc := ⟨.hbm, 416, rfl⟩
abbrev main_v383 : Ref sig .tc := ⟨.hbm, 417, rfl⟩
abbrev main_v384 : Ref sig .tc := ⟨.hbm, 418, rfl⟩
abbrev main_v385 : Ref sig .tc := ⟨.hbm, 419, rfl⟩
abbrev main_v386 : Ref sig .tc := ⟨.hbm, 420, rfl⟩
abbrev main_v387 : Ref sig .tc := ⟨.hbm, 421, rfl⟩
abbrev main_v388 : Ref sig .tc := ⟨.hbm, 422, rfl⟩
abbrev main_v389 : Ref sig .tc := ⟨.hbm, 423, rfl⟩
abbrev main_v390 : Ref sig .tc := ⟨.hbm, 424, rfl⟩
abbrev main_v391 : Ref sig .tc := ⟨.hbm, 425, rfl⟩
abbrev main_v392 : Ref sig .tc := ⟨.hbm, 426, rfl⟩
abbrev main_v393 : Ref sig .tc := ⟨.hbm, 427, rfl⟩
abbrev main_v394 : Ref sig .tc := ⟨.hbm, 428, rfl⟩
abbrev main_v395 : Ref sig .tc := ⟨.hbm, 429, rfl⟩
abbrev main_v396 : Ref sig .tc := ⟨.hbm, 430, rfl⟩
abbrev main_v397 : Ref sig .tc := ⟨.hbm, 431, rfl⟩
abbrev main_v398 : Ref sig .tc := ⟨.hbm, 432, rfl⟩
abbrev main_v399 : Ref sig .tc := ⟨.hbm, 433, rfl⟩
abbrev main_v400 : Ref sig .tc := ⟨.hbm, 434, rfl⟩
abbrev main_v401 : Ref sig .tc := ⟨.hbm, 435, rfl⟩
abbrev main_v402 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_cst_31 : Ref sig .tc := ⟨.hbm, 441, rfl⟩
abbrev main_v407 : Ref sig .tc := ⟨.hbm, 442, rfl⟩
abbrev main_v408 : Ref sig .tc := ⟨.hbm, 443, rfl⟩
abbrev main_v409 : Ref sig .tc := ⟨.hbm, 444, rfl⟩
abbrev main_cst_32 : Ref sig .tc := ⟨.hbm, 445, rfl⟩
abbrev main_v410 : Ref sig .tc := ⟨.hbm, 446, rfl⟩
abbrev main_v411 : Ref sig .tc := ⟨.hbm, 447, rfl⟩
abbrev main_v412 : Ref sig .tc := ⟨.hbm, 448, rfl⟩
abbrev main_v413 : Ref sig .tc := ⟨.hbm, 449, rfl⟩
abbrev main_v414 : Ref sig .tc := ⟨.hbm, 450, rfl⟩
abbrev main_v415 : Ref sig .tc := ⟨.hbm, 451, rfl⟩
abbrev main_v416 : Ref sig .tc := ⟨.hbm, 452, rfl⟩
abbrev main_v417 : Ref sig .tc := ⟨.hbm, 453, rfl⟩
abbrev main_v418 : Ref sig .tc := ⟨.hbm, 454, rfl⟩
abbrev main_v419 : Ref sig .tc := ⟨.hbm, 455, rfl⟩
abbrev main_v420 : Ref sig .tc := ⟨.hbm, 456, rfl⟩
abbrev main_v421 : Ref sig .tc := ⟨.hbm, 457, rfl⟩
abbrev main_v422 : Ref sig .tc := ⟨.hbm, 458, rfl⟩
abbrev main_v423 : Ref sig .tc := ⟨.hbm, 459, rfl⟩
abbrev main_v424 : Ref sig .tc := ⟨.hbm, 460, rfl⟩
abbrev main_v425 : Ref sig .tc := ⟨.hbm, 461, rfl⟩
abbrev main_v426 : Ref sig .tc := ⟨.hbm, 462, rfl⟩
abbrev main_v427 : Ref sig .tc := ⟨.hbm, 463, rfl⟩
abbrev main_v428 : Ref sig .tc := ⟨.hbm, 464, rfl⟩
abbrev main_v429 : Ref sig .tc := ⟨.hbm, 465, rfl⟩
abbrev main_v430 : Ref sig .tc := ⟨.hbm, 466, rfl⟩
abbrev main_v431 : Ref sig .tc := ⟨.hbm, 467, rfl⟩
abbrev main_v432 : Ref sig .tc := ⟨.hbm, 468, rfl⟩
abbrev main_v433 : Ref sig .tc := ⟨.hbm, 469, rfl⟩
abbrev main_v434 : Ref sig .tc := ⟨.hbm, 470, rfl⟩
abbrev main_v435 : Ref sig .tc := ⟨.hbm, 471, rfl⟩
abbrev main_cst_33 : Ref sig .tc := ⟨.hbm, 472, rfl⟩
abbrev main_v436 : Ref sig .tc := ⟨.hbm, 473, rfl⟩
abbrev main_v437 : Ref sig .tc := ⟨.hbm, 474, rfl⟩
abbrev main_v438 : Ref sig .tc := ⟨.hbm, 475, rfl⟩
abbrev main_cst_34 : Ref sig .tc := ⟨.hbm, 476, rfl⟩
abbrev main_v439 : Ref sig .tc := ⟨.hbm, 477, rfl⟩
abbrev main_v440 : Ref sig .tc := ⟨.hbm, 478, rfl⟩
abbrev main_v441 : Ref sig .tc := ⟨.hbm, 479, rfl⟩
abbrev main_v442 : Ref sig .tc := ⟨.hbm, 480, rfl⟩
abbrev main_v443 : Ref sig .tc := ⟨.hbm, 481, rfl⟩
abbrev main_v444 : Ref sig .tc := ⟨.hbm, 482, rfl⟩
abbrev main_v445 : Ref sig .tc := ⟨.hbm, 483, rfl⟩
abbrev main_v446 : Ref sig .tc := ⟨.hbm, 484, rfl⟩
abbrev main_v447 : Ref sig .tc := ⟨.hbm, 485, rfl⟩
abbrev main_v448 : Ref sig .tc := ⟨.hbm, 486, rfl⟩
abbrev main_v449 : Ref sig .tc := ⟨.hbm, 487, rfl⟩
abbrev main_v450 : Ref sig .tc := ⟨.hbm, 488, rfl⟩
abbrev main_v451 : Ref sig .tc := ⟨.hbm, 489, rfl⟩
abbrev main_v452 : Ref sig .tc := ⟨.hbm, 490, rfl⟩
abbrev main_v453 : Ref sig .tc := ⟨.hbm, 491, rfl⟩
abbrev main_v454 : Ref sig .tc := ⟨.hbm, 492, rfl⟩
abbrev main_v455 : Ref sig .tc := ⟨.hbm, 493, rfl⟩
abbrev main_v456 : Ref sig .tc := ⟨.hbm, 494, rfl⟩
abbrev main_v457 : Ref sig .tc := ⟨.hbm, 495, rfl⟩
abbrev main_v458 : Ref sig .tc := ⟨.hbm, 496, rfl⟩
abbrev main_v459 : Ref sig .tc := ⟨.hbm, 497, rfl⟩
abbrev main_v460 : Ref sig .tc := ⟨.hbm, 498, rfl⟩
abbrev main_v461 : Ref sig .tc := ⟨.hbm, 499, rfl⟩
abbrev main_v462 : Ref sig .tc := ⟨.hbm, 500, rfl⟩
abbrev main_v463 : Ref sig .tc := ⟨.hbm, 501, rfl⟩
abbrev main_v464 : Ref sig .tc := ⟨.hbm, 502, rfl⟩
abbrev main_v465 : Ref sig .tc := ⟨.hbm, 503, rfl⟩
abbrev main_cst_35 : Ref sig .tc := ⟨.hbm, 504, rfl⟩
abbrev main_v466 : Ref sig .tc := ⟨.hbm, 505, rfl⟩
abbrev main_v467 : Ref sig .tc := ⟨.hbm, 506, rfl⟩
abbrev main_v468 : Ref sig .tc := ⟨.hbm, 507, rfl⟩
abbrev main_cst_36 : Ref sig .tc := ⟨.hbm, 508, rfl⟩
abbrev main_v469 : Ref sig .tc := ⟨.hbm, 509, rfl⟩
abbrev main_v470 : Ref sig .tc := ⟨.hbm, 510, rfl⟩
abbrev main_v471 : Ref sig .tc := ⟨.hbm, 511, rfl⟩
abbrev main_v472 : Ref sig .tc := ⟨.hbm, 512, rfl⟩
abbrev main_v473 : Ref sig .tc := ⟨.hbm, 513, rfl⟩
abbrev main_v474 : Ref sig .tc := ⟨.hbm, 514, rfl⟩
abbrev main_v475 : Ref sig .tc := ⟨.hbm, 515, rfl⟩
abbrev main_v476 : Ref sig .tc := ⟨.hbm, 516, rfl⟩
abbrev main_v477 : Ref sig .tc := ⟨.hbm, 517, rfl⟩
abbrev main_v478 : Ref sig .tc := ⟨.hbm, 518, rfl⟩
abbrev main_v479 : Ref sig .tc := ⟨.hbm, 519, rfl⟩
abbrev main_v480 : Ref sig .tc := ⟨.hbm, 520, rfl⟩
abbrev main_v481 : Ref sig .tc := ⟨.hbm, 521, rfl⟩
abbrev main_v482 : Ref sig .tc := ⟨.hbm, 522, rfl⟩
abbrev main_v483 : Ref sig .tc := ⟨.hbm, 523, rfl⟩
abbrev main_v484 : Ref sig .tc := ⟨.hbm, 524, rfl⟩
abbrev main_v485 : Ref sig .tc := ⟨.hbm, 525, rfl⟩
abbrev main_v486 : Ref sig .tc := ⟨.hbm, 526, rfl⟩
abbrev main_v487 : Ref sig .tc := ⟨.hbm, 527, rfl⟩
abbrev main_v488 : Ref sig .tc := ⟨.hbm, 528, rfl⟩
abbrev main_v489 : Ref sig .tc := ⟨.hbm, 529, rfl⟩
abbrev main_v490 : Ref sig .tc := ⟨.hbm, 530, rfl⟩
abbrev main_v491 : Ref sig .tc := ⟨.hbm, 531, rfl⟩
abbrev main_v492 : Ref sig .tc := ⟨.hbm, 532, rfl⟩
abbrev main_v493 : Ref sig .tc := ⟨.hbm, 533, rfl⟩
abbrev main_v494 : Ref sig .tc := ⟨.hbm, 534, rfl⟩
abbrev main_cst_37 : Ref sig .tc := ⟨.hbm, 535, rfl⟩
abbrev main_v495 : Ref sig .tc := ⟨.hbm, 536, rfl⟩
abbrev main_v496 : Ref sig .tc := ⟨.hbm, 537, rfl⟩
abbrev main_v497 : Ref sig .tc := ⟨.hbm, 538, rfl⟩
abbrev main_cst_38 : Ref sig .tc := ⟨.hbm, 539, rfl⟩
abbrev main_v498 : Ref sig .tc := ⟨.hbm, 540, rfl⟩
abbrev main_v499 : Ref sig .tc := ⟨.hbm, 541, rfl⟩
abbrev main_v500 : Ref sig .tc := ⟨.hbm, 542, rfl⟩
abbrev main_v501 : Ref sig .tc := ⟨.hbm, 543, rfl⟩
abbrev main_v502 : Ref sig .tc := ⟨.hbm, 544, rfl⟩
abbrev main_v503 : Ref sig .tc := ⟨.hbm, 545, rfl⟩
abbrev main_v504 : Ref sig .tc := ⟨.hbm, 546, rfl⟩
abbrev main_v505 : Ref sig .tc := ⟨.hbm, 547, rfl⟩
abbrev main_v506 : Ref sig .tc := ⟨.hbm, 548, rfl⟩
abbrev main_v507 : Ref sig .tc := ⟨.hbm, 549, rfl⟩
abbrev main_v508 : Ref sig .tc := ⟨.hbm, 550, rfl⟩
abbrev main_v509 : Ref sig .tc := ⟨.hbm, 551, rfl⟩
abbrev main_v510 : Ref sig .tc := ⟨.hbm, 552, rfl⟩
abbrev main_v511 : Ref sig .tc := ⟨.hbm, 553, rfl⟩
abbrev main_v512 : Ref sig .tc := ⟨.hbm, 554, rfl⟩
abbrev main_v513 : Ref sig .tc := ⟨.hbm, 555, rfl⟩
abbrev main_v514 : Ref sig .tc := ⟨.hbm, 556, rfl⟩
abbrev main_v515 : Ref sig .tc := ⟨.hbm, 557, rfl⟩
abbrev main_v516 : Ref sig .tc := ⟨.hbm, 558, rfl⟩
abbrev main_v517 : Ref sig .tc := ⟨.hbm, 559, rfl⟩
abbrev main_v518 : Ref sig .tc := ⟨.hbm, 560, rfl⟩
abbrev main_v519 : Ref sig .tc := ⟨.hbm, 561, rfl⟩
abbrev main_v520 : Ref sig .tc := ⟨.hbm, 562, rfl⟩
abbrev main_v521 : Ref sig .tc := ⟨.hbm, 563, rfl⟩
abbrev main_v522 : Ref sig .tc := ⟨.hbm, 564, rfl⟩
abbrev main_v523 : Ref sig .tc := ⟨.hbm, 565, rfl⟩
abbrev main_cst_39 : Ref sig .tc := ⟨.hbm, 566, rfl⟩
abbrev main_v524 : Ref sig .tc := ⟨.hbm, 567, rfl⟩
abbrev main_v525 : Ref sig .tc := ⟨.hbm, 568, rfl⟩
abbrev main_v526 : Ref sig .tc := ⟨.hbm, 569, rfl⟩
abbrev main_cst_40 : Ref sig .tc := ⟨.hbm, 570, rfl⟩
abbrev main_v527 : Ref sig .tc := ⟨.hbm, 571, rfl⟩
abbrev main_v528 : Ref sig .tc := ⟨.hbm, 572, rfl⟩
abbrev main_v529 : Ref sig .tc := ⟨.hbm, 573, rfl⟩
abbrev main_v530 : Ref sig .tc := ⟨.hbm, 574, rfl⟩
abbrev main_v531 : Ref sig .tc := ⟨.hbm, 575, rfl⟩
abbrev main_v532 : Ref sig .tc := ⟨.hbm, 576, rfl⟩
abbrev main_v533 : Ref sig .tc := ⟨.hbm, 577, rfl⟩
abbrev main_v534 : Ref sig .tc := ⟨.hbm, 578, rfl⟩
abbrev main_v535 : Ref sig .tc := ⟨.hbm, 579, rfl⟩
abbrev main_v536 : Ref sig .tc := ⟨.hbm, 580, rfl⟩
abbrev main_v537 : Ref sig .tc := ⟨.hbm, 581, rfl⟩
abbrev main_v538 : Ref sig .tc := ⟨.hbm, 582, rfl⟩
abbrev main_v539 : Ref sig .tc := ⟨.hbm, 583, rfl⟩
abbrev main_v540 : Ref sig .tc := ⟨.hbm, 584, rfl⟩
abbrev main_v541 : Ref sig .tc := ⟨.hbm, 585, rfl⟩
abbrev main_v542 : Ref sig .tc := ⟨.hbm, 586, rfl⟩
abbrev main_v543 : Ref sig .tc := ⟨.hbm, 587, rfl⟩
abbrev main_v544 : Ref sig .tc := ⟨.hbm, 588, rfl⟩
abbrev main_v545 : Ref sig .tc := ⟨.hbm, 589, rfl⟩
abbrev main_v546 : Ref sig .tc := ⟨.hbm, 590, rfl⟩
abbrev main_v547 : Ref sig .tc := ⟨.hbm, 591, rfl⟩
abbrev main_v548 : Ref sig .tc := ⟨.hbm, 592, rfl⟩
abbrev main_v549 : Ref sig .tc := ⟨.hbm, 593, rfl⟩
abbrev main_v550 : Ref sig .tc := ⟨.hbm, 594, rfl⟩
abbrev main_v551 : Ref sig .tc := ⟨.hbm, 595, rfl⟩
abbrev main_v552 : Ref sig .tc := ⟨.hbm, 596, rfl⟩
abbrev main_v553 : Ref sig .tc := ⟨.hbm, 597, rfl⟩
abbrev main_cst_41 : Ref sig .tc := ⟨.hbm, 598, rfl⟩
abbrev main_v554 : Ref sig .tc := ⟨.hbm, 599, rfl⟩
abbrev main_v555 : Ref sig .tc := ⟨.hbm, 600, rfl⟩
abbrev main_v556 : Ref sig .tc := ⟨.hbm, 601, rfl⟩
abbrev main_cst_42 : Ref sig .tc := ⟨.hbm, 602, rfl⟩
abbrev main_v557 : Ref sig .tc := ⟨.hbm, 603, rfl⟩
abbrev main_v558 : Ref sig .tc := ⟨.hbm, 604, rfl⟩
abbrev main_v559 : Ref sig .tc := ⟨.hbm, 605, rfl⟩
abbrev main_v560 : Ref sig .tc := ⟨.hbm, 606, rfl⟩
abbrev main_v561 : Ref sig .tc := ⟨.hbm, 607, rfl⟩
abbrev main_v562 : Ref sig .tc := ⟨.hbm, 608, rfl⟩
abbrev main_v563 : Ref sig .tc := ⟨.hbm, 609, rfl⟩
abbrev main_v564 : Ref sig .tc := ⟨.hbm, 610, rfl⟩
abbrev main_v565 : Ref sig .tc := ⟨.hbm, 611, rfl⟩
abbrev main_v566 : Ref sig .tc := ⟨.hbm, 612, rfl⟩
abbrev main_v567 : Ref sig .tc := ⟨.hbm, 613, rfl⟩
abbrev main_v568 : Ref sig .tc := ⟨.hbm, 614, rfl⟩
abbrev main_v569 : Ref sig .tc := ⟨.hbm, 615, rfl⟩
abbrev main_v570 : Ref sig .tc := ⟨.hbm, 616, rfl⟩
abbrev main_v571 : Ref sig .tc := ⟨.hbm, 617, rfl⟩
abbrev main_v572 : Ref sig .tc := ⟨.hbm, 618, rfl⟩
abbrev main_v573 : Ref sig .tc := ⟨.hbm, 619, rfl⟩
abbrev main_v574 : Ref sig .tc := ⟨.hbm, 620, rfl⟩
abbrev main_v575 : Ref sig .tc := ⟨.hbm, 621, rfl⟩
abbrev main_v576 : Ref sig .tc := ⟨.hbm, 622, rfl⟩
abbrev main_v577 : Ref sig .tc := ⟨.hbm, 623, rfl⟩
abbrev main_v578 : Ref sig .tc := ⟨.hbm, 624, rfl⟩
abbrev main_v579 : Ref sig .tc := ⟨.hbm, 625, rfl⟩
abbrev main_v580 : Ref sig .tc := ⟨.hbm, 626, rfl⟩
abbrev main_v581 : Ref sig .tc := ⟨.hbm, 627, rfl⟩
abbrev main_v582 : Ref sig .tc := ⟨.hbm, 628, rfl⟩
abbrev main_cst_43 : Ref sig .tc := ⟨.hbm, 629, rfl⟩
abbrev main_v583 : Ref sig .tc := ⟨.hbm, 630, rfl⟩
abbrev main_v584 : Ref sig .tc := ⟨.hbm, 631, rfl⟩
abbrev main_v585 : Ref sig .tc := ⟨.hbm, 632, rfl⟩
abbrev main_cst_44 : Ref sig .tc := ⟨.hbm, 633, rfl⟩
abbrev main_v586 : Ref sig .tc := ⟨.hbm, 634, rfl⟩
abbrev main_v587 : Ref sig .tc := ⟨.hbm, 635, rfl⟩
abbrev main_v588 : Ref sig .tc := ⟨.hbm, 636, rfl⟩
abbrev main_v589 : Ref sig .tc := ⟨.hbm, 637, rfl⟩
abbrev main_v590 : Ref sig .tc := ⟨.hbm, 638, rfl⟩
abbrev main_v591 : Ref sig .tc := ⟨.hbm, 639, rfl⟩
abbrev main_v592 : Ref sig .tc := ⟨.hbm, 640, rfl⟩
abbrev main_v593 : Ref sig .tc := ⟨.hbm, 641, rfl⟩
abbrev main_v594 : Ref sig .tc := ⟨.hbm, 642, rfl⟩
abbrev main_v595 : Ref sig .tc := ⟨.hbm, 643, rfl⟩
abbrev main_v596 : Ref sig .tc := ⟨.hbm, 644, rfl⟩
abbrev main_v597 : Ref sig .tc := ⟨.hbm, 645, rfl⟩
abbrev main_v598 : Ref sig .tc := ⟨.hbm, 646, rfl⟩
abbrev main_v599 : Ref sig .tc := ⟨.hbm, 647, rfl⟩
abbrev main_v600 : Ref sig .tc := ⟨.hbm, 648, rfl⟩
abbrev main_v601 : Ref sig .tc := ⟨.hbm, 649, rfl⟩
abbrev main_v602 : Ref sig .tc := ⟨.hbm, 650, rfl⟩
abbrev main_v603 : Ref sig .tc := ⟨.hbm, 651, rfl⟩
abbrev main_v604 : Ref sig .tc := ⟨.hbm, 652, rfl⟩
abbrev main_v605 : Ref sig .tc := ⟨.hbm, 653, rfl⟩
abbrev main_v606 : Ref sig .tc := ⟨.hbm, 654, rfl⟩
abbrev main_v607 : Ref sig .tc := ⟨.hbm, 655, rfl⟩
abbrev main_v608 : Ref sig .tc := ⟨.hbm, 656, rfl⟩
abbrev main_v609 : Ref sig .tc := ⟨.hbm, 657, rfl⟩
abbrev main_v610 : Ref sig .tc := ⟨.hbm, 658, rfl⟩
abbrev main_v611 : Ref sig .tc := ⟨.hbm, 659, rfl⟩
abbrev main_cst_45 : Ref sig .tc := ⟨.hbm, 660, rfl⟩
abbrev main_v612 : Ref sig .tc := ⟨.hbm, 661, rfl⟩
abbrev main_v613 : Ref sig .tc := ⟨.hbm, 662, rfl⟩
abbrev main_v614 : Ref sig .tc := ⟨.hbm, 663, rfl⟩
abbrev main_cst_46 : Ref sig .tc := ⟨.hbm, 664, rfl⟩
abbrev main_v615 : Ref sig .tc := ⟨.hbm, 665, rfl⟩
abbrev main_v616 : Ref sig .tc := ⟨.hbm, 666, rfl⟩
abbrev main_v617 : Ref sig .tc := ⟨.hbm, 667, rfl⟩
abbrev main_v618 : Ref sig .tc := ⟨.hbm, 668, rfl⟩
abbrev main_v619 : Ref sig .tc := ⟨.hbm, 669, rfl⟩
abbrev main_v620 : Ref sig .tc := ⟨.hbm, 670, rfl⟩
abbrev main_v621 : Ref sig .tc := ⟨.hbm, 671, rfl⟩
abbrev main_v622 : Ref sig .tc := ⟨.hbm, 672, rfl⟩
abbrev main_v623 : Ref sig .tc := ⟨.hbm, 673, rfl⟩
abbrev main_v624 : Ref sig .tc := ⟨.hbm, 674, rfl⟩
abbrev main_v625 : Ref sig .tc := ⟨.hbm, 675, rfl⟩
abbrev main_v626 : Ref sig .tc := ⟨.hbm, 676, rfl⟩
abbrev main_v627 : Ref sig .tc := ⟨.hbm, 677, rfl⟩
abbrev main_v628 : Ref sig .tc := ⟨.hbm, 678, rfl⟩
abbrev main_v629 : Ref sig .tc := ⟨.hbm, 679, rfl⟩
abbrev main_v630 : Ref sig .tc := ⟨.hbm, 680, rfl⟩
abbrev main_v631 : Ref sig .tc := ⟨.hbm, 681, rfl⟩
abbrev main_v632 : Ref sig .tc := ⟨.hbm, 682, rfl⟩
abbrev main_v633 : Ref sig .tc := ⟨.hbm, 683, rfl⟩
abbrev main_v634 : Ref sig .tc := ⟨.hbm, 684, rfl⟩
abbrev main_v635 : Ref sig .tc := ⟨.hbm, 685, rfl⟩
abbrev main_v636 : Ref sig .tc := ⟨.hbm, 686, rfl⟩
abbrev main_v637 : Ref sig .tc := ⟨.hbm, 687, rfl⟩
abbrev main_v638 : Ref sig .tc := ⟨.hbm, 688, rfl⟩
abbrev main_v639 : Ref sig .tc := ⟨.hbm, 689, rfl⟩
abbrev main_v640 : Ref sig .tc := ⟨.hbm, 690, rfl⟩
abbrev main_v641 : Ref sig .tc := ⟨.hbm, 691, rfl⟩
abbrev main_cst_47 : Ref sig .tc := ⟨.hbm, 692, rfl⟩
abbrev main_v642 : Ref sig .tc := ⟨.hbm, 693, rfl⟩
abbrev main_v643 : Ref sig .tc := ⟨.hbm, 694, rfl⟩
abbrev main_v644 : Ref sig .tc := ⟨.hbm, 695, rfl⟩
abbrev main_cst_48 : Ref sig .tc := ⟨.hbm, 696, rfl⟩
abbrev main_v645 : Ref sig .tc := ⟨.hbm, 697, rfl⟩
abbrev main_v646 : Ref sig .tc := ⟨.hbm, 698, rfl⟩
abbrev main_v647 : Ref sig .tc := ⟨.hbm, 699, rfl⟩
abbrev main_v648 : Ref sig .tc := ⟨.hbm, 700, rfl⟩
abbrev main_v649 : Ref sig .tc := ⟨.hbm, 701, rfl⟩
abbrev main_v650 : Ref sig .tc := ⟨.hbm, 702, rfl⟩
abbrev main_v651 : Ref sig .tc := ⟨.hbm, 703, rfl⟩
abbrev main_v652 : Ref sig .tc := ⟨.hbm, 704, rfl⟩
abbrev main_v653 : Ref sig .tc := ⟨.hbm, 705, rfl⟩
abbrev main_v654 : Ref sig .tc := ⟨.hbm, 706, rfl⟩
abbrev main_v655 : Ref sig .tc := ⟨.hbm, 707, rfl⟩
abbrev main_v656 : Ref sig .tc := ⟨.hbm, 708, rfl⟩
abbrev main_v657 : Ref sig .tc := ⟨.hbm, 709, rfl⟩
abbrev main_v658 : Ref sig .tc := ⟨.hbm, 710, rfl⟩
abbrev main_v659 : Ref sig .tc := ⟨.hbm, 711, rfl⟩
abbrev main_v660 : Ref sig .tc := ⟨.hbm, 712, rfl⟩
abbrev main_v661 : Ref sig .tc := ⟨.hbm, 713, rfl⟩
abbrev main_v662 : Ref sig .tc := ⟨.hbm, 714, rfl⟩
abbrev main_v663 : Ref sig .tc := ⟨.hbm, 715, rfl⟩
abbrev main_v664 : Ref sig .tc := ⟨.hbm, 716, rfl⟩
abbrev main_v665 : Ref sig .tc := ⟨.hbm, 717, rfl⟩
abbrev main_v666 : Ref sig .tc := ⟨.hbm, 718, rfl⟩
abbrev main_v667 : Ref sig .tc := ⟨.hbm, 719, rfl⟩
abbrev main_v668 : Ref sig .tc := ⟨.hbm, 720, rfl⟩
abbrev main_v669 : Ref sig .tc := ⟨.hbm, 721, rfl⟩
abbrev main_v670 : Ref sig .tc := ⟨.hbm, 722, rfl⟩
abbrev main_cst_49 : Ref sig .tc := ⟨.hbm, 723, rfl⟩
abbrev main_v671 : Ref sig .tc := ⟨.hbm, 724, rfl⟩
abbrev main_v672 : Ref sig .tc := ⟨.hbm, 725, rfl⟩
abbrev main_v673 : Ref sig .tc := ⟨.hbm, 726, rfl⟩
abbrev main_cst_50 : Ref sig .tc := ⟨.hbm, 727, rfl⟩
abbrev main_v674 : Ref sig .tc := ⟨.hbm, 728, rfl⟩
abbrev main_v675 : Ref sig .tc := ⟨.hbm, 729, rfl⟩
abbrev main_v676 : Ref sig .tc := ⟨.hbm, 730, rfl⟩
abbrev main_v677 : Ref sig .tc := ⟨.hbm, 731, rfl⟩
abbrev main_v678 : Ref sig .tc := ⟨.hbm, 732, rfl⟩
abbrev main_v679 : Ref sig .tc := ⟨.hbm, 733, rfl⟩
abbrev main_v680 : Ref sig .tc := ⟨.hbm, 734, rfl⟩
abbrev main_v681 : Ref sig .tc := ⟨.hbm, 735, rfl⟩
abbrev main_v682 : Ref sig .tc := ⟨.hbm, 736, rfl⟩
abbrev main_v683 : Ref sig .tc := ⟨.hbm, 737, rfl⟩
abbrev main_v684 : Ref sig .tc := ⟨.hbm, 738, rfl⟩
abbrev main_v685 : Ref sig .tc := ⟨.hbm, 739, rfl⟩
abbrev main_v686 : Ref sig .tc := ⟨.hbm, 740, rfl⟩
abbrev main_v687 : Ref sig .tc := ⟨.hbm, 741, rfl⟩
abbrev main_v688 : Ref sig .tc := ⟨.hbm, 742, rfl⟩
abbrev main_v689 : Ref sig .tc := ⟨.hbm, 743, rfl⟩
abbrev main_v690 : Ref sig .tc := ⟨.hbm, 744, rfl⟩
abbrev main_v691 : Ref sig .tc := ⟨.hbm, 745, rfl⟩
abbrev main_v692 : Ref sig .tc := ⟨.hbm, 746, rfl⟩
abbrev main_v693 : Ref sig .tc := ⟨.hbm, 747, rfl⟩
abbrev main_v694 : Ref sig .tc := ⟨.hbm, 748, rfl⟩
abbrev main_v695 : Ref sig .tc := ⟨.hbm, 749, rfl⟩
abbrev main_v696 : Ref sig .tc := ⟨.hbm, 750, rfl⟩
abbrev main_v697 : Ref sig .tc := ⟨.hbm, 751, rfl⟩
abbrev main_v698 : Ref sig .tc := ⟨.hbm, 752, rfl⟩
abbrev main_v699 : Ref sig .tc := ⟨.hbm, 753, rfl⟩
abbrev main_cst_51 : Ref sig .tc := ⟨.hbm, 754, rfl⟩
abbrev main_v700 : Ref sig .tc := ⟨.hbm, 755, rfl⟩
abbrev main_v701 : Ref sig .tc := ⟨.hbm, 756, rfl⟩
abbrev main_v702 : Ref sig .tc := ⟨.hbm, 757, rfl⟩
abbrev main_cst_52 : Ref sig .tc := ⟨.hbm, 758, rfl⟩
abbrev main_v703 : Ref sig .tc := ⟨.hbm, 759, rfl⟩
abbrev main_v704 : Ref sig .tc := ⟨.hbm, 760, rfl⟩
abbrev main_v705 : Ref sig .tc := ⟨.hbm, 761, rfl⟩
abbrev main_v706 : Ref sig .tc := ⟨.hbm, 762, rfl⟩
abbrev main_v707 : Ref sig .tc := ⟨.hbm, 763, rfl⟩
abbrev main_v708 : Ref sig .tc := ⟨.hbm, 764, rfl⟩
abbrev main_v709 : Ref sig .tc := ⟨.hbm, 765, rfl⟩
abbrev main_v710 : Ref sig .tc := ⟨.hbm, 766, rfl⟩
abbrev main_v711 : Ref sig .tc := ⟨.hbm, 767, rfl⟩
abbrev main_v712 : Ref sig .tc := ⟨.hbm, 768, rfl⟩
abbrev main_v713 : Ref sig .tc := ⟨.hbm, 769, rfl⟩
abbrev main_v714 : Ref sig .tc := ⟨.hbm, 770, rfl⟩
abbrev main_v715 : Ref sig .tc := ⟨.hbm, 771, rfl⟩
abbrev main_v716 : Ref sig .tc := ⟨.hbm, 772, rfl⟩
abbrev main_v717 : Ref sig .tc := ⟨.hbm, 773, rfl⟩
abbrev main_v718 : Ref sig .tc := ⟨.hbm, 774, rfl⟩
abbrev main_v719 : Ref sig .tc := ⟨.hbm, 775, rfl⟩
abbrev main_v720 : Ref sig .tc := ⟨.hbm, 776, rfl⟩
abbrev main_v721 : Ref sig .tc := ⟨.hbm, 777, rfl⟩
abbrev main_v722 : Ref sig .tc := ⟨.hbm, 778, rfl⟩
abbrev main_v723 : Ref sig .tc := ⟨.hbm, 779, rfl⟩
abbrev main_v724 : Ref sig .tc := ⟨.hbm, 780, rfl⟩
abbrev main_v725 : Ref sig .tc := ⟨.hbm, 781, rfl⟩
abbrev main_v726 : Ref sig .tc := ⟨.hbm, 782, rfl⟩
abbrev main_v727 : Ref sig .tc := ⟨.hbm, 783, rfl⟩
abbrev main_v728 : Ref sig .tc := ⟨.hbm, 784, rfl⟩
abbrev main_v729 : Ref sig .tc := ⟨.hbm, 785, rfl⟩
abbrev main_v730 : Ref sig .tc := ⟨.hbm, 786, rfl⟩
abbrev main_v731 : Ref sig .tc := ⟨.hbm, 787, rfl⟩
abbrev main_v732 : Ref sig .tc := ⟨.hbm, 788, rfl⟩
abbrev main_v733 : Ref sig .tc := ⟨.hbm, 789, rfl⟩

abbrev nD : Nat := 1
abbrev τ : Topo := Topo.v7x

variable {F : FTy → Type} [FloatOps F]

class Facts₀ : Prop where
  bcast_S_S262144x32 : S_.BroadcastsInDim S262144x32 (![] : Fin 0 → Fin S262144x32.rank)
  slices_S8x32x3_S1x32x1_0_0_0 : S8x32x3.Slices ![0, 0, 0] S1x32x1
  shapeCasts_S1x32x1_S32 : S1x32x1.ShapeCasts S32
  bcast_S32_S1x32_1 : S32.BroadcastsInDim S1x32 (![1] : Fin 1 → Fin S1x32.rank)
  bcast_S_S1x32 : S_.BroadcastsInDim S1x32 (![] : Fin 0 → Fin S1x32.rank)
  bcast_S1x32_S262144x32_0_1 : S1x32.BroadcastsInDim S262144x32 (![0, 1] : Fin 2 → Fin S262144x32.rank)
  slices_S8x32x3_S1x32x1_0_0_1 : S8x32x3.Slices ![0, 0, 1] S1x32x1
  slices_S8x32x3_S1x32x1_0_0_2 : S8x32x3.Slices ![0, 0, 2] S1x32x1
  slices_S8x32x3_S1x32x1_1_0_0 : S8x32x3.Slices ![1, 0, 0] S1x32x1
  slices_S8x32x3_S1x32x1_1_0_1 : S8x32x3.Slices ![1, 0, 1] S1x32x1
  slices_S8x32x3_S1x32x1_1_0_2 : S8x32x3.Slices ![1, 0, 2] S1x32x1
  slices_S8x32x3_S1x32x1_2_0_0 : S8x32x3.Slices ![2, 0, 0] S1x32x1
  slices_S8x32x3_S1x32x1_2_0_1 : S8x32x3.Slices ![2, 0, 1] S1x32x1
  slices_S8x32x3_S1x32x1_2_0_2 : S8x32x3.Slices ![2, 0, 2] S1x32x1
  slices_S8x32x3_S1x32x1_3_0_0 : S8x32x3.Slices ![3, 0, 0] S1x32x1
  slices_S8x32x3_S1x32x1_3_0_1 : S8x32x3.Slices ![3, 0, 1] S1x32x1
  slices_S8x32x3_S1x32x1_3_0_2 : S8x32x3.Slices ![3, 0, 2] S1x32x1
  slices_S8x32x3_S1x32x1_4_0_0 : S8x32x3.Slices ![4, 0, 0] S1x32x1
  slices_S8x32x3_S1x32x1_4_0_1 : S8x32x3.Slices ![4, 0, 1] S1x32x1
  slices_S8x32x3_S1x32x1_4_0_2 : S8x32x3.Slices ![4, 0, 2] S1x32x1
  slices_S8x32x3_S1x32x1_5_0_0 : S8x32x3.Slices ![5, 0, 0] S1x32x1
  slices_S8x32x3_S1x32x1_5_0_1 : S8x32x3.Slices ![5, 0, 1] S1x32x1
  slices_S8x32x3_S1x32x1_5_0_2 : S8x32x3.Slices ![5, 0, 2] S1x32x1
  slices_S8x32x3_S1x32x1_6_0_0 : S8x32x3.Slices ![6, 0, 0] S1x32x1
  slices_S8x32x3_S1x32x1_6_0_1 : S8x32x3.Slices ![6, 0, 1] S1x32x1
  slices_S8x32x3_S1x32x1_6_0_2 : S8x32x3.Slices ![6, 0, 2] S1x32x1
  slices_S8x32x3_S1x32x1_7_0_0 : S8x32x3.Slices ![7, 0, 0] S1x32x1
  slices_S8x32x3_S1x32x1_7_0_1 : S8x32x3.Slices ![7, 0, 1] S1x32x1
  slices_S8x32x3_S1x32x1_7_0_2 : S8x32x3.Slices ![7, 0, 2] S1x32x1

variable [Facts₀]

class Facts : Prop extends Facts₀ where

variable [Facts]
-- ==== Proof.Spec.lean ====
/-
  The mathematics both programs compute, over the real numbers.

  One qubit's state is two complex amplitudes (a, b), kept as four reals (ar, ai, br, bi). Each rotation gate
  RX(t), RY(t), RZ(t) acts on the four reals as a real-linear map whose coefficients are cos (t/2) and sin (t/2).
  The circuit on one qubit is: RX(x) applied to |0⟩ = (1, 0, 0, 0), then eight layers of RY, RZ, RX with angles
  θ l 0, θ l 1, θ l 2, and the result read as ⟨Z⟩ = |a|² − |b|².

  Written with 4×4 matrices, the eight layers compose into one matrix M (independent of x), the encoded state is
  (cos (x/2), 0, 0, −sin (x/2)), and ⟨Z⟩ is a quadratic form in (cos (x/2), sin (x/2)); the half-angle formulas turn it
  into P + C·cos x + S·sin x with P, C, S read off M.  `kerOut_eq_refOut` is that identity.
-/
import Mathlib.Analysis.SpecialFunctions.Trigonometric.Basic
import Mathlib.LinearAlgebra.Matrix.Notation
import Mathlib.Data.Matrix.Mul

noncomputable section

namespace Cert.Spec

open Real Matrix

/-- One qubit's state: the real and imaginary parts of the two amplitudes, (ar, ai, br, bi). -/
abbrev St := Fin 4 → ℝ

/-! ## The gates as maps of the four reals (the reference's spelling) -/

/-- RY(t): (c·ar − s·br, c·ai − s·bi, s·ar + c·br, s·ai + c·bi), c = cos (t/2), s = sin (t/2). -/
def gRy (t : ℝ) (v : St) : St :=
  ![cos (t * (1/2)) * v 0 - sin (t * (1/2)) * v 2, cos (t * (1/2)) * v 1 - sin (t * (1/2)) * v 3,
    sin (t * (1/2)) * v 0 + cos (t * (1/2)) * v 2, sin (t * (1/2)) * v 1 + cos (t * (1/2)) * v 3]

/-- RZ(t): (c·ar + s·ai, c·ai − s·ar, c·br − s·bi, c·bi + s·br). -/
def gRz (t : ℝ) (v : St) : St :=
  ![cos (t * (1/2)) * v 0 + sin (t * (1/2)) * v 1, cos (t * (1/2)) * v 1 - sin (t * (1/2)) * v 0,
    cos (t * (1/2)) * v 2 - sin (t * (1/2)) * v 3, cos (t * (1/2)) * v 3 + sin (t * (1/2)) * v 2]

/-- RX(t): (c·ar + s·bi, c·ai − s·br, s·ai + c·br, (−s)·ar + c·bi). -/
def gRx (t : ℝ) (v : St) : St :=
  ![cos (t * (1/2)) * v 0 + sin (t * (1/2)) * v 3, cos (t * (1/2)) * v 1 - sin (t * (1/2)) * v 2,
    sin (t * (1/2)) * v 1 + cos (t * (1/2)) * v 2, -sin (t * (1/2)) * v 0 + cos (t * (1/2)) * v 3]

/-- One trainable layer: RY(θ 0), then RZ(θ 1), then RX(θ 2). -/
def layer (θ : Fin 3 → ℝ) (v : St) : St := gRx (θ 2) (gRz (θ 1) (gRy (θ 0) v))

/-- The input encoding: RX(x) applied to |0⟩. -/
def enc (x : ℝ) : St := gRx x ![1, 0, 0, 0]

/-- The state after the encoding and the first `n` layers (the layers beyond the eighth are never used). -/
def st (x : ℝ) (θ : Fin 8 → Fin 3 → ℝ) : ℕ → St
  | 0 => enc x
  | n + 1 => layer (θ ⟨n % 8, Nat.mod_lt _ (by decide)⟩) (st x θ n)

/-- ⟨Z⟩ = |a|² − |b|². -/
def zexp (v : St) : ℝ := v 0 * v 0 + v 1 * v 1 - v 2 * v 2 - v 3 * v 3

/-- What the reference computes for one (sample, qubit): ⟨Z⟩ after the encoding and the eight layers. -/
def refOut (x : ℝ) (θ : Fin 8 → Fin 3 → ℝ) : ℝ := zexp (st x θ 8)

/-! ## The gates as 4×4 matrices (the kernel's host-side spelling) -/

/-- RY(t) as a matrix: rows (c, 0, −s, 0), (0, c, 0, −s), (s, 0, c, 0), (0, s, 0, c). -/
def mRy (t : ℝ) : Matrix (Fin 4) (Fin 4) ℝ :=
  !![cos (t * (1/2)), 0, -sin (t * (1/2)), 0;
     0, cos (t * (1/2)), 0, -sin (t * (1/2));
     sin (t * (1/2)), 0, cos (t * (1/2)), 0;
     0, sin (t * (1/2)), 0, cos (t * (1/2))]

/-- RZ(t) as a matrix: rows (c, s, 0, 0), (−s, c, 0, 0), (0, 0, c, −s), (0, 0, s, c). -/
def mRz (t : ℝ) : Matrix (Fin 4) (Fin 4) ℝ :=
  !![cos (t * (1/2)), sin (t * (1/2)), 0, 0;
     -sin (t * (1/2)), cos (t * (1/2)), 0, 0;
     0, 0, cos (t * (1/2)), -sin (t * (1/2));
     0, 0, sin (t * (1/2)), cos (t * (1/2))]

/-- RX(t) as a matrix: rows (c, 0, 0, s), (0, c, −s, 0), (0, s, c, 0), (−s, 0, 0, c). -/
def mRx (t : ℝ) : Matrix (Fin 4) (Fin 4) ℝ :=
  !![cos (t * (1/2)), 0, 0, sin (t * (1/2));
     0, cos (t * (1/2)), -sin (t * (1/2)), 0;
     0, sin (t * (1/2)), cos (t * (1/2)), 0;
     -sin (t * (1/2)), 0, 0, cos (t * (1/2))]

/-- One layer's matrix: RX · (RZ · RY). -/
def mLayer (θ : Fin 3 → ℝ) : Matrix (Fin 4) (Fin 4) ℝ := mRx (θ 2) * (mRz (θ 1) * mRy (θ 0))

/-- The product of the first `n` layers' matrices, later layers on the left, starting from the identity. -/
def mTot (θ : Fin 8 → Fin 3 → ℝ) : ℕ → Matrix (Fin 4) (Fin 4) ℝ
  | 0 => 1
  | n + 1 => mLayer (θ ⟨n % 8, Nat.mod_lt _ (by decide)⟩) * mTot θ n

/-- The constant, cosine and sine coefficients read off a 4×4 matrix `M`: with
    A = Σ± M i 0², D = Σ± M i 3², B = −2 Σ± M i 0 · M i 3 (signs +, +, −, −):
    ((A + D)/2, (A − D)/2, B/2). -/
def coefOf (M : Matrix (Fin 4) (Fin 4) ℝ) : Fin 3 → ℝ :=
  ![((M 0 0 * M 0 0 + M 1 0 * M 1 0 - M 2 0 * M 2 0 - M 3 0 * M 3 0)
      + (M 0 3 * M 0 3 + M 1 3 * M 1 3 - M 2 3 * M 2 3 - M 3 3 * M 3 3)) * (1/2),
    ((M 0 0 * M 0 0 + M 1 0 * M 1 0 - M 2 0 * M 2 0 - M 3 0 * M 3 0)
      - (M 0 3 * M 0 3 + M 1 3 * M 1 3 - M 2 3 * M 2 3 - M 3 3 * M 3 3)) * (1/2),
    ((-2) * (M 0 0 * M 0 3 + M 1 0 * M 1 3 - M 2 0 * M 2 3 - M 3 0 * M 3 3)) * (1/2)]

/-- The three coefficients the kernel's host side precomputes for one qubit. -/
def coef (θ : Fin 8 → Fin 3 → ℝ) : Fin 3 → ℝ := coefOf (mTot θ 8)

/-- What the kernel computes for one (sample, qubit): P + C·cos x + S·sin x. -/
def kerOut (x : ℝ) (θ : Fin 8 → Fin 3 → ℝ) : ℝ := coef θ 0 + coef θ 1 * cos x + coef θ 2 * sin x

end Cert.Spec

end
-- ==== Proof.SpecLaws.lean ====
/-
  The identity between the two spellings of the circuit (see Spec.lean): each gate's map of the four reals is its 4×4
  matrix applied to them, so the state after n layers is the accumulated matrix applied to the encoded state
  (cos (x/2), 0, 0, −sin (x/2)); ⟨Z⟩ of that vector is A·c² − 2E·c·s + D·s² with c = cos (x/2), s = sin (x/2) and
  A, D, E the signed column sums of the matrix, and with cos x = 2c² − 1, sin x = 2·s·c, c² + s² = 1 this is
  (A + D)/2 + (A − D)/2 · cos x + (−2E)/2 · sin x.
-/
import proofs.«119607_j65481071399210_2_alg».proof.Proof.Spec

noncomputable section

namespace Cert.Spec

open Real Matrix

theorem gRy_eq (t : ℝ) (v : St) : gRy t v = mRy t *ᵥ v := by
  funext i
  fin_cases i <;> simp [gRy, mRy, Matrix.mulVec, dotProduct, Fin.sum_univ_four] <;> ring

theorem gRz_eq (t : ℝ) (v : St) : gRz t v = mRz t *ᵥ v := by
  funext i
  fin_cases i <;> simp [gRz, mRz, Matrix.mulVec, dotProduct, Fin.sum_univ_four] <;> ring

theorem gRx_eq (t : ℝ) (v : St) : gRx t v = mRx t *ᵥ v := by
  funext i
  fin_cases i <;> simp [gRx, mRx, Matrix.mulVec, dotProduct, Fin.sum_univ_four] <;> ring

/-- A layer's map is its matrix applied to the state. -/
theorem layer_eq (θ : Fin 3 → ℝ) (v : St) : layer θ v = mLayer θ *ᵥ v := by
  unfold layer mLayer
  rw [gRy_eq, gRz_eq, gRx_eq, Matrix.mulVec_mulVec, Matrix.mulVec_mulVec, Matrix.mul_assoc]

/-- The state after n layers is the accumulated matrix applied to the encoded state. -/
theorem st_eq (x : ℝ) (θ : Fin 8 → Fin 3 → ℝ) (n : ℕ) : st x θ n = mTot θ n *ᵥ enc x := by
  induction n with
  | zero => simp [st, mTot]
  | succ n ih => rw [st, mTot, ih, layer_eq, Matrix.mulVec_mulVec]

/-- The encoded state: RX(x) on (1, 0, 0, 0) is (cos (x/2), 0, 0, −sin (x/2)). -/
theorem enc_eq (x : ℝ) : enc x = ![cos (x * (1/2)), 0, 0, -sin (x * (1/2))] := by
  funext i
  fin_cases i <;> simp [enc, gRx]

/-- ⟨Z⟩ of a matrix applied to the encoded state is the kernel's P + C·cos x + S·sin x read off the matrix. -/
theorem zexp_mulVec (M : Matrix (Fin 4) (Fin 4) ℝ) (x : ℝ) :
    zexp (M *ᵥ enc x) = coefOf M 0 + coefOf M 1 * cos x + coefOf M 2 * sin x := by
  have hx : x = 2 * (x * (1/2)) := by ring
  have hc : cos x = 2 * cos (x * (1/2)) ^ 2 - 1 := by
    conv_lhs => rw [hx]
    exact Real.cos_two_mul _
  have hs : sin x = 2 * sin (x * (1/2)) * cos (x * (1/2)) := by
    conv_lhs => rw [hx]
    exact Real.sin_two_mul _
  have h1 : sin (x * (1/2)) ^ 2 + cos (x * (1/2)) ^ 2 = 1 := Real.sin_sq_add_cos_sq _
  rw [hc, hs, enc_eq]
  simp only [zexp, coefOf, Matrix.mulVec, dotProduct, Fin.sum_univ_four, Matrix.cons_val_zero, Matrix.cons_val_one,
    Matrix.cons_val_two, Matrix.cons_val_three, Matrix.head_cons, Matrix.tail_cons]
  generalize cos (x * (1/2)) = c at h1 ⊢
  generalize sin (x * (1/2)) = s at h1 ⊢
  linear_combination (M 0 3 * M 0 3 + M 1 3 * M 1 3 - M 2 3 * M 2 3 - M 3 3 * M 3 3) * h1

/-- The two spellings of the circuit agree: P + C·cos x + S·sin x is ⟨Z⟩ after the encoding and the eight layers. -/
theorem kerOut_eq_refOut (x : ℝ) (θ : Fin 8 → Fin 3 → ℝ) : kerOut x θ = refOut x θ := by
  unfold kerOut refOut coef
  rw [st_eq, zexp_mulVec]

end Cert.Spec

end
-- ==== Proof.Finite.lean ====
/-
  The precondition read back: "every input is finite" is printed as |x| < +∞ at every entry, folded by `and` over each
  array and the two results conjoined. If the conjunction is 1, every entry of both arrays satisfies |x| < +∞, and an
  extended real with max x (−x) < +∞ is neither +∞ nor −∞: it is (the coercion of) a real number.
-/
import proofs.«119607_j65481071399210_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic

instance : Subsingleton Cert.Pre_finite_inputs.S_.Idx := ⟨fun a b => funext fun d => d.elim0⟩

/-- An extended real whose absolute value max x (−x) is below the f32 word of +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition both argument arrays hold real numbers at every index. -/
theorem reals_of_pre [Cert.Pre_finite_inputs.Facts] (x : FVec Ideal Cert.Pre_finite_inputs.S262144x32 .f32)
    (p : FVec Ideal Cert.Pre_finite_inputs.S8x32x3 .f32)
    (h : Cert.Pre_finite_inputs.fn (F := Ideal) x p = fun _ => 1#1) :
    (∀ i, ∃ r : ℝ, x i = (r : EReal)) ∧ (∀ i, ∃ r : ℝ, p i = (r : EReal)) := by
  have h0 := congrFun h ValueIdx.ix0
  dsimp only [Cert.Pre_finite_inputs.fn] at h0
  obtain ⟨ha, hb⟩ := IntOp.andi_eq_one.1 h0
  refine ⟨fun i => real_of_abs_lt _ ?_, fun i => real_of_abs_lt _ ?_⟩
  · exact Host.reduce_andi_all _ _ _ _ _ ha i
  · exact Host.reduce_andi_all _ _ _ _ _ hb i

end Cert.Finite

end
-- ==== Proof.KFrameBitsDefs.lean ====
/- The frame data of the kernel program: the buffer contents its one region finds (the host operations before the
   region applied, in order, to the launch memory), each window's block at a grid point, what one run of the body
   leaves in the output window's buffer — the whole block rewritten with P + C·cos x + S·sin x, where x is window 0's
   block and P, C, S are the three rows of window 1's block —, and the proof data of the pipeline built from them. -/
import proofs.«119607_j65481071399210_2_alg».proof.Proof.Gen.Kernel.Launch
import proofs.«119607_j65481071399210_2_alg».proof.Proof.Gen.Kernel.Skeleton
import proofs.«119607_j65481071399210_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The contents the region finds -/

/-- A list of one list, flattened, is that list. -/
theorem flatten_one {α : Type} (l : List α) : List.flatten [l] = l := by
  rw [List.flatten_cons, List.flatten_nil, List.append_nil]

/-- Core `c`'s buffer contents when the region is entered, as a valuation: the launch memory after the host
    operations before the region, in order. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The contents the region finds are the fold of the host operations over the launch memory. -/
theorem V0_eq (c : Dev nD) : V0 m c = StableHlo.after hostOps0 (fun b => m (c, b)) :=
  congrArg (fun l => StableHlo.after l (fun b => m (c, b))) (flatten_one hostOps0)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 8192×128 block. -/
abbrev r0_0 : Rect S8192x128 := Rect.unit (s := S8192x128) ![0, 0] S8192x128.size inb_S8192x128_S8192x128_0_0
/-- Row 0 of the 3×128 coefficient block (the constant term P). -/
abbrev r0_1 : Rect S3x128 := Rect.unit (s := S3x128) ![0, 0] S1x128.size inb_S3x128_S1x128_0_0
/-- Row 1 (the cosine coefficient C). -/
abbrev r0_2 : Rect S3x128 := Rect.unit (s := S3x128) ![1, 0] S1x128.size inb_S3x128_S1x128_1_0
/-- Row 2 (the sine coefficient S). -/
abbrev r0_3 : Rect S3x128 := Rect.unit (s := S3x128) ![2, 0] S1x128.size inb_S3x128_S1x128_2_0

/-! ## What the body leaves in the output window's buffer -/

/-- Window 2's buffer after the body, from the input windows' blocks `x0` (the angles) and `x1` (the coefficient
    rows): its one store, of the whole block, of P + C·cos x0 + S·sin x0 with each row broadcast down the block. -/
def out0_2 (x0 : Vec F S8192x128 .f32) (x1 : Vec F S3x128 .f32) : Vec F S8192x128 .f32 :=
  View.canon [⟨r0_0, k0_pay1 (View.ld x0 r0_0) (View.ld x1 r0_1) (View.ld x1 r0_2) (View.ld x1 r0_3)⟩]

/-! ## The pipeline's proof data -/

/-- The proof data of the one pipeline on core `c`: the arrays as the region finds them; after the body at point `t`
    each input's buffer still at its block and the output's at `out0_2` of the two input blocks; the invariant
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.KFrameBitsKeeps.lean ====
/- GENERATED by `bun scratch/gen_kframe_tables.js Kernel` (run in the unit directory) from proof/Proof/Gen/Kernel/Launch.lean: the table of its 1027 host
   operations before the region, one entry per operation in the program's order, each entry named after the operation's builder.
   No host operation before the region writes either argument array: each of the 1027 operations writes exactly
   one buffer, its own result, and that result is neither argument. Stated once per operation, in the program's order. -/
import proofs.«119607_j65481071399210_2_alg».proof.Proof.Gen.Kernel.Launch

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- An operation leaves both argument arrays alone. -/
def KeepsArgs (op : HloOp τ sig (Elt F)) : Prop :=
  Proc.devRef (τ := τ) .tc main_arg0 ∉ op.writes ∧ Proc.devRef (τ := τ) .tc main_arg1 ∉ op.writes

/-- An operation whose only written buffer is a reference `y` other than the two arguments leaves them alone. -/
theorem keeps_of_writes {op : HloOp τ sig (Elt F)} {y : Ref sig .tc} (hw : op.writes = {Proc.devRef (τ := τ) .tc y})
    (h0 : main_arg0 ≠ y) (h1 : main_arg1 ≠ y) : KeepsArgs op :=
  ⟨by rw [hw, Finset.mem_singleton]; exact StableHlo.devRef_ne_of_ne h0,
   by rw [hw, Finset.mem_singleton]; exact StableHlo.devRef_ne_of_ne h1⟩

/-! Each builder writes its result only. -/

theorem kNullary {y : Ref sig .tc} {v : y.ty.Contents (Elt F)} {hy} (h0 : main_arg0 ≠ y) (h1 : main_arg1 ≠ y) :
    KeepsArgs (StableHlo.nullary (τ := τ) y v hy) := keeps_of_writes (StableHlo.nullary_writes y v hy) h0 h1
theorem kUnary {x y : Ref sig .tc} {f : x.ty.Contents (Elt F) → y.ty.Contents (Elt F)} {hx hy} (h0 : main_arg0 ≠ y) (h1 : main_arg1 ≠ y) :
    KeepsArgs (StableHlo.unary (τ := τ) x y f hx hy) := keeps_of_writes (StableHlo.unary_writes x y f hx hy) h0 h1
theorem kBinary {a b y : Ref sig .tc} {f : a.ty.Contents (Elt F) → b.ty.Contents (Elt F) → y.ty.Contents (Elt F)} {ha hb hy}
    (h0 : main_arg0 ≠ y) (h1 : main_arg1 ≠ y) :
    KeepsArgs (StableHlo.binary (τ := τ) a b y f ha hb hy) := keeps_of_writes (StableHlo.binary_writes a b y f ha hb hy) h0 h1
theorem kReshape {x y : Ref sig .tc} {he hn hx hy} (h0 : main_arg0 ≠ y) (h1 : main_arg1 ≠ y) :
    KeepsArgs (StableHlo.reshape (τ := τ) (Val := Elt F) x y he hn hx hy) := keeps_of_writes (StableHlo.reshape_writes x y he hn hx hy) h0 h1
theorem kNary {n : Nat} {xs : Fin n → Ref sig .tc} {y : Ref sig .tc}
    {f : ((k : Fin n) → (xs k).ty.Contents (Elt F)) → y.ty.Contents (Elt F)} {hxs hy} (h0 : main_arg0 ≠ y) (h1 : main_arg1 ≠ y) :
    KeepsArgs (StableHlo.nary (τ := τ) xs y f hxs hy) := keeps_of_writes (StableHlo.nary_writes y xs f hxs hy) h0 h1

set_option maxHeartbeats 40000000 in
/-- Every host operation before the region leaves both argument arrays alone: operation by operation, its result
    reference compared with the two arguments. -/
theorem hostOps0_keeps : (hostOps0 : List (HloOp τ sig (Elt F))).Forall KeepsArgs :=
  ⟨kNullary (by decide) (by decide), kNullary (by decide) (by decide), kNullary (by decide) (by decide), kUnary (by decide) (by decide), kBinary (by decide) (by decide), kBinary (by decide) (by decide),
    kUnary (by decide) (by decide), kUnary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kUnary (by decide) (by decide), kReshape (by decide) (by decide),
    kUnary (by decide) (by decide), kReshape (by decide) (by decide), kUnary (by decide) (by decide), kReshape (by decide) (by decide), kUnary (by decide) (by decide), kReshape (by decide) (by decide),
    kUnary (by decide) (by decide), kReshape (by decide) (by decide), kUnary (by decide) (by decide), kReshape (by decide) (by decide), kUnary (by decide) (by decide), kReshape (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kNullary (by decide) (by decide), kUnary (by decide) (by decide), kBinary (by decide) (by decide),
    kBinary (by decide) (by decide), kNullary (by decide) (by decide), kUnary (by decide) (by decide), kBinary (by decide) (by decide), kBinary (by decide) (by decide), kNullary (by decide) (by decide),
    kUnary (by decide) (by decide), kBinary (by decide) (by decide), kNullary (by decide) (by decide), kUnary (by decide) (by decide), kBinary (by decide) (by decide), kUnary (by decide) (by decide),
    kUnary (by decide) (by decide), kUnary (by decide) (by decide), kNary (by decide) (by decide), kReshape (by decide) (by decide), kReshape (by decide) (by decide), kUnary (by decide) (by decide),
    kReshape (by decide) (by decide)⟩

end Cert.Kernel.Hand

end
-- ==== Proof.KFrameBitsFresh.lean ====
/- GENERATED by `bun scratch/gen_kframe_tables.js Kernel` (run in the unit directory) from proof/Proof/Gen/Kernel/Launch.lean: the table of its 1027 host
   operations before the region, one entry per operation in the program's order.
   No host operation before the region allocates a buffer: each of the 1027 operations computes one result from its
   operands into a buffer that already exists. -/
import proofs.«119607_j65481071399210_2_alg».proof.Proof.Gen.Kernel.Launch

set_option maxRecDepth 65536

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
/-- Every host operation before the region allocates nothing (operation by operation, by definition of its builder). -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl⟩

end Cert.Kernel.Hand

end
-- ==== Proof.KFrameBitsHost.lean ====
/- The program around its one region: the host operations before it, the region, the one host operation after it
   (a re-layout of the region's result); what the host operations touch, allocate and write; and that the two
   argument arrays are never written — not before the region, not by the operation after it — so that any final
   state of the frame run has them as launched. -/
import proofs.«119607_j65481071399210_2_alg».proof.Proof.KFrameBitsDefs
import proofs.«119607_j65481071399210_2_alg».proof.Proof.KFrameBitsKeeps
import proofs.«119607_j65481071399210_2_alg».proof.Proof.KFrameBitsFresh
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operation after the region allocates nothing. -/
theorem hostOps1_fresh : (hostOps1 : List (HloOp τ sig (Elt F))).Forall fun op => op.fresh = ∅ := by
  simp only [List.Forall]; repeat' constructor

/-- The program is: the host operations before the region, the region, the host operation after it; so a run of it
    reduces to the region entered at the contents `V` and continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (show List.Forall (fun ops : List (HloOp τ sig (Elt F)) => ops.Forall fun op => op.bufs ⊆ StableHlo.tcRefs τ sig) [hostOps0] from hostOps0_sub)
    (show List.Forall (fun ops : List (HloOp τ sig (Elt F)) => ops.Forall fun op => op.fresh = ∅) [hostOps0] from hostOps0_fresh)
    main_chain

/-- The operation after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes no array of the pipeline: it writes its own result, the re-laid output, only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- No host operation before the region writes the first argument: the region finds it as launched. -/
theorem V_main_arg0 (c : Dev nD) : V m c main_arg0 = m ((c : Thread nD τ).loc main_arg0) :=
  (congrFun (V0_eq m c) (Proc.devRef .tc main_arg0)).trans
    (StableHlo.after_of_forall_not_mem (b := Proc.devRef .tc main_arg0) hostOps0 (fun b => m (c, b))
      (fun op hop => ((List.forall_iff_forall_mem.mp hostOps0_keeps) op hop).1))

/-- Nor the second. -/
theorem V_main_arg1 (c : Dev nD) : V m c main_arg1 = m ((c : Thread nD τ).loc main_arg1) :=
  (congrFun (V0_eq m c) (Proc.devRef .tc main_arg1)).trans
    (StableHlo.after_of_forall_not_mem (b := Proc.devRef .tc main_arg1) hostOps0 (fun b => m (c, b))
      (fun op hop => ((List.forall_iff_forall_mem.mp hostOps0_keeps) op hop).2))

/-- The operation after the region does not write the first argument, and the first argument is no array of the
    pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The same of the second argument. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- In any final state of the frame run both argument arrays are as launched: neither is an array of the pipeline,
    both are unscoped, so the run's post gives them as the operation after the region leaves them — untouched. -/
theorem post_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c)⟩

end Cert.Kernel.Hand

end
-- ==== Proof.KFrameBitsBody.lean ====
/- One run of the kernel body at a grid point: it reads window 0's block x whole and the three rows P, C, S of window
   1's block, and rewrites window 2's buffer whole with P + C·cos x + S·sin x (`out0_2`); the input buffers are left
   as read. At every grid point the input buffers hold their blocks — window 1's, fetched at the first point only,
   still holds its one block at the later points because its block index never moves. -/
import proofs.«119607_j65481071399210_2_alg».proof.Proof.KFrameBitsDefs
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's store covers the output buffer -/

/-- The one store, of the whole 8192×128 rectangle, covers the buffer. -/
theorem cover0_2 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel (c : Dev nD) (E : Set ℕ) (i : grid0.Coords)
    (arg1 : Memref sig .tc .vmem S8192x128 .f32) (harg1 : arg1.IsWhole)
    (arg2 : Memref sig .tc .vmem S3x128 .f32) (harg2 : arg2.IsWhole)
    (arg3 : Memref sig .tc .vmem S8192x128 .f32) (harg3 : arg3.IsWhole)
    (x0 : Vec F S8192x128 .f32) (x1 : Vec F S3x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The input buffers hold their blocks at every point -/

/-- Window 0 (fetched at every point) holds its block when the body is called. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1 (fetched at the first point only) holds its block at every point: unfetched, its block index has not
    moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameBits.lean ====
/- The frame of the kernel program: from any launch memory with zero counters, every weakly fair execution of the
   program on the TensorCores terminates without a fault; in every final state each array of the pipeline holds what the
   proof data computes and every other unscoped buffer what the operation after the region leaves — in particular both
   argument arrays end as launched. -/
import proofs.«119607_j65481071399210_2_alg».proof.Proof.KFrameBitsHost
import proofs.«119607_j65481071399210_2_alg».proof.Proof.KFrameBitsBody
import Idealize.ShloMosaic.Lib.Pipeline.FrameSuffix

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the frame theorem's implicit arguments are found by unifying its conclusion with this one, which takes unfolding
-- plain definitions in a metavariable's type
set_option backward.isDefEq.respectTransparency.types false in
/-- Every weakly fair execution of the program terminates, and every final state has every array of the pipeline at
    what the library computes from the proof data and every other unscoped buffer as the operation after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => post_args m r h c) (run_main m ρ)

end Cert.Kernel.Hand

end
-- ==== Proof.KFrameDefs.lean ====
/- The frame data of the kernel program: the buffer contents its one region finds (the host operations before the
   region applied, in order, to the launch memory), each window's block at a grid point, what one run of the body
   leaves in the output window's buffer — the whole block rewritten with P + C·cos x + S·sin x, where x is window 0's
   block and P, C, S are the three rows of window 1's block —, and the proof data of the pipeline built from them. -/
import proofs.«119607_j65481071399210_2_alg».proof.Proof.Gen.KernelIdeal.Launch
import proofs.«119607_j65481071399210_2_alg».proof.Proof.Gen.KernelIdeal.Skeleton
import proofs.«119607_j65481071399210_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The contents the region finds -/

/-- A list of one list, flattened, is that list. -/
theorem flatten_one {α : Type} (l : List α) : List.flatten [l] = l := by
  rw [List.flatten_cons, List.flatten_nil, List.append_nil]

/-- Core `c`'s buffer contents when the region is entered, as a valuation: the launch memory after the host
    operations before the region, in order. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The contents the region finds are the fold of the host operations over the launch memory. -/
theorem V0_eq (c : Dev nD) : V0 m c = StableHlo.after hostOps0 (fun b => m (c, b)) :=
  congrArg (fun l => StableHlo.after l (fun b => m (c, b))) (flatten_one hostOps0)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 8192×128 block. -/
abbrev r0_0 : Rect S8192x128 := Rect.unit (s := S8192x128) ![0, 0] S8192x128.size inb_S8192x128_S8192x128_0_0
/-- Row 0 of the 3×128 coefficient block (the constant term P). -/
abbrev r0_1 : Rect S3x128 := Rect.unit (s := S3x128) ![0, 0] S1x128.size inb_S3x128_S1x128_0_0
/-- Row 1 (the cosine coefficient C). -/
abbrev r0_2 : Rect S3x128 := Rect.unit (s := S3x128) ![1, 0] S1x128.size inb_S3x128_S1x128_1_0
/-- Row 2 (the sine coefficient S). -/
abbrev r0_3 : Rect S3x128 := Rect.unit (s := S3x128) ![2, 0] S1x128.size inb_S3x128_S1x128_2_0

/-! ## What the body leaves in the output window's buffer -/

/-- Window 2's buffer after the body, from the input windows' blocks `x0` (the angles) and `x1` (the coefficient
    rows): its one store, of the whole block, of P + C·cos x0 + S·sin x0 with each row broadcast down the block. -/
def out0_2 (x0 : Vec F S8192x128 .f32) (x1 : Vec F S3x128 .f32) : Vec F S8192x128 .f32 :=
  View.canon [⟨r0_0, k0_pay1 (View.ld x0 r0_0) (View.ld x1 r0_1) (View.ld x1 r0_2) (View.ld x1 r0_3)⟩]

/-! ## The pipeline's proof data -/

/-- The proof data of the one pipeline on core `c`: the arrays as the region finds them; after the body at point `t`
    each input's buffer still at its block and the output's at `out0_2` of the two input blocks; the invariant
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.KFrameKeeps.lean ====
/- GENERATED by `bun scratch/gen_kframe_tables.js KernelIdeal` (run in the unit directory) from proof/Proof/Gen/KernelIdeal/Launch.lean: the table of its 1027 host
   operations before the region, one entry per operation in the program's order, each entry named after the operation's builder.
   No host operation before the region writes either argument array: each of the 1027 operations writes exactly
   one buffer, its own result, and that result is neither argument. Stated once per operation, in the program's order. -/
import proofs.«119607_j65481071399210_2_alg».proof.Proof.Gen.KernelIdeal.Launch

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- An operation leaves both argument arrays alone. -/
def KeepsArgs (op : HloOp τ sig (Elt F)) : Prop :=
  Proc.devRef (τ := τ) .tc main_arg0 ∉ op.writes ∧ Proc.devRef (τ := τ) .tc main_arg1 ∉ op.writes

/-- An operation whose only written buffer is a reference `y` other than the two arguments leaves them alone. -/
theorem keeps_of_writes {op : HloOp τ sig (Elt F)} {y : Ref sig .tc} (hw : op.writes = {Proc.devRef (τ := τ) .tc y})
    (h0 : main_arg0 ≠ y) (h1 : main_arg1 ≠ y) : KeepsArgs op :=
  ⟨by rw [hw, Finset.mem_singleton]; exact StableHlo.devRef_ne_of_ne h0,
   by rw [hw, Finset.mem_singleton]; exact StableHlo.devRef_ne_of_ne h1⟩

/-! Each builder writes its result only. -/

theorem kNullary {y : Ref sig .tc} {v : y.ty.Contents (Elt F)} {hy} (h0 : main_arg0 ≠ y) (h1 : main_arg1 ≠ y) :
    KeepsArgs (StableHlo.nullary (τ := τ) y v hy) := keeps_of_writes (StableHlo.nullary_writes y v hy) h0 h1
theorem kUnary {x y : Ref sig .tc} {f : x.ty.Contents (Elt F) → y.ty.Contents (Elt F)} {hx hy} (h0 : main_arg0 ≠ y) (h1 : main_arg1 ≠ y) :
    KeepsArgs (StableHlo.unary (τ := τ) x y f hx hy) := keeps_of_writes (StableHlo.unary_writes x y f hx hy) h0 h1
theorem kBinary {a b y : Ref sig .tc} {f : a.ty.Contents (Elt F) → b.ty.Contents (Elt F) → y.ty.Contents (Elt F)} {ha hb hy}
    (h0 : main_arg0 ≠ y) (h1 : main_arg1 ≠ y) :
    KeepsArgs (StableHlo.binary (τ := τ) a b y f ha hb hy) := keeps_of_writes (StableHlo.binary_writes a b y f ha hb hy) h0 h1
theorem kReshape {x y : Ref sig .tc} {he hn hx hy} (h0 : main_arg0 ≠ y) (h1 : main_arg1 ≠ y) :
    KeepsArgs (StableHlo.reshape (τ := τ) (Val := Elt F) x y he hn hx hy) := keeps_of_writes (StableHlo.reshape_writes x y he hn hx hy) h0 h1
theorem kNary {n : Nat} {xs : Fin n → Ref sig .tc} {y : Ref sig .tc}
    {f : ((k : Fin n) → (xs k).ty.Contents (Elt F)) → y.ty.Contents (Elt F)} {hxs hy} (h0 : main_arg0 ≠ y) (h1 : main_arg1 ≠ y) :
    KeepsArgs (StableHlo.nary (τ := τ) xs y f hxs hy) := keeps_of_writes (StableHlo.nary_writes y xs f hxs hy) h0 h1

set_option maxHeartbeats 40000000 in
/-- Every host operation before the region leaves both argument arrays alone: operation by operation, its result
    reference compared with the two arguments. -/
theorem hostOps0_keeps : (hostOps0 : List (HloOp τ sig (Elt F))).Forall KeepsArgs :=
  ⟨kNullary (by decide) (by decide), kNullary (by decide) (by decide), kNullary (by decide) (by decide), kUnary (by decide) (by decide), kBinary (by decide) (by decide), kBinary (by decide) (by decide),
    kUnary (by decide) (by decide), kUnary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kReshape (by decide) (by decide), kNullary (by decide) (by decide), kUnary (by decide) (by decide), kBinary (by decide) (by decide), kUnary (by decide) (by decide), kNullary (by decide) (by decide),
    kUnary (by decide) (by decide), kBinary (by decide) (by decide), kUnary (by decide) (by decide), kNullary (by decide) (by decide), kUnary (by decide) (by decide), kUnary (by decide) (by decide),
    kUnary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kUnary (by decide) (by decide),
    kUnary (by decide) (by decide), kUnary (by decide) (by decide), kUnary (by decide) (by decide), kNary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kReshape (by decide) (by decide), kNullary (by decide) (by decide), kUnary (by decide) (by decide),
    kBinary (by decide) (by decide), kUnary (by decide) (by decide), kNullary (by decide) (by decide), kUnary (by decide) (by decide), kBinary (by decide) (by decide), kUnary (by decide) (by decide),
    kNullary (by decide) (by decide), kUnary (by decide) (by decide), kUnary (by decide) (by decide), kUnary (by decide) (by decide), kUnary (by decide) (by decide), kUnary (by decide) (by decide),
    kUnary (by decide) (by decide), kUnary (by decide) (by decide), kNary (by decide) (by decide), kUnary (by decide) (by decide), kUnary (by decide) (by decide), kUnary (by decide) (by decide),
    kUnary (by decide) (by decide), kNary (by decide) (by decide), kUnary (by decide) (by decide), kUnary (by decide) (by decide), kUnary (by decide) (by decide), kUnary (by decide) (by decide),
    kNary (by decide) (by decide), kUnary (by decide) (by decide), kUnary (by decide) (by decide), kUnary (by decide) (by decide), kUnary (by decide) (by decide), kNary (by decide) (by decide),
    kUnary (by decide) (by decide), kUnary (by decide) (by decide), kUnary (by decide) (by decide), kUnary (by decide) (by decide), kNary (by decide) (by decide), kBinary (by decide) (by decide),
    kBinary (by decide) (by decide), kBinary (by decide) (by decide), kUnary (by decide) (by decide), kReshape (by decide) (by decide), kUnary (by decide) (by decide), kReshape (by decide) (by decide),
    kUnary (by decide) (by decide), kReshape (by decide) (by decide), kUnary (by decide) (by decide), kReshape (by decide) (by decide), kUnary (by decide) (by decide), kReshape (by decide) (by decide),
    kUnary (by decide) (by decide), kReshape (by decide) (by decide), kUnary (by decide) (by decide), kReshape (by decide) (by decide), kUnary (by decide) (by decide), kReshape (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kBinary (by decide) (by decide), kBinary (by decide) (by decide), kBinary (by decide) (by decide),
    kBinary (by decide) (by decide), kBinary (by decide) (by decide), kBinary (by decide) (by decide), kNullary (by decide) (by decide), kUnary (by decide) (by decide), kBinary (by decide) (by decide),
    kBinary (by decide) (by decide), kNullary (by decide) (by decide), kUnary (by decide) (by decide), kBinary (by decide) (by decide), kBinary (by decide) (by decide), kNullary (by decide) (by decide),
    kUnary (by decide) (by decide), kBinary (by decide) (by decide), kNullary (by decide) (by decide), kUnary (by decide) (by decide), kBinary (by decide) (by decide), kUnary (by decide) (by decide),
    kUnary (by decide) (by decide), kUnary (by decide) (by decide), kNary (by decide) (by decide), kReshape (by decide) (by decide), kReshape (by decide) (by decide), kUnary (by decide) (by decide),
    kReshape (by decide) (by decide)⟩

end Cert.KernelIdeal.Hand

end
-- ==== Proof.KFrameFresh.lean ====
/- GENERATED by `bun scratch/gen_kframe_tables.js KernelIdeal` (run in the unit directory) from proof/Proof/Gen/KernelIdeal/Launch.lean: the table of its 1027 host
   operations before the region, one entry per operation in the program's order.
   No host operation before the region allocates a buffer: each of the 1027 operations computes one result from its
   operands into a buffer that already exists. -/
import proofs.«119607_j65481071399210_2_alg».proof.Proof.Gen.KernelIdeal.Launch

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
/-- Every host operation before the region allocates nothing (operation by operation, by definition of its builder). -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl⟩

end Cert.KernelIdeal.Hand

end
-- ==== Proof.KFrameHost.lean ====
/- The program around its one region: the host operations before it, the region, the one host operation after it
   (a re-layout of the region's result); what the host operations touch, allocate and write; and that the two
   argument arrays are never written — not before the region, not by the operation after it — so that any final
   state of the frame run has them as launched. -/
import proofs.«119607_j65481071399210_2_alg».proof.Proof.KFrameDefs
import proofs.«119607_j65481071399210_2_alg».proof.Proof.KFrameKeeps
import proofs.«119607_j65481071399210_2_alg».proof.Proof.KFrameFresh
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operation after the region allocates nothing. -/
theorem hostOps1_fresh : (hostOps1 : List (HloOp τ sig (Elt F))).Forall fun op => op.fresh = ∅ := by
  simp only [List.Forall]; repeat' constructor

/-- The program is: the host operations before the region, the region, the host operation after it; so a run of it
    reduces to the region entered at the contents `V` and continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (show List.Forall (fun ops : List (HloOp τ sig (Elt F)) => ops.Forall fun op => op.bufs ⊆ StableHlo.tcRefs τ sig) [hostOps0] from hostOps0_sub)
    (show List.Forall (fun ops : List (HloOp τ sig (Elt F)) => ops.Forall fun op => op.fresh = ∅) [hostOps0] from hostOps0_fresh)
    main_chain

/-- The operation after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes no array of the pipeline: it writes its own result, the re-laid output, only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- No host operation before the region writes the first argument: the region finds it as launched. -/
theorem V_main_arg0 (c : Dev nD) : V m c main_arg0 = m ((c : Thread nD τ).loc main_arg0) :=
  (congrFun (V0_eq m c) (Proc.devRef .tc main_arg0)).trans
    (StableHlo.after_of_forall_not_mem (b := Proc.devRef .tc main_arg0) hostOps0 (fun b => m (c, b))
      (fun op hop => ((List.forall_iff_forall_mem.mp hostOps0_keeps) op hop).1))

/-- Nor the second. -/
theorem V_main_arg1 (c : Dev nD) : V m c main_arg1 = m ((c : Thread nD τ).loc main_arg1) :=
  (congrFun (V0_eq m c) (Proc.devRef .tc main_arg1)).trans
    (StableHlo.after_of_forall_not_mem (b := Proc.devRef .tc main_arg1) hostOps0 (fun b => m (c, b))
      (fun op hop => ((List.forall_iff_forall_mem.mp hostOps0_keeps) op hop).2))

/-- The operation after the region does not write the first argument, and the first argument is no array of the
    pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The same of the second argument. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- In any final state of the frame run both argument arrays are as launched: neither is an array of the pipeline,
    both are unscoped, so the run's post gives them as the operation after the region leaves them — untouched. -/
theorem post_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c)⟩

end Cert.KernelIdeal.Hand

end
-- ==== Proof.KFrameBody.lean ====
/- One run of the kernel body at a grid point: it reads window 0's block x whole and the three rows P, C, S of window
   1's block, and rewrites window 2's buffer whole with P + C·cos x + S·sin x (`out0_2`); the input buffers are left
   as read. At every grid point the input buffers hold their blocks — window 1's, fetched at the first point only,
   still holds its one block at the later points because its block index never moves. -/
import proofs.«119607_j65481071399210_2_alg».proof.Proof.KFrameDefs
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's store covers the output buffer -/

/-- The one store, of the whole 8192×128 rectangle, covers the buffer. -/
theorem cover0_2 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel (c : Dev nD) (E : Set ℕ) (i : grid0.Coords)
    (arg1 : Memref sig .tc .vmem S8192x128 .f32) (harg1 : arg1.IsWhole)
    (arg2 : Memref sig .tc .vmem S3x128 .f32) (harg2 : arg2.IsWhole)
    (arg3 : Memref sig .tc .vmem S8192x128 .f32) (harg3 : arg3.IsWhole)
    (x0 : Vec F S8192x128 .f32) (x1 : Vec F S3x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The input buffers hold their blocks at every point -/

/-- Window 0 (fetched at every point) holds its block when the body is called. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1 (fetched at the first point only) holds its block at every point: unfetched, its block index has not
    moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KFrame.lean ====
/- The frame of the kernel program: from any launch memory with zero counters, every weakly fair execution of the
   program on the TensorCores terminates without a fault; in every final state each array of the pipeline holds what the
   proof data computes and every other unscoped buffer what the operation after the region leaves — in particular both
   argument arrays end as launched. -/
import proofs.«119607_j65481071399210_2_alg».proof.Proof.KFrameHost
import proofs.«119607_j65481071399210_2_alg».proof.Proof.KFrameBody
import Idealize.ShloMosaic.Lib.Pipeline.FrameSuffix

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the frame theorem's implicit arguments are found by unifying its conclusion with this one, which takes unfolding
-- plain definitions in a metavariable's type
set_option backward.isDefEq.respectTransparency.types false in
/-- Every weakly fair execution of the program terminates, and every final state has every array of the pipeline at
    what the library computes from the proof data and every other unscoped buffer as the operation after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => post_args m r h c) (run_main m ρ)

end Cert.KernelIdeal.Hand

end
-- ==== Proof.KPayload.lean ====
/-
  The kernel body's one stored value, read at an index. The body loads a block x of 8192×128 entries and three rows
  P, C, S of 128 lanes, and stores (P + C·cos x) + S·sin x, each row broadcast down the 8192 rows: entry (r, l) of the
  stored block is P l + C l · cos (x (r, l)) + S l · sin (x (r, l)).
-/
import proofs.«119607_j65481071399210_2_alg».proof.Proof.Gen.KernelIdeal.Skeleton
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- A row of 128 lanes squeezed to a vector and laid as a row again, then broadcast down 8192 rows, reads at (r, l)
    the row's lane l. -/
theorem row_apply (v : Vec Ideal S1x128 .f32) (r : Fin 8192) (l : Fin 128) :
    broadcastTo S8192x128 (shapeCast S1x128 (shapeCast S128 v shapeCasts_S1x128_S128) shapeCasts_S128_S1x128)
      broadcasts_S1x128_S8192x128 (ix2 r l) = v (ix2 (0 : Fin 1) l) := by
  rw [broadcastTo_1b_ab_apply, shapeCast_a_1a_apply, shapeCast_1a_a_apply]

/-- The stored value at (r, l): P l + C l · cos (x (r, l)) + S l · sin (x (r, l)). -/
theorem pay_apply (x0 : Vec Ideal S8192x128 .f32) (pC cC sC : Vec Ideal S1x128 .f32) (r : Fin 8192) (l : Fin 128) :
    k0_pay1 (F := Ideal) x0 pC cC sC (ix2 r l)
      = pC (ix2 (0 : Fin 1) l) + cC (ix2 (0 : Fin 1) l) * Ideal.cos (x0 (ix2 r l))
        + sC (ix2 (0 : Fin 1) l) * Ideal.sin (x0 (ix2 r l)) := by
  unfold k0_pay1
  simp only [shapeCast_self]
  show (broadcastTo S8192x128 (shapeCast S1x128 (shapeCast S128 pC shapeCasts_S1x128_S128) shapeCasts_S128_S1x128)
        broadcasts_S1x128_S8192x128 (ix2 r l)
      + broadcastTo S8192x128 (shapeCast S1x128 (shapeCast S128 cC shapeCasts_S1x128_S128) shapeCasts_S128_S1x128)
        broadcasts_S1x128_S8192x128 (ix2 r l) * Ideal.cos (x0 (ix2 r l)))
      + broadcastTo S8192x128 (shapeCast S1x128 (shapeCast S128 sC shapeCasts_S1x128_S128) shapeCasts_S128_S1x128)
        broadcasts_S1x128_S8192x128 (ix2 r l) * Ideal.sin (x0 (ix2 r l)) = _
  rw [row_apply, row_apply, row_apply]

end Cert.KernelIdeal.KValue

end
-- ==== Proof.KValue.lean ====
/-
  What the kernel program's result array holds after the run, at the ideal instance.

  The region writes, at grid point t, rows 8192·t … 8192·t + 8191 of a 65536×128 array: entry (r, l) of that block is
  P l + C l · cos (x (8192·t + r, l)) + S l · sin (x (8192·t + r, l)), where x is the re-laid input the region found and
  P, C, S are the three rows of the 3×128 coefficient array it found. The eight blocks tile the array, so the array ends as
  ONE function G of those two arrays; the host then re-lays it row-major as 262144×32.
-/
import proofs.«119607_j65481071399210_2_alg».proof.Proof.KFrame
import proofs.«119607_j65481071399210_2_alg».proof.Proof.KPayload
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Hand

variable (m : (ℓ : Loc nD τ sig) → Buf (Elt Ideal) ℓ) (ρ : Dev nD → PrngReg)

theorem hz : (![0, 0] : Fin 2 → Nat) = fun _ => 0 := funext fun a => by fin_cases a <;> rfl

/-- The region's output array as one function of the re-laid input `xw` and the tiled coefficients `cw`:
    at (i, l) it is cw (0, l) + cw (1, l) · cos (xw (i, l)) + cw (2, l) · sin (xw (i, l)). -/
def G (xw : S65536x128.Idx → EReal) (cw : S3x128.Idx → EReal) : S65536x128.Idx → EReal := fun i =>
  cw (ix2 (0 : Fin 3) (⟨(i 1).val, (i 1).isLt⟩ : Fin 128))
    + cw (ix2 (1 : Fin 3) (⟨(i 1).val, (i 1).isLt⟩ : Fin 128)) * Ideal.cos (xw i)
    + cw (ix2 (2 : Fin 3) (⟨(i 1).val, (i 1).isLt⟩ : Fin 128)) * Ideal.sin (xw i)

/-! ## One run of the body, at an index of the block -/

/-- A load of row k of the 3×128 block reads, at lane l, the block's entry (k, l). -/
theorem row_ld (x1 : Vec Ideal S3x128 .f32) (k : Fin 3) (inb) (l : Fin 128) :
    View.ld x1 (Rect.unit (s := S3x128) ![k.val, 0] S1x128.size inb) (ix2 (0 : Fin 1) l) = x1 (ix2 k l) := by
  show x1 ((Rect.unit (s := S3x128) ![k.val, 0] S1x128.size inb).emb (ix2 (0 : Fin 1) l)) = x1 (ix2 k l)
  refine congrArg x1 (funext fun a => Fin.ext ?_)
  match a with
  | ⟨0, _⟩ => simp only [Rect.emb_apply, Rect.off_unit, Rect.stride_unit]; show k.val + 1 * 0 = k.val; omega
  | ⟨1, _⟩ => simp only [Rect.emb_apply, Rect.off_unit, Rect.stride_unit]; show 0 + 1 * l.val = l.val; omega

/-- What the body leaves in the output block, at (r, l), from the input block `x0` and the coefficient block `x1`. -/
theorem out_apply (x0 : Vec Ideal S8192x128 .f32) (x1 : Vec Ideal S3x128 .f32) (r : Fin 8192) (l : Fin 128) :
    out0_2 x0 x1 (ix2 r l)
      = x1 (ix2 (0 : Fin 3) l) + x1 (ix2 (1 : Fin 3) l) * Ideal.cos (x0 (ix2 r l))
        + x1 (ix2 (2 : Fin 3) l) * Ideal.sin (x0 (ix2 r l)) := by
  unfold out0_2
  rw [View.canon_unit_zero hz]
  simp only [View.ld_unit_zero (S := S8192x128) hz]
  refine (pay_apply _ _ _ _ r l).trans ?_
  rw [show View.ld x1 r0_1 (ix2 (0 : Fin 1) l) = x1 (ix2 (0 : Fin 3) l) from row_ld x1 0 _ l,
    show View.ld x1 r0_2 (ix2 (0 : Fin 1) l) = x1 (ix2 (1 : Fin 3) l) from row_ld x1 1 _ l,
    show View.ld x1 r0_3 (ix2 (0 : Fin 1) l) = x1 (ix2 (2 : Fin 3) l) from row_ld x1 2 _ l]

/-! ## The blocks against the arrays -/

/-- The printed index maps over the grid: the input and the output move down the rows with the point, the coefficient
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Over ANY two arrays `A0` (65536×128) and `A1` (3×128): the body's output block at point `t`, computed from the two
    arrays' blocks at `t`, read at an index `y` of the block, is `G A0 A1` at the array index `y` stands for. -/
theorem blk_apply (A0 : S65536x128.Idx → EReal) (A1 : S3x128.Idx → EReal) (t : Fin cfg0.N) (y : S8192x128.Idx) :
    out0_2 (((cfg0.win 0).blk t).view.read (Elt Ideal) A0) (((cfg0.win 1).blk t).view.read (Elt Ideal) A1) y
      = G A0 A1 (((cfg0.win 2).blk t).view.emb y) := by
  obtain ⟨e0, e1, e2, e3, e4, e5⟩ := idx_facts t
  obtain ⟨r, l, rfl⟩ : ∃ (r : Fin 8192) (l : Fin 128), y = ix2 r l := ⟨y 0, y 1, eq_ix2 y⟩
  refine (out_apply _ _ r l).trans ?_
  have h0 : ((cfg0.win 0).blk t).view.emb (ix2 r l) = ((cfg0.win 2).blk t).view.emb (ix2 r l) := by
    funext a; apply Fin.ext
    match a with
    | ⟨0, _⟩ => show win0_0.index t (0 : Fin 2) * 8192 + 1 * r.val = win0_2.index t (0 : Fin 2) * 8192 + 1 * r.val; omega
    | ⟨1, _⟩ => show win0_0.index t (1 : Fin 2) * 128 + 1 * l.val = win0_2.index t (1 : Fin 2) * 128 + 1 * l.val; omega
  have h1 : ∀ k : Fin 3, ((cfg0.win 1).blk t).view.emb (ix2 k l)
      = ix2 k (⟨(((cfg0.win 2).blk t).view.emb (ix2 r l) (1 : Fin 2)).val, (((cfg0.win 2).blk t).view.emb (ix2 r l) (1 : Fin 2)).isLt⟩ : Fin 128) := by
    intro k
    funext a; apply Fin.ext
    match a with
    | ⟨0, _⟩ => show win0_1.index t (0 : Fin 2) * 3 + 1 * k.val = k.val; omega
    | ⟨1, _⟩ => show win0_1.index t (1 : Fin 2) * 128 + 1 * l.val = win0_2.index t (1 : Fin 2) * 128 + 1 * l.val; omega
  show A1 (((cfg0.win 1).blk t).view.emb (ix2 (0 : Fin 3) l))
      + A1 (((cfg0.win 1).blk t).view.emb (ix2 (1 : Fin 3) l)) * Ideal.cos (A0 (((cfg0.win 0).blk t).view.emb (ix2 r l)))
      + A1 (((cfg0.win 1).blk t).view.emb (ix2 (2 : Fin 3) l)) * Ideal.sin (A0 (((cfg0.win 0).blk t).view.emb (ix2 r l)))
    = G A0 A1 (((cfg0.win 2).blk t).view.emb (ix2 r l))
  rw [h0, h1 0, h1 1, h1 2]
  rfl

/-- The same as an equation of blocks. -/
theorem blk_eq (A0 : S65536x128.Idx → EReal) (A1 : S3x128.Idx → EReal) (t : Fin cfg0.N) :
    out0_2 (((cfg0.win 0).blk t).view.read (Elt Ideal) A0) (((cfg0.win 1).blk t).view.read (Elt Ideal) A1)
      = ((cfg0.win 2).blk t).view.read (Elt Ideal) (G A0 A1) :=
  funext fun j => blk_apply A0 A1 t j

/-- The re-laid input as the region finds it. -/
def xw (c : Dev nD) : S65536x128.Idx → EReal := V m c main_v946
/-- The tiled coefficients as the region finds them. -/
def cw (c : Dev nD) : S3x128.Idx → EReal := V m c main_v949

/-- WHAT POINT `t` WRITES BACK is block `t` of `G` of the two arrays as the region finds them. -/
theorem flushed_eq (c : Dev nD) (t : Fin cfg0.N) :
    (dats m 0 c).flushed 2 t = ((cfg0.win 2).blk t).view.read (Elt Ideal) (G (xw m c) (cw m c)) := by
  show (cfg0.win 2).cut (grid0.coords t) ((dats m 0 c).after 2 t) = _
  rw [after0_2]
  exact blk_eq (xw m c) (cw m c) t

/-- An index of the array is in point `t`'s block iff each coordinate is in the block's range on its axis. -/
theorem mem_blk (t : Fin cfg0.N) (i : S65536x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v950).slice (win0_2.rect t)).set ↔ _
  rw [View.set_slice_whole, Rect.mem_set_unit]
  exact Iff.rfl

/-- The eight blocks tile the array: row i lies in the block of point i / 8192. -/
theorem cover (i : S65536x128.Idx) :
    ∃ t : Fin cfg0.N, (cfg0.win 2).flush t = true ∧ i ∈ ((cfg0.win 2).blk t).view.set := by
  have hN : cfg0.N = 8 := N_0
  have hi0 : (i 0).val < 65536 := (i 0).isLt
  have hi1 : (i 1).val < 128 := (i 1).isLt
  have ht : (i 0).val / 8192 < cfg0.N := by rw [hN]; omega
  obtain ⟨e0, e1, e2, e3, e4, e5⟩ := idx_facts ⟨(i 0).val / 8192, ht⟩
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    rw [e4]; show (i 0).val / 8192 * 8192 ≤ (i 0).val ∧ (i 0).val < (i 0).val / 8192 * 8192 + 8192; omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    rw [e5]; omega

/-- THE ARRAY after the region: `G` of the two arrays as the region found them. -/
theorem final (c : Dev nD) : (dats m 0 c).arrAt 2 cfg0.N = G (xw m c) (cw m c) :=
  (dats m 0 c).arrAt_eq_of_cover 2 (G (xw m c) (cw m c)) (fun t _ => flushed_eq m c t) cover

/-! ## The result array -/

/-- `G` at (i, l), for any two arrays. -/
theorem G_apply (A0 : S65536x128.Idx → EReal) (A1 : S3x128.Idx → EReal) (i : Fin 65536) (l : Fin 128) :
    G A0 A1 (ix2 i l) = A1 (ix2 (0 : Fin 3) l) + A1 (ix2 (1 : Fin 3) l) * Ideal.cos (A0 (ix2 i l))
      + A1 (ix2 (2 : Fin 3) l) * Ideal.sin (A0 (ix2 i l)) := rfl

/-- A 65536×128 array re-laid row-major as 262144×32: entry (b, q) is the entry at flat position b·32 + q, that is row
    b / 4, lane (b % 4)·32 + q. -/
theorem relay_apply {α : Type} (g : S65536x128.Idx → α) (h : S65536x128.ShapeCasts S262144x32) (b : Fin 262144) (q : Fin 32) :
    shapeCast S262144x32 g h (ix2 b q)
      = g (ix2 (⟨b.val / 4, by omega⟩ : Fin 65536) (⟨(b.val % 4) * 32 + q.val, by omega⟩ : Fin 128)) := by
  refine shapeCast_apply g _ _ _ ?_
  rw [Shape.rowMajor_val_two, Shape.rowMajor_val_two]
  show b.val / 4 * 128 + ((b.val % 4) * 32 + q.val) = b.val * 32 + q.val
  omega

/-- The program's result: `G` re-laid row-major as 262144×32. -/
def result (c : Dev nD) : S262144x32.Idx → EReal :=
  shapeCast S262144x32 (G (xw m c) (cw m c)) shapeCasts_S65536x128_S262144x32

/-- Entry (b, q) of the result. -/
theorem result_apply (c : Dev nD) (b : Fin 262144) (q : Fin 32) :
    result m c (ix2 b q)
      = cw m c (ix2 (0 : Fin 3) (⟨(b.val % 4) * 32 + q.val, by omega⟩ : Fin 128))
        + cw m c (ix2 (1 : Fin 3) (⟨(b.val % 4) * 32 + q.val, by omega⟩ : Fin 128))
          * Ideal.cos (xw m c (ix2 (⟨b.val / 4, by omega⟩ : Fin 65536) (⟨(b.val % 4) * 32 + q.val, by omega⟩ : Fin 128)))
        + cw m c (ix2 (2 : Fin 3) (⟨(b.val % 4) * 32 + q.val, by omega⟩ : Fin 128))
          * Ideal.sin (xw m c (ix2 (⟨b.val / 4, by omega⟩ : Fin 65536) (⟨(b.val % 4) * 32 + q.val, by omega⟩ : Fin 128))) := by
  unfold result
  rw [relay_apply, G_apply]

/-- In a final state of the frame run the result buffer holds `result`: the one host operation after the region
    re-lays the region's output array. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v951) = result m c := by
  refine ((h c).2 main_v951 (Pipeline.mem_restRefs_of main_v951 (by decide) (by decide))).trans ?_
  unfold Pipeline.afterTail₀
  show StableHlo.after hostOps1 _ (Proc.devRef .tc main_v951) = _
  after_results
  rw [Pipeline.withArrays_arr spec0 launch0.win.arr_inj c _ _ 2, final]
  rfl

/-- The run, read: the result buffer at `result`, both argument arrays as launched. -/
theorem run : θ_run defs (onTc (τ := τ) (main (F := Ideal))) ⟨m, fun _ => 0, ρ⟩ fun r => ∀ c : Dev nD,
      r.2.mem ((c.tc : Thread nD τ).loc main_v951) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨post_result m r h c, post_args m r h c⟩) (run_main m ρ)

end Cert.KernelIdeal.KValue

end
-- ==== Proof.HostChunks.lean ====
/- GENERATED by `bun scratch/gen_chunks.js` (run in the unit directory) from proof/Proof/Gen/KernelIdeal/Launch.lean:
   the 1027 host operations before the kernel's region (the generated list `Gen.hostOps0`), cut into the stretches
   that compute one thing each: the 4×4 identity, then per layer three gate matrices and three matrix products, then
   the coefficient vectors and the two re-layouts. `hostOps0_split` says the stretches, appended in order, are the list. -/
import proofs.«119607_j65481071399210_2_alg».proof.Proof.Gen.KernelIdeal.Launch

set_option maxRecDepth 65536

noncomputable section

namespace Cert.KernelIdeal.HostChunks

open Cert.KernelIdeal Cert.KernelIdeal.Gen Idealize.ShloMosaic Idealize.SL.Sem

variable {F : FTy → Type} [FloatOps F]

/-- The 4×4 identity matrix broadcast over the 32 qubits (8 operations; result `main_v6`). -/
abbrev preOps : List (HloOp τ sig (Elt F)) :=
  [ StableHlo.nullary main_v0 (iotaInDim S4x4 32 0),
    StableHlo.nullary main_v1 (iotaInDim S4x4 32 1),
    StableHlo.nullary main_c (constantI S_ 32 0#32),
    StableHlo.unary main_c main_v2 (broadcastInDim S4x4 ![] bcast_S_S4x4 : (⟨S_, .i32⟩ : BufTy).Contents (Elt F) → (⟨S4x4, .i32⟩ : BufTy).Contents (Elt F)),
    StableHlo.binary main_v0 main_v2 main_v3 (addi : (⟨S4x4, .i32⟩ : BufTy).Contents (Elt F) → (⟨S4x4, .i32⟩ : BufTy).Contents (Elt F) → (⟨S4x4, .i32⟩ : BufTy).Contents (Elt F)),
    StableHlo.binary main_v3 main_v1 main_v4 (cmpi .eq : (⟨S4x4, .i32⟩ : BufTy).Contents (Elt F) → (⟨S4x4, .i32⟩ : BufTy).Contents (Elt F) → (⟨S4x4, .i1⟩ : BufTy).Contents (Elt F)),
    StableHlo.unary main_v4 main_v5 (uitofp .f32 : (⟨S4x4, .i1⟩ : BufTy).Contents (Elt F) → (⟨S4x4, .f32⟩ : BufTy).Contents (Elt F)),
    StableHlo.unary main_v5 main_v6 (broadcastInDim S32x4x4 ![1, 2] bcast_S4x4_S32x4x4_1_2 : (⟨S4x4, .f32⟩ : BufTy).Contents (Elt F) → (⟨S32x4x4, .f32⟩ : BufTy).Contents (Elt F)) ]

/-- Layer 0, the RY gate's 32×4×4 matrix from the angles params[0, :, 0] (39 operations). -/
abbrev gateOps_0_0 : List (HloOp τ sig (Elt F)) :=
  [ StableHlo.unary main_arg1 main_v7 ((extractStridedSlice S1x32x1 ![0, 0, 0] · slices_S8x32x3_S1x32x1_0_0_0) : (⟨S8x32x3, .f32⟩ : BufTy).Contents (Elt F) → (⟨S1x32x1, .f32⟩ : BufTy).Contents (Elt F)),
    StableHlo.reshape main_v7 main_v8 rfl shapeCasts_S1x32x1_S32,
    StableHlo.nullary main_cst (constant S_ .f32 0x3F000000#32),
    StableHlo.unary main_cst main_v9 (broadcastInDim S32 ![] bcast_S_S32 : (⟨S_, .f32⟩ : BufTy).Contents (Elt F) → (⟨S32, .f32⟩ : BufTy).Contents (Elt F)),
    StableHlo.binary main_v8 main_v9 main_v10 (mulf : (⟨S32, .f32⟩ : BufTy).Contents (Elt F) → (⟨S32, .f32⟩ : BufTy).Contents (Elt F) → (⟨S32, .f32⟩ : BufTy).Contents (Elt F)),
    StableHlo.unary main_v10 main_v11 (Host.cos : (⟨S32, .f32⟩ : BufTy).Contents (Elt F) → (⟨S32, .f32⟩ : BufTy).Contents (Elt F)),
    StableHlo.nullary main_cst_0 (constant S_ .f32 0x3F000000#32),
    StableHlo.unary main_cst_0 main_v12 (broadcastInDim S32 ![] bcast_S_S32 : (⟨S_, .f32⟩ : BufTy).Contents (Elt F) → (⟨S32, .f32⟩ : BufTy).Contents (Elt F)),
    StableHlo.binary main_v8 main_v12 main_v13 (mulf : (⟨S32, .f32⟩ : BufTy).Contents (Elt F) → (⟨S32, .f32⟩ : BufTy).Contents (Elt F) → (⟨S32, .f32⟩ : BufTy).Contents (Elt F)),
    StableHlo.unary main_v13 main_v14 (Host.sin : (⟨S32, .f32⟩ : BufTy).Contents (Elt F) → (⟨S32, .f32⟩ : BufTy).Contents (Elt F)),
    StableHlo.nullary main_cst_1 (constant S_ .f32 0x00000000#32),
    StableHlo.unary main_cst_1 main_v15 (broadcastInDim S32 ![] bcast_S_S32 : (⟨S_, .f32⟩ : BufTy).Contents (Elt F) → (⟨S32, .f32⟩ : BufTy).Contents (Elt F)),
    StableHlo.unary main_v14 main_v16 (Host.negf : (⟨S32, .f32⟩ : BufTy).Contents (Elt F) → (⟨S32, .f32⟩ : BufTy).Contents (Elt F)),
    StableHlo.unary main_v14 main_v17 (Host.negf : (⟨S32, .f32⟩ : BufTy).Contents (Elt F) → (⟨S32, .f32⟩ : BufTy).Contents (Elt F)),
    StableHlo.unary main_v11 main_v18 (broadcastInDim S32x1 ![0] bcast_S32_S32x1_0 : (⟨S32, .f32⟩ : BufTy).Contents (Elt F) → (⟨S32x1, .f32⟩ : BufTy).Contents (Elt F)),
    StableHlo.unary main_v15 main_v19 (broadcastInDim S32x1 ![0] bcast_S32_S32x1_0 : (⟨S32, .f32⟩ : BufTy).Contents (Elt F) → (⟨S32x1, .f32⟩ : BufTy).Contents (Elt F)),
    StableHlo.unary main_v16 main_v20 (broadcastInDim S32x1 ![0] bcast_S32_S32x1_0 : (⟨S32, .f32⟩ : BufTy).Contents (Elt F) → (⟨S32x1, .f32⟩ : BufTy).Contents (Elt F)),
    StableHlo.unary main_v15 main_v21 (broadcastInDim S32x1 ![0] bcast_S32_S32x1_0 : (⟨S32, .f32⟩ : BufTy).Contents (Elt F) → (⟨S32x1, .f32⟩ : BufTy).Contents (Elt F)),
    StableHlo.nary ![main_v18, main_v19, main_v20, main_v21] main_v22 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v15 main_v23 (broadcastInDim S32x1 ![0] bcast_S32_S32x1_0 : (⟨S32, .f32⟩ : BufTy).Contents (Elt F) → (⟨S32x1, .f32⟩ : BufTy).Contents (Elt F)),
    StableHlo.unary main_v11 main_v24 (broadcastInDim S32x1 ![0] bcast_S32_S32x1_0 : (⟨S32, .f32⟩ : BufTy).Contents (Elt F) → (⟨S32x1, .f32⟩ : BufTy).Contents (Elt F)),
    StableHlo.unary main_v15 main_v25 (broadcastInDim S32x1 ![0] bcast_S32_S32x1_0 : (⟨S32, .f32⟩ : BufTy).Contents (Elt F) → (⟨S32x1, .f32⟩ : BufTy).Contents (Elt F)),
    StableHlo.unary main_v17 main_v26 (broadcastInDim S32x1 ![0] bcast_S32_S32x1_0 : (⟨S32, .f32⟩ : BufTy).Contents (Elt F) → (⟨S32x1, .f32⟩ : BufTy).Contents (Elt F)),
    StableHlo.nary ![main_v23, main_v24, main_v25, main_v26] main_v27 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v14 main_v28 (broadcastInDim S32x1 ![0] bcast_S32_S32x1_0 : (⟨S32, .f32⟩ : BufTy).Contents (Elt F) → (⟨S32x1, .f32⟩ : BufTy).Contents (Elt F)),
    StableHlo.unary main_v15 main_v29 (broadcastInDim S32x1 ![0] bcast_S32_S32x1_0 : (⟨S32, .f32⟩ : BufTy).Contents (Elt F) → (⟨S32x1, .f32⟩ : BufTy).Contents (Elt F)),
    StableHlo.unary main_v11 main_v30 (broadcastInDim S32x1 ![0] bcast_S32_S32x1_0 : (⟨S32, .f32⟩ : BufTy).Contents (Elt F) → (⟨S32x1, .f32⟩ : BufTy).Contents (Elt F)),
    StableHlo.unary main_v15 main_v31 (broadcastInDim S32x1 ![0] bcast_S32_S32x1_0 : (⟨S32, .f32⟩ : BufTy).Contents (Elt F) → (⟨S32x1, .f32⟩ : BufTy).Contents (Elt F)),
    StableHlo.nary ![main_v28, main_v29, main_v30, main_v31] main_v32 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v15 main_v33 (broadcastInDim S32x1 ![0] bcast_S32_S32x1_0 : (⟨S32, .f32⟩ : BufTy).Contents (Elt F) → (⟨S32x1, .f32⟩ : BufTy).Contents (Elt F)),
    StableHlo.unary main_v14 main_v34 (broadcastInDim S32x1 ![0] bcast_S32_S32x1_0 : (⟨S32, .f32⟩ : BufTy).Contents (Elt F) → (⟨S32x1, .f32⟩ : BufTy).Contents (Elt F)),
    StableHlo.unary main_v15 main_v35 (broadcastInDim S32x1 ![0] bcast_S32_S32x1_0 : (⟨S32, .f32⟩ : BufTy).Contents (Elt F) → (⟨S32x1, .f32⟩ : BufTy).Contents (Elt F)),
    StableHlo.unary main_v11 main_v36 (broadcastInDim S32x1 ![0] bcast_S32_S32x1_0 : (⟨S32, .f32⟩ : BufTy).Contents (Elt F) → (⟨S32x1, .f32⟩ : BufTy).Contents (Elt F)),
    StableHlo.nary ![main_v33, main_v34, main_v35, main_v36] main_v37 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v22 main_v38 (broadcastInDim S32x1x4 ![0, 2] bcast_S32x4_S32x1x4_0_2 : (⟨S32x4, .f32⟩ : BufTy).Contents (Elt F) → (⟨S32x1x4, .f32⟩ : BufTy).Contents (Elt F)),
    StableHlo.unary main_v27 main_v39 (broadcastInDim S32x1x4 ![0, 2] bcast_S32x4_S32x1x4_0_2 : (⟨S32x4, .f32⟩ : BufTy).Contents (Elt F) → (⟨S32x1x4, .f32⟩ : BufTy).Contents (Elt F)),
    StableHlo.unary main_v32 main_v40 (broadcastInDim S32x1x4 ![0, 2] bcast_S32x4_S32x1x4_0_2 : (⟨S32x4, .f32⟩ : BufTy).Contents (Elt F) → (⟨S32x1x4, .f32⟩ : BufTy).Contents (Elt F)),
    StableHlo.unary main_v37 main_v41 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v38, main_v39, main_v40, main_v41] main_v42 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 0, the RZ gate's 32×4×4 matrix from the angles params[0, :, 1] (39 operations). -/
abbrev gateOps_0_1 : List (HloOp τ sig (Elt F)) :=
  [ StableHlo.unary main_arg1 main_v43 ((extractStridedSlice S1x32x1 ![0, 0, 1] · slices_S8x32x3_S1x32x1_0_0_1) : (⟨S8x32x3, .f32⟩ : BufTy).Contents (Elt F) → (⟨S1x32x1, .f32⟩ : BufTy).Contents (Elt F)),
    StableHlo.reshape main_v43 main_v44 rfl shapeCasts_S1x32x1_S32,
    StableHlo.nullary main_cst_2 (constant S_ .f32 0x3F000000#32),
    StableHlo.unary main_cst_2 main_v45 (broadcastInDim S32 ![] bcast_S_S32 : (⟨S_, .f32⟩ : BufTy).Contents (Elt F) → (⟨S32, .f32⟩ : BufTy).Contents (Elt F)),
    StableHlo.binary main_v44 main_v45 main_v46 (mulf : (⟨S32, .f32⟩ : BufTy).Contents (Elt F) → (⟨S32, .f32⟩ : BufTy).Contents (Elt F) → (⟨S32, .f32⟩ : BufTy).Contents (Elt F)),
    StableHlo.unary main_v46 main_v47 (Host.cos : (⟨S32, .f32⟩ : BufTy).Contents (Elt F) → (⟨S32, .f32⟩ : BufTy).Contents (Elt F)),
    StableHlo.nullary main_cst_3 (constant S_ .f32 0x3F000000#32),
    StableHlo.unary main_cst_3 main_v48 (broadcastInDim S32 ![] bcast_S_S32 : (⟨S_, .f32⟩ : BufTy).Contents (Elt F) → (⟨S32, .f32⟩ : BufTy).Contents (Elt F)),
    StableHlo.binary main_v44 main_v48 main_v49 (mulf : (⟨S32, .f32⟩ : BufTy).Contents (Elt F) → (⟨S32, .f32⟩ : BufTy).Contents (Elt F) → (⟨S32, .f32⟩ : BufTy).Contents (Elt F)),
    StableHlo.unary main_v49 main_v50 (Host.sin : (⟨S32, .f32⟩ : BufTy).Contents (Elt F) → (⟨S32, .f32⟩ : BufTy).Contents (Elt F)),
    StableHlo.nullary main_cst_4 (constant S_ .f32 0x00000000#32),
    StableHlo.unary main_cst_4 main_v51 (broadcastInDim S32 ![] bcast_S_S32 : (⟨S_, .f32⟩ : BufTy).Contents (Elt F) → (⟨S32, .f32⟩ : BufTy).Contents (Elt F)),
    StableHlo.unary main_v50 main_v52 (Host.negf : (⟨S32, .f32⟩ : BufTy).Contents (Elt F) → (⟨S32, .f32⟩ : BufTy).Contents (Elt F)),
    StableHlo.unary main_v50 main_v53 (Host.negf : (⟨S32, .f32⟩ : BufTy).Contents (Elt F) → (⟨S32, .f32⟩ : BufTy).Contents (Elt F)),
    StableHlo.unary main_v47 main_v54 (broadcastInDim S32x1 ![0] bcast_S32_S32x1_0 : (⟨S32, .f32⟩ : BufTy).Contents (Elt F) → (⟨S32x1, .f32⟩ : BufTy).Contents (Elt F)),
    StableHlo.unary main_v50 main_v55 (broadcastInDim S32x1 ![0] bcast_S32_S32x1_0 : (⟨S32, .f32⟩ : BufTy).Contents (Elt F) → (⟨S32x1, .f32⟩ : BufTy).Contents (Elt F)),
    StableHlo.unary main_v51 main_v56 (broadcastInDim S32x1 ![0] bcast_S32_S32x1_0 : (⟨S32, .f32⟩ : BufTy).Contents (Elt F) → (⟨S32x1, .f32⟩ : BufTy).Contents (Elt F)),
    StableHlo.unary main_v51 main_v57 (broadcastInDim S32x1 ![0] bcast_S32_S32x1_0 : (⟨S32, .f32⟩ : BufTy).Contents (Elt F) → (⟨S32x1, .f32⟩ : BufTy).Contents (Elt F)),
    StableHlo.nary ![main_v54, main_v55, main_v56, main_v57] main_v58 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v52 main_v59 (broadcastInDim S32x1 ![0] bcast_S32_S32x1_0 : (⟨S32, .f32⟩ : BufTy).Contents (Elt F) → (⟨S32x1, .f32⟩ : BufTy).Contents (Elt F)),
    StableHlo.unary main_v47 main_v60 (broadcastInDim S32x1 ![0] bcast_S32_S32x1_0 : (⟨S32, .f32⟩ : BufTy).Contents (Elt F) → (⟨S32x1, .f32⟩ : BufTy).Contents (Elt F)),
    StableHlo.unary main_v51 main_v61 (broadcastInDim S32x1 ![0] bcast_S32_S32x1_0 : (⟨S32, .f32⟩ : BufTy).Contents (Elt F) → (⟨S32x1, .f32⟩ : BufTy).Contents (Elt F)),
    StableHlo.unary main_v51 main_v62 (broadcastInDim S32x1 ![0] bcast_S32_S32x1_0 : (⟨S32, .f32⟩ : BufTy).Contents (Elt F) → (⟨S32x1, .f32⟩ : BufTy).Contents (Elt F)),
    StableHlo.nary ![main_v59, main_v60, main_v61, main_v62] main_v63 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v51 main_v64 (broadcastInDim S32x1 ![0] bcast_S32_S32x1_0 : (⟨S32, .f32⟩ : BufTy).Contents (Elt F) → (⟨S32x1, .f32⟩ : BufTy).Contents (Elt F)),
    StableHlo.unary main_v51 main_v65 (broadcastInDim S32x1 ![0] bcast_S32_S32x1_0 : (⟨S32, .f32⟩ : BufTy).Contents (Elt F) → (⟨S32x1, .f32⟩ : BufTy).Contents (Elt F)),
    StableHlo.unary main_v47 main_v66 (broadcastInDim S32x1 ![0] bcast_S32_S32x1_0 : (⟨S32, .f32⟩ : BufTy).Contents (Elt F) → (⟨S32x1, .f32⟩ : BufTy).Contents (Elt F)),
    StableHlo.unary main_v53 main_v67 (broadcastInDim S32x1 ![0] bcast_S32_S32x1_0 : (⟨S32, .f32⟩ : BufTy).Contents (Elt F) → (⟨S32x1, .f32⟩ : BufTy).Contents (Elt F)),
    StableHlo.nary ![main_v64, main_v65, main_v66, main_v67] main_v68 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v51 main_v69 (broadcastInDim S32x1 ![0] bcast_S32_S32x1_0 : (⟨S32, .f32⟩ : BufTy).Contents (Elt F) → (⟨S32x1, .f32⟩ : BufTy).Contents (Elt F)),
    StableHlo.unary main_v51 main_v70 (broadcastInDim S32x1 ![0] bcast_S32_S32x1_0 : (⟨S32, .f32⟩ : BufTy).Contents (Elt F) → (⟨S32x1, .f32⟩ : BufTy).Contents (Elt F)),
    StableHlo.unary main_v50 main_v71 (broadcastInDim S32x1 ![0] bcast_S32_S32x1_0 : (⟨S32, .f32⟩ : BufTy).Contents (Elt F) → (⟨S32x1, .f32⟩ : BufTy).Contents (Elt F)),
    StableHlo.unary main_v47 main_v72 (broadcastInDim S32x1 ![0] bcast_S32_S32x1_0 : (⟨S32, .f32⟩ : BufTy).Contents (Elt F) → (⟨S32x1, .f32⟩ : BufTy).Contents (Elt F)),
    StableHlo.nary ![main_v69, main_v70, main_v71, main_v72] main_v73 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v58 main_v74 (broadcastInDim S32x1x4 ![0, 2] bcast_S32x4_S32x1x4_0_2 : (⟨S32x4, .f32⟩ : BufTy).Contents (Elt F) → (⟨S32x1x4, .f32⟩ : BufTy).Contents (Elt F)),
    StableHlo.unary main_v63 main_v75 (broadcastInDim S32x1x4 ![0, 2] bcast_S32x4_S32x1x4_0_2 : (⟨S32x4, .f32⟩ : BufTy).Contents (Elt F) → (⟨S32x1x4, .f32⟩ : BufTy).Contents (Elt F)),
    StableHlo.unary main_v68 main_v76 (broadcastInDim S32x1x4 ![0, 2] bcast_S32x4_S32x1x4_0_2 : (⟨S32x4, .f32⟩ : BufTy).Contents (Elt F) → (⟨S32x1x4, .f32⟩ : BufTy).Contents (Elt F)),
    StableHlo.unary main_v73 main_v77 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v74, main_v75, main_v76, main_v77] main_v78 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 0, the RX gate's 32×4×4 matrix from the angles params[0, :, 2] (39 operations). -/
abbrev gateOps_0_2 : List (HloOp τ sig (Elt F)) :=
  [ StableHlo.unary main_arg1 main_v79 ((extractStridedSlice S1x32x1 ![0, 0, 2] · slices_S8x32x3_S1x32x1_0_0_2) : (⟨S8x32x3, .f32⟩ : BufTy).Contents (Elt F) → (⟨S1x32x1, .f32⟩ : BufTy).Contents (Elt F)),
    StableHlo.reshape main_v79 main_v80 rfl shapeCasts_S1x32x1_S32,
    StableHlo.nullary main_cst_5 (constant S_ .f32 0x3F000000#32),
    StableHlo.unary main_cst_5 main_v81 (broadcastInDim S32 ![] bcast_S_S32 : (⟨S_, .f32⟩ : BufTy).Contents (Elt F) → (⟨S32, .f32⟩ : BufTy).Contents (Elt F)),
    StableHlo.binary main_v80 main_v81 main_v82 (mulf : (⟨S32, .f32⟩ : BufTy).Contents (Elt F) → (⟨S32, .f32⟩ : BufTy).Contents (Elt F) → (⟨S32, .f32⟩ : BufTy).Contents (Elt F)),
    StableHlo.unary main_v82 main_v83 (Host.cos : (⟨S32, .f32⟩ : BufTy).Contents (Elt F) → (⟨S32, .f32⟩ : BufTy).Contents (Elt F)),
    StableHlo.nullary main_cst_6 (constant S_ .f32 0x3F000000#32),
    StableHlo.unary main_cst_6 main_v84 (broadcastInDim S32 ![] bcast_S_S32 : (⟨S_, .f32⟩ : BufTy).Contents (Elt F) → (⟨S32, .f32⟩ : BufTy).Contents (Elt F)),
    StableHlo.binary main_v80 main_v84 main_v85 (mulf : (⟨S32, .f32⟩ : BufTy).Contents (Elt F) → (⟨S32, .f32⟩ : BufTy).Contents (Elt F) → (⟨S32, .f32⟩ : BufTy).Contents (Elt F)),
    StableHlo.unary main_v85 main_v86 (Host.sin : (⟨S32, .f32⟩ : BufTy).Contents (Elt F) → (⟨S32, .f32⟩ : BufTy).Contents (Elt F)),
    StableHlo.nullary main_cst_7 (constant S_ .f32 0x00000000#32),
    StableHlo.unary main_cst_7 main_v87 (broadcastInDim S32 ![] bcast_S_S32 : (⟨S_, .f32⟩ : BufTy).Contents (Elt F) → (⟨S32, .f32⟩ : BufTy).Contents (Elt F)),
    StableHlo.unary main_v86 main_v88 (Host.negf : (⟨S32, .f32⟩ : BufTy).Contents (Elt F) → (⟨S32, .f32⟩ : BufTy).Contents (Elt F)),
    StableHlo.unary main_v86 main_v89 (Host.negf : (⟨S32, .f32⟩ : BufTy).Contents (Elt F) → (⟨S32, .f32⟩ : BufTy).Contents (Elt F)),
    StableHlo.unary main_v83 main_v90 (broadcastInDim S32x1 ![0] bcast_S32_S32x1_0 : (⟨S32, .f32⟩ : BufTy).Contents (Elt F) → (⟨S32x1, .f32⟩ : BufTy).Contents (Elt F)),
    StableHlo.unary main_v87 main_v91 (broadcastInDim S32x1 ![0] bcast_S32_S32x1_0 : (⟨S32, .f32⟩ : BufTy).Contents (Elt F) → (⟨S32x1, .f32⟩ : BufTy).Contents (Elt F)),
    StableHlo.unary main_v87 main_v92 (broadcastInDim S32x1 ![0] bcast_S32_S32x1_0 : (⟨S32, .f32⟩ : BufTy).Contents (Elt F) → (⟨S32x1, .f32⟩ : BufTy).Contents (Elt F)),
    StableHlo.unary main_v86 main_v93 (broadcastInDim S32x1 ![0] bcast_S32_S32x1_0 : (⟨S32, .f32⟩ : BufTy).Contents (Elt F) → (⟨S32x1, .f32⟩ : BufTy).Contents (Elt F)),
    StableHlo.nary ![main_v90, main_v91, main_v92, main_v93] main_v94 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v87 main_v95 (broadcastInDim S32x1 ![0] bcast_S32_S32x1_0 : (⟨S32, .f32⟩ : BufTy).Contents (Elt F) → (⟨S32x1, .f32⟩ : BufTy).Contents (Elt F)),
    StableHlo.unary main_v83 main_v96 (broadcastInDim S32x1 ![0] bcast_S32_S32x1_0 : (⟨S32, .f32⟩ : BufTy).Contents (Elt F) → (⟨S32x1, .f32⟩ : BufTy).Contents (Elt F)),
    StableHlo.unary main_v88 main_v97 (broadcastInDim S32x1 ![0] bcast_S32_S32x1_0 : (⟨S32, .f32⟩ : BufTy).Contents (Elt F) → (⟨S32x1, .f32⟩ : BufTy).Contents (Elt F)),
    StableHlo.unary main_v87 main_v98 (broadcastInDim S32x1 ![0] bcast_S32_S32x1_0 : (⟨S32, .f32⟩ : BufTy).Contents (Elt F) → (⟨S32x1, .f32⟩ : BufTy).Contents (Elt F)),
    StableHlo.nary ![main_v95, main_v96, main_v97, main_v98] main_v99 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v87 main_v100 (broadcastInDim S32x1 ![0] bcast_S32_S32x1_0 : (⟨S32, .f32⟩ : BufTy).Contents (Elt F) → (⟨S32x1, .f32⟩ : BufTy).Contents (Elt F)),
    StableHlo.unary main_v86 main_v101 (broadcastInDim S32x1 ![0] bcast_S32_S32x1_0 : (⟨S32, .f32⟩ : BufTy).Contents (Elt F) → (⟨S32x1, .f32⟩ : BufTy).Contents (Elt F)),
    StableHlo.unary main_v83 main_v102 (broadcastInDim S32x1 ![0] bcast_S32_S32x1_0 : (⟨S32, .f32⟩ : BufTy).Contents (Elt F) → (⟨S32x1, .f32⟩ : BufTy).Contents (Elt F)),
    StableHlo.unary main_v87 main_v103 (broadcastInDim S32x1 ![0] bcast_S32_S32x1_0 : (⟨S32, .f32⟩ : BufTy).Contents (Elt F) → (⟨S32x1, .f32⟩ : BufTy).Contents (Elt F)),
    StableHlo.nary ![main_v100, main_v101, main_v102, main_v103] main_v104 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v89 main_v105 (broadcastInDim S32x1 ![0] bcast_S32_S32x1_0 : (⟨S32, .f32⟩ : BufTy).Contents (Elt F) → (⟨S32x1, .f32⟩ : BufTy).Contents (Elt F)),
    StableHlo.unary main_v87 main_v106 (broadcastInDim S32x1 ![0] bcast_S32_S32x1_0 : (⟨S32, .f32⟩ : BufTy).Contents (Elt F) → (⟨S32x1, .f32⟩ : BufTy).Contents (Elt F)),
    StableHlo.unary main_v87 main_v107 (broadcastInDim S32x1 ![0] bcast_S32_S32x1_0 : (⟨S32, .f32⟩ : BufTy).Contents (Elt F) → (⟨S32x1, .f32⟩ : BufTy).Contents (Elt F)),
    StableHlo.unary main_v83 main_v108 (broadcastInDim S32x1 ![0] bcast_S32_S32x1_0 : (⟨S32, .f32⟩ : BufTy).Contents (Elt F) → (⟨S32x1, .f32⟩ : BufTy).Contents (Elt F)),
    StableHlo.nary ![main_v105, main_v106, main_v107, main_v108] main_v109 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v94 main_v110 (broadcastInDim S32x1x4 ![0, 2] bcast_S32x4_S32x1x4_0_2 : (⟨S32x4, .f32⟩ : BufTy).Contents (Elt F) → (⟨S32x1x4, .f32⟩ : BufTy).Contents (Elt F)),
    StableHlo.unary main_v99 main_v111 (broadcastInDim S32x1x4 ![0, 2] bcast_S32x4_S32x1x4_0_2 : (⟨S32x4, .f32⟩ : BufTy).Contents (Elt F) → (⟨S32x1x4, .f32⟩ : BufTy).Contents (Elt F)),
    StableHlo.unary main_v104 main_v112 (broadcastInDim S32x1x4 ![0, 2] bcast_S32x4_S32x1x4_0_2 : (⟨S32x4, .f32⟩ : BufTy).Contents (Elt F) → (⟨S32x1x4, .f32⟩ : BufTy).Contents (Elt F)),
    StableHlo.unary main_v109 main_v113 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v110, main_v111, main_v112, main_v113] main_v114 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 0: RZ·RY, then RX·(RZ·RY), then that product times the matrix accumulated so far (3 batched products). -/
abbrev dotOps_0 : List (HloOp τ sig (Elt F)) :=
  [ StableHlo.binary main_v78 main_v42 main_v115 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v114 main_v115 main_v116 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v116 main_v6 main_v117 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 1, the RY gate's 32×4×4 matrix from the angles params[1, :, 0] (39 operations). -/
abbrev gateOps_1_0 : List (HloOp τ sig (Elt F)) :=
  [ StableHlo.unary main_arg1 main_v118 ((extractStridedSlice S1x32x1 ![1, 0, 0] · slices_S8x32x3_S1x32x1_1_0_0) : (⟨S8x32x3, .f32⟩ : BufTy).Contents (Elt F) → (⟨S1x32x1, .f32⟩ : BufTy).Contents (Elt F)),
    StableHlo.reshape main_v118 main_v119 rfl shapeCasts_S1x32x1_S32,
    StableHlo.nullary main_cst_8 (constant S_ .f32 0x3F000000#32),
    StableHlo.unary main_cst_8 main_v120 (broadcastInDim S32 ![] bcast_S_S32 : (⟨S_, .f32⟩ : BufTy).Contents (Elt F) → (⟨S32, .f32⟩ : BufTy).Contents (Elt F)),
    StableHlo.binary main_v119 main_v120 main_v121 (mulf : (⟨S32, .f32⟩ : BufTy).Contents (Elt F) → (⟨S32, .f32⟩ : BufTy).Contents (Elt F) → (⟨S32, .f32⟩ : BufTy).Contents (Elt F)),
    StableHlo.unary main_v121 main_v122 (Host.cos : (⟨S32, .f32⟩ : BufTy).Contents (Elt F) → (⟨S32, .f32⟩ : BufTy).Contents (Elt F)),
    StableHlo.nullary main_cst_9 (constant S_ .f32 0x3F000000#32),
    StableHlo.unary main_cst_9 main_v123 (broadcastInDim S32 ![] bcast_S_S32 : (⟨S_, .f32⟩ : BufTy).Contents (Elt F) → (⟨S32, .f32⟩ : BufTy).Contents (Elt F)),
    StableHlo.binary main_v119 main_v123 main_v124 (mulf : (⟨S32, .f32⟩ : BufTy).Contents (Elt F) → (⟨S32, .f32⟩ : BufTy).Contents (Elt F) → (⟨S32, .f32⟩ : BufTy).Contents (Elt F)),
    StableHlo.unary main_v124 main_v125 (Host.sin : (⟨S32, .f32⟩ : BufTy).Contents (Elt F) → (⟨S32, .f32⟩ : BufTy).Contents (Elt F)),
    StableHlo.nullary main_cst_10 (constant S_ .f32 0x00000000#32),
    StableHlo.unary main_cst_10 main_v126 (broadcastInDim S32 ![] bcast_S_S32 : (⟨S_, .f32⟩ : BufTy).Contents (Elt F) → (⟨S32, .f32⟩ : BufTy).Contents (Elt F)),
    StableHlo.unary main_v125 main_v127 (Host.negf : (⟨S32, .f32⟩ : BufTy).Contents (Elt F) → (⟨S32, .f32⟩ : BufTy).Contents (Elt F)),
    StableHlo.unary main_v125 main_v128 (Host.negf : (⟨S32, .f32⟩ : BufTy).Contents (Elt F) → (⟨S32, .f32⟩ : BufTy).Contents (Elt F)),
    StableHlo.unary main_v122 main_v129 (broadcastInDim S32x1 ![0] bcast_S32_S32x1_0 : (⟨S32, .f32⟩ : BufTy).Contents (Elt F) → (⟨S32x1, .f32⟩ : BufTy).Contents (Elt F)),
    StableHlo.unary main_v126 main_v130 (broadcastInDim S32x1 ![0] bcast_S32_S32x1_0 : (⟨S32, .f32⟩ : BufTy).Contents (Elt F) → (⟨S32x1, .f32⟩ : BufTy).Contents (Elt F)),
    StableHlo.unary main_v127 main_v131 (broadcastInDim S32x1 ![0] bcast_S32_S32x1_0 : (⟨S32, .f32⟩ : BufTy).Contents (Elt F) → (⟨S32x1, .f32⟩ : BufTy).Contents (Elt F)),
    StableHlo.unary main_v126 main_v132 (broadcastInDim S32x1 ![0] bcast_S32_S32x1_0 : (⟨S32, .f32⟩ : BufTy).Contents (Elt F) → (⟨S32x1, .f32⟩ : BufTy).Contents (Elt F)),
    StableHlo.nary ![main_v129, main_v130, main_v131, main_v132] main_v133 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v126 main_v134 (broadcastInDim S32x1 ![0] bcast_S32_S32x1_0 : (⟨S32, .f32⟩ : BufTy).Contents (Elt F) → (⟨S32x1, .f32⟩ : BufTy).Contents (Elt F)),
    StableHlo.unary main_v122 main_v135 (broadcastInDim S32x1 ![0] bcast_S32_S32x1_0 : (⟨S32, .f32⟩ : BufTy).Contents (Elt F) → (⟨S32x1, .f32⟩ : BufTy).Contents (Elt F)),
    StableHlo.unary main_v126 main_v136 (broadcastInDim S32x1 ![0] bcast_S32_S32x1_0 : (⟨S32, .f32⟩ : BufTy).Contents (Elt F) → (⟨S32x1, .f32⟩ : BufTy).Contents (Elt F)),
    StableHlo.unary main_v128 main_v137 (broadcastInDim S32x1 ![0] bcast_S32_S32x1_0 : (⟨S32, .f32⟩ : BufTy).Contents (Elt F) → (⟨S32x1, .f32⟩ : BufTy).Contents (Elt F)),
    StableHlo.nary ![main_v134, main_v135, main_v136, main_v137] main_v138 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v125 main_v139 (broadcastInDim S32x1 ![0] bcast_S32_S32x1_0 : (⟨S32, .f32⟩ : BufTy).Contents (Elt F) → (⟨S32x1, .f32⟩ : BufTy).Contents (Elt F)),
    StableHlo.unary main_v126 main_v140 (broadcastInDim S32x1 ![0] bcast_S32_S32x1_0 : (⟨S32, .f32⟩ : BufTy).Contents (Elt F) → (⟨S32x1, .f32⟩ : BufTy).Contents (Elt F)),
    StableHlo.unary main_v122 main_v141 (broadcastInDim S32x1 ![0] bcast_S32_S32x1_0 : (⟨S32, .f32⟩ : BufTy).Contents (Elt F) → (⟨S32x1, .f32⟩ : BufTy).Contents (Elt F)),
    StableHlo.unary main_v126 main_v142 (broadcastInDim S32x1 ![0] bcast_S32_S32x1_0 : (⟨S32, .f32⟩ : BufTy).Contents (Elt F) → (⟨S32x1, .f32⟩ : BufTy).Contents (Elt F)),
    StableHlo.nary ![main_v139, main_v140, main_v141, main_v142] main_v143 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v126 main_v144 (broadcastInDim S32x1 ![0] bcast_S32_S32x1_0 : (⟨S32, .f32⟩ : BufTy).Contents (Elt F) → (⟨S32x1, .f32⟩ : BufTy).Contents (Elt F)),
    StableHlo.unary main_v125 main_v145 (broadcastInDim S32x1 ![0] bcast_S32_S32x1_0 : (⟨S32, .f32⟩ : BufTy).Contents (Elt F) → (⟨S32x1, .f32⟩ : BufTy).Contents (Elt F)),
    StableHlo.unary main_v126 main_v146 (broadcastInDim S32x1 ![0] bcast_S32_S32x1_0 : (⟨S32, .f32⟩ : BufTy).Contents (Elt F) → (⟨S32x1, .f32⟩ : BufTy).Contents (Elt F)),
    StableHlo.unary main_v122 main_v147 (broadcastInDim S32x1 ![0] bcast_S32_S32x1_0 : (⟨S32, .f32⟩ : BufTy).Contents (Elt F) → (⟨S32x1, .f32⟩ : BufTy).Contents (Elt F)),
    StableHlo.nary ![main_v144, main_v145, main_v146, main_v147] main_v148 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v133 main_v149 (broadcastInDim S32x1x4 ![0, 2] bcast_S32x4_S32x1x4_0_2 : (⟨S32x4, .f32⟩ : BufTy).Contents (Elt F) → (⟨S32x1x4, .f32⟩ : BufTy).Contents (Elt F)),
    StableHlo.unary main_v138 main_v150 (broadcastInDim S32x1x4 ![0, 2] bcast_S32x4_S32x1x4_0_2 : (⟨S32x4, .f32⟩ : BufTy).Contents (Elt F) → (⟨S32x1x4, .f32⟩ : BufTy).Contents (Elt F)),
    StableHlo.unary main_v143 main_v151 (broadcastInDim S32x1x4 ![0, 2] bcast_S32x4_S32x1x4_0_2 : (⟨S32x4, .f32⟩ : BufTy).Contents (Elt F) → (⟨S32x1x4, .f32⟩ : BufTy).Contents (Elt F)),
    StableHlo.unary main_v148 main_v152 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v149, main_v150, main_v151, main_v152] main_v153 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 1, the RZ gate's 32×4×4 matrix from the angles params[1, :, 1] (39 operations). -/
abbrev gateOps_1_1 : List (HloOp τ sig (Elt F)) :=
  [ StableHlo.unary main_arg1 main_v154 ((extractStridedSlice S1x32x1 ![1, 0, 1] · slices_S8x32x3_S1x32x1_1_0_1) : (⟨S8x32x3, .f32⟩ : BufTy).Contents (Elt F) → (⟨S1x32x1, .f32⟩ : BufTy).Contents (Elt F)),
    StableHlo.reshape main_v154 main_v155 rfl shapeCasts_S1x32x1_S32,
    StableHlo.nullary main_cst_11 (constant S_ .f32 0x3F000000#32),
    StableHlo.unary main_cst_11 main_v156 (broadcastInDim S32 ![] bcast_S_S32 : (⟨S_, .f32⟩ : BufTy).Contents (Elt F) → (⟨S32, .f32⟩ : BufTy).Contents (Elt F)),
    StableHlo.binary main_v155 main_v156 main_v157 (mulf : (⟨S32, .f32⟩ : BufTy).Contents (Elt F) → (⟨S32, .f32⟩ : BufTy).Contents (Elt F) → (⟨S32, .f32⟩ : BufTy).Contents (Elt F)),
    StableHlo.unary main_v157 main_v158 (Host.cos : (⟨S32, .f32⟩ : BufTy).Contents (Elt F) → (⟨S32, .f32⟩ : BufTy).Contents (Elt F)),
    StableHlo.nullary main_cst_12 (constant S_ .f32 0x3F000000#32),
    StableHlo.unary main_cst_12 main_v159 (broadcastInDim S32 ![] bcast_S_S32 : (⟨S_, .f32⟩ : BufTy).Contents (Elt F) → (⟨S32, .f32⟩ : BufTy).Contents (Elt F)),
    StableHlo.binary main_v155 main_v159 main_v160 (mulf : (⟨S32, .f32⟩ : BufTy).Contents (Elt F) → (⟨S32, .f32⟩ : BufTy).Contents (Elt F) → (⟨S32, .f32⟩ : BufTy).Contents (Elt F)),
    StableHlo.unary main_v160 main_v161 (Host.sin : (⟨S32, .f32⟩ : BufTy).Contents (Elt F) → (⟨S32, .f32⟩ : BufTy).Contents (Elt F)),
    StableHlo.nullary main_cst_13 (constant S_ .f32 0x00000000#32),
    StableHlo.unary main_cst_13 main_v162 (broadcastInDim S32 ![] bcast_S_S32 : (⟨S_, .f32⟩ : BufTy).Contents (Elt F) → (⟨S32, .f32⟩ : BufTy).Contents (Elt F)),
    StableHlo.unary main_v161 main_v163 (Host.negf : (⟨S32, .f32⟩ : BufTy).Contents (Elt F) → (⟨S32, .f32⟩ : BufTy).Contents (Elt F)),
    StableHlo.unary main_v161 main_v164 (Host.negf : (⟨S32, .f32⟩ : BufTy).Contents (Elt F) → (⟨S32, .f32⟩ : BufTy).Contents (Elt F)),
    StableHlo.unary main_v158 main_v165 (broadcastInDim S32x1 ![0] bcast_S32_S32x1_0 : (⟨S32, .f32⟩ : BufTy).Contents (Elt F) → (⟨S32x1, .f32⟩ : BufTy).Contents (Elt F)),
    StableHlo.unary main_v161 main_v166 (broadcastInDim S32x1 ![0] bcast_S32_S32x1_0 : (⟨S32, .f32⟩ : BufTy).Contents (Elt F) → (⟨S32x1, .f32⟩ : BufTy).Contents (Elt F)),
    StableHlo.unary main_v162 main_v167 (broadcastInDim S32x1 ![0] bcast_S32_S32x1_0 : (⟨S32, .f32⟩ : BufTy).Contents (Elt F) → (⟨S32x1, .f32⟩ : BufTy).Contents (Elt F)),
    StableHlo.unary main_v162 main_v168 (broadcastInDim S32x1 ![0] bcast_S32_S32x1_0 : (⟨S32, .f32⟩ : BufTy).Contents (Elt F) → (⟨S32x1, .f32⟩ : BufTy).Contents (Elt F)),
    StableHlo.nary ![main_v165, main_v166, main_v167, main_v168] main_v169 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v163 main_v170 (broadcastInDim S32x1 ![0] bcast_S32_S32x1_0 : (⟨S32, .f32⟩ : BufTy).Contents (Elt F) → (⟨S32x1, .f32⟩ : BufTy).Contents (Elt F)),
    StableHlo.unary main_v158 main_v171 (broadcastInDim S32x1 ![0] bcast_S32_S32x1_0 : (⟨S32, .f32⟩ : BufTy).Contents (Elt F) → (⟨S32x1, .f32⟩ : BufTy).Contents (Elt F)),
    StableHlo.unary main_v162 main_v172 (broadcastInDim S32x1 ![0] bcast_S32_S32x1_0 : (⟨S32, .f32⟩ : BufTy).Contents (Elt F) → (⟨S32x1, .f32⟩ : BufTy).Contents (Elt F)),
    StableHlo.unary main_v162 main_v173 (broadcastInDim S32x1 ![0] bcast_S32_S32x1_0 : (⟨S32, .f32⟩ : BufTy).Contents (Elt F) → (⟨S32x1, .f32⟩ : BufTy).Contents (Elt F)),
    StableHlo.nary ![main_v170, main_v171, main_v172, main_v173] main_v174 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v162 main_v175 (broadcastInDim S32x1 ![0] bcast_S32_S32x1_0 : (⟨S32, .f32⟩ : BufTy).Contents (Elt F) → (⟨S32x1, .f32⟩ : BufTy).Contents (Elt F)),
    StableHlo.unary main_v162 main_v176 (broadcastInDim S32x1 ![0] bcast_S32_S32x1_0 : (⟨S32, .f32⟩ : BufTy).Contents (Elt F) → (⟨S32x1, .f32⟩ : BufTy).Contents (Elt F)),
    StableHlo.unary main_v158 main_v177 (broadcastInDim S32x1 ![0] bcast_S32_S32x1_0 : (⟨S32, .f32⟩ : BufTy).Contents (Elt F) → (⟨S32x1, .f32⟩ : BufTy).Contents (Elt F)),
    StableHlo.unary main_v164 main_v178 (broadcastInDim S32x1 ![0] bcast_S32_S32x1_0 : (⟨S32, .f32⟩ : BufTy).Contents (Elt F) → (⟨S32x1, .f32⟩ : BufTy).Contents (Elt F)),
    StableHlo.nary ![main_v175, main_v176, main_v177, main_v178] main_v179 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v162 main_v180 (broadcastInDim S32x1 ![0] bcast_S32_S32x1_0 : (⟨S32, .f32⟩ : BufTy).Contents (Elt F) → (⟨S32x1, .f32⟩ : BufTy).Contents (Elt F)),
    StableHlo.unary main_v162 main_v181 (broadcastInDim S32x1 ![0] bcast_S32_S32x1_0 : (⟨S32, .f32⟩ : BufTy).Contents (Elt F) → (⟨S32x1, .f32⟩ : BufTy).Contents (Elt F)),
    StableHlo.unary main_v161 main_v182 (broadcastInDim S32x1 ![0] bcast_S32_S32x1_0 : (⟨S32, .f32⟩ : BufTy).Contents (Elt F) → (⟨S32x1, .f32⟩ : BufTy).Contents (Elt F)),
    StableHlo.unary main_v158 main_v183 (broadcastInDim S32x1 ![0] bcast_S32_S32x1_0 : (⟨S32, .f32⟩ : BufTy).Contents (Elt F) → (⟨S32x1, .f32⟩ : BufTy).Contents (Elt F)),
    StableHlo.nary ![main_v180, main_v181, main_v182, main_v183] main_v184 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v169 main_v185 (broadcastInDim S32x1x4 ![0, 2] bcast_S32x4_S32x1x4_0_2 : (⟨S32x4, .f32⟩ : BufTy).Contents (Elt F) → (⟨S32x1x4, .f32⟩ : BufTy).Contents (Elt F)),
    StableHlo.unary main_v174 main_v186 (broadcastInDim S32x1x4 ![0, 2] bcast_S32x4_S32x1x4_0_2 : (⟨S32x4, .f32⟩ : BufTy).Contents (Elt F) → (⟨S32x1x4, .f32⟩ : BufTy).Contents (Elt F)),
    StableHlo.unary main_v179 main_v187 (broadcastInDim S32x1x4 ![0, 2] bcast_S32x4_S32x1x4_0_2 : (⟨S32x4, .f32⟩ : BufTy).Contents (Elt F) → (⟨S32x1x4, .f32⟩ : BufTy).Contents (Elt F)),
    StableHlo.unary main_v184 main_v188 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v185, main_v186, main_v187, main_v188] main_v189 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 1, the RX gate's 32×4×4 matrix from the angles params[1, :, 2] (39 operations). -/
abbrev gateOps_1_2 : List (HloOp τ sig (Elt F)) :=
  [ StableHlo.unary main_arg1 main_v190 ((extractStridedSlice S1x32x1 ![1, 0, 2] · slices_S8x32x3_S1x32x1_1_0_2) : (⟨S8x32x3, .f32⟩ : BufTy).Contents (Elt F) → (⟨S1x32x1, .f32⟩ : BufTy).Contents (Elt F)),
    StableHlo.reshape main_v190 main_v191 rfl shapeCasts_S1x32x1_S32,
    StableHlo.nullary main_cst_14 (constant S_ .f32 0x3F000000#32),
    StableHlo.unary main_cst_14 main_v192 (broadcastInDim S32 ![] bcast_S_S32 : (⟨S_, .f32⟩ : BufTy).Contents (Elt F) → (⟨S32, .f32⟩ : BufTy).Contents (Elt F)),
    StableHlo.binary main_v191 main_v192 main_v193 (mulf : (⟨S32, .f32⟩ : BufTy).Contents (Elt F) → (⟨S32, .f32⟩ : BufTy).Contents (Elt F) → (⟨S32, .f32⟩ : BufTy).Contents (Elt F)),
    StableHlo.unary main_v193 main_v194 (Host.cos : (⟨S32, .f32⟩ : BufTy).Contents (Elt F) → (⟨S32, .f32⟩ : BufTy).Contents (Elt F)),
    StableHlo.nullary main_cst_15 (constant S_ .f32 0x3F000000#32),
    StableHlo.unary main_cst_15 main_v195 (broadcastInDim S32 ![] bcast_S_S32 : (⟨S_, .f32⟩ : BufTy).Contents (Elt F) → (⟨S32, .f32⟩ : BufTy).Contents (Elt F)),
    StableHlo.binary main_v191 main_v195 main_v196 (mulf : (⟨S32, .f32⟩ : BufTy).Contents (Elt F) → (⟨S32, .f32⟩ : BufTy).Contents (Elt F) → (⟨S32, .f32⟩ : BufTy).Contents (Elt F)),
    StableHlo.unary main_v196 main_v197 (Host.sin : (⟨S32, .f32⟩ : BufTy).Contents (Elt F) → (⟨S32, .f32⟩ : BufTy).Contents (Elt F)),
    StableHlo.nullary main_cst_16 (constant S_ .f32 0x00000000#32),
    StableHlo.unary main_cst_16 main_v198 (broadcastInDim S32 ![] bcast_S_S32 : (⟨S_, .f32⟩ : BufTy).Contents (Elt F) → (⟨S32, .f32⟩ : BufTy).Contents (Elt F)),
    StableHlo.unary main_v197 main_v199 (Host.negf : (⟨S32, .f32⟩ : BufTy).Contents (Elt F) → (⟨S32, .f32⟩ : BufTy).Contents (Elt F)),
    StableHlo.unary main_v197 main_v200 (Host.negf : (⟨S32, .f32⟩ : BufTy).Contents (Elt F) → (⟨S32, .f32⟩ : BufTy).Contents (Elt F)),
    StableHlo.unary main_v194 main_v201 (broadcastInDim S32x1 ![0] bcast_S32_S32x1_0 : (⟨S32, .f32⟩ : BufTy).Contents (Elt F) → (⟨S32x1, .f32⟩ : BufTy).Contents (Elt F)),
    StableHlo.unary main_v198 main_v202 (broadcastInDim S32x1 ![0] bcast_S32_S32x1_0 : (⟨S32, .f32⟩ : BufTy).Contents (Elt F) → (⟨S32x1, .f32⟩ : BufTy).Contents (Elt F)),
    StableHlo.unary main_v198 main_v203 (broadcastInDim S32x1 ![0] bcast_S32_S32x1_0 : (⟨S32, .f32⟩ : BufTy).Contents (Elt F) → (⟨S32x1, .f32⟩ : BufTy).Contents (Elt F)),
    StableHlo.unary main_v197 main_v204 (broadcastInDim S32x1 ![0] bcast_S32_S32x1_0 : (⟨S32, .f32⟩ : BufTy).Contents (Elt F) → (⟨S32x1, .f32⟩ : BufTy).Contents (Elt F)),
    StableHlo.nary ![main_v201, main_v202, main_v203, main_v204] main_v205 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v198 main_v206 (broadcastInDim S32x1 ![0] bcast_S32_S32x1_0 : (⟨S32, .f32⟩ : BufTy).Contents (Elt F) → (⟨S32x1, .f32⟩ : BufTy).Contents (Elt F)),
    StableHlo.unary main_v194 main_v207 (broadcastInDim S32x1 ![0] bcast_S32_S32x1_0 : (⟨S32, .f32⟩ : BufTy).Contents (Elt F) → (⟨S32x1, .f32⟩ : BufTy).Contents (Elt F)),
    StableHlo.unary main_v199 main_v208 (broadcastInDim S32x1 ![0] bcast_S32_S32x1_0 : (⟨S32, .f32⟩ : BufTy).Contents (Elt F) → (⟨S32x1, .f32⟩ : BufTy).Contents (Elt F)),
    StableHlo.unary main_v198 main_v209 (broadcastInDim S32x1 ![0] bcast_S32_S32x1_0 : (⟨S32, .f32⟩ : BufTy).Contents (Elt F) → (⟨S32x1, .f32⟩ : BufTy).Contents (Elt F)),
    StableHlo.nary ![main_v206, main_v207, main_v208, main_v209] main_v210 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v198 main_v211 (broadcastInDim S32x1 ![0] bcast_S32_S32x1_0 : (⟨S32, .f32⟩ : BufTy).Contents (Elt F) → (⟨S32x1, .f32⟩ : BufTy).Contents (Elt F)),
    StableHlo.unary main_v197 main_v212 (broadcastInDim S32x1 ![0] bcast_S32_S32x1_0 : (⟨S32, .f32⟩ : BufTy).Contents (Elt F) → (⟨S32x1, .f32⟩ : BufTy).Contents (Elt F)),
    StableHlo.unary main_v194 main_v213 (broadcastInDim S32x1 ![0] bcast_S32_S32x1_0 : (⟨S32, .f32⟩ : BufTy).Contents (Elt F) → (⟨S32x1, .f32⟩ : BufTy).Contents (Elt F)),
    StableHlo.unary main_v198 main_v214 (broadcastInDim S32x1 ![0] bcast_S32_S32x1_0 : (⟨S32, .f32⟩ : BufTy).Contents (Elt F) → (⟨S32x1, .f32⟩ : BufTy).Contents (Elt F)),
    StableHlo.nary ![main_v211, main_v212, main_v213, main_v214] main_v215 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v200 main_v216 (broadcastInDim S32x1 ![0] bcast_S32_S32x1_0 : (⟨S32, .f32⟩ : BufTy).Contents (Elt F) → (⟨S32x1, .f32⟩ : BufTy).Contents (Elt F)),
    StableHlo.unary main_v198 main_v217 (broadcastInDim S32x1 ![0] bcast_S32_S32x1_0 : (⟨S32, .f32⟩ : BufTy).Contents (Elt F) → (⟨S32x1, .f32⟩ : BufTy).Contents (Elt F)),
    StableHlo.unary main_v198 main_v218 (broadcastInDim S32x1 ![0] bcast_S32_S32x1_0 : (⟨S32, .f32⟩ : BufTy).Contents (Elt F) → (⟨S32x1, .f32⟩ : BufTy).Contents (Elt F)),
    StableHlo.unary main_v194 main_v219 (broadcastInDim S32x1 ![0] bcast_S32_S32x1_0 : (⟨S32, .f32⟩ : BufTy).Contents (Elt F) → (⟨S32x1, .f32⟩ : BufTy).Contents (Elt F)),
    StableHlo.nary ![main_v216, main_v217, main_v218, main_v219] main_v220 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v205 main_v221 (broadcastInDim S32x1x4 ![0, 2] bcast_S32x4_S32x1x4_0_2 : (⟨S32x4, .f32⟩ : BufTy).Contents (Elt F) → (⟨S32x1x4, .f32⟩ : BufTy).Contents (Elt F)),
    StableHlo.unary main_v210 main_v222 (broadcastInDim S32x1x4 ![0, 2] bcast_S32x4_S32x1x4_0_2 : (⟨S32x4, .f32⟩ : BufTy).Contents (Elt F) → (⟨S32x1x4, .f32⟩ : BufTy).Contents (Elt F)),
    StableHlo.unary main_v215 main_v223 (broadcastInDim S32x1x4 ![0, 2] bcast_S32x4_S32x1x4_0_2 : (⟨S32x4, .f32⟩ : BufTy).Contents (Elt F) → (⟨S32x1x4, .f32⟩ : BufTy).Contents (Elt F)),
    StableHlo.unary main_v220 main_v224 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v221, main_v222, main_v223, main_v224] main_v225 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 1: RZ·RY, then RX·(RZ·RY), then that product times the matrix accumulated so far (3 batched products). -/
abbrev dotOps_1 : List (HloOp τ sig (Elt F)) :=
  [ StableHlo.binary main_v189 main_v153 main_v226 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v225 main_v226 main_v227 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v227 main_v117 main_v228 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 2, the RY gate's 32×4×4 matrix from the angles params[2, :, 0] (39 operations). -/
abbrev gateOps_2_0 : List (HloOp τ sig (Elt F)) :=
  [ StableHlo.unary main_arg1 main_v229 ((extractStridedSlice S1x32x1 ![2, 0, 0] · slices_S8x32x3_S1x32x1_2_0_0) : (⟨S8x32x3, .f32⟩ : BufTy).Contents (Elt F) → (⟨S1x32x1, .f32⟩ : BufTy).Contents (Elt F)),
    StableHlo.reshape main_v229 main_v230 rfl shapeCasts_S1x32x1_S32,
    StableHlo.nullary main_cst_17 (constant S_ .f32 0x3F000000#32),
    StableHlo.unary main_cst_17 main_v231 (broadcastInDim S32 ![] bcast_S_S32 : (⟨S_, .f32⟩ : BufTy).Contents (Elt F) → (⟨S32, .f32⟩ : BufTy).Contents (Elt F)),
    StableHlo.binary main_v230 main_v231 main_v232 (mulf : (⟨S32, .f32⟩ : BufTy).Contents (Elt F) → (⟨S32, .f32⟩ : BufTy).Contents (Elt F) → (⟨S32, .f32⟩ : BufTy).Contents (Elt F)),
    StableHlo.unary main_v232 main_v233 (Host.cos : (⟨S32, .f32⟩ : BufTy).Contents (Elt F) → (⟨S32, .f32⟩ : BufTy).Contents (Elt F)),
    StableHlo.nullary main_cst_18 (constant S_ .f32 0x3F000000#32),
    StableHlo.unary main_cst_18 main_v234 (broadcastInDim S32 ![] bcast_S_S32 : (⟨S_, .f32⟩ : BufTy).Contents (Elt F) → (⟨S32, .f32⟩ : BufTy).Contents (Elt F)),
    StableHlo.binary main_v230 main_v234 main_v235 (mulf : (⟨S32, .f32⟩ : BufTy).Contents (Elt F) → (⟨S32, .f32⟩ : BufTy).Contents (Elt F) → (⟨S32, .f32⟩ : BufTy).Contents (Elt F)),
    StableHlo.unary main_v235 main_v236 (Host.sin : (⟨S32, .f32⟩ : BufTy).Contents (Elt F) → (⟨S32, .f32⟩ : BufTy).Contents (Elt F)),
    StableHlo.nullary main_cst_19 (constant S_ .f32 0x00000000#32),
    StableHlo.unary main_cst_19 main_v237 (broadcastInDim S32 ![] bcast_S_S32 : (⟨S_, .f32⟩ : BufTy).Contents (Elt F) → (⟨S32, .f32⟩ : BufTy).Contents (Elt F)),
    StableHlo.unary main_v236 main_v238 (Host.negf : (⟨S32, .f32⟩ : BufTy).Contents (Elt F) → (⟨S32, .f32⟩ : BufTy).Contents (Elt F)),
    StableHlo.unary main_v236 main_v239 (Host.negf : (⟨S32, .f32⟩ : BufTy).Contents (Elt F) → (⟨S32, .f32⟩ : BufTy).Contents (Elt F)),
    StableHlo.unary main_v233 main_v240 (broadcastInDim S32x1 ![0] bcast_S32_S32x1_0 : (⟨S32, .f32⟩ : BufTy).Contents (Elt F) → (⟨S32x1, .f32⟩ : BufTy).Contents (Elt F)),
    StableHlo.unary main_v237 main_v241 (broadcastInDim S32x1 ![0] bcast_S32_S32x1_0 : (⟨S32, .f32⟩ : BufTy).Contents (Elt F) → (⟨S32x1, .f32⟩ : BufTy).Contents (Elt F)),
    StableHlo.unary main_v238 main_v242 (broadcastInDim S32x1 ![0] bcast_S32_S32x1_0 : (⟨S32, .f32⟩ : BufTy).Contents (Elt F) → (⟨S32x1, .f32⟩ : BufTy).Contents (Elt F)),
    StableHlo.unary main_v237 main_v243 (broadcastInDim S32x1 ![0] bcast_S32_S32x1_0 : (⟨S32, .f32⟩ : BufTy).Contents (Elt F) → (⟨S32x1, .f32⟩ : BufTy).Contents (Elt F)),
    StableHlo.nary ![main_v240, main_v241, main_v242, main_v243] main_v244 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v237 main_v245 (broadcastInDim S32x1 ![0] bcast_S32_S32x1_0 : (⟨S32, .f32⟩ : BufTy).Contents (Elt F) → (⟨S32x1, .f32⟩ : BufTy).Contents (Elt F)),
    StableHlo.unary main_v233 main_v246 (broadcastInDim S32x1 ![0] bcast_S32_S32x1_0 : (⟨S32, .f32⟩ : BufTy).Contents (Elt F) → (⟨S32x1, .f32⟩ : BufTy).Contents (Elt F)),
    StableHlo.unary main_v237 main_v247 (broadcastInDim S32x1 ![0] bcast_S32_S32x1_0 : (⟨S32, .f32⟩ : BufTy).Contents (Elt F) → (⟨S32x1, .f32⟩ : BufTy).Contents (Elt F)),
    StableHlo.unary main_v239 main_v248 (broadcastInDim S32x1 ![0] bcast_S32_S32x1_0 : (⟨S32, .f32⟩ : BufTy).Contents (Elt F) → (⟨S32x1, .f32⟩ : BufTy).Contents (Elt F)),
    StableHlo.nary ![main_v245, main_v246, main_v247, main_v248] main_v249 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v236 main_v250 (broadcastInDim S32x1 ![0] bcast_S32_S32x1_0 : (⟨S32, .f32⟩ : BufTy).Contents (Elt F) → (⟨S32x1, .f32⟩ : BufTy).Contents (Elt F)),
    StableHlo.unary main_v237 main_v251 (broadcastInDim S32x1 ![0] bcast_S32_S32x1_0 : (⟨S32, .f32⟩ : BufTy).Contents (Elt F) → (⟨S32x1, .f32⟩ : BufTy).Contents (Elt F)),
    StableHlo.unary main_v233 main_v252 (broadcastInDim S32x1 ![0] bcast_S32_S32x1_0 : (⟨S32, .f32⟩ : BufTy).Contents (Elt F) → (⟨S32x1, .f32⟩ : BufTy).Contents (Elt F)),
    StableHlo.unary main_v237 main_v253 (broadcastInDim S32x1 ![0] bcast_S32_S32x1_0 : (⟨S32, .f32⟩ : BufTy).Contents (Elt F) → (⟨S32x1, .f32⟩ : BufTy).Contents (Elt F)),
    StableHlo.nary ![main_v250, main_v251, main_v252, main_v253] main_v254 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v237 main_v255 (broadcastInDim S32x1 ![0] bcast_S32_S32x1_0 : (⟨S32, .f32⟩ : BufTy).Contents (Elt F) → (⟨S32x1, .f32⟩ : BufTy).Contents (Elt F)),
    StableHlo.unary main_v236 main_v256 (broadcastInDim S32x1 ![0] bcast_S32_S32x1_0 : (⟨S32, .f32⟩ : BufTy).Contents (Elt F) → (⟨S32x1, .f32⟩ : BufTy).Contents (Elt F)),
    StableHlo.unary main_v237 main_v257 (broadcastInDim S32x1 ![0] bcast_S32_S32x1_0 : (⟨S32, .f32⟩ : BufTy).Contents (Elt F) → (⟨S32x1, .f32⟩ : BufTy).Contents (Elt F)),
    StableHlo.unary main_v233 main_v258 (broadcastInDim S32x1 ![0] bcast_S32_S32x1_0 : (⟨S32, .f32⟩ : BufTy).Contents (Elt F) → (⟨S32x1, .f32⟩ : BufTy).Contents (Elt F)),
    StableHlo.nary ![main_v255, main_v256, main_v257, main_v258] main_v259 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v244 main_v260 (broadcastInDim S32x1x4 ![0, 2] bcast_S32x4_S32x1x4_0_2 : (⟨S32x4, .f32⟩ : BufTy).Contents (Elt F) → (⟨S32x1x4, .f32⟩ : BufTy).Contents (Elt F)),
    StableHlo.unary main_v249 main_v261 (broadcastInDim S32x1x4 ![0, 2] bcast_S32x4_S32x1x4_0_2 : (⟨S32x4, .f32⟩ : BufTy).Contents (Elt F) → (⟨S32x1x4, .f32⟩ : BufTy).Contents (Elt F)),
    StableHlo.unary main_v254 main_v262 (broadcastInDim S32x1x4 ![0, 2] bcast_S32x4_S32x1x4_0_2 : (⟨S32x4, .f32⟩ : BufTy).Contents (Elt F) → (⟨S32x1x4, .f32⟩ : BufTy).Contents (Elt F)),
    StableHlo.unary main_v259 main_v263 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v260, main_v261, main_v262, main_v263] main_v264 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 2, the RZ gate's 32×4×4 matrix from the angles params[2, :, 1] (39 operations). -/
abbrev gateOps_2_1 : List (HloOp τ sig (Elt F)) :=
  [ StableHlo.unary main_arg1 main_v265 ((extractStridedSlice S1x32x1 ![2, 0, 1] · slices_S8x32x3_S1x32x1_2_0_1) : (⟨S8x32x3, .f32⟩ : BufTy).Contents (Elt F) → (⟨S1x32x1, .f32⟩ : BufTy).Contents (Elt F)),
    StableHlo.reshape main_v265 main_v266 rfl shapeCasts_S1x32x1_S32,
    StableHlo.nullary main_cst_20 (constant S_ .f32 0x3F000000#32),
    StableHlo.unary main_cst_20 main_v267 (broadcastInDim S32 ![] bcast_S_S32 : (⟨S_, .f32⟩ : BufTy).Contents (Elt F) → (⟨S32, .f32⟩ : BufTy).Contents (Elt F)),
    StableHlo.binary main_v266 main_v267 main_v268 (mulf : (⟨S32, .f32⟩ : BufTy).Contents (Elt F) → (⟨S32, .f32⟩ : BufTy).Contents (Elt F) → (⟨S32, .f32⟩ : BufTy).Contents (Elt F)),
    StableHlo.unary main_v268 main_v269 (Host.cos : (⟨S32, .f32⟩ : BufTy).Contents (Elt F) → (⟨S32, .f32⟩ : BufTy).Contents (Elt F)),
    StableHlo.nullary main_cst_21 (constant S_ .f32 0x3F000000#32),
    StableHlo.unary main_cst_21 main_v270 (broadcastInDim S32 ![] bcast_S_S32 : (⟨S_, .f32⟩ : BufTy).Contents (Elt F) → (⟨S32, .f32⟩ : BufTy).Contents (Elt F)),
    StableHlo.binary main_v266 main_v270 main_v271 (mulf : (⟨S32, .f32⟩ : BufTy).Contents (Elt F) → (⟨S32, .f32⟩ : BufTy).Contents (Elt F) → (⟨S32, .f32⟩ : BufTy).Contents (Elt F)),
    StableHlo.unary main_v271 main_v272 (Host.sin : (⟨S32, .f32⟩ : BufTy).Contents (Elt F) → (⟨S32, .f32⟩ : BufTy).Contents (Elt F)),
    StableHlo.nullary main_cst_22 (constant S_ .f32 0x00000000#32),
    StableHlo.unary main_cst_22 main_v273 (broadcastInDim S32 ![] bcast_S_S32 : (⟨S_, .f32⟩ : BufTy).Contents (Elt F) → (⟨S32, .f32⟩ : BufTy).Contents (Elt F)),
    StableHlo.unary main_v272 main_v274 (Host.negf : (⟨S32, .f32⟩ : BufTy).Contents (Elt F) → (⟨S32, .f32⟩ : BufTy).Contents (Elt F)),
    StableHlo.unary main_v272 main_v275 (Host.negf : (⟨S32, .f32⟩ : BufTy).Contents (Elt F) → (⟨S32, .f32⟩ : BufTy).Contents (Elt F)),
    StableHlo.unary main_v269 main_v276 (broadcastInDim S32x1 ![0] bcast_S32_S32x1_0 : (⟨S32, .f32⟩ : BufTy).Contents (Elt F) → (⟨S32x1, .f32⟩ : BufTy).Contents (Elt F)),
    StableHlo.unary main_v272 main_v277 (broadcastInDim S32x1 ![0] bcast_S32_S32x1_0 : (⟨S32, .f32⟩ : BufTy).Contents (Elt F) → (⟨S32x1, .f32⟩ : BufTy).Contents (Elt F)),
    StableHlo.unary main_v273 main_v278 (broadcastInDim S32x1 ![0] bcast_S32_S32x1_0 : (⟨S32, .f32⟩ : BufTy).Contents (Elt F) → (⟨S32x1, .f32⟩ : BufTy).Contents (Elt F)),
    StableHlo.unary main_v273 main_v279 (broadcastInDim S32x1 ![0] bcast_S32_S32x1_0 : (⟨S32, .f32⟩ : BufTy).Contents (Elt F) → (⟨S32x1, .f32⟩ : BufTy).Contents (Elt F)),
    StableHlo.nary ![main_v276, main_v277, main_v278, main_v279] main_v280 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v274 main_v281 (broadcastInDim S32x1 ![0] bcast_S32_S32x1_0 : (⟨S32, .f32⟩ : BufTy).Contents (Elt F) → (⟨S32x1, .f32⟩ : BufTy).Contents (Elt F)),
    StableHlo.unary main_v269 main_v282 (broadcastInDim S32x1 ![0] bcast_S32_S32x1_0 : (⟨S32, .f32⟩ : BufTy).Contents (Elt F) → (⟨S32x1, .f32⟩ : BufTy).Contents (Elt F)),
    StableHlo.unary main_v273 main_v283 (broadcastInDim S32x1 ![0] bcast_S32_S32x1_0 : (⟨S32, .f32⟩ : BufTy).Contents (Elt F) → (⟨S32x1, .f32⟩ : BufTy).Contents (Elt F)),
    StableHlo.unary main_v273 main_v284 (broadcastInDim S32x1 ![0] bcast_S32_S32x1_0 : (⟨S32, .f32⟩ : BufTy).Contents (Elt F) → (⟨S32x1, .f32⟩ : BufTy).Contents (Elt F)),
    StableHlo.nary ![main_v281, main_v282, main_v283, main_v284] main_v285 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v273 main_v286 (broadcastInDim S32x1 ![0] bcast_S32_S32x1_0 : (⟨S32, .f32⟩ : BufTy).Contents (Elt F) → (⟨S32x1, .f32⟩ : BufTy).Contents (Elt F)),
    StableHlo.unary main_v273 main_v287 (broadcastInDim S32x1 ![0] bcast_S32_S32x1_0 : (⟨S32, .f32⟩ : BufTy).Contents (Elt F) → (⟨S32x1, .f32⟩ : BufTy).Contents (Elt F)),
    StableHlo.unary main_v269 main_v288 (broadcastInDim S32x1 ![0] bcast_S32_S32x1_0 : (⟨S32, .f32⟩ : BufTy).Contents (Elt F) → (⟨S32x1, .f32⟩ : BufTy).Contents (Elt F)),
    StableHlo.unary main_v275 main_v289 (broadcastInDim S32x1 ![0] bcast_S32_S32x1_0 : (⟨S32, .f32⟩ : BufTy).Contents (Elt F) → (⟨S32x1, .f32⟩ : BufTy).Contents (Elt F)),
    StableHlo.nary ![main_v286, main_v287, main_v288, main_v289] main_v290 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v273 main_v291 (broadcastInDim S32x1 ![0] bcast_S32_S32x1_0 : (⟨S32, .f32⟩ : BufTy).Contents (Elt F) → (⟨S32x1, .f32⟩ : BufTy).Contents (Elt F)),
    StableHlo.unary main_v273 main_v292 (broadcastInDim S32x1 ![0] bcast_S32_S32x1_0 : (⟨S32, .f32⟩ : BufTy).Contents (Elt F) → (⟨S32x1, .f32⟩ : BufTy).Contents (Elt F)),
    StableHlo.unary main_v272 main_v293 (broadcastInDim S32x1 ![0] bcast_S32_S32x1_0 : (⟨S32, .f32⟩ : BufTy).Contents (Elt F) → (⟨S32x1, .f32⟩ : BufTy).Contents (Elt F)),
    StableHlo.unary main_v269 main_v294 (broadcastInDim S32x1 ![0] bcast_S32_S32x1_0 : (⟨S32, .f32⟩ : BufTy).Contents (Elt F) → (⟨S32x1, .f32⟩ : BufTy).Contents (Elt F)),
    StableHlo.nary ![main_v291, main_v292, main_v293, main_v294] main_v295 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v280 main_v296 (broadcastInDim S32x1x4 ![0, 2] bcast_S32x4_S32x1x4_0_2 : (⟨S32x4, .f32⟩ : BufTy).Contents (Elt F) → (⟨S32x1x4, .f32⟩ : BufTy).Contents (Elt F)),
    StableHlo.unary main_v285 main_v297 (broadcastInDim S32x1x4 ![0, 2] bcast_S32x4_S32x1x4_0_2 : (⟨S32x4, .f32⟩ : BufTy).Contents (Elt F) → (⟨S32x1x4, .f32⟩ : BufTy).Contents (Elt F)),
    StableHlo.unary main_v290 main_v298 (broadcastInDim S32x1x4 ![0, 2] bcast_S32x4_S32x1x4_0_2 : (⟨S32x4, .f32⟩ : BufTy).Contents (Elt F) → (⟨S32x1x4, .f32⟩ : BufTy).Contents (Elt F)),
    StableHlo.unary main_v295 main_v299 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v296, main_v297, main_v298, main_v299] main_v300 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 2, the RX gate's 32×4×4 matrix from the angles params[2, :, 2] (39 operations). -/
abbrev gateOps_2_2 : List (HloOp τ sig (Elt F)) :=
  [ StableHlo.unary main_arg1 main_v301 ((extractStridedSlice S1x32x1 ![2, 0, 2] · slices_S8x32x3_S1x32x1_2_0_2) : (⟨S8x32x3, .f32⟩ : BufTy).Contents (Elt F) → (⟨S1x32x1, .f32⟩ : BufTy).Contents (Elt F)),
    StableHlo.reshape main_v301 main_v302 rfl shapeCasts_S1x32x1_S32,
    StableHlo.nullary main_cst_23 (constant S_ .f32 0x3F000000#32),
    StableHlo.unary main_cst_23 main_v303 (broadcastInDim S32 ![] bcast_S_S32 : (⟨S_, .f32⟩ : BufTy).Contents (Elt F) → (⟨S32, .f32⟩ : BufTy).Contents (Elt F)),
    StableHlo.binary main_v302 main_v303 main_v304 (mulf : (⟨S32, .f32⟩ : BufTy).Contents (Elt F) → (⟨S32, .f32⟩ : BufTy).Contents (Elt F) → (⟨S32, .f32⟩ : BufTy).Contents (Elt F)),
    StableHlo.unary main_v304 main_v305 (Host.cos : (⟨S32, .f32⟩ : BufTy).Contents (Elt F) → (⟨S32, .f32⟩ : BufTy).Contents (Elt F)),
    StableHlo.nullary main_cst_24 (constant S_ .f32 0x3F000000#32),
    StableHlo.unary main_cst_24 main_v306 (broadcastInDim S32 ![] bcast_S_S32 : (⟨S_, .f32⟩ : BufTy).Contents (Elt F) → (⟨S32, .f32⟩ : BufTy).Contents (Elt F)),
    StableHlo.binary main_v302 main_v306 main_v307 (mulf : (⟨S32, .f32⟩ : BufTy).Contents (Elt F) → (⟨S32, .f32⟩ : BufTy).Contents (Elt F) → (⟨S32, .f32⟩ : BufTy).Contents (Elt F)),
    StableHlo.unary main_v307 main_v308 (Host.sin : (⟨S32, .f32⟩ : BufTy).Contents (Elt F) → (⟨S32, .f32⟩ : BufTy).Contents (Elt F)),
    StableHlo.nullary main_cst_25 (constant S_ .f32 0x00000000#32),
    StableHlo.unary main_cst_25 main_v309 (broadcastInDim S32 ![] bcast_S_S32 : (⟨S_, .f32⟩ : BufTy).Contents (Elt F) → (⟨S32, .f32⟩ : BufTy).Contents (Elt F)),
    StableHlo.unary main_v308 main_v310 (Host.negf : (⟨S32, .f32⟩ : BufTy).Contents (Elt F) → (⟨S32, .f32⟩ : BufTy).Contents (Elt F)),
    StableHlo.unary main_v308 main_v311 (Host.negf : (⟨S32, .f32⟩ : BufTy).Contents (Elt F) → (⟨S32, .f32⟩ : BufTy).Contents (Elt F)),
    StableHlo.unary main_v305 main_v312 (broadcastInDim S32x1 ![0] bcast_S32_S32x1_0 : (⟨S32, .f32⟩ : BufTy).Contents (Elt F) → (⟨S32x1, .f32⟩ : BufTy).Contents (Elt F)),
    StableHlo.unary main_v309 main_v313 (broadcastInDim S32x1 ![0] bcast_S32_S32x1_0 : (⟨S32, .f32⟩ : BufTy).Contents (Elt F) → (⟨S32x1, .f32⟩ : BufTy).Contents (Elt F)),
    StableHlo.unary main_v309 main_v314 (broadcastInDim S32x1 ![0] bcast_S32_S32x1_0 : (⟨S32, .f32⟩ : BufTy).Contents (Elt F) → (⟨S32x1, .f32⟩ : BufTy).Contents (Elt F)),
    StableHlo.unary main_v308 main_v315 (broadcastInDim S32x1 ![0] bcast_S32_S32x1_0 : (⟨S32, .f32⟩ : BufTy).Contents (Elt F) → (⟨S32x1, .f32⟩ : BufTy).Contents (Elt F)),
    StableHlo.nary ![main_v312, main_v313, main_v314, main_v315] main_v316 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v309 main_v317 (broadcastInDim S32x1 ![0] bcast_S32_S32x1_0 : (⟨S32, .f32⟩ : BufTy).Contents (Elt F) → (⟨S32x1, .f32⟩ : BufTy).Contents (Elt F)),
    StableHlo.unary main_v305 main_v318 (broadcastInDim S32x1 ![0] bcast_S32_S32x1_0 : (⟨S32, .f32⟩ : BufTy).Contents (Elt F) → (⟨S32x1, .f32⟩ : BufTy).Contents (Elt F)),
    StableHlo.unary main_v310 main_v319 (broadcastInDim S32x1 ![0] bcast_S32_S32x1_0 : (⟨S32, .f32⟩ : BufTy).Contents (Elt F) → (⟨S32x1, .f32⟩ : BufTy).Contents (Elt F)),
    StableHlo.unary main_v309 main_v320 (broadcastInDim S32x1 ![0] bcast_S32_S32x1_0 : (⟨S32, .f32⟩ : BufTy).Contents (Elt F) → (⟨S32x1, .f32⟩ : BufTy).Contents (Elt F)),
    StableHlo.nary ![main_v317, main_v318, main_v319, main_v320] main_v321 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v309 main_v322 (broadcastInDim S32x1 ![0] bcast_S32_S32x1_0 : (⟨S32, .f32⟩ : BufTy).Contents (Elt F) → (⟨S32x1, .f32⟩ : BufTy).Contents (Elt F)),
    StableHlo.unary main_v308 main_v323 (broadcastInDim S32x1 ![0] bcast_S32_S32x1_0 : (⟨S32, .f32⟩ : BufTy).Contents (Elt F) → (⟨S32x1, .f32⟩ : BufTy).Contents (Elt F)),
    StableHlo.unary main_v305 main_v324 (broadcastInDim S32x1 ![0] bcast_S32_S32x1_0 : (⟨S32, .f32⟩ : BufTy).Contents (Elt F) → (⟨S32x1, .f32⟩ : BufTy).Contents (Elt F)),
    StableHlo.unary main_v309 main_v325 (broadcastInDim S32x1 ![0] bcast_S32_S32x1_0 : (⟨S32, .f32⟩ : BufTy).Contents (Elt F) → (⟨S32x1, .f32⟩ : BufTy).Contents (Elt F)),
    StableHlo.nary ![main_v322, main_v323, main_v324, main_v325] main_v326 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v311 main_v327 (broadcastInDim S32x1 ![0] bcast_S32_S32x1_0 : (⟨S32, .f32⟩ : BufTy).Contents (Elt F) → (⟨S32x1, .f32⟩ : BufTy).Contents (Elt F)),
    StableHlo.unary main_v309 main_v328 (broadcastInDim S32x1 ![0] bcast_S32_S32x1_0 : (⟨S32, .f32⟩ : BufTy).Contents (Elt F) → (⟨S32x1, .f32⟩ : BufTy).Contents (Elt F)),
    StableHlo.unary main_v309 main_v329 (broadcastInDim S32x1 ![0] bcast_S32_S32x1_0 : (⟨S32, .f32⟩ : BufTy).Contents (Elt F) → (⟨S32x1, .f32⟩ : BufTy).Contents (Elt F)),
    StableHlo.unary main_v305 main_v330 (broadcastInDim S32x1 ![0] bcast_S32_S32x1_0 : (⟨S32, .f32⟩ : BufTy).Contents (Elt F) → (⟨S32x1, .f32⟩ : BufTy).Contents (Elt F)),
    StableHlo.nary ![main_v327, main_v328, main_v329, main_v330] main_v331 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v316 main_v332 (broadcastInDim S32x1x4 ![0, 2] bcast_S32x4_S32x1x4_0_2 : (⟨S32x4, .f32⟩ : BufTy).Contents (Elt F) → (⟨S32x1x4, .f32⟩ : BufTy).Contents (Elt F)),
    StableHlo.unary main_v321 main_v333 (broadcastInDim S32x1x4 ![0, 2] bcast_S32x4_S32x1x4_0_2 : (⟨S32x4, .f32⟩ : BufTy).Contents (Elt F) → (⟨S32x1x4, .f32⟩ : BufTy).Contents (Elt F)),
    StableHlo.unary main_v326 main_v334 (broadcastInDim S32x1x4 ![0, 2] bcast_S32x4_S32x1x4_0_2 : (⟨S32x4, .f32⟩ : BufTy).Contents (Elt F) → (⟨S32x1x4, .f32⟩ : BufTy).Contents (Elt F)),
    StableHlo.unary main_v331 main_v335 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v332, main_v333, main_v334, main_v335] main_v336 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 2: RZ·RY, then RX·(RZ·RY), then that product times the matrix accumulated so far (3 batched products). -/
abbrev dotOps_2 : List (HloOp τ sig (Elt F)) :=
  [ StableHlo.binary main_v300 main_v264 main_v337 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v336 main_v337 main_v338 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v338 main_v228 main_v339 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 3, the RY gate's 32×4×4 matrix from the angles params[3, :, 0] (39 operations). -/
abbrev gateOps_3_0 : List (HloOp τ sig (Elt F)) :=
  [ StableHlo.unary main_arg1 main_v340 ((extractStridedSlice S1x32x1 ![3, 0, 0] · slices_S8x32x3_S1x32x1_3_0_0) : (⟨S8x32x3, .f32⟩ : BufTy).Contents (Elt F) → (⟨S1x32x1, .f32⟩ : BufTy).Contents (Elt F)),
    StableHlo.reshape main_v340 main_v341 rfl shapeCasts_S1x32x1_S32,
    StableHlo.nullary main_cst_26 (constant S_ .f32 0x3F000000#32),
    StableHlo.unary main_cst_26 main_v342 (broadcastInDim S32 ![] bcast_S_S32 : (⟨S_, .f32⟩ : BufTy).Contents (Elt F) → (⟨S32, .f32⟩ : BufTy).Contents (Elt F)),
    StableHlo.binary main_v341 main_v342 main_v343 (mulf : (⟨S32, .f32⟩ : BufTy).Contents (Elt F) → (⟨S32, .f32⟩ : BufTy).Contents (Elt F) → (⟨S32, .f32⟩ : BufTy).Contents (Elt F)),
    StableHlo.unary main_v343 main_v344 (Host.cos : (⟨S32, .f32⟩ : BufTy).Contents (Elt F) → (⟨S32, .f32⟩ : BufTy).Contents (Elt F)),
    StableHlo.nullary main_cst_27 (constant S_ .f32 0x3F000000#32),
    StableHlo.unary main_cst_27 main_v345 (broadcastInDim S32 ![] bcast_S_S32 : (⟨S_, .f32⟩ : BufTy).Contents (Elt F) → (⟨S32, .f32⟩ : BufTy).Contents (Elt F)),
    StableHlo.binary main_v341 main_v345 main_v346 (mulf : (⟨S32, .f32⟩ : BufTy).Contents (Elt F) → (⟨S32, .f32⟩ : BufTy).Contents (Elt F) → (⟨S32, .f32⟩ : BufTy).Contents (Elt F)),
    StableHlo.unary main_v346 main_v347 (Host.sin : (⟨S32, .f32⟩ : BufTy).Contents (Elt F) → (⟨S32, .f32⟩ : BufTy).Contents (Elt F)),
    StableHlo.nullary main_cst_28 (constant S_ .f32 0x00000000#32),
    StableHlo.unary main_cst_28 main_v348 (broadcastInDim S32 ![] bcast_S_S32 : (⟨S_, .f32⟩ : BufTy).Contents (Elt F) → (⟨S32, .f32⟩ : BufTy).Contents (Elt F)),
    StableHlo.unary main_v347 main_v349 (Host.negf : (⟨S32, .f32⟩ : BufTy).Contents (Elt F) → (⟨S32, .f32⟩ : BufTy).Contents (Elt F)),
    StableHlo.unary main_v347 main_v350 (Host.negf : (⟨S32, .f32⟩ : BufTy).Contents (Elt F) → (⟨S32, .f32⟩ : BufTy).Contents (Elt F)),
    StableHlo.unary main_v344 main_v351 (broadcastInDim S32x1 ![0] bcast_S32_S32x1_0 : (⟨S32, .f32⟩ : BufTy).Contents (Elt F) → (⟨S32x1, .f32⟩ : BufTy).Contents (Elt F)),
    StableHlo.unary main_v348 main_v352 (broadcastInDim S32x1 ![0] bcast_S32_S32x1_0 : (⟨S32, .f32⟩ : BufTy).Contents (Elt F) → (⟨S32x1, .f32⟩ : BufTy).Contents (Elt F)),
    StableHlo.unary main_v349 main_v353 (broadcastInDim S32x1 ![0] bcast_S32_S32x1_0 : (⟨S32, .f32⟩ : BufTy).Contents (Elt F) → (⟨S32x1, .f32⟩ : BufTy).Contents (Elt F)),
    StableHlo.unary main_v348 main_v354 (broadcastInDim S32x1 ![0] bcast_S32_S32x1_0 : (⟨S32, .f32⟩ : BufTy).Contents (Elt F) → (⟨S32x1, .f32⟩ : BufTy).Contents (Elt F)),
    StableHlo.nary ![main_v351, main_v352, main_v353, main_v354] main_v355 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v348 main_v356 (broadcastInDim S32x1 ![0] bcast_S32_S32x1_0 : (⟨S32, .f32⟩ : BufTy).Contents (Elt F) → (⟨S32x1, .f32⟩ : BufTy).Contents (Elt F)),
    StableHlo.unary main_v344 main_v357 (broadcastInDim S32x1 ![0] bcast_S32_S32x1_0 : (⟨S32, .f32⟩ : BufTy).Contents (Elt F) → (⟨S32x1, .f32⟩ : BufTy).Contents (Elt F)),
    StableHlo.unary main_v348 main_v358 (broadcastInDim S32x1 ![0] bcast_S32_S32x1_0 : (⟨S32, .f32⟩ : BufTy).Contents (Elt F) → (⟨S32x1, .f32⟩ : BufTy).Contents (Elt F)),
    StableHlo.unary main_v350 main_v359 (broadcastInDim S32x1 ![0] bcast_S32_S32x1_0 : (⟨S32, .f32⟩ : BufTy).Contents (Elt F) → (⟨S32x1, .f32⟩ : BufTy).Contents (Elt F)),
    StableHlo.nary ![main_v356, main_v357, main_v358, main_v359] main_v360 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v347 main_v361 (broadcastInDim S32x1 ![0] bcast_S32_S32x1_0 : (⟨S32, .f32⟩ : BufTy).Contents (Elt F) → (⟨S32x1, .f32⟩ : BufTy).Contents (Elt F)),
    StableHlo.unary main_v348 main_v362 (broadcastInDim S32x1 ![0] bcast_S32_S32x1_0 : (⟨S32, .f32⟩ : BufTy).Contents (Elt F) → (⟨S32x1, .f32⟩ : BufTy).Contents (Elt F)),
    StableHlo.unary main_v344 main_v363 (broadcastInDim S32x1 ![0] bcast_S32_S32x1_0 : (⟨S32, .f32⟩ : BufTy).Contents (Elt F) → (⟨S32x1, .f32⟩ : BufTy).Contents (Elt F)),
    StableHlo.unary main_v348 main_v364 (broadcastInDim S32x1 ![0] bcast_S32_S32x1_0 : (⟨S32, .f32⟩ : BufTy).Contents (Elt F) → (⟨S32x1, .f32⟩ : BufTy).Contents (Elt F)),
    StableHlo.nary ![main_v361, main_v362, main_v363, main_v364] main_v365 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v348 main_v366 (broadcastInDim S32x1 ![0] bcast_S32_S32x1_0 : (⟨S32, .f32⟩ : BufTy).Contents (Elt F) → (⟨S32x1, .f32⟩ : BufTy).Contents (Elt F)),
    StableHlo.unary main_v347 main_v367 (broadcastInDim S32x1 ![0] bcast_S32_S32x1_0 : (⟨S32, .f32⟩ : BufTy).Contents (Elt F) → (⟨S32x1, .f32⟩ : BufTy).Contents (Elt F)),
    StableHlo.unary main_v348 main_v368 (broadcastInDim S32x1 ![0] bcast_S32_S32x1_0 : (⟨S32, .f32⟩ : BufTy).Contents (Elt F) → (⟨S32x1, .f32⟩ : BufTy).Contents (Elt F)),
    StableHlo.unary main_v344 main_v369 (broadcastInDim S32x1 ![0] bcast_S32_S32x1_0 : (⟨S32, .f32⟩ : BufTy).Contents (Elt F) → (⟨S32x1, .f32⟩ : BufTy).Contents (Elt F)),
    StableHlo.nary ![main_v366, main_v367, main_v368, main_v369] main_v370 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v355 main_v371 (broadcastInDim S32x1x4 ![0, 2] bcast_S32x4_S32x1x4_0_2 : (⟨S32x4, .f32⟩ : BufTy).Contents (Elt F) → (⟨S32x1x4, .f32⟩ : BufTy).Contents (Elt F)),
    StableHlo.unary main_v360 main_v372 (broadcastInDim S32x1x4 ![0, 2] bcast_S32x4_S32x1x4_0_2 : (⟨S32x4, .f32⟩ : BufTy).Contents (Elt F) → (⟨S32x1x4, .f32⟩ : BufTy).Contents (Elt F)),
    StableHlo.unary main_v365 main_v373 (broadcastInDim S32x1x4 ![0, 2] bcast_S32x4_S32x1x4_0_2 : (⟨S32x4, .f32⟩ : BufTy).Contents (Elt F) → (⟨S32x1x4, .f32⟩ : BufTy).Contents (Elt F)),
    StableHlo.unary main_v370 main_v374 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v371, main_v372, main_v373, main_v374] main_v375 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 3, the RZ gate's 32×4×4 matrix from the angles params[3, :, 1] (39 operations). -/
abbrev gateOps_3_1 : List (HloOp τ sig (Elt F)) :=
  [ StableHlo.unary main_arg1 main_v376 ((extractStridedSlice S1x32x1 ![3, 0, 1] · slices_S8x32x3_S1x32x1_3_0_1) : (⟨S8x32x3, .f32⟩ : BufTy).Contents (Elt F) → (⟨S1x32x1, .f32⟩ : BufTy).Contents (Elt F)),
    StableHlo.reshape main_v376 main_v377 rfl shapeCasts_S1x32x1_S32,
    StableHlo.nullary main_cst_29 (constant S_ .f32 0x3F000000#32),
    StableHlo.unary main_cst_29 main_v378 (broadcastInDim S32 ![] bcast_S_S32 : (⟨S_, .f32⟩ : BufTy).Contents (Elt F) → (⟨S32, .f32⟩ : BufTy).Contents (Elt F)),
    StableHlo.binary main_v377 main_v378 main_v379 (mulf : (⟨S32, .f32⟩ : BufTy).Contents (Elt F) → (⟨S32, .f32⟩ : BufTy).Contents (Elt F) → (⟨S32, .f32⟩ : BufTy).Contents (Elt F)),
    StableHlo.unary main_v379 main_v380 (Host.cos : (⟨S32, .f32⟩ : BufTy).Contents (Elt F) → (⟨S32, .f32⟩ : BufTy).Contents (Elt F)),
    StableHlo.nullary main_cst_30 (constant S_ .f32 0x3F000000#32),
    StableHlo.unary main_cst_30 main_v381 (broadcastInDim S32 ![] bcast_S_S32 : (⟨S_, .f32⟩ : BufTy).Contents (Elt F) → (⟨S32, .f32⟩ : BufTy).Contents (Elt F)),
    StableHlo.binary main_v377 main_v381 main_v382 (mulf : (⟨S32, .f32⟩ : BufTy).Contents (Elt F) → (⟨S32, .f32⟩ : BufTy).Contents (Elt F) → (⟨S32, .f32⟩ : BufTy).Contents (Elt F)),
    StableHlo.unary main_v382 main_v383 (Host.sin : (⟨S32, .f32⟩ : BufTy).Contents (Elt F) → (⟨S32, .f32⟩ : BufTy).Contents (Elt F)),
    StableHlo.nullary main_cst_31 (constant S_ .f32 0x00000000#32),
    StableHlo.unary main_cst_31 main_v384 (broadcastInDim S32 ![] bcast_S_S32 : (⟨S_, .f32⟩ : BufTy).Contents (Elt F) → (⟨S32, .f32⟩ : BufTy).Contents (Elt F)),
    StableHlo.unary main_v383 main_v385 (Host.negf : (⟨S32, .f32⟩ : BufTy).Contents (Elt F) → (⟨S32, .f32⟩ : BufTy).Contents (Elt F)),
    StableHlo.unary main_v383 main_v386 (Host.negf : (⟨S32, .f32⟩ : BufTy).Contents (Elt F) → (⟨S32, .f32⟩ : BufTy).Contents (Elt F)),
    StableHlo.unary main_v380 main_v387 (broadcastInDim S32x1 ![0] bcast_S32_S32x1_0 : (⟨S32, .f32⟩ : BufTy).Contents (Elt F) → (⟨S32x1, .f32⟩ : BufTy).Contents (Elt F)),
    StableHlo.unary main_v383 main_v388 (broadcastInDim S32x1 ![0] bcast_S32_S32x1_0 : (⟨S32, .f32⟩ : BufTy).Contents (Elt F) → (⟨S32x1, .f32⟩ : BufTy).Contents (Elt F)),
    StableHlo.unary main_v384 main_v389 (broadcastInDim S32x1 ![0] bcast_S32_S32x1_0 : (⟨S32, .f32⟩ : BufTy).Contents (Elt F) → (⟨S32x1, .f32⟩ : BufTy).Contents (Elt F)),
    StableHlo.unary main_v384 main_v390 (broadcastInDim S32x1 ![0] bcast_S32_S32x1_0 : (⟨S32, .f32⟩ : BufTy).Contents (Elt F) → (⟨S32x1, .f32⟩ : BufTy).Contents (Elt F)),
    StableHlo.nary ![main_v387, main_v388, main_v389, main_v390] main_v391 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v385 main_v392 (broadcastInDim S32x1 ![0] bcast_S32_S32x1_0 : (⟨S32, .f32⟩ : BufTy).Contents (Elt F) → (⟨S32x1, .f32⟩ : BufTy).Contents (Elt F)),
    StableHlo.unary main_v380 main_v393 (broadcastInDim S32x1 ![0] bcast_S32_S32x1_0 : (⟨S32, .f32⟩ : BufTy).Contents (Elt F) → (⟨S32x1, .f32⟩ : BufTy).Contents (Elt F)),
    StableHlo.unary main_v384 main_v394 (broadcastInDim S32x1 ![0] bcast_S32_S32x1_0 : (⟨S32, .f32⟩ : BufTy).Contents (Elt F) → (⟨S32x1, .f32⟩ : BufTy).Contents (Elt F)),
    StableHlo.unary main_v384 main_v395 (broadcastInDim S32x1 ![0] bcast_S32_S32x1_0 : (⟨S32, .f32⟩ : BufTy).Contents (Elt F) → (⟨S32x1, .f32⟩ : BufTy).Contents (Elt F)),
    StableHlo.nary ![main_v392, main_v393, main_v394, main_v395] main_v396 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v384 main_v397 (broadcastInDim S32x1 ![0] bcast_S32_S32x1_0 : (⟨S32, .f32⟩ : BufTy).Contents (Elt F) → (⟨S32x1, .f32⟩ : BufTy).Contents (Elt F)),
    StableHlo.unary main_v384 main_v398 (broadcastInDim S32x1 ![0] bcast_S32_S32x1_0 : (⟨S32, .f32⟩ : BufTy).Contents (Elt F) → (⟨S32x1, .f32⟩ : BufTy).Contents (Elt F)),
    StableHlo.unary main_v380 main_v399 (broadcastInDim S32x1 ![0] bcast_S32_S32x1_0 : (⟨S32, .f32⟩ : BufTy).Contents (Elt F) → (⟨S32x1, .f32⟩ : BufTy).Contents (Elt F)),
    StableHlo.unary main_v386 main_v400 (broadcastInDim S32x1 ![0] bcast_S32_S32x1_0 : (⟨S32, .f32⟩ : BufTy).Contents (Elt F) → (⟨S32x1, .f32⟩ : BufTy).Contents (Elt F)),
    StableHlo.nary ![main_v397, main_v398, main_v399, main_v400] main_v401 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v384 main_v402 (broadcastInDim S32x1 ![0] bcast_S32_S32x1_0 : (⟨S32, .f32⟩ : BufTy).Contents (Elt F) → (⟨S32x1, .f32⟩ : BufTy).Contents (Elt F)),
    StableHlo.unary main_v384 main_v403 (broadcastInDim S32x1 ![0] bcast_S32_S32x1_0 : (⟨S32, .f32⟩ : BufTy).Contents (Elt F) → (⟨S32x1, .f32⟩ : BufTy).Contents (Elt F)),
    StableHlo.unary main_v383 main_v404 (broadcastInDim S32x1 ![0] bcast_S32_S32x1_0 : (⟨S32, .f32⟩ : BufTy).Contents (Elt F) → (⟨S32x1, .f32⟩ : BufTy).Contents (Elt F)),
    StableHlo.unary main_v380 main_v405 (broadcastInDim S32x1 ![0] bcast_S32_S32x1_0 : (⟨S32, .f32⟩ : BufTy).Contents (Elt F) → (⟨S32x1, .f32⟩ : BufTy).Contents (Elt F)),
    StableHlo.nary ![main_v402, main_v403, main_v404, main_v405] main_v406 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v391 main_v407 (broadcastInDim S32x1x4 ![0, 2] bcast_S32x4_S32x1x4_0_2 : (⟨S32x4, .f32⟩ : BufTy).Contents (Elt F) → (⟨S32x1x4, .f32⟩ : BufTy).Contents (Elt F)),
    StableHlo.unary main_v396 main_v408 (broadcastInDim S32x1x4 ![0, 2] bcast_S32x4_S32x1x4_0_2 : (⟨S32x4, .f32⟩ : BufTy).Contents (Elt F) → (⟨S32x1x4, .f32⟩ : BufTy).Contents (Elt F)),
    StableHlo.unary main_v401 main_v409 (broadcastInDim S32x1x4 ![0, 2] bcast_S32x4_S32x1x4_0_2 : (⟨S32x4, .f32⟩ : BufTy).Contents (Elt F) → (⟨S32x1x4, .f32⟩ : BufTy).Contents (Elt F)),
    StableHlo.unary main_v406 main_v410 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v407, main_v408, main_v409, main_v410] main_v411 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 3, the RX gate's 32×4×4 matrix from the angles params[3, :, 2] (39 operations). -/
abbrev gateOps_3_2 : List (HloOp τ sig (Elt F)) :=
  [ StableHlo.unary main_arg1 main_v412 ((extractStridedSlice S1x32x1 ![3, 0, 2] · slices_S8x32x3_S1x32x1_3_0_2) : (⟨S8x32x3, .f32⟩ : BufTy).Contents (Elt F) → (⟨S1x32x1, .f32⟩ : BufTy).Contents (Elt F)),
    StableHlo.reshape main_v412 main_v413 rfl shapeCasts_S1x32x1_S32,
    StableHlo.nullary main_cst_32 (constant S_ .f32 0x3F000000#32),
    StableHlo.unary main_cst_32 main_v414 (broadcastInDim S32 ![] bcast_S_S32 : (⟨S_, .f32⟩ : BufTy).Contents (Elt F) → (⟨S32, .f32⟩ : BufTy).Contents (Elt F)),
    StableHlo.binary main_v413 main_v414 main_v415 (mulf : (⟨S32, .f32⟩ : BufTy).Contents (Elt F) → (⟨S32, .f32⟩ : BufTy).Contents (Elt F) → (⟨S32, .f32⟩ : BufTy).Contents (Elt F)),
    StableHlo.unary main_v415 main_v416 (Host.cos : (⟨S32, .f32⟩ : BufTy).Contents (Elt F) → (⟨S32, .f32⟩ : BufTy).Contents (Elt F)),
    StableHlo.nullary main_cst_33 (constant S_ .f32 0x3F000000#32),
    StableHlo.unary main_cst_33 main_v417 (broadcastInDim S32 ![] bcast_S_S32 : (⟨S_, .f32⟩ : BufTy).Contents (Elt F) → (⟨S32, .f32⟩ : BufTy).Contents (Elt F)),
    StableHlo.binary main_v413 main_v417 main_v418 (mulf : (⟨S32, .f32⟩ : BufTy).Contents (Elt F) → (⟨S32, .f32⟩ : BufTy).Contents (Elt F) → (⟨S32, .f32⟩ : BufTy).Contents (Elt F)),
    StableHlo.unary main_v418 main_v419 (Host.sin : (⟨S32, .f32⟩ : BufTy).Contents (Elt F) → (⟨S32, .f32⟩ : BufTy).Contents (Elt F)),
    StableHlo.nullary main_cst_34 (constant S_ .f32 0x00000000#32),
    StableHlo.unary main_cst_34 main_v420 (broadcastInDim S32 ![] bcast_S_S32 : (⟨S_, .f32⟩ : BufTy).Contents (Elt F) → (⟨S32, .f32⟩ : BufTy).Contents (Elt F)),
    StableHlo.unary main_v419 main_v421 (Host.negf : (⟨S32, .f32⟩ : BufTy).Contents (Elt F) → (⟨S32, .f32⟩ : BufTy).Contents (Elt F)),
    StableHlo.unary main_v419 main_v422 (Host.negf : (⟨S32, .f32⟩ : BufTy).Contents (Elt F) → (⟨S32, .f32⟩ : BufTy).Contents (Elt F)),
    StableHlo.unary main_v416 main_v423 (broadcastInDim S32x1 ![0] bcast_S32_S32x1_0 : (⟨S32, .f32⟩ : BufTy).Contents (Elt F) → (⟨S32x1, .f32⟩ : BufTy).Contents (Elt F)),
    StableHlo.unary main_v420 main_v424 (broadcastInDim S32x1 ![0] bcast_S32_S32x1_0 : (⟨S32, .f32⟩ : BufTy).Contents (Elt F) → (⟨S32x1, .f32⟩ : BufTy).Contents (Elt F)),
    StableHlo.unary main_v420 main_v425 (broadcastInDim S32x1 ![0] bcast_S32_S32x1_0 : (⟨S32, .f32⟩ : BufTy).Contents (Elt F) → (⟨S32x1, .f32⟩ : BufTy).Contents (Elt F)),
    StableHlo.unary main_v419 main_v426 (broadcastInDim S32x1 ![0] bcast_S32_S32x1_0 : (⟨S32, .f32⟩ : BufTy).Contents (Elt F) → (⟨S32x1, .f32⟩ : BufTy).Contents (Elt F)),
    StableHlo.nary ![main_v423, main_v424, main_v425, main_v426] main_v427 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v420 main_v428 (broadcastInDim S32x1 ![0] bcast_S32_S32x1_0 : (⟨S32, .f32⟩ : BufTy).Contents (Elt F) → (⟨S32x1, .f32⟩ : BufTy).Contents (Elt F)),
    StableHlo.unary main_v416 main_v429 (broadcastInDim S32x1 ![0] bcast_S32_S32x1_0 : (⟨S32, .f32⟩ : BufTy).Contents (Elt F) → (⟨S32x1, .f32⟩ : BufTy).Contents (Elt F)),
    StableHlo.unary main_v421 main_v430 (broadcastInDim S32x1 ![0] bcast_S32_S32x1_0 : (⟨S32, .f32⟩ : BufTy).Contents (Elt F) → (⟨S32x1, .f32⟩ : BufTy).Contents (Elt F)),
    StableHlo.unary main_v420 main_v431 (broadcastInDim S32x1 ![0] bcast_S32_S32x1_0 : (⟨S32, .f32⟩ : BufTy).Contents (Elt F) → (⟨S32x1, .f32⟩ : BufTy).Contents (Elt F)),
    StableHlo.nary ![main_v428, main_v429, main_v430, main_v431] main_v432 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v420 main_v433 (broadcastInDim S32x1 ![0] bcast_S32_S32x1_0 : (⟨S32, .f32⟩ : BufTy).Contents (Elt F) → (⟨S32x1, .f32⟩ : BufTy).Contents (Elt F)),
    StableHlo.unary main_v419 main_v434 (broadcastInDim S32x1 ![0] bcast_S32_S32x1_0 : (⟨S32, .f32⟩ : BufTy).Contents (Elt F) → (⟨S32x1, .f32⟩ : BufTy).Contents (Elt F)),
    StableHlo.unary main_v416 main_v435 (broadcastInDim S32x1 ![0] bcast_S32_S32x1_0 : (⟨S32, .f32⟩ : BufTy).Contents (Elt F) → (⟨S32x1, .f32⟩ : BufTy).Contents (Elt F)),
    StableHlo.unary main_v420 main_v436 (broadcastInDim S32x1 ![0] bcast_S32_S32x1_0 : (⟨S32, .f32⟩ : BufTy).Contents (Elt F) → (⟨S32x1, .f32⟩ : BufTy).Contents (Elt F)),
    StableHlo.nary ![main_v433, main_v434, main_v435, main_v436] main_v437 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v422 main_v438 (broadcastInDim S32x1 ![0] bcast_S32_S32x1_0 : (⟨S32, .f32⟩ : BufTy).Contents (Elt F) → (⟨S32x1, .f32⟩ : BufTy).Contents (Elt F)),
    StableHlo.unary main_v420 main_v439 (broadcastInDim S32x1 ![0] bcast_S32_S32x1_0 : (⟨S32, .f32⟩ : BufTy).Contents (Elt F) → (⟨S32x1, .f32⟩ : BufTy).Contents (Elt F)),
    StableHlo.unary main_v420 main_v440 (broadcastInDim S32x1 ![0] bcast_S32_S32x1_0 : (⟨S32, .f32⟩ : BufTy).Contents (Elt F) → (⟨S32x1, .f32⟩ : BufTy).Contents (Elt F)),
    StableHlo.unary main_v416 main_v441 (broadcastInDim S32x1 ![0] bcast_S32_S32x1_0 : (⟨S32, .f32⟩ : BufTy).Contents (Elt F) → (⟨S32x1, .f32⟩ : BufTy).Contents (Elt F)),
    StableHlo.nary ![main_v438, main_v439, main_v440, main_v441] main_v442 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v427 main_v443 (broadcastInDim S32x1x4 ![0, 2] bcast_S32x4_S32x1x4_0_2 : (⟨S32x4, .f32⟩ : BufTy).Contents (Elt F) → (⟨S32x1x4, .f32⟩ : BufTy).Contents (Elt F)),
    StableHlo.unary main_v432 main_v444 (broadcastInDim S32x1x4 ![0, 2] bcast_S32x4_S32x1x4_0_2 : (⟨S32x4, .f32⟩ : BufTy).Contents (Elt F) → (⟨S32x1x4, .f32⟩ : BufTy).Contents (Elt F)),
    StableHlo.unary main_v437 main_v445 (broadcastInDim S32x1x4 ![0, 2] bcast_S32x4_S32x1x4_0_2 : (⟨S32x4, .f32⟩ : BufTy).Contents (Elt F) → (⟨S32x1x4, .f32⟩ : BufTy).Contents (Elt F)),
    StableHlo.unary main_v442 main_v446 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v443, main_v444, main_v445, main_v446] main_v447 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 3: RZ·RY, then RX·(RZ·RY), then that product times the matrix accumulated so far (3 batched products). -/
abbrev dotOps_3 : List (HloOp τ sig (Elt F)) :=
  [ StableHlo.binary main_v411 main_v375 main_v448 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v447 main_v448 main_v449 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v449 main_v339 main_v450 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 4, the RY gate's 32×4×4 matrix from the angles params[4, :, 0] (39 operations). -/
abbrev gateOps_4_0 : List (HloOp τ sig (Elt F)) :=
  [ StableHlo.unary main_arg1 main_v451 ((extractStridedSlice S1x32x1 ![4, 0, 0] · slices_S8x32x3_S1x32x1_4_0_0) : (⟨S8x32x3, .f32⟩ : BufTy).Contents (Elt F) → (⟨S1x32x1, .f32⟩ : BufTy).Contents (Elt F)),
    StableHlo.reshape main_v451 main_v452 rfl shapeCasts_S1x32x1_S32,
    StableHlo.nullary main_cst_35 (constant S_ .f32 0x3F000000#32),
    StableHlo.unary main_cst_35 main_v453 (broadcastInDim S32 ![] bcast_S_S32 : (⟨S_, .f32⟩ : BufTy).Contents (Elt F) → (⟨S32, .f32⟩ : BufTy).Contents (Elt F)),
    StableHlo.binary main_v452 main_v453 main_v454 (mulf : (⟨S32, .f32⟩ : BufTy).Contents (Elt F) → (⟨S32, .f32⟩ : BufTy).Contents (Elt F) → (⟨S32, .f32⟩ : BufTy).Contents (Elt F)),
    StableHlo.unary main_v454 main_v455 (Host.cos : (⟨S32, .f32⟩ : BufTy).Contents (Elt F) → (⟨S32, .f32⟩ : BufTy).Contents (Elt F)),
    StableHlo.nullary main_cst_36 (constant S_ .f32 0x3F000000#32),
    StableHlo.unary main_cst_36 main_v456 (broadcastInDim S32 ![] bcast_S_S32 : (⟨S_, .f32⟩ : BufTy).Contents (Elt F) → (⟨S32, .f32⟩ : BufTy).Contents (Elt F)),
    StableHlo.binary main_v452 main_v456 main_v457 (mulf : (⟨S32, .f32⟩ : BufTy).Contents (Elt F) → (⟨S32, .f32⟩ : BufTy).Contents (Elt F) → (⟨S32, .f32⟩ : BufTy).Contents (Elt F)),
    StableHlo.unary main_v457 main_v458 (Host.sin : (⟨S32, .f32⟩ : BufTy).Contents (Elt F) → (⟨S32, .f32⟩ : BufTy).Contents (Elt F)),
    StableHlo.nullary main_cst_37 (constant S_ .f32 0x00000000#32),
    StableHlo.unary main_cst_37 main_v459 (broadcastInDim S32 ![] bcast_S_S32 : (⟨S_, .f32⟩ : BufTy).Contents (Elt F) → (⟨S32, .f32⟩ : BufTy).Contents (Elt F)),
    StableHlo.unary main_v458 main_v460 (Host.negf : (⟨S32, .f32⟩ : BufTy).Contents (Elt F) → (⟨S32, .f32⟩ : BufTy).Contents (Elt F)),
    StableHlo.unary main_v458 main_v461 (Host.negf : (⟨S32, .f32⟩ : BufTy).Contents (Elt F) → (⟨S32, .f32⟩ : BufTy).Contents (Elt F)),
    StableHlo.unary main_v455 main_v462 (broadcastInDim S32x1 ![0] bcast_S32_S32x1_0 : (⟨S32, .f32⟩ : BufTy).Contents (Elt F) → (⟨S32x1, .f32⟩ : BufTy).Contents (Elt F)),
    StableHlo.unary main_v459 main_v463 (broadcastInDim S32x1 ![0] bcast_S32_S32x1_0 : (⟨S32, .f32⟩ : BufTy).Contents (Elt F) → (⟨S32x1, .f32⟩ : BufTy).Contents (Elt F)),
    StableHlo.unary main_v460 main_v464 (broadcastInDim S32x1 ![0] bcast_S32_S32x1_0 : (⟨S32, .f32⟩ : BufTy).Contents (Elt F) → (⟨S32x1, .f32⟩ : BufTy).Contents (Elt F)),
    StableHlo.unary main_v459 main_v465 (broadcastInDim S32x1 ![0] bcast_S32_S32x1_0 : (⟨S32, .f32⟩ : BufTy).Contents (Elt F) → (⟨S32x1, .f32⟩ : BufTy).Contents (Elt F)),
    StableHlo.nary ![main_v462, main_v463, main_v464, main_v465] main_v466 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v459 main_v467 (broadcastInDim S32x1 ![0] bcast_S32_S32x1_0 : (⟨S32, .f32⟩ : BufTy).Contents (Elt F) → (⟨S32x1, .f32⟩ : BufTy).Contents (Elt F)),
    StableHlo.unary main_v455 main_v468 (broadcastInDim S32x1 ![0] bcast_S32_S32x1_0 : (⟨S32, .f32⟩ : BufTy).Contents (Elt F) → (⟨S32x1, .f32⟩ : BufTy).Contents (Elt F)),
    StableHlo.unary main_v459 main_v469 (broadcastInDim S32x1 ![0] bcast_S32_S32x1_0 : (⟨S32, .f32⟩ : BufTy).Contents (Elt F) → (⟨S32x1, .f32⟩ : BufTy).Contents (Elt F)),
    StableHlo.unary main_v461 main_v470 (broadcastInDim S32x1 ![0] bcast_S32_S32x1_0 : (⟨S32, .f32⟩ : BufTy).Contents (Elt F) → (⟨S32x1, .f32⟩ : BufTy).Contents (Elt F)),
    StableHlo.nary ![main_v467, main_v468, main_v469, main_v470] main_v471 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v458 main_v472 (broadcastInDim S32x1 ![0] bcast_S32_S32x1_0 : (⟨S32, .f32⟩ : BufTy).Contents (Elt F) → (⟨S32x1, .f32⟩ : BufTy).Contents (Elt F)),
    StableHlo.unary main_v459 main_v473 (broadcastInDim S32x1 ![0] bcast_S32_S32x1_0 : (⟨S32, .f32⟩ : BufTy).Contents (Elt F) → (⟨S32x1, .f32⟩ : BufTy).Contents (Elt F)),
    StableHlo.unary main_v455 main_v474 (broadcastInDim S32x1 ![0] bcast_S32_S32x1_0 : (⟨S32, .f32⟩ : BufTy).Contents (Elt F) → (⟨S32x1, .f32⟩ : BufTy).Contents (Elt F)),
    StableHlo.unary main_v459 main_v475 (broadcastInDim S32x1 ![0] bcast_S32_S32x1_0 : (⟨S32, .f32⟩ : BufTy).Contents (Elt F) → (⟨S32x1, .f32⟩ : BufTy).Contents (Elt F)),
    StableHlo.nary ![main_v472, main_v473, main_v474, main_v475] main_v476 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v459 main_v477 (broadcastInDim S32x1 ![0] bcast_S32_S32x1_0 : (⟨S32, .f32⟩ : BufTy).Contents (Elt F) → (⟨S32x1, .f32⟩ : BufTy).Contents (Elt F)),
    StableHlo.unary main_v458 main_v478 (broadcastInDim S32x1 ![0] bcast_S32_S32x1_0 : (⟨S32, .f32⟩ : BufTy).Contents (Elt F) → (⟨S32x1, .f32⟩ : BufTy).Contents (Elt F)),
    StableHlo.unary main_v459 main_v479 (broadcastInDim S32x1 ![0] bcast_S32_S32x1_0 : (⟨S32, .f32⟩ : BufTy).Contents (Elt F) → (⟨S32x1, .f32⟩ : BufTy).Contents (Elt F)),
    StableHlo.unary main_v455 main_v480 (broadcastInDim S32x1 ![0] bcast_S32_S32x1_0 : (⟨S32, .f32⟩ : BufTy).Contents (Elt F) → (⟨S32x1, .f32⟩ : BufTy).Contents (Elt F)),
    StableHlo.nary ![main_v477, main_v478, main_v479, main_v480] main_v481 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v466 main_v482 (broadcastInDim S32x1x4 ![0, 2] bcast_S32x4_S32x1x4_0_2 : (⟨S32x4, .f32⟩ : BufTy).Contents (Elt F) → (⟨S32x1x4, .f32⟩ : BufTy).Contents (Elt F)),
    StableHlo.unary main_v471 main_v483 (broadcastInDim S32x1x4 ![0, 2] bcast_S32x4_S32x1x4_0_2 : (⟨S32x4, .f32⟩ : BufTy).Contents (Elt F) → (⟨S32x1x4, .f32⟩ : BufTy).Contents (Elt F)),
    StableHlo.unary main_v476 main_v484 (broadcastInDim S32x1x4 ![0, 2] bcast_S32x4_S32x1x4_0_2 : (⟨S32x4, .f32⟩ : BufTy).Contents (Elt F) → (⟨S32x1x4, .f32⟩ : BufTy).Contents (Elt F)),
    StableHlo.unary main_v481 main_v485 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v482, main_v483, main_v484, main_v485] main_v486 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 4, the RZ gate's 32×4×4 matrix from the angles params[4, :, 1] (39 operations). -/
abbrev gateOps_4_1 : List (HloOp τ sig (Elt F)) :=
  [ StableHlo.unary main_arg1 main_v487 ((extractStridedSlice S1x32x1 ![4, 0, 1] · slices_S8x32x3_S1x32x1_4_0_1) : (⟨S8x32x3, .f32⟩ : BufTy).Contents (Elt F) → (⟨S1x32x1, .f32⟩ : BufTy).Contents (Elt F)),
    StableHlo.reshape main_v487 main_v488 rfl shapeCasts_S1x32x1_S32,
    StableHlo.nullary main_cst_38 (constant S_ .f32 0x3F000000#32),
    StableHlo.unary main_cst_38 main_v489 (broadcastInDim S32 ![] bcast_S_S32 : (⟨S_, .f32⟩ : BufTy).Contents (Elt F) → (⟨S32, .f32⟩ : BufTy).Contents (Elt F)),
    StableHlo.binary main_v488 main_v489 main_v490 (mulf : (⟨S32, .f32⟩ : BufTy).Contents (Elt F) → (⟨S32, .f32⟩ : BufTy).Contents (Elt F) → (⟨S32, .f32⟩ : BufTy).Contents (Elt F)),
    StableHlo.unary main_v490 main_v491 (Host.cos : (⟨S32, .f32⟩ : BufTy).Contents (Elt F) → (⟨S32, .f32⟩ : BufTy).Contents (Elt F)),
    StableHlo.nullary main_cst_39 (constant S_ .f32 0x3F000000#32),
    StableHlo.unary main_cst_39 main_v492 (broadcastInDim S32 ![] bcast_S_S32 : (⟨S_, .f32⟩ : BufTy).Contents (Elt F) → (⟨S32, .f32⟩ : BufTy).Contents (Elt F)),
    StableHlo.binary main_v488 main_v492 main_v493 (mulf : (⟨S32, .f32⟩ : BufTy).Contents (Elt F) → (⟨S32, .f32⟩ : BufTy).Contents (Elt F) → (⟨S32, .f32⟩ : BufTy).Contents (Elt F)),
    StableHlo.unary main_v493 main_v494 (Host.sin : (⟨S32, .f32⟩ : BufTy).Contents (Elt F) → (⟨S32, .f32⟩ : BufTy).Contents (Elt F)),
    StableHlo.nullary main_cst_40 (constant S_ .f32 0x00000000#32),
    StableHlo.unary main_cst_40 main_v495 (broadcastInDim S32 ![] bcast_S_S32 : (⟨S_, .f32⟩ : BufTy).Contents (Elt F) → (⟨S32, .f32⟩ : BufTy).Contents (Elt F)),
    StableHlo.unary main_v494 main_v496 (Host.negf : (⟨S32, .f32⟩ : BufTy).Contents (Elt F) → (⟨S32, .f32⟩ : BufTy).Contents (Elt F)),
    StableHlo.unary main_v494 main_v497 (Host.negf : (⟨S32, .f32⟩ : BufTy).Contents (Elt F) → (⟨S32, .f32⟩ : BufTy).Contents (Elt F)),
    StableHlo.unary main_v491 main_v498 (broadcastInDim S32x1 ![0] bcast_S32_S32x1_0 : (⟨S32, .f32⟩ : BufTy).Contents (Elt F) → (⟨S32x1, .f32⟩ : BufTy).Contents (Elt F)),
    StableHlo.unary main_v494 main_v499 (broadcastInDim S32x1 ![0] bcast_S32_S32x1_0 : (⟨S32, .f32⟩ : BufTy).Contents (Elt F) → (⟨S32x1, .f32⟩ : BufTy).Contents (Elt F)),
    StableHlo.unary main_v495 main_v500 (broadcastInDim S32x1 ![0] bcast_S32_S32x1_0 : (⟨S32, .f32⟩ : BufTy).Contents (Elt F) → (⟨S32x1, .f32⟩ : BufTy).Contents (Elt F)),
    StableHlo.unary main_v495 main_v501 (broadcastInDim S32x1 ![0] bcast_S32_S32x1_0 : (⟨S32, .f32⟩ : BufTy).Contents (Elt F) → (⟨S32x1, .f32⟩ : BufTy).Contents (Elt F)),
    StableHlo.nary ![main_v498, main_v499, main_v500, main_v501] main_v502 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v496 main_v503 (broadcastInDim S32x1 ![0] bcast_S32_S32x1_0 : (⟨S32, .f32⟩ : BufTy).Contents (Elt F) → (⟨S32x1, .f32⟩ : BufTy).Contents (Elt F)),
    StableHlo.unary main_v491 main_v504 (broadcastInDim S32x1 ![0] bcast_S32_S32x1_0 : (⟨S32, .f32⟩ : BufTy).Contents (Elt F) → (⟨S32x1, .f32⟩ : BufTy).Contents (Elt F)),
    StableHlo.unary main_v495 main_v505 (broadcastInDim S32x1 ![0] bcast_S32_S32x1_0 : (⟨S32, .f32⟩ : BufTy).Contents (Elt F) → (⟨S32x1, .f32⟩ : BufTy).Contents (Elt F)),
    StableHlo.unary main_v495 main_v506 (broadcastInDim S32x1 ![0] bcast_S32_S32x1_0 : (⟨S32, .f32⟩ : BufTy).Contents (Elt F) → (⟨S32x1, .f32⟩ : BufTy).Contents (Elt F)),
    StableHlo.nary ![main_v503, main_v504, main_v505, main_v506] main_v507 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v495 main_v508 (broadcastInDim S32x1 ![0] bcast_S32_S32x1_0 : (⟨S32, .f32⟩ : BufTy).Contents (Elt F) → (⟨S32x1, .f32⟩ : BufTy).Contents (Elt F)),
    StableHlo.unary main_v495 main_v509 (broadcastInDim S32x1 ![0] bcast_S32_S32x1_0 : (⟨S32, .f32⟩ : BufTy).Contents (Elt F) → (⟨S32x1, .f32⟩ : BufTy).Contents (Elt F)),
    StableHlo.unary main_v491 main_v510 (broadcastInDim S32x1 ![0] bcast_S32_S32x1_0 : (⟨S32, .f32⟩ : BufTy).Contents (Elt F) → (⟨S32x1, .f32⟩ : BufTy).Contents (Elt F)),
    StableHlo.unary main_v497 main_v511 (broadcastInDim S32x1 ![0] bcast_S32_S32x1_0 : (⟨S32, .f32⟩ : BufTy).Contents (Elt F) → (⟨S32x1, .f32⟩ : BufTy).Contents (Elt F)),
    StableHlo.nary ![main_v508, main_v509, main_v510, main_v511] main_v512 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v495 main_v513 (broadcastInDim S32x1 ![0] bcast_S32_S32x1_0 : (⟨S32, .f32⟩ : BufTy).Contents (Elt F) → (⟨S32x1, .f32⟩ : BufTy).Contents (Elt F)),
    StableHlo.unary main_v495 main_v514 (broadcastInDim S32x1 ![0] bcast_S32_S32x1_0 : (⟨S32, .f32⟩ : BufTy).Contents (Elt F) → (⟨S32x1, .f32⟩ : BufTy).Contents (Elt F)),
    StableHlo.unary main_v494 main_v515 (broadcastInDim S32x1 ![0] bcast_S32_S32x1_0 : (⟨S32, .f32⟩ : BufTy).Contents (Elt F) → (⟨S32x1, .f32⟩ : BufTy).Contents (Elt F)),
    StableHlo.unary main_v491 main_v516 (broadcastInDim S32x1 ![0] bcast_S32_S32x1_0 : (⟨S32, .f32⟩ : BufTy).Contents (Elt F) → (⟨S32x1, .f32⟩ : BufTy).Contents (Elt F)),
    StableHlo.nary ![main_v513, main_v514, main_v515, main_v516] main_v517 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v502 main_v518 (broadcastInDim S32x1x4 ![0, 2] bcast_S32x4_S32x1x4_0_2 : (⟨S32x4, .f32⟩ : BufTy).Contents (Elt F) → (⟨S32x1x4, .f32⟩ : BufTy).Contents (Elt F)),
    StableHlo.unary main_v507 main_v519 (broadcastInDim S32x1x4 ![0, 2] bcast_S32x4_S32x1x4_0_2 : (⟨S32x4, .f32⟩ : BufTy).Contents (Elt F) → (⟨S32x1x4, .f32⟩ : BufTy).Contents (Elt F)),
    StableHlo.unary main_v512 main_v520 (broadcastInDim S32x1x4 ![0, 2] bcast_S32x4_S32x1x4_0_2 : (⟨S32x4, .f32⟩ : BufTy).Contents (Elt F) → (⟨S32x1x4, .f32⟩ : BufTy).Contents (Elt F)),
    StableHlo.unary main_v517 main_v521 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v518, main_v519, main_v520, main_v521] main_v522 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 4, the RX gate's 32×4×4 matrix from the angles params[4, :, 2] (39 operations). -/
abbrev gateOps_4_2 : List (HloOp τ sig (Elt F)) :=
  [ StableHlo.unary main_arg1 main_v523 ((extractStridedSlice S1x32x1 ![4, 0, 2] · slices_S8x32x3_S1x32x1_4_0_2) : (⟨S8x32x3, .f32⟩ : BufTy).Contents (Elt F) → (⟨S1x32x1, .f32⟩ : BufTy).Contents (Elt F)),
    StableHlo.reshape main_v523 main_v524 rfl shapeCasts_S1x32x1_S32,
    StableHlo.nullary main_cst_41 (constant S_ .f32 0x3F000000#32),
    StableHlo.unary main_cst_41 main_v525 (broadcastInDim S32 ![] bcast_S_S32 : (⟨S_, .f32⟩ : BufTy).Contents (Elt F) → (⟨S32, .f32⟩ : BufTy).Contents (Elt F)),
    StableHlo.binary main_v524 main_v525 main_v526 (mulf : (⟨S32, .f32⟩ : BufTy).Contents (Elt F) → (⟨S32, .f32⟩ : BufTy).Contents (Elt F) → (⟨S32, .f32⟩ : BufTy).Contents (Elt F)),
    StableHlo.unary main_v526 main_v527 (Host.cos : (⟨S32, .f32⟩ : BufTy).Contents (Elt F) → (⟨S32, .f32⟩ : BufTy).Contents (Elt F)),
    StableHlo.nullary main_cst_42 (constant S_ .f32 0x3F000000#32),
    StableHlo.unary main_cst_42 main_v528 (broadcastInDim S32 ![] bcast_S_S32 : (⟨S_, .f32⟩ : BufTy).Contents (Elt F) → (⟨S32, .f32⟩ : BufTy).Contents (Elt F)),
    StableHlo.binary main_v524 main_v528 main_v529 (mulf : (⟨S32, .f32⟩ : BufTy).Contents (Elt F) → (⟨S32, .f32⟩ : BufTy).Contents (Elt F) → (⟨S32, .f32⟩ : BufTy).Contents (Elt F)),
    StableHlo.unary main_v529 main_v530 (Host.sin : (⟨S32, .f32⟩ : BufTy).Contents (Elt F) → (⟨S32, .f32⟩ : BufTy).Contents (Elt F)),
    StableHlo.nullary main_cst_43 (constant S_ .f32 0x00000000#32),
    StableHlo.unary main_cst_43 main_v531 (broadcastInDim S32 ![] bcast_S_S32 : (⟨S_, .f32⟩ : BufTy).Contents (Elt F) → (⟨S32, .f32⟩ : BufTy).Contents (Elt F)),
    StableHlo.unary main_v530 main_v532 (Host.negf : (⟨S32, .f32⟩ : BufTy).Contents (Elt F) → (⟨S32, .f32⟩ : BufTy).Contents (Elt F)),
    StableHlo.unary main_v530 main_v533 (Host.negf : (⟨S32, .f32⟩ : BufTy).Contents (Elt F) → (⟨S32, .f32⟩ : BufTy).Contents (Elt F)),
    StableHlo.unary main_v527 main_v534 (broadcastInDim S32x1 ![0] bcast_S32_S32x1_0 : (⟨S32, .f32⟩ : BufTy).Contents (Elt F) → (⟨S32x1, .f32⟩ : BufTy).Contents (Elt F)),
    StableHlo.unary main_v531 main_v535 (broadcastInDim S32x1 ![0] bcast_S32_S32x1_0 : (⟨S32, .f32⟩ : BufTy).Contents (Elt F) → (⟨S32x1, .f32⟩ : BufTy).Contents (Elt F)),
    StableHlo.unary main_v531 main_v536 (broadcastInDim S32x1 ![0] bcast_S32_S32x1_0 : (⟨S32, .f32⟩ : BufTy).Contents (Elt F) → (⟨S32x1, .f32⟩ : BufTy).Contents (Elt F)),
    StableHlo.unary main_v530 main_v537 (broadcastInDim S32x1 ![0] bcast_S32_S32x1_0 : (⟨S32, .f32⟩ : BufTy).Contents (Elt F) → (⟨S32x1, .f32⟩ : BufTy).Contents (Elt F)),
    StableHlo.nary ![main_v534, main_v535, main_v536, main_v537] main_v538 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v531 main_v539 (broadcastInDim S32x1 ![0] bcast_S32_S32x1_0 : (⟨S32, .f32⟩ : BufTy).Contents (Elt F) → (⟨S32x1, .f32⟩ : BufTy).Contents (Elt F)),
    StableHlo.unary main_v527 main_v540 (broadcastInDim S32x1 ![0] bcast_S32_S32x1_0 : (⟨S32, .f32⟩ : BufTy).Contents (Elt F) → (⟨S32x1, .f32⟩ : BufTy).Contents (Elt F)),
    StableHlo.unary main_v532 main_v541 (broadcastInDim S32x1 ![0] bcast_S32_S32x1_0 : (⟨S32, .f32⟩ : BufTy).Contents (Elt F) → (⟨S32x1, .f32⟩ : BufTy).Contents (Elt F)),
    StableHlo.unary main_v531 main_v542 (broadcastInDim S32x1 ![0] bcast_S32_S32x1_0 : (⟨S32, .f32⟩ : BufTy).Contents (Elt F) → (⟨S32x1, .f32⟩ : BufTy).Contents (Elt F)),
    StableHlo.nary ![main_v539, main_v540, main_v541, main_v542] main_v543 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v531 main_v544 (broadcastInDim S32x1 ![0] bcast_S32_S32x1_0 : (⟨S32, .f32⟩ : BufTy).Contents (Elt F) → (⟨S32x1, .f32⟩ : BufTy).Contents (Elt F)),
    StableHlo.unary main_v530 main_v545 (broadcastInDim S32x1 ![0] bcast_S32_S32x1_0 : (⟨S32, .f32⟩ : BufTy).Contents (Elt F) → (⟨S32x1, .f32⟩ : BufTy).Contents (Elt F)),
    StableHlo.unary main_v527 main_v546 (broadcastInDim S32x1 ![0] bcast_S32_S32x1_0 : (⟨S32, .f32⟩ : BufTy).Contents (Elt F) → (⟨S32x1, .f32⟩ : BufTy).Contents (Elt F)),
    StableHlo.unary main_v531 main_v547 (broadcastInDim S32x1 ![0] bcast_S32_S32x1_0 : (⟨S32, .f32⟩ : BufTy).Contents (Elt F) → (⟨S32x1, .f32⟩ : BufTy).Contents (Elt F)),
    StableHlo.nary ![main_v544, main_v545, main_v546, main_v547] main_v548 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v533 main_v549 (broadcastInDim S32x1 ![0] bcast_S32_S32x1_0 : (⟨S32, .f32⟩ : BufTy).Contents (Elt F) → (⟨S32x1, .f32⟩ : BufTy).Contents (Elt F)),
    StableHlo.unary main_v531 main_v550 (broadcastInDim S32x1 ![0] bcast_S32_S32x1_0 : (⟨S32, .f32⟩ : BufTy).Contents (Elt F) → (⟨S32x1, .f32⟩ : BufTy).Contents (Elt F)),
    StableHlo.unary main_v531 main_v551 (broadcastInDim S32x1 ![0] bcast_S32_S32x1_0 : (⟨S32, .f32⟩ : BufTy).Contents (Elt F) → (⟨S32x1, .f32⟩ : BufTy).Contents (Elt F)),
    StableHlo.unary main_v527 main_v552 (broadcastInDim S32x1 ![0] bcast_S32_S32x1_0 : (⟨S32, .f32⟩ : BufTy).Contents (Elt F) → (⟨S32x1, .f32⟩ : BufTy).Contents (Elt F)),
    StableHlo.nary ![main_v549, main_v550, main_v551, main_v552] main_v553 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v538 main_v554 (broadcastInDim S32x1x4 ![0, 2] bcast_S32x4_S32x1x4_0_2 : (⟨S32x4, .f32⟩ : BufTy).Contents (Elt F) → (⟨S32x1x4, .f32⟩ : BufTy).Contents (Elt F)),
    StableHlo.unary main_v543 main_v555 (broadcastInDim S32x1x4 ![0, 2] bcast_S32x4_S32x1x4_0_2 : (⟨S32x4, .f32⟩ : BufTy).Contents (Elt F) → (⟨S32x1x4, .f32⟩ : BufTy).Contents (Elt F)),
    StableHlo.unary main_v548 main_v556 (broadcastInDim S32x1x4 ![0, 2] bcast_S32x4_S32x1x4_0_2 : (⟨S32x4, .f32⟩ : BufTy).Contents (Elt F) → (⟨S32x1x4, .f32⟩ : BufTy).Contents (Elt F)),
    StableHlo.unary main_v553 main_v557 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v554, main_v555, main_v556, main_v557] main_v558 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 4: RZ·RY, then RX·(RZ·RY), then that product times the matrix accumulated so far (3 batched products). -/
abbrev dotOps_4 : List (HloOp τ sig (Elt F)) :=
  [ StableHlo.binary main_v522 main_v486 main_v559 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v558 main_v559 main_v560 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v560 main_v450 main_v561 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 5, the RY gate's 32×4×4 matrix from the angles params[5, :, 0] (39 operations). -/
abbrev gateOps_5_0 : List (HloOp τ sig (Elt F)) :=
  [ StableHlo.unary main_arg1 main_v562 ((extractStridedSlice S1x32x1 ![5, 0, 0] · slices_S8x32x3_S1x32x1_5_0_0) : (⟨S8x32x3, .f32⟩ : BufTy).Contents (Elt F) → (⟨S1x32x1, .f32⟩ : BufTy).Contents (Elt F)),
    StableHlo.reshape main_v562 main_v563 rfl shapeCasts_S1x32x1_S32,
    StableHlo.nullary main_cst_44 (constant S_ .f32 0x3F000000#32),
    StableHlo.unary main_cst_44 main_v564 (broadcastInDim S32 ![] bcast_S_S32 : (⟨S_, .f32⟩ : BufTy).Contents (Elt F) → (⟨S32, .f32⟩ : BufTy).Contents (Elt F)),
    StableHlo.binary main_v563 main_v564 main_v565 (mulf : (⟨S32, .f32⟩ : BufTy).Contents (Elt F) → (⟨S32, .f32⟩ : BufTy).Contents (Elt F) → (⟨S32, .f32⟩ : BufTy).Contents (Elt F)),
    StableHlo.unary main_v565 main_v566 (Host.cos : (⟨S32, .f32⟩ : BufTy).Contents (Elt F) → (⟨S32, .f32⟩ : BufTy).Contents (Elt F)),
    StableHlo.nullary main_cst_45 (constant S_ .f32 0x3F000000#32),
    StableHlo.unary main_cst_45 main_v567 (broadcastInDim S32 ![] bcast_S_S32 : (⟨S_, .f32⟩ : BufTy).Contents (Elt F) → (⟨S32, .f32⟩ : BufTy).Contents (Elt F)),
    StableHlo.binary main_v563 main_v567 main_v568 (mulf : (⟨S32, .f32⟩ : BufTy).Contents (Elt F) → (⟨S32, .f32⟩ : BufTy).Contents (Elt F) → (⟨S32, .f32⟩ : BufTy).Contents (Elt F)),
    StableHlo.unary main_v568 main_v569 (Host.sin : (⟨S32, .f32⟩ : BufTy).Contents (Elt F) → (⟨S32, .f32⟩ : BufTy).Contents (Elt F)),
    StableHlo.nullary main_cst_46 (constant S_ .f32 0x00000000#32),
    StableHlo.unary main_cst_46 main_v570 (broadcastInDim S32 ![] bcast_S_S32 : (⟨S_, .f32⟩ : BufTy).Contents (Elt F) → (⟨S32, .f32⟩ : BufTy).Contents (Elt F)),
    StableHlo.unary main_v569 main_v571 (Host.negf : (⟨S32, .f32⟩ : BufTy).Contents (Elt F) → (⟨S32, .f32⟩ : BufTy).Contents (Elt F)),
    StableHlo.unary main_v569 main_v572 (Host.negf : (⟨S32, .f32⟩ : BufTy).Contents (Elt F) → (⟨S32, .f32⟩ : BufTy).Contents (Elt F)),
    StableHlo.unary main_v566 main_v573 (broadcastInDim S32x1 ![0] bcast_S32_S32x1_0 : (⟨S32, .f32⟩ : BufTy).Contents (Elt F) → (⟨S32x1, .f32⟩ : BufTy).Contents (Elt F)),
    StableHlo.unary main_v570 main_v574 (broadcastInDim S32x1 ![0] bcast_S32_S32x1_0 : (⟨S32, .f32⟩ : BufTy).Contents (Elt F) → (⟨S32x1, .f32⟩ : BufTy).Contents (Elt F)),
    StableHlo.unary main_v571 main_v575 (broadcastInDim S32x1 ![0] bcast_S32_S32x1_0 : (⟨S32, .f32⟩ : BufTy).Contents (Elt F) → (⟨S32x1, .f32⟩ : BufTy).Contents (Elt F)),
    StableHlo.unary main_v570 main_v576 (broadcastInDim S32x1 ![0] bcast_S32_S32x1_0 : (⟨S32, .f32⟩ : BufTy).Contents (Elt F) → (⟨S32x1, .f32⟩ : BufTy).Contents (Elt F)),
    StableHlo.nary ![main_v573, main_v574, main_v575, main_v576] main_v577 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v570 main_v578 (broadcastInDim S32x1 ![0] bcast_S32_S32x1_0 : (⟨S32, .f32⟩ : BufTy).Contents (Elt F) → (⟨S32x1, .f32⟩ : BufTy).Contents (Elt F)),
    StableHlo.unary main_v566 main_v579 (broadcastInDim S32x1 ![0] bcast_S32_S32x1_0 : (⟨S32, .f32⟩ : BufTy).Contents (Elt F) → (⟨S32x1, .f32⟩ : BufTy).Contents (Elt F)),
    StableHlo.unary main_v570 main_v580 (broadcastInDim S32x1 ![0] bcast_S32_S32x1_0 : (⟨S32, .f32⟩ : BufTy).Contents (Elt F) → (⟨S32x1, .f32⟩ : BufTy).Contents (Elt F)),
    StableHlo.unary main_v572 main_v581 (broadcastInDim S32x1 ![0] bcast_S32_S32x1_0 : (⟨S32, .f32⟩ : BufTy).Contents (Elt F) → (⟨S32x1, .f32⟩ : BufTy).Contents (Elt F)),
    StableHlo.nary ![main_v578, main_v579, main_v580, main_v581] main_v582 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v569 main_v583 (broadcastInDim S32x1 ![0] bcast_S32_S32x1_0 : (⟨S32, .f32⟩ : BufTy).Contents (Elt F) → (⟨S32x1, .f32⟩ : BufTy).Contents (Elt F)),
    StableHlo.unary main_v570 main_v584 (broadcastInDim S32x1 ![0] bcast_S32_S32x1_0 : (⟨S32, .f32⟩ : BufTy).Contents (Elt F) → (⟨S32x1, .f32⟩ : BufTy).Contents (Elt F)),
    StableHlo.unary main_v566 main_v585 (broadcastInDim S32x1 ![0] bcast_S32_S32x1_0 : (⟨S32, .f32⟩ : BufTy).Contents (Elt F) → (⟨S32x1, .f32⟩ : BufTy).Contents (Elt F)),
    StableHlo.unary main_v570 main_v586 (broadcastInDim S32x1 ![0] bcast_S32_S32x1_0 : (⟨S32, .f32⟩ : BufTy).Contents (Elt F) → (⟨S32x1, .f32⟩ : BufTy).Contents (Elt F)),
    StableHlo.nary ![main_v583, main_v584, main_v585, main_v586] main_v587 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v570 main_v588 (broadcastInDim S32x1 ![0] bcast_S32_S32x1_0 : (⟨S32, .f32⟩ : BufTy).Contents (Elt F) → (⟨S32x1, .f32⟩ : BufTy).Contents (Elt F)),
    StableHlo.unary main_v569 main_v589 (broadcastInDim S32x1 ![0] bcast_S32_S32x1_0 : (⟨S32, .f32⟩ : BufTy).Contents (Elt F) → (⟨S32x1, .f32⟩ : BufTy).Contents (Elt F)),
    StableHlo.unary main_v570 main_v590 (broadcastInDim S32x1 ![0] bcast_S32_S32x1_0 : (⟨S32, .f32⟩ : BufTy).Contents (Elt F) → (⟨S32x1, .f32⟩ : BufTy).Contents (Elt F)),
    StableHlo.unary main_v566 main_v591 (broadcastInDim S32x1 ![0] bcast_S32_S32x1_0 : (⟨S32, .f32⟩ : BufTy).Contents (Elt F) → (⟨S32x1, .f32⟩ : BufTy).Contents (Elt F)),
    StableHlo.nary ![main_v588, main_v589, main_v590, main_v591] main_v592 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v577 main_v593 (broadcastInDim S32x1x4 ![0, 2] bcast_S32x4_S32x1x4_0_2 : (⟨S32x4, .f32⟩ : BufTy).Contents (Elt F) → (⟨S32x1x4, .f32⟩ : BufTy).Contents (Elt F)),
    StableHlo.unary main_v582 main_v594 (broadcastInDim S32x1x4 ![0, 2] bcast_S32x4_S32x1x4_0_2 : (⟨S32x4, .f32⟩ : BufTy).Contents (Elt F) → (⟨S32x1x4, .f32⟩ : BufTy).Contents (Elt F)),
    StableHlo.unary main_v587 main_v595 (broadcastInDim S32x1x4 ![0, 2] bcast_S32x4_S32x1x4_0_2 : (⟨S32x4, .f32⟩ : BufTy).Contents (Elt F) → (⟨S32x1x4, .f32⟩ : BufTy).Contents (Elt F)),
    StableHlo.unary main_v592 main_v596 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v593, main_v594, main_v595, main_v596] main_v597 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 5, the RZ gate's 32×4×4 matrix from the angles params[5, :, 1] (39 operations). -/
abbrev gateOps_5_1 : List (HloOp τ sig (Elt F)) :=
  [ StableHlo.unary main_arg1 main_v598 ((extractStridedSlice S1x32x1 ![5, 0, 1] · slices_S8x32x3_S1x32x1_5_0_1) : (⟨S8x32x3, .f32⟩ : BufTy).Contents (Elt F) → (⟨S1x32x1, .f32⟩ : BufTy).Contents (Elt F)),
    StableHlo.reshape main_v598 main_v599 rfl shapeCasts_S1x32x1_S32,
    StableHlo.nullary main_cst_47 (constant S_ .f32 0x3F000000#32),
    StableHlo.unary main_cst_47 main_v600 (broadcastInDim S32 ![] bcast_S_S32 : (⟨S_, .f32⟩ : BufTy).Contents (Elt F) → (⟨S32, .f32⟩ : BufTy).Contents (Elt F)),
    StableHlo.binary main_v599 main_v600 main_v601 (mulf : (⟨S32, .f32⟩ : BufTy).Contents (Elt F) → (⟨S32, .f32⟩ : BufTy).Contents (Elt F) → (⟨S32, .f32⟩ : BufTy).Contents (Elt F)),
    StableHlo.unary main_v601 main_v602 (Host.cos : (⟨S32, .f32⟩ : BufTy).Contents (Elt F) → (⟨S32, .f32⟩ : BufTy).Contents (Elt F)),
    StableHlo.nullary main_cst_48 (constant S_ .f32 0x3F000000#32),
    StableHlo.unary main_cst_48 main_v603 (broadcastInDim S32 ![] bcast_S_S32 : (⟨S_, .f32⟩ : BufTy).Contents (Elt F) → (⟨S32, .f32⟩ : BufTy).Contents (Elt F)),
    StableHlo.binary main_v599 main_v603 main_v604 (mulf : (⟨S32, .f32⟩ : BufTy).Contents (Elt F) → (⟨S32, .f32⟩ : BufTy).Contents (Elt F) → (⟨S32, .f32⟩ : BufTy).Contents (Elt F)),
    StableHlo.unary main_v604 main_v605 (Host.sin : (⟨S32, .f32⟩ : BufTy).Contents (Elt F) → (⟨S32, .f32⟩ : BufTy).Contents (Elt F)),
    StableHlo.nullary main_cst_49 (constant S_ .f32 0x00000000#32),
    StableHlo.unary main_cst_49 main_v606 (broadcastInDim S32 ![] bcast_S_S32 : (⟨S_, .f32⟩ : BufTy).Contents (Elt F) → (⟨S32, .f32⟩ : BufTy).Contents (Elt F)),
    StableHlo.unary main_v605 main_v607 (Host.negf : (⟨S32, .f32⟩ : BufTy).Contents (Elt F) → (⟨S32, .f32⟩ : BufTy).Contents (Elt F)),
    StableHlo.unary main_v605 main_v608 (Host.negf : (⟨S32, .f32⟩ : BufTy).Contents (Elt F) → (⟨S32, .f32⟩ : BufTy).Contents (Elt F)),
    StableHlo.unary main_v602 main_v609 (broadcastInDim S32x1 ![0] bcast_S32_S32x1_0 : (⟨S32, .f32⟩ : BufTy).Contents (Elt F) → (⟨S32x1, .f32⟩ : BufTy).Contents (Elt F)),
    StableHlo.unary main_v605 main_v610 (broadcastInDim S32x1 ![0] bcast_S32_S32x1_0 : (⟨S32, .f32⟩ : BufTy).Contents (Elt F) → (⟨S32x1, .f32⟩ : BufTy).Contents (Elt F)),
    StableHlo.unary main_v606 main_v611 (broadcastInDim S32x1 ![0] bcast_S32_S32x1_0 : (⟨S32, .f32⟩ : BufTy).Contents (Elt F) → (⟨S32x1, .f32⟩ : BufTy).Contents (Elt F)),
    StableHlo.unary main_v606 main_v612 (broadcastInDim S32x1 ![0] bcast_S32_S32x1_0 : (⟨S32, .f32⟩ : BufTy).Contents (Elt F) → (⟨S32x1, .f32⟩ : BufTy).Contents (Elt F)),
    StableHlo.nary ![main_v609, main_v610, main_v611, main_v612] main_v613 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v607 main_v614 (broadcastInDim S32x1 ![0] bcast_S32_S32x1_0 : (⟨S32, .f32⟩ : BufTy).Contents (Elt F) → (⟨S32x1, .f32⟩ : BufTy).Contents (Elt F)),
    StableHlo.unary main_v602 main_v615 (broadcastInDim S32x1 ![0] bcast_S32_S32x1_0 : (⟨S32, .f32⟩ : BufTy).Contents (Elt F) → (⟨S32x1, .f32⟩ : BufTy).Contents (Elt F)),
    StableHlo.unary main_v606 main_v616 (broadcastInDim S32x1 ![0] bcast_S32_S32x1_0 : (⟨S32, .f32⟩ : BufTy).Contents (Elt F) → (⟨S32x1, .f32⟩ : BufTy).Contents (Elt F)),
    StableHlo.unary main_v606 main_v617 (broadcastInDim S32x1 ![0] bcast_S32_S32x1_0 : (⟨S32, .f32⟩ : BufTy).Contents (Elt F) → (⟨S32x1, .f32⟩ : BufTy).Contents (Elt F)),
    StableHlo.nary ![main_v614, main_v615, main_v616, main_v617] main_v618 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v606 main_v619 (broadcastInDim S32x1 ![0] bcast_S32_S32x1_0 : (⟨S32, .f32⟩ : BufTy).Contents (Elt F) → (⟨S32x1, .f32⟩ : BufTy).Contents (Elt F)),
    StableHlo.unary main_v606 main_v620 (broadcastInDim S32x1 ![0] bcast_S32_S32x1_0 : (⟨S32, .f32⟩ : BufTy).Contents (Elt F) → (⟨S32x1, .f32⟩ : BufTy).Contents (Elt F)),
    StableHlo.unary main_v602 main_v621 (broadcastInDim S32x1 ![0] bcast_S32_S32x1_0 : (⟨S32, .f32⟩ : BufTy).Contents (Elt F) → (⟨S32x1, .f32⟩ : BufTy).Contents (Elt F)),
    StableHlo.unary main_v608 main_v622 (broadcastInDim S32x1 ![0] bcast_S32_S32x1_0 : (⟨S32, .f32⟩ : BufTy).Contents (Elt F) → (⟨S32x1, .f32⟩ : BufTy).Contents (Elt F)),
    StableHlo.nary ![main_v619, main_v620, main_v621, main_v622] main_v623 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v606 main_v624 (broadcastInDim S32x1 ![0] bcast_S32_S32x1_0 : (⟨S32, .f32⟩ : BufTy).Contents (Elt F) → (⟨S32x1, .f32⟩ : BufTy).Contents (Elt F)),
    StableHlo.unary main_v606 main_v625 (broadcastInDim S32x1 ![0] bcast_S32_S32x1_0 : (⟨S32, .f32⟩ : BufTy).Contents (Elt F) → (⟨S32x1, .f32⟩ : BufTy).Contents (Elt F)),
    StableHlo.unary main_v605 main_v626 (broadcastInDim S32x1 ![0] bcast_S32_S32x1_0 : (⟨S32, .f32⟩ : BufTy).Contents (Elt F) → (⟨S32x1, .f32⟩ : BufTy).Contents (Elt F)),
    StableHlo.unary main_v602 main_v627 (broadcastInDim S32x1 ![0] bcast_S32_S32x1_0 : (⟨S32, .f32⟩ : BufTy).Contents (Elt F) → (⟨S32x1, .f32⟩ : BufTy).Contents (Elt F)),
    StableHlo.nary ![main_v624, main_v625, main_v626, main_v627] main_v628 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v613 main_v629 (broadcastInDim S32x1x4 ![0, 2] bcast_S32x4_S32x1x4_0_2 : (⟨S32x4, .f32⟩ : BufTy).Contents (Elt F) → (⟨S32x1x4, .f32⟩ : BufTy).Contents (Elt F)),
    StableHlo.unary main_v618 main_v630 (broadcastInDim S32x1x4 ![0, 2] bcast_S32x4_S32x1x4_0_2 : (⟨S32x4, .f32⟩ : BufTy).Contents (Elt F) → (⟨S32x1x4, .f32⟩ : BufTy).Contents (Elt F)),
    StableHlo.unary main_v623 main_v631 (broadcastInDim S32x1x4 ![0, 2] bcast_S32x4_S32x1x4_0_2 : (⟨S32x4, .f32⟩ : BufTy).Contents (Elt F) → (⟨S32x1x4, .f32⟩ : BufTy).Contents (Elt F)),
    StableHlo.unary main_v628 main_v632 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v629, main_v630, main_v631, main_v632] main_v633 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 5, the RX gate's 32×4×4 matrix from the angles params[5, :, 2] (39 operations). -/
abbrev gateOps_5_2 : List (HloOp τ sig (Elt F)) :=
  [ StableHlo.unary main_arg1 main_v634 ((extractStridedSlice S1x32x1 ![5, 0, 2] · slices_S8x32x3_S1x32x1_5_0_2) : (⟨S8x32x3, .f32⟩ : BufTy).Contents (Elt F) → (⟨S1x32x1, .f32⟩ : BufTy).Contents (Elt F)),
    StableHlo.reshape main_v634 main_v635 rfl shapeCasts_S1x32x1_S32,
    StableHlo.nullary main_cst_50 (constant S_ .f32 0x3F000000#32),
    StableHlo.unary main_cst_50 main_v636 (broadcastInDim S32 ![] bcast_S_S32 : (⟨S_, .f32⟩ : BufTy).Contents (Elt F) → (⟨S32, .f32⟩ : BufTy).Contents (Elt F)),
    StableHlo.binary main_v635 main_v636 main_v637 (mulf : (⟨S32, .f32⟩ : BufTy).Contents (Elt F) → (⟨S32, .f32⟩ : BufTy).Contents (Elt F) → (⟨S32, .f32⟩ : BufTy).Contents (Elt F)),
    StableHlo.unary main_v637 main_v638 (Host.cos : (⟨S32, .f32⟩ : BufTy).Contents (Elt F) → (⟨S32, .f32⟩ : BufTy).Contents (Elt F)),
    StableHlo.nullary main_cst_51 (constant S_ .f32 0x3F000000#32),
    StableHlo.unary main_cst_51 main_v639 (broadcastInDim S32 ![] bcast_S_S32 : (⟨S_, .f32⟩ : BufTy).Contents (Elt F) → (⟨S32, .f32⟩ : BufTy).Contents (Elt F)),
    StableHlo.binary main_v635 main_v639 main_v640 (mulf : (⟨S32, .f32⟩ : BufTy).Contents (Elt F) → (⟨S32, .f32⟩ : BufTy).Contents (Elt F) → (⟨S32, .f32⟩ : BufTy).Contents (Elt F)),
    StableHlo.unary main_v640 main_v641 (Host.sin : (⟨S32, .f32⟩ : BufTy).Contents (Elt F) → (⟨S32, .f32⟩ : BufTy).Contents (Elt F)),
    StableHlo.nullary main_cst_52 (constant S_ .f32 0x00000000#32),
    StableHlo.unary main_cst_52 main_v642 (broadcastInDim S32 ![] bcast_S_S32 : (⟨S_, .f32⟩ : BufTy).Contents (Elt F) → (⟨S32, .f32⟩ : BufTy).Contents (Elt F)),
    StableHlo.unary main_v641 main_v643 (Host.negf : (⟨S32, .f32⟩ : BufTy).Contents (Elt F) → (⟨S32, .f32⟩ : BufTy).Contents (Elt F)),
    StableHlo.unary main_v641 main_v644 (Host.negf : (⟨S32, .f32⟩ : BufTy).Contents (Elt F) → (⟨S32, .f32⟩ : BufTy).Contents (Elt F)),
    StableHlo.unary main_v638 main_v645 (broadcastInDim S32x1 ![0] bcast_S32_S32x1_0 : (⟨S32, .f32⟩ : BufTy).Contents (Elt F) → (⟨S32x1, .f32⟩ : BufTy).Contents (Elt F)),
    StableHlo.unary main_v642 main_v646 (broadcastInDim S32x1 ![0] bcast_S32_S32x1_0 : (⟨S32, .f32⟩ : BufTy).Contents (Elt F) → (⟨S32x1, .f32⟩ : BufTy).Contents (Elt F)),
    StableHlo.unary main_v642 main_v647 (broadcastInDim S32x1 ![0] bcast_S32_S32x1_0 : (⟨S32, .f32⟩ : BufTy).Contents (Elt F) → (⟨S32x1, .f32⟩ : BufTy).Contents (Elt F)),
    StableHlo.unary main_v641 main_v648 (broadcastInDim S32x1 ![0] bcast_S32_S32x1_0 : (⟨S32, .f32⟩ : BufTy).Contents (Elt F) → (⟨S32x1, .f32⟩ : BufTy).Contents (Elt F)),
    StableHlo.nary ![main_v645, main_v646, main_v647, main_v648] main_v649 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v642 main_v650 (broadcastInDim S32x1 ![0] bcast_S32_S32x1_0 : (⟨S32, .f32⟩ : BufTy).Contents (Elt F) → (⟨S32x1, .f32⟩ : BufTy).Contents (Elt F)),
    StableHlo.unary main_v638 main_v651 (broadcastInDim S32x1 ![0] bcast_S32_S32x1_0 : (⟨S32, .f32⟩ : BufTy).Contents (Elt F) → (⟨S32x1, .f32⟩ : BufTy).Contents (Elt F)),
    StableHlo.unary main_v643 main_v652 (broadcastInDim S32x1 ![0] bcast_S32_S32x1_0 : (⟨S32, .f32⟩ : BufTy).Contents (Elt F) → (⟨S32x1, .f32⟩ : BufTy).Contents (Elt F)),
    StableHlo.unary main_v642 main_v653 (broadcastInDim S32x1 ![0] bcast_S32_S32x1_0 : (⟨S32, .f32⟩ : BufTy).Contents (Elt F) → (⟨S32x1, .f32⟩ : BufTy).Contents (Elt F)),
    StableHlo.nary ![main_v650, main_v651, main_v652, main_v653] main_v654 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v642 main_v655 (broadcastInDim S32x1 ![0] bcast_S32_S32x1_0 : (⟨S32, .f32⟩ : BufTy).Contents (Elt F) → (⟨S32x1, .f32⟩ : BufTy).Contents (Elt F)),
    StableHlo.unary main_v641 main_v656 (broadcastInDim S32x1 ![0] bcast_S32_S32x1_0 : (⟨S32, .f32⟩ : BufTy).Contents (Elt F) → (⟨S32x1, .f32⟩ : BufTy).Contents (Elt F)),
    StableHlo.unary main_v638 main_v657 (broadcastInDim S32x1 ![0] bcast_S32_S32x1_0 : (⟨S32, .f32⟩ : BufTy).Contents (Elt F) → (⟨S32x1, .f32⟩ : BufTy).Contents (Elt F)),
    StableHlo.unary main_v642 main_v658 (broadcastInDim S32x1 ![0] bcast_S32_S32x1_0 : (⟨S32, .f32⟩ : BufTy).Contents (Elt F) → (⟨S32x1, .f32⟩ : BufTy).Contents (Elt F)),
    StableHlo.nary ![main_v655, main_v656, main_v657, main_v658] main_v659 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v644 main_v660 (broadcastInDim S32x1 ![0] bcast_S32_S32x1_0 : (⟨S32, .f32⟩ : BufTy).Contents (Elt F) → (⟨S32x1, .f32⟩ : BufTy).Contents (Elt F)),
    StableHlo.unary main_v642 main_v661 (broadcastInDim S32x1 ![0] bcast_S32_S32x1_0 : (⟨S32, .f32⟩ : BufTy).Contents (Elt F) → (⟨S32x1, .f32⟩ : BufTy).Contents (Elt F)),
    StableHlo.unary main_v642 main_v662 (broadcastInDim S32x1 ![0] bcast_S32_S32x1_0 : (⟨S32, .f32⟩ : BufTy).Contents (Elt F) → (⟨S32x1, .f32⟩ : BufTy).Contents (Elt F)),
    StableHlo.unary main_v638 main_v663 (broadcastInDim S32x1 ![0] bcast_S32_S32x1_0 : (⟨S32, .f32⟩ : BufTy).Contents (Elt F) → (⟨S32x1, .f32⟩ : BufTy).Contents (Elt F)),
    StableHlo.nary ![main_v660, main_v661, main_v662, main_v663] main_v664 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v649 main_v665 (broadcastInDim S32x1x4 ![0, 2] bcast_S32x4_S32x1x4_0_2 : (⟨S32x4, .f32⟩ : BufTy).Contents (Elt F) → (⟨S32x1x4, .f32⟩ : BufTy).Contents (Elt F)),
    StableHlo.unary main_v654 main_v666 (broadcastInDim S32x1x4 ![0, 2] bcast_S32x4_S32x1x4_0_2 : (⟨S32x4, .f32⟩ : BufTy).Contents (Elt F) → (⟨S32x1x4, .f32⟩ : BufTy).Contents (Elt F)),
    StableHlo.unary main_v659 main_v667 (broadcastInDim S32x1x4 ![0, 2] bcast_S32x4_S32x1x4_0_2 : (⟨S32x4, .f32⟩ : BufTy).Contents (Elt F) → (⟨S32x1x4, .f32⟩ : BufTy).Contents (Elt F)),
    StableHlo.unary main_v664 main_v668 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v665, main_v666, main_v667, main_v668] main_v669 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 5: RZ·RY, then RX·(RZ·RY), then that product times the matrix accumulated so far (3 batched products). -/
abbrev dotOps_5 : List (HloOp τ sig (Elt F)) :=
  [ StableHlo.binary main_v633 main_v597 main_v670 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v669 main_v670 main_v671 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v671 main_v561 main_v672 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 6, the RY gate's 32×4×4 matrix from the angles params[6, :, 0] (39 operations). -/
abbrev gateOps_6_0 : List (HloOp τ sig (Elt F)) :=
  [ StableHlo.unary main_arg1 main_v673 ((extractStridedSlice S1x32x1 ![6, 0, 0] · slices_S8x32x3_S1x32x1_6_0_0) : (⟨S8x32x3, .f32⟩ : BufTy).Contents (Elt F) → (⟨S1x32x1, .f32⟩ : BufTy).Contents (Elt F)),
    StableHlo.reshape main_v673 main_v674 rfl shapeCasts_S1x32x1_S32,
    StableHlo.nullary main_cst_53 (constant S_ .f32 0x3F000000#32),
    StableHlo.unary main_cst_53 main_v675 (broadcastInDim S32 ![] bcast_S_S32 : (⟨S_, .f32⟩ : BufTy).Contents (Elt F) → (⟨S32, .f32⟩ : BufTy).Contents (Elt F)),
    StableHlo.binary main_v674 main_v675 main_v676 (mulf : (⟨S32, .f32⟩ : BufTy).Contents (Elt F) → (⟨S32, .f32⟩ : BufTy).Contents (Elt F) → (⟨S32, .f32⟩ : BufTy).Contents (Elt F)),
    StableHlo.unary main_v676 main_v677 (Host.cos : (⟨S32, .f32⟩ : BufTy).Contents (Elt F) → (⟨S32, .f32⟩ : BufTy).Contents (Elt F)),
    StableHlo.nullary main_cst_54 (constant S_ .f32 0x3F000000#32),
    StableHlo.unary main_cst_54 main_v678 (broadcastInDim S32 ![] bcast_S_S32 : (⟨S_, .f32⟩ : BufTy).Contents (Elt F) → (⟨S32, .f32⟩ : BufTy).Contents (Elt F)),
    StableHlo.binary main_v674 main_v678 main_v679 (mulf : (⟨S32, .f32⟩ : BufTy).Contents (Elt F) → (⟨S32, .f32⟩ : BufTy).Contents (Elt F) → (⟨S32, .f32⟩ : BufTy).Contents (Elt F)),
    StableHlo.unary main_v679 main_v680 (Host.sin : (⟨S32, .f32⟩ : BufTy).Contents (Elt F) → (⟨S32, .f32⟩ : BufTy).Contents (Elt F)),
    StableHlo.nullary main_cst_55 (constant S_ .f32 0x00000000#32),
    StableHlo.unary main_cst_55 main_v681 (broadcastInDim S32 ![] bcast_S_S32 : (⟨S_, .f32⟩ : BufTy).Contents (Elt F) → (⟨S32, .f32⟩ : BufTy).Contents (Elt F)),
    StableHlo.unary main_v680 main_v682 (Host.negf : (⟨S32, .f32⟩ : BufTy).Contents (Elt F) → (⟨S32, .f32⟩ : BufTy).Contents (Elt F)),
    StableHlo.unary main_v680 main_v683 (Host.negf : (⟨S32, .f32⟩ : BufTy).Contents (Elt F) → (⟨S32, .f32⟩ : BufTy).Contents (Elt F)),
    StableHlo.unary main_v677 main_v684 (broadcastInDim S32x1 ![0] bcast_S32_S32x1_0 : (⟨S32, .f32⟩ : BufTy).Contents (Elt F) → (⟨S32x1, .f32⟩ : BufTy).Contents (Elt F)),
    StableHlo.unary main_v681 main_v685 (broadcastInDim S32x1 ![0] bcast_S32_S32x1_0 : (⟨S32, .f32⟩ : BufTy).Contents (Elt F) → (⟨S32x1, .f32⟩ : BufTy).Contents (Elt F)),
    StableHlo.unary main_v682 main_v686 (broadcastInDim S32x1 ![0] bcast_S32_S32x1_0 : (⟨S32, .f32⟩ : BufTy).Contents (Elt F) → (⟨S32x1, .f32⟩ : BufTy).Contents (Elt F)),
    StableHlo.unary main_v681 main_v687 (broadcastInDim S32x1 ![0] bcast_S32_S32x1_0 : (⟨S32, .f32⟩ : BufTy).Contents (Elt F) → (⟨S32x1, .f32⟩ : BufTy).Contents (Elt F)),
    StableHlo.nary ![main_v684, main_v685, main_v686, main_v687] main_v688 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v681 main_v689 (broadcastInDim S32x1 ![0] bcast_S32_S32x1_0 : (⟨S32, .f32⟩ : BufTy).Contents (Elt F) → (⟨S32x1, .f32⟩ : BufTy).Contents (Elt F)),
    StableHlo.unary main_v677 main_v690 (broadcastInDim S32x1 ![0] bcast_S32_S32x1_0 : (⟨S32, .f32⟩ : BufTy).Contents (Elt F) → (⟨S32x1, .f32⟩ : BufTy).Contents (Elt F)),
    StableHlo.unary main_v681 main_v691 (broadcastInDim S32x1 ![0] bcast_S32_S32x1_0 : (⟨S32, .f32⟩ : BufTy).Contents (Elt F) → (⟨S32x1, .f32⟩ : BufTy).Contents (Elt F)),
    StableHlo.unary main_v683 main_v692 (broadcastInDim S32x1 ![0] bcast_S32_S32x1_0 : (⟨S32, .f32⟩ : BufTy).Contents (Elt F) → (⟨S32x1, .f32⟩ : BufTy).Contents (Elt F)),
    StableHlo.nary ![main_v689, main_v690, main_v691, main_v692] main_v693 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v680 main_v694 (broadcastInDim S32x1 ![0] bcast_S32_S32x1_0 : (⟨S32, .f32⟩ : BufTy).Contents (Elt F) → (⟨S32x1, .f32⟩ : BufTy).Contents (Elt F)),
    StableHlo.unary main_v681 main_v695 (broadcastInDim S32x1 ![0] bcast_S32_S32x1_0 : (⟨S32, .f32⟩ : BufTy).Contents (Elt F) → (⟨S32x1, .f32⟩ : BufTy).Contents (Elt F)),
    StableHlo.unary main_v677 main_v696 (broadcastInDim S32x1 ![0] bcast_S32_S32x1_0 : (⟨S32, .f32⟩ : BufTy).Contents (Elt F) → (⟨S32x1, .f32⟩ : BufTy).Contents (Elt F)),
    StableHlo.unary main_v681 main_v697 (broadcastInDim S32x1 ![0] bcast_S32_S32x1_0 : (⟨S32, .f32⟩ : BufTy).Contents (Elt F) → (⟨S32x1, .f32⟩ : BufTy).Contents (Elt F)),
    StableHlo.nary ![main_v694, main_v695, main_v696, main_v697] main_v698 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v681 main_v699 (broadcastInDim S32x1 ![0] bcast_S32_S32x1_0 : (⟨S32, .f32⟩ : BufTy).Contents (Elt F) → (⟨S32x1, .f32⟩ : BufTy).Contents (Elt F)),
    StableHlo.unary main_v680 main_v700 (broadcastInDim S32x1 ![0] bcast_S32_S32x1_0 : (⟨S32, .f32⟩ : BufTy).Contents (Elt F) → (⟨S32x1, .f32⟩ : BufTy).Contents (Elt F)),
    StableHlo.unary main_v681 main_v701 (broadcastInDim S32x1 ![0] bcast_S32_S32x1_0 : (⟨S32, .f32⟩ : BufTy).Contents (Elt F) → (⟨S32x1, .f32⟩ : BufTy).Contents (Elt F)),
    StableHlo.unary main_v677 main_v702 (broadcastInDim S32x1 ![0] bcast_S32_S32x1_0 : (⟨S32, .f32⟩ : BufTy).Contents (Elt F) → (⟨S32x1, .f32⟩ : BufTy).Contents (Elt F)),
    StableHlo.nary ![main_v699, main_v700, main_v701, main_v702] main_v703 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v688 main_v704 (broadcastInDim S32x1x4 ![0, 2] bcast_S32x4_S32x1x4_0_2 : (⟨S32x4, .f32⟩ : BufTy).Contents (Elt F) → (⟨S32x1x4, .f32⟩ : BufTy).Contents (Elt F)),
    StableHlo.unary main_v693 main_v705 (broadcastInDim S32x1x4 ![0, 2] bcast_S32x4_S32x1x4_0_2 : (⟨S32x4, .f32⟩ : BufTy).Contents (Elt F) → (⟨S32x1x4, .f32⟩ : BufTy).Contents (Elt F)),
    StableHlo.unary main_v698 main_v706 (broadcastInDim S32x1x4 ![0, 2] bcast_S32x4_S32x1x4_0_2 : (⟨S32x4, .f32⟩ : BufTy).Contents (Elt F) → (⟨S32x1x4, .f32⟩ : BufTy).Contents (Elt F)),
    StableHlo.unary main_v703 main_v707 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v704, main_v705, main_v706, main_v707] main_v708 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 6, the RZ gate's 32×4×4 matrix from the angles params[6, :, 1] (39 operations). -/
abbrev gateOps_6_1 : List (HloOp τ sig (Elt F)) :=
  [ StableHlo.unary main_arg1 main_v709 ((extractStridedSlice S1x32x1 ![6, 0, 1] · slices_S8x32x3_S1x32x1_6_0_1) : (⟨S8x32x3, .f32⟩ : BufTy).Contents (Elt F) → (⟨S1x32x1, .f32⟩ : BufTy).Contents (Elt F)),
    StableHlo.reshape main_v709 main_v710 rfl shapeCasts_S1x32x1_S32,
    StableHlo.nullary main_cst_56 (constant S_ .f32 0x3F000000#32),
    StableHlo.unary main_cst_56 main_v711 (broadcastInDim S32 ![] bcast_S_S32 : (⟨S_, .f32⟩ : BufTy).Contents (Elt F) → (⟨S32, .f32⟩ : BufTy).Contents (Elt F)),
    StableHlo.binary main_v710 main_v711 main_v712 (mulf : (⟨S32, .f32⟩ : BufTy).Contents (Elt F) → (⟨S32, .f32⟩ : BufTy).Contents (Elt F) → (⟨S32, .f32⟩ : BufTy).Contents (Elt F)),
    StableHlo.unary main_v712 main_v713 (Host.cos : (⟨S32, .f32⟩ : BufTy).Contents (Elt F) → (⟨S32, .f32⟩ : BufTy).Contents (Elt F)),
    StableHlo.nullary main_cst_57 (constant S_ .f32 0x3F000000#32),
    StableHlo.unary main_cst_57 main_v714 (broadcastInDim S32 ![] bcast_S_S32 : (⟨S_, .f32⟩ : BufTy).Contents (Elt F) → (⟨S32, .f32⟩ : BufTy).Contents (Elt F)),
    StableHlo.binary main_v710 main_v714 main_v715 (mulf : (⟨S32, .f32⟩ : BufTy).Contents (Elt F) → (⟨S32, .f32⟩ : BufTy).Contents (Elt F) → (⟨S32, .f32⟩ : BufTy).Contents (Elt F)),
    StableHlo.unary main_v715 main_v716 (Host.sin : (⟨S32, .f32⟩ : BufTy).Contents (Elt F) → (⟨S32, .f32⟩ : BufTy).Contents (Elt F)),
    StableHlo.nullary main_cst_58 (constant S_ .f32 0x00000000#32),
    StableHlo.unary main_cst_58 main_v717 (broadcastInDim S32 ![] bcast_S_S32 : (⟨S_, .f32⟩ : BufTy).Contents (Elt F) → (⟨S32, .f32⟩ : BufTy).Contents (Elt F)),
    StableHlo.unary main_v716 main_v718 (Host.negf : (⟨S32, .f32⟩ : BufTy).Contents (Elt F) → (⟨S32, .f32⟩ : BufTy).Contents (Elt F)),
    StableHlo.unary main_v716 main_v719 (Host.negf : (⟨S32, .f32⟩ : BufTy).Contents (Elt F) → (⟨S32, .f32⟩ : BufTy).Contents (Elt F)),
    StableHlo.unary main_v713 main_v720 (broadcastInDim S32x1 ![0] bcast_S32_S32x1_0 : (⟨S32, .f32⟩ : BufTy).Contents (Elt F) → (⟨S32x1, .f32⟩ : BufTy).Contents (Elt F)),
    StableHlo.unary main_v716 main_v721 (broadcastInDim S32x1 ![0] bcast_S32_S32x1_0 : (⟨S32, .f32⟩ : BufTy).Contents (Elt F) → (⟨S32x1, .f32⟩ : BufTy).Contents (Elt F)),
    StableHlo.unary main_v717 main_v722 (broadcastInDim S32x1 ![0] bcast_S32_S32x1_0 : (⟨S32, .f32⟩ : BufTy).Contents (Elt F) → (⟨S32x1, .f32⟩ : BufTy).Contents (Elt F)),
    StableHlo.unary main_v717 main_v723 (broadcastInDim S32x1 ![0] bcast_S32_S32x1_0 : (⟨S32, .f32⟩ : BufTy).Contents (Elt F) → (⟨S32x1, .f32⟩ : BufTy).Contents (Elt F)),
    StableHlo.nary ![main_v720, main_v721, main_v722, main_v723] main_v724 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v718 main_v725 (broadcastInDim S32x1 ![0] bcast_S32_S32x1_0 : (⟨S32, .f32⟩ : BufTy).Contents (Elt F) → (⟨S32x1, .f32⟩ : BufTy).Contents (Elt F)),
    StableHlo.unary main_v713 main_v726 (broadcastInDim S32x1 ![0] bcast_S32_S32x1_0 : (⟨S32, .f32⟩ : BufTy).Contents (Elt F) → (⟨S32x1, .f32⟩ : BufTy).Contents (Elt F)),
    StableHlo.unary main_v717 main_v727 (broadcastInDim S32x1 ![0] bcast_S32_S32x1_0 : (⟨S32, .f32⟩ : BufTy).Contents (Elt F) → (⟨S32x1, .f32⟩ : BufTy).Contents (Elt F)),
    StableHlo.unary main_v717 main_v728 (broadcastInDim S32x1 ![0] bcast_S32_S32x1_0 : (⟨S32, .f32⟩ : BufTy).Contents (Elt F) → (⟨S32x1, .f32⟩ : BufTy).Contents (Elt F)),
    StableHlo.nary ![main_v725, main_v726, main_v727, main_v728] main_v729 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v717 main_v730 (broadcastInDim S32x1 ![0] bcast_S32_S32x1_0 : (⟨S32, .f32⟩ : BufTy).Contents (Elt F) → (⟨S32x1, .f32⟩ : BufTy).Contents (Elt F)),
    StableHlo.unary main_v717 main_v731 (broadcastInDim S32x1 ![0] bcast_S32_S32x1_0 : (⟨S32, .f32⟩ : BufTy).Contents (Elt F) → (⟨S32x1, .f32⟩ : BufTy).Contents (Elt F)),
    StableHlo.unary main_v713 main_v732 (broadcastInDim S32x1 ![0] bcast_S32_S32x1_0 : (⟨S32, .f32⟩ : BufTy).Contents (Elt F) → (⟨S32x1, .f32⟩ : BufTy).Contents (Elt F)),
    StableHlo.unary main_v719 main_v733 (broadcastInDim S32x1 ![0] bcast_S32_S32x1_0 : (⟨S32, .f32⟩ : BufTy).Contents (Elt F) → (⟨S32x1, .f32⟩ : BufTy).Contents (Elt F)),
    StableHlo.nary ![main_v730, main_v731, main_v732, main_v733] main_v734 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v717 main_v735 (broadcastInDim S32x1 ![0] bcast_S32_S32x1_0 : (⟨S32, .f32⟩ : BufTy).Contents (Elt F) → (⟨S32x1, .f32⟩ : BufTy).Contents (Elt F)),
    StableHlo.unary main_v717 main_v736 (broadcastInDim S32x1 ![0] bcast_S32_S32x1_0 : (⟨S32, .f32⟩ : BufTy).Contents (Elt F) → (⟨S32x1, .f32⟩ : BufTy).Contents (Elt F)),
    StableHlo.unary main_v716 main_v737 (broadcastInDim S32x1 ![0] bcast_S32_S32x1_0 : (⟨S32, .f32⟩ : BufTy).Contents (Elt F) → (⟨S32x1, .f32⟩ : BufTy).Contents (Elt F)),
    StableHlo.unary main_v713 main_v738 (broadcastInDim S32x1 ![0] bcast_S32_S32x1_0 : (⟨S32, .f32⟩ : BufTy).Contents (Elt F) → (⟨S32x1, .f32⟩ : BufTy).Contents (Elt F)),
    StableHlo.nary ![main_v735, main_v736, main_v737, main_v738] main_v739 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v724 main_v740 (broadcastInDim S32x1x4 ![0, 2] bcast_S32x4_S32x1x4_0_2 : (⟨S32x4, .f32⟩ : BufTy).Contents (Elt F) → (⟨S32x1x4, .f32⟩ : BufTy).Contents (Elt F)),
    StableHlo.unary main_v729 main_v741 (broadcastInDim S32x1x4 ![0, 2] bcast_S32x4_S32x1x4_0_2 : (⟨S32x4, .f32⟩ : BufTy).Contents (Elt F) → (⟨S32x1x4, .f32⟩ : BufTy).Contents (Elt F)),
    StableHlo.unary main_v734 main_v742 (broadcastInDim S32x1x4 ![0, 2] bcast_S32x4_S32x1x4_0_2 : (⟨S32x4, .f32⟩ : BufTy).Contents (Elt F) → (⟨S32x1x4, .f32⟩ : BufTy).Contents (Elt F)),
    StableHlo.unary main_v739 main_v743 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v740, main_v741, main_v742, main_v743] main_v744 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 6, the RX gate's 32×4×4 matrix from the angles params[6, :, 2] (39 operations). -/
abbrev gateOps_6_2 : List (HloOp τ sig (Elt F)) :=
  [ StableHlo.unary main_arg1 main_v745 ((extractStridedSlice S1x32x1 ![6, 0, 2] · slices_S8x32x3_S1x32x1_6_0_2) : (⟨S8x32x3, .f32⟩ : BufTy).Contents (Elt F) → (⟨S1x32x1, .f32⟩ : BufTy).Contents (Elt F)),
    StableHlo.reshape main_v745 main_v746 rfl shapeCasts_S1x32x1_S32,
    StableHlo.nullary main_cst_59 (constant S_ .f32 0x3F000000#32),
    StableHlo.unary main_cst_59 main_v747 (broadcastInDim S32 ![] bcast_S_S32 : (⟨S_, .f32⟩ : BufTy).Contents (Elt F) → (⟨S32, .f32⟩ : BufTy).Contents (Elt F)),
    StableHlo.binary main_v746 main_v747 main_v748 (mulf : (⟨S32, .f32⟩ : BufTy).Contents (Elt F) → (⟨S32, .f32⟩ : BufTy).Contents (Elt F) → (⟨S32, .f32⟩ : BufTy).Contents (Elt F)),
    StableHlo.unary main_v748 main_v749 (Host.cos : (⟨S32, .f32⟩ : BufTy).Contents (Elt F) → (⟨S32, .f32⟩ : BufTy).Contents (Elt F)),
    StableHlo.nullary main_cst_60 (constant S_ .f32 0x3F000000#32),
    StableHlo.unary main_cst_60 main_v750 (broadcastInDim S32 ![] bcast_S_S32 : (⟨S_, .f32⟩ : BufTy).Contents (Elt F) → (⟨S32, .f32⟩ : BufTy).Contents (Elt F)),
    StableHlo.binary main_v746 main_v750 main_v751 (mulf : (⟨S32, .f32⟩ : BufTy).Contents (Elt F) → (⟨S32, .f32⟩ : BufTy).Contents (Elt F) → (⟨S32, .f32⟩ : BufTy).Contents (Elt F)),
    StableHlo.unary main_v751 main_v752 (Host.sin : (⟨S32, .f32⟩ : BufTy).Contents (Elt F) → (⟨S32, .f32⟩ : BufTy).Contents (Elt F)),
    StableHlo.nullary main_cst_61 (constant S_ .f32 0x00000000#32),
    StableHlo.unary main_cst_61 main_v753 (broadcastInDim S32 ![] bcast_S_S32 : (⟨S_, .f32⟩ : BufTy).Contents (Elt F) → (⟨S32, .f32⟩ : BufTy).Contents (Elt F)),
    StableHlo.unary main_v752 main_v754 (Host.negf : (⟨S32, .f32⟩ : BufTy).Contents (Elt F) → (⟨S32, .f32⟩ : BufTy).Contents (Elt F)),
    StableHlo.unary main_v752 main_v755 (Host.negf : (⟨S32, .f32⟩ : BufTy).Contents (Elt F) → (⟨S32, .f32⟩ : BufTy).Contents (Elt F)),
    StableHlo.unary main_v749 main_v756 (broadcastInDim S32x1 ![0] bcast_S32_S32x1_0 : (⟨S32, .f32⟩ : BufTy).Contents (Elt F) → (⟨S32x1, .f32⟩ : BufTy).Contents (Elt F)),
    StableHlo.unary main_v753 main_v757 (broadcastInDim S32x1 ![0] bcast_S32_S32x1_0 : (⟨S32, .f32⟩ : BufTy).Contents (Elt F) → (⟨S32x1, .f32⟩ : BufTy).Contents (Elt F)),
    StableHlo.unary main_v753 main_v758 (broadcastInDim S32x1 ![0] bcast_S32_S32x1_0 : (⟨S32, .f32⟩ : BufTy).Contents (Elt F) → (⟨S32x1, .f32⟩ : BufTy).Contents (Elt F)),
    StableHlo.unary main_v752 main_v759 (broadcastInDim S32x1 ![0] bcast_S32_S32x1_0 : (⟨S32, .f32⟩ : BufTy).Contents (Elt F) → (⟨S32x1, .f32⟩ : BufTy).Contents (Elt F)),
    StableHlo.nary ![main_v756, main_v757, main_v758, main_v759] main_v760 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v753 main_v761 (broadcastInDim S32x1 ![0] bcast_S32_S32x1_0 : (⟨S32, .f32⟩ : BufTy).Contents (Elt F) → (⟨S32x1, .f32⟩ : BufTy).Contents (Elt F)),
    StableHlo.unary main_v749 main_v762 (broadcastInDim S32x1 ![0] bcast_S32_S32x1_0 : (⟨S32, .f32⟩ : BufTy).Contents (Elt F) → (⟨S32x1, .f32⟩ : BufTy).Contents (Elt F)),
    StableHlo.unary main_v754 main_v763 (broadcastInDim S32x1 ![0] bcast_S32_S32x1_0 : (⟨S32, .f32⟩ : BufTy).Contents (Elt F) → (⟨S32x1, .f32⟩ : BufTy).Contents (Elt F)),
    StableHlo.unary main_v753 main_v764 (broadcastInDim S32x1 ![0] bcast_S32_S32x1_0 : (⟨S32, .f32⟩ : BufTy).Contents (Elt F) → (⟨S32x1, .f32⟩ : BufTy).Contents (Elt F)),
    StableHlo.nary ![main_v761, main_v762, main_v763, main_v764] main_v765 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v753 main_v766 (broadcastInDim S32x1 ![0] bcast_S32_S32x1_0 : (⟨S32, .f32⟩ : BufTy).Contents (Elt F) → (⟨S32x1, .f32⟩ : BufTy).Contents (Elt F)),
    StableHlo.unary main_v752 main_v767 (broadcastInDim S32x1 ![0] bcast_S32_S32x1_0 : (⟨S32, .f32⟩ : BufTy).Contents (Elt F) → (⟨S32x1, .f32⟩ : BufTy).Contents (Elt F)),
    StableHlo.unary main_v749 main_v768 (broadcastInDim S32x1 ![0] bcast_S32_S32x1_0 : (⟨S32, .f32⟩ : BufTy).Contents (Elt F) → (⟨S32x1, .f32⟩ : BufTy).Contents (Elt F)),
    StableHlo.unary main_v753 main_v769 (broadcastInDim S32x1 ![0] bcast_S32_S32x1_0 : (⟨S32, .f32⟩ : BufTy).Contents (Elt F) → (⟨S32x1, .f32⟩ : BufTy).Contents (Elt F)),
    StableHlo.nary ![main_v766, main_v767, main_v768, main_v769] main_v770 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v755 main_v771 (broadcastInDim S32x1 ![0] bcast_S32_S32x1_0 : (⟨S32, .f32⟩ : BufTy).Contents (Elt F) → (⟨S32x1, .f32⟩ : BufTy).Contents (Elt F)),
    StableHlo.unary main_v753 main_v772 (broadcastInDim S32x1 ![0] bcast_S32_S32x1_0 : (⟨S32, .f32⟩ : BufTy).Contents (Elt F) → (⟨S32x1, .f32⟩ : BufTy).Contents (Elt F)),
    StableHlo.unary main_v753 main_v773 (broadcastInDim S32x1 ![0] bcast_S32_S32x1_0 : (⟨S32, .f32⟩ : BufTy).Contents (Elt F) → (⟨S32x1, .f32⟩ : BufTy).Contents (Elt F)),
    StableHlo.unary main_v749 main_v774 (broadcastInDim S32x1 ![0] bcast_S32_S32x1_0 : (⟨S32, .f32⟩ : BufTy).Contents (Elt F) → (⟨S32x1, .f32⟩ : BufTy).Contents (Elt F)),
    StableHlo.nary ![main_v771, main_v772, main_v773, main_v774] main_v775 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v760 main_v776 (broadcastInDim S32x1x4 ![0, 2] bcast_S32x4_S32x1x4_0_2 : (⟨S32x4, .f32⟩ : BufTy).Contents (Elt F) → (⟨S32x1x4, .f32⟩ : BufTy).Contents (Elt F)),
    StableHlo.unary main_v765 main_v777 (broadcastInDim S32x1x4 ![0, 2] bcast_S32x4_S32x1x4_0_2 : (⟨S32x4, .f32⟩ : BufTy).Contents (Elt F) → (⟨S32x1x4, .f32⟩ : BufTy).Contents (Elt F)),
    StableHlo.unary main_v770 main_v778 (broadcastInDim S32x1x4 ![0, 2] bcast_S32x4_S32x1x4_0_2 : (⟨S32x4, .f32⟩ : BufTy).Contents (Elt F) → (⟨S32x1x4, .f32⟩ : BufTy).Contents (Elt F)),
    StableHlo.unary main_v775 main_v779 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v776, main_v777, main_v778, main_v779] main_v780 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 6: RZ·RY, then RX·(RZ·RY), then that product times the matrix accumulated so far (3 batched products). -/
abbrev dotOps_6 : List (HloOp τ sig (Elt F)) :=
  [ StableHlo.binary main_v744 main_v708 main_v781 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v780 main_v781 main_v782 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v782 main_v672 main_v783 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- Layer 7, the RY gate's 32×4×4 matrix from the angles params[7, :, 0] (39 operations). -/
abbrev gateOps_7_0 : List (HloOp τ sig (Elt F)) :=
  [ StableHlo.unary main_arg1 main_v784 ((extractStridedSlice S1x32x1 ![7, 0, 0] · slices_S8x32x3_S1x32x1_7_0_0) : (⟨S8x32x3, .f32⟩ : BufTy).Contents (Elt F) → (⟨S1x32x1, .f32⟩ : BufTy).Contents (Elt F)),
    StableHlo.reshape main_v784 main_v785 rfl shapeCasts_S1x32x1_S32,
    StableHlo.nullary main_cst_62 (constant S_ .f32 0x3F000000#32),
    StableHlo.unary main_cst_62 main_v786 (broadcastInDim S32 ![] bcast_S_S32 : (⟨S_, .f32⟩ : BufTy).Contents (Elt F) → (⟨S32, .f32⟩ : BufTy).Contents (Elt F)),
    StableHlo.binary main_v785 main_v786 main_v787 (mulf : (⟨S32, .f32⟩ : BufTy).Contents (Elt F) → (⟨S32, .f32⟩ : BufTy).Contents (Elt F) → (⟨S32, .f32⟩ : BufTy).Contents (Elt F)),
    StableHlo.unary main_v787 main_v788 (Host.cos : (⟨S32, .f32⟩ : BufTy).Contents (Elt F) → (⟨S32, .f32⟩ : BufTy).Contents (Elt F)),
    StableHlo.nullary main_cst_63 (constant S_ .f32 0x3F000000#32),
    StableHlo.unary main_cst_63 main_v789 (broadcastInDim S32 ![] bcast_S_S32 : (⟨S_, .f32⟩ : BufTy).Contents (Elt F) → (⟨S32, .f32⟩ : BufTy).Contents (Elt F)),
    StableHlo.binary main_v785 main_v789 main_v790 (mulf : (⟨S32, .f32⟩ : BufTy).Contents (Elt F) → (⟨S32, .f32⟩ : BufTy).Contents (Elt F) → (⟨S32, .f32⟩ : BufTy).Contents (Elt F)),
    StableHlo.unary main_v790 main_v791 (Host.sin : (⟨S32, .f32⟩ : BufTy).Contents (Elt F) → (⟨S32, .f32⟩ : BufTy).Contents (Elt F)),
    StableHlo.nullary main_cst_64 (constant S_ .f32 0x00000000#32),
    StableHlo.unary main_cst_64 main_v792 (broadcastInDim S32 ![] bcast_S_S32 : (⟨S_, .f32⟩ : BufTy).Contents (Elt F) → (⟨S32, .f32⟩ : BufTy).Contents (Elt F)),
    StableHlo.unary main_v791 main_v793 (Host.negf : (⟨S32, .f32⟩ : BufTy).Contents (Elt F) → (⟨S32, .f32⟩ : BufTy).Contents (Elt F)),
    StableHlo.unary main_v791 main_v794 (Host.negf : (⟨S32, .f32⟩ : BufTy).Contents (Elt F) → (⟨S32, .f32⟩ : BufTy).Contents (Elt F)),
    StableHlo.unary main_v788 main_v795 (broadcastInDim S32x1 ![0] bcast_S32_S32x1_0 : (⟨S32, .f32⟩ : BufTy).Contents (Elt F) → (⟨S32x1, .f32⟩ : BufTy).Contents (Elt F)),
    StableHlo.unary main_v792 main_v796 (broadcastInDim S32x1 ![0] bcast_S32_S32x1_0 : (⟨S32, .f32⟩ : BufTy).Contents (Elt F) → (⟨S32x1, .f32⟩ : BufTy).Contents (Elt F)),
    StableHlo.unary main_v793 main_v797 (broadcastInDim S32x1 ![0] bcast_S32_S32x1_0 : (⟨S32, .f32⟩ : BufTy).Contents (Elt F) → (⟨S32x1, .f32⟩ : BufTy).Contents (Elt F)),
    StableHlo.unary main_v792 main_v798 (broadcastInDim S32x1 ![0] bcast_S32_S32x1_0 : (⟨S32, .f32⟩ : BufTy).Contents (Elt F) → (⟨S32x1, .f32⟩ : BufTy).Contents (Elt F)),
    StableHlo.nary ![main_v795, main_v796, main_v797, main_v798] main_v799 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v792 main_v800 (broadcastInDim S32x1 ![0] bcast_S32_S32x1_0 : (⟨S32, .f32⟩ : BufTy).Contents (Elt F) → (⟨S32x1, .f32⟩ : BufTy).Contents (Elt F)),
    StableHlo.unary main_v788 main_v801 (broadcastInDim S32x1 ![0] bcast_S32_S32x1_0 : (⟨S32, .f32⟩ : BufTy).Contents (Elt F) → (⟨S32x1, .f32⟩ : BufTy).Contents (Elt F)),
    StableHlo.unary main_v792 main_v802 (broadcastInDim S32x1 ![0] bcast_S32_S32x1_0 : (⟨S32, .f32⟩ : BufTy).Contents (Elt F) → (⟨S32x1, .f32⟩ : BufTy).Contents (Elt F)),
    StableHlo.unary main_v794 main_v803 (broadcastInDim S32x1 ![0] bcast_S32_S32x1_0 : (⟨S32, .f32⟩ : BufTy).Contents (Elt F) → (⟨S32x1, .f32⟩ : BufTy).Contents (Elt F)),
    StableHlo.nary ![main_v800, main_v801, main_v802, main_v803] main_v804 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v791 main_v805 (broadcastInDim S32x1 ![0] bcast_S32_S32x1_0 : (⟨S32, .f32⟩ : BufTy).Contents (Elt F) → (⟨S32x1, .f32⟩ : BufTy).Contents (Elt F)),
    StableHlo.unary main_v792 main_v806 (broadcastInDim S32x1 ![0] bcast_S32_S32x1_0 : (⟨S32, .f32⟩ : BufTy).Contents (Elt F) → (⟨S32x1, .f32⟩ : BufTy).Contents (Elt F)),
    StableHlo.unary main_v788 main_v807 (broadcastInDim S32x1 ![0] bcast_S32_S32x1_0 : (⟨S32, .f32⟩ : BufTy).Contents (Elt F) → (⟨S32x1, .f32⟩ : BufTy).Contents (Elt F)),
    StableHlo.unary main_v792 main_v808 (broadcastInDim S32x1 ![0] bcast_S32_S32x1_0 : (⟨S32, .f32⟩ : BufTy).Contents (Elt F) → (⟨S32x1, .f32⟩ : BufTy).Contents (Elt F)),
    StableHlo.nary ![main_v805, main_v806, main_v807, main_v808] main_v809 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v792 main_v810 (broadcastInDim S32x1 ![0] bcast_S32_S32x1_0 : (⟨S32, .f32⟩ : BufTy).Contents (Elt F) → (⟨S32x1, .f32⟩ : BufTy).Contents (Elt F)),
    StableHlo.unary main_v791 main_v811 (broadcastInDim S32x1 ![0] bcast_S32_S32x1_0 : (⟨S32, .f32⟩ : BufTy).Contents (Elt F) → (⟨S32x1, .f32⟩ : BufTy).Contents (Elt F)),
    StableHlo.unary main_v792 main_v812 (broadcastInDim S32x1 ![0] bcast_S32_S32x1_0 : (⟨S32, .f32⟩ : BufTy).Contents (Elt F) → (⟨S32x1, .f32⟩ : BufTy).Contents (Elt F)),
    StableHlo.unary main_v788 main_v813 (broadcastInDim S32x1 ![0] bcast_S32_S32x1_0 : (⟨S32, .f32⟩ : BufTy).Contents (Elt F) → (⟨S32x1, .f32⟩ : BufTy).Contents (Elt F)),
    StableHlo.nary ![main_v810, main_v811, main_v812, main_v813] main_v814 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v799 main_v815 (broadcastInDim S32x1x4 ![0, 2] bcast_S32x4_S32x1x4_0_2 : (⟨S32x4, .f32⟩ : BufTy).Contents (Elt F) → (⟨S32x1x4, .f32⟩ : BufTy).Contents (Elt F)),
    StableHlo.unary main_v804 main_v816 (broadcastInDim S32x1x4 ![0, 2] bcast_S32x4_S32x1x4_0_2 : (⟨S32x4, .f32⟩ : BufTy).Contents (Elt F) → (⟨S32x1x4, .f32⟩ : BufTy).Contents (Elt F)),
    StableHlo.unary main_v809 main_v817 (broadcastInDim S32x1x4 ![0, 2] bcast_S32x4_S32x1x4_0_2 : (⟨S32x4, .f32⟩ : BufTy).Contents (Elt F) → (⟨S32x1x4, .f32⟩ : BufTy).Contents (Elt F)),
    StableHlo.unary main_v814 main_v818 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v815, main_v816, main_v817, main_v818] main_v819 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 7, the RZ gate's 32×4×4 matrix from the angles params[7, :, 1] (39 operations). -/
abbrev gateOps_7_1 : List (HloOp τ sig (Elt F)) :=
  [ StableHlo.unary main_arg1 main_v820 ((extractStridedSlice S1x32x1 ![7, 0, 1] · slices_S8x32x3_S1x32x1_7_0_1) : (⟨S8x32x3, .f32⟩ : BufTy).Contents (Elt F) → (⟨S1x32x1, .f32⟩ : BufTy).Contents (Elt F)),
    StableHlo.reshape main_v820 main_v821 rfl shapeCasts_S1x32x1_S32,
    StableHlo.nullary main_cst_65 (constant S_ .f32 0x3F000000#32),
    StableHlo.unary main_cst_65 main_v822 (broadcastInDim S32 ![] bcast_S_S32 : (⟨S_, .f32⟩ : BufTy).Contents (Elt F) → (⟨S32, .f32⟩ : BufTy).Contents (Elt F)),
    StableHlo.binary main_v821 main_v822 main_v823 (mulf : (⟨S32, .f32⟩ : BufTy).Contents (Elt F) → (⟨S32, .f32⟩ : BufTy).Contents (Elt F) → (⟨S32, .f32⟩ : BufTy).Contents (Elt F)),
    StableHlo.unary main_v823 main_v824 (Host.cos : (⟨S32, .f32⟩ : BufTy).Contents (Elt F) → (⟨S32, .f32⟩ : BufTy).Contents (Elt F)),
    StableHlo.nullary main_cst_66 (constant S_ .f32 0x3F000000#32),
    StableHlo.unary main_cst_66 main_v825 (broadcastInDim S32 ![] bcast_S_S32 : (⟨S_, .f32⟩ : BufTy).Contents (Elt F) → (⟨S32, .f32⟩ : BufTy).Contents (Elt F)),
    StableHlo.binary main_v821 main_v825 main_v826 (mulf : (⟨S32, .f32⟩ : BufTy).Contents (Elt F) → (⟨S32, .f32⟩ : BufTy).Contents (Elt F) → (⟨S32, .f32⟩ : BufTy).Contents (Elt F)),
    StableHlo.unary main_v826 main_v827 (Host.sin : (⟨S32, .f32⟩ : BufTy).Contents (Elt F) → (⟨S32, .f32⟩ : BufTy).Contents (Elt F)),
    StableHlo.nullary main_cst_67 (constant S_ .f32 0x00000000#32),
    StableHlo.unary main_cst_67 main_v828 (broadcastInDim S32 ![] bcast_S_S32 : (⟨S_, .f32⟩ : BufTy).Contents (Elt F) → (⟨S32, .f32⟩ : BufTy).Contents (Elt F)),
    StableHlo.unary main_v827 main_v829 (Host.negf : (⟨S32, .f32⟩ : BufTy).Contents (Elt F) → (⟨S32, .f32⟩ : BufTy).Contents (Elt F)),
    StableHlo.unary main_v827 main_v830 (Host.negf : (⟨S32, .f32⟩ : BufTy).Contents (Elt F) → (⟨S32, .f32⟩ : BufTy).Contents (Elt F)),
    StableHlo.unary main_v824 main_v831 (broadcastInDim S32x1 ![0] bcast_S32_S32x1_0 : (⟨S32, .f32⟩ : BufTy).Contents (Elt F) → (⟨S32x1, .f32⟩ : BufTy).Contents (Elt F)),
    StableHlo.unary main_v827 main_v832 (broadcastInDim S32x1 ![0] bcast_S32_S32x1_0 : (⟨S32, .f32⟩ : BufTy).Contents (Elt F) → (⟨S32x1, .f32⟩ : BufTy).Contents (Elt F)),
    StableHlo.unary main_v828 main_v833 (broadcastInDim S32x1 ![0] bcast_S32_S32x1_0 : (⟨S32, .f32⟩ : BufTy).Contents (Elt F) → (⟨S32x1, .f32⟩ : BufTy).Contents (Elt F)),
    StableHlo.unary main_v828 main_v834 (broadcastInDim S32x1 ![0] bcast_S32_S32x1_0 : (⟨S32, .f32⟩ : BufTy).Contents (Elt F) → (⟨S32x1, .f32⟩ : BufTy).Contents (Elt F)),
    StableHlo.nary ![main_v831, main_v832, main_v833, main_v834] main_v835 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v829 main_v836 (broadcastInDim S32x1 ![0] bcast_S32_S32x1_0 : (⟨S32, .f32⟩ : BufTy).Contents (Elt F) → (⟨S32x1, .f32⟩ : BufTy).Contents (Elt F)),
    StableHlo.unary main_v824 main_v837 (broadcastInDim S32x1 ![0] bcast_S32_S32x1_0 : (⟨S32, .f32⟩ : BufTy).Contents (Elt F) → (⟨S32x1, .f32⟩ : BufTy).Contents (Elt F)),
    StableHlo.unary main_v828 main_v838 (broadcastInDim S32x1 ![0] bcast_S32_S32x1_0 : (⟨S32, .f32⟩ : BufTy).Contents (Elt F) → (⟨S32x1, .f32⟩ : BufTy).Contents (Elt F)),
    StableHlo.unary main_v828 main_v839 (broadcastInDim S32x1 ![0] bcast_S32_S32x1_0 : (⟨S32, .f32⟩ : BufTy).Contents (Elt F) → (⟨S32x1, .f32⟩ : BufTy).Contents (Elt F)),
    StableHlo.nary ![main_v836, main_v837, main_v838, main_v839] main_v840 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v828 main_v841 (broadcastInDim S32x1 ![0] bcast_S32_S32x1_0 : (⟨S32, .f32⟩ : BufTy).Contents (Elt F) → (⟨S32x1, .f32⟩ : BufTy).Contents (Elt F)),
    StableHlo.unary main_v828 main_v842 (broadcastInDim S32x1 ![0] bcast_S32_S32x1_0 : (⟨S32, .f32⟩ : BufTy).Contents (Elt F) → (⟨S32x1, .f32⟩ : BufTy).Contents (Elt F)),
    StableHlo.unary main_v824 main_v843 (broadcastInDim S32x1 ![0] bcast_S32_S32x1_0 : (⟨S32, .f32⟩ : BufTy).Contents (Elt F) → (⟨S32x1, .f32⟩ : BufTy).Contents (Elt F)),
    StableHlo.unary main_v830 main_v844 (broadcastInDim S32x1 ![0] bcast_S32_S32x1_0 : (⟨S32, .f32⟩ : BufTy).Contents (Elt F) → (⟨S32x1, .f32⟩ : BufTy).Contents (Elt F)),
    StableHlo.nary ![main_v841, main_v842, main_v843, main_v844] main_v845 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v828 main_v846 (broadcastInDim S32x1 ![0] bcast_S32_S32x1_0 : (⟨S32, .f32⟩ : BufTy).Contents (Elt F) → (⟨S32x1, .f32⟩ : BufTy).Contents (Elt F)),
    StableHlo.unary main_v828 main_v847 (broadcastInDim S32x1 ![0] bcast_S32_S32x1_0 : (⟨S32, .f32⟩ : BufTy).Contents (Elt F) → (⟨S32x1, .f32⟩ : BufTy).Contents (Elt F)),
    StableHlo.unary main_v827 main_v848 (broadcastInDim S32x1 ![0] bcast_S32_S32x1_0 : (⟨S32, .f32⟩ : BufTy).Contents (Elt F) → (⟨S32x1, .f32⟩ : BufTy).Contents (Elt F)),
    StableHlo.unary main_v824 main_v849 (broadcastInDim S32x1 ![0] bcast_S32_S32x1_0 : (⟨S32, .f32⟩ : BufTy).Contents (Elt F) → (⟨S32x1, .f32⟩ : BufTy).Contents (Elt F)),
    StableHlo.nary ![main_v846, main_v847, main_v848, main_v849] main_v850 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v835 main_v851 (broadcastInDim S32x1x4 ![0, 2] bcast_S32x4_S32x1x4_0_2 : (⟨S32x4, .f32⟩ : BufTy).Contents (Elt F) → (⟨S32x1x4, .f32⟩ : BufTy).Contents (Elt F)),
    StableHlo.unary main_v840 main_v852 (broadcastInDim S32x1x4 ![0, 2] bcast_S32x4_S32x1x4_0_2 : (⟨S32x4, .f32⟩ : BufTy).Contents (Elt F) → (⟨S32x1x4, .f32⟩ : BufTy).Contents (Elt F)),
    StableHlo.unary main_v845 main_v853 (broadcastInDim S32x1x4 ![0, 2] bcast_S32x4_S32x1x4_0_2 : (⟨S32x4, .f32⟩ : BufTy).Contents (Elt F) → (⟨S32x1x4, .f32⟩ : BufTy).Contents (Elt F)),
    StableHlo.unary main_v850 main_v854 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v851, main_v852, main_v853, main_v854] main_v855 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 7, the RX gate's 32×4×4 matrix from the angles params[7, :, 2] (39 operations). -/
abbrev gateOps_7_2 : List (HloOp τ sig (Elt F)) :=
  [ StableHlo.unary main_arg1 main_v856 ((extractStridedSlice S1x32x1 ![7, 0, 2] · slices_S8x32x3_S1x32x1_7_0_2) : (⟨S8x32x3, .f32⟩ : BufTy).Contents (Elt F) → (⟨S1x32x1, .f32⟩ : BufTy).Contents (Elt F)),
    StableHlo.reshape main_v856 main_v857 rfl shapeCasts_S1x32x1_S32,
    StableHlo.nullary main_cst_68 (constant S_ .f32 0x3F000000#32),
    StableHlo.unary main_cst_68 main_v858 (broadcastInDim S32 ![] bcast_S_S32 : (⟨S_, .f32⟩ : BufTy).Contents (Elt F) → (⟨S32, .f32⟩ : BufTy).Contents (Elt F)),
    StableHlo.binary main_v857 main_v858 main_v859 (mulf : (⟨S32, .f32⟩ : BufTy).Contents (Elt F) → (⟨S32, .f32⟩ : BufTy).Contents (Elt F) → (⟨S32, .f32⟩ : BufTy).Contents (Elt F)),
    StableHlo.unary main_v859 main_v860 (Host.cos : (⟨S32, .f32⟩ : BufTy).Contents (Elt F) → (⟨S32, .f32⟩ : BufTy).Contents (Elt F)),
    StableHlo.nullary main_cst_69 (constant S_ .f32 0x3F000000#32),
    StableHlo.unary main_cst_69 main_v861 (broadcastInDim S32 ![] bcast_S_S32 : (⟨S_, .f32⟩ : BufTy).Contents (Elt F) → (⟨S32, .f32⟩ : BufTy).Contents (Elt F)),
    StableHlo.binary main_v857 main_v861 main_v862 (mulf : (⟨S32, .f32⟩ : BufTy).Contents (Elt F) → (⟨S32, .f32⟩ : BufTy).Contents (Elt F) → (⟨S32, .f32⟩ : BufTy).Contents (Elt F)),
    StableHlo.unary main_v862 main_v863 (Host.sin : (⟨S32, .f32⟩ : BufTy).Contents (Elt F) → (⟨S32, .f32⟩ : BufTy).Contents (Elt F)),
    StableHlo.nullary main_cst_70 (constant S_ .f32 0x00000000#32),
    StableHlo.unary main_cst_70 main_v864 (broadcastInDim S32 ![] bcast_S_S32 : (⟨S_, .f32⟩ : BufTy).Contents (Elt F) → (⟨S32, .f32⟩ : BufTy).Contents (Elt F)),
    StableHlo.unary main_v863 main_v865 (Host.negf : (⟨S32, .f32⟩ : BufTy).Contents (Elt F) → (⟨S32, .f32⟩ : BufTy).Contents (Elt F)),
    StableHlo.unary main_v863 main_v866 (Host.negf : (⟨S32, .f32⟩ : BufTy).Contents (Elt F) → (⟨S32, .f32⟩ : BufTy).Contents (Elt F)),
    StableHlo.unary main_v860 main_v867 (broadcastInDim S32x1 ![0] bcast_S32_S32x1_0 : (⟨S32, .f32⟩ : BufTy).Contents (Elt F) → (⟨S32x1, .f32⟩ : BufTy).Contents (Elt F)),
    StableHlo.unary main_v864 main_v868 (broadcastInDim S32x1 ![0] bcast_S32_S32x1_0 : (⟨S32, .f32⟩ : BufTy).Contents (Elt F) → (⟨S32x1, .f32⟩ : BufTy).Contents (Elt F)),
    StableHlo.unary main_v864 main_v869 (broadcastInDim S32x1 ![0] bcast_S32_S32x1_0 : (⟨S32, .f32⟩ : BufTy).Contents (Elt F) → (⟨S32x1, .f32⟩ : BufTy).Contents (Elt F)),
    StableHlo.unary main_v863 main_v870 (broadcastInDim S32x1 ![0] bcast_S32_S32x1_0 : (⟨S32, .f32⟩ : BufTy).Contents (Elt F) → (⟨S32x1, .f32⟩ : BufTy).Contents (Elt F)),
    StableHlo.nary ![main_v867, main_v868, main_v869, main_v870] main_v871 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v864 main_v872 (broadcastInDim S32x1 ![0] bcast_S32_S32x1_0 : (⟨S32, .f32⟩ : BufTy).Contents (Elt F) → (⟨S32x1, .f32⟩ : BufTy).Contents (Elt F)),
    StableHlo.unary main_v860 main_v873 (broadcastInDim S32x1 ![0] bcast_S32_S32x1_0 : (⟨S32, .f32⟩ : BufTy).Contents (Elt F) → (⟨S32x1, .f32⟩ : BufTy).Contents (Elt F)),
    StableHlo.unary main_v865 main_v874 (broadcastInDim S32x1 ![0] bcast_S32_S32x1_0 : (⟨S32, .f32⟩ : BufTy).Contents (Elt F) → (⟨S32x1, .f32⟩ : BufTy).Contents (Elt F)),
    StableHlo.unary main_v864 main_v875 (broadcastInDim S32x1 ![0] bcast_S32_S32x1_0 : (⟨S32, .f32⟩ : BufTy).Contents (Elt F) → (⟨S32x1, .f32⟩ : BufTy).Contents (Elt F)),
    StableHlo.nary ![main_v872, main_v873, main_v874, main_v875] main_v876 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v864 main_v877 (broadcastInDim S32x1 ![0] bcast_S32_S32x1_0 : (⟨S32, .f32⟩ : BufTy).Contents (Elt F) → (⟨S32x1, .f32⟩ : BufTy).Contents (Elt F)),
    StableHlo.unary main_v863 main_v878 (broadcastInDim S32x1 ![0] bcast_S32_S32x1_0 : (⟨S32, .f32⟩ : BufTy).Contents (Elt F) → (⟨S32x1, .f32⟩ : BufTy).Contents (Elt F)),
    StableHlo.unary main_v860 main_v879 (broadcastInDim S32x1 ![0] bcast_S32_S32x1_0 : (⟨S32, .f32⟩ : BufTy).Contents (Elt F) → (⟨S32x1, .f32⟩ : BufTy).Contents (Elt F)),
    StableHlo.unary main_v864 main_v880 (broadcastInDim S32x1 ![0] bcast_S32_S32x1_0 : (⟨S32, .f32⟩ : BufTy).Contents (Elt F) → (⟨S32x1, .f32⟩ : BufTy).Contents (Elt F)),
    StableHlo.nary ![main_v877, main_v878, main_v879, main_v880] main_v881 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v866 main_v882 (broadcastInDim S32x1 ![0] bcast_S32_S32x1_0 : (⟨S32, .f32⟩ : BufTy).Contents (Elt F) → (⟨S32x1, .f32⟩ : BufTy).Contents (Elt F)),
    StableHlo.unary main_v864 main_v883 (broadcastInDim S32x1 ![0] bcast_S32_S32x1_0 : (⟨S32, .f32⟩ : BufTy).Contents (Elt F) → (⟨S32x1, .f32⟩ : BufTy).Contents (Elt F)),
    StableHlo.unary main_v864 main_v884 (broadcastInDim S32x1 ![0] bcast_S32_S32x1_0 : (⟨S32, .f32⟩ : BufTy).Contents (Elt F) → (⟨S32x1, .f32⟩ : BufTy).Contents (Elt F)),
    StableHlo.unary main_v860 main_v885 (broadcastInDim S32x1 ![0] bcast_S32_S32x1_0 : (⟨S32, .f32⟩ : BufTy).Contents (Elt F) → (⟨S32x1, .f32⟩ : BufTy).Contents (Elt F)),
    StableHlo.nary ![main_v882, main_v883, main_v884, main_v885] main_v886 (fun u => concatenate S32x4 1 [⟨S32x1, u 0⟩, ⟨S32x1, u 1⟩, ⟨S32x1, u 2⟩, ⟨S32x1, u 3⟩] concatenates_S32x1_S32x1_S32x1_S32x1_S32x4_d1),
    StableHlo.unary main_v871 main_v887 (broadcastInDim S32x1x4 ![0, 2] bcast_S32x4_S32x1x4_0_2 : (⟨S32x4, .f32⟩ : BufTy).Contents (Elt F) → (⟨S32x1x4, .f32⟩ : BufTy).Contents (Elt F)),
    StableHlo.unary main_v876 main_v888 (broadcastInDim S32x1x4 ![0, 2] bcast_S32x4_S32x1x4_0_2 : (⟨S32x4, .f32⟩ : BufTy).Contents (Elt F) → (⟨S32x1x4, .f32⟩ : BufTy).Contents (Elt F)),
    StableHlo.unary main_v881 main_v889 (broadcastInDim S32x1x4 ![0, 2] bcast_S32x4_S32x1x4_0_2 : (⟨S32x4, .f32⟩ : BufTy).Contents (Elt F) → (⟨S32x1x4, .f32⟩ : BufTy).Contents (Elt F)),
    StableHlo.unary main_v886 main_v890 (broadcastInDim S32x1x4 ![0, 2] bcast_S32x4_S32x1x4_0_2 : (⟨S32x4, .f32⟩ : BufTy).Contents (Elt F) → (⟨S32x1x4, .f32⟩ : BufTy).Contents (Elt F)),
    StableHlo.nary ![main_v887, main_v888, main_v889, main_v890] main_v891 (fun u => concatenate S32x4x4 1 [⟨S32x1x4, u 0⟩, ⟨S32x1x4, u 1⟩, ⟨S32x1x4, u 2⟩, ⟨S32x1x4, u 3⟩] concatenates_S32x1x4_S32x1x4_S32x1x4_S32x1x4_S32x4x4_d1) ]

/-- Layer 7: RZ·RY, then RX·(RZ·RY), then that product times the matrix accumulated so far (3 batched products). -/
abbrev dotOps_7 : List (HloOp τ sig (Elt F)) :=
  [ StableHlo.binary main_v855 main_v819 main_v892 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v891 main_v892 main_v893 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)),
    StableHlo.binary main_v893 main_v783 main_v894 ((fun l r => Host.dotGeneral dot_S32x4x4_S32x4x4_S32x4x4_2_1_1_2_0_0 none l r) : (⟨S32x4x4, .f32⟩ : BufTy).Contents (Elt F) → (⟨S32x4x4, .f32⟩ : BufTy).Contents (Elt F) → (⟨S32x4x4, .f32⟩ : BufTy).Contents (Elt F)) ]

/-- The eight entries of the accumulated matrix, the three coefficient vectors, their stacking, the input's re-layout to 128 lanes and the coefficients tiled four times along the lanes (59 operations; results `main_v946`, `main_v949`). -/
abbrev tailOps : List (HloOp τ sig (Elt F)) :=
  [ StableHlo.unary main_v894 main_v895 ((extractStridedSlice S32x1x1 ![0, 0, 0] · slices_S32x4x4_S32x1x1_0_0_0) : (⟨S32x4x4, .f32⟩ : BufTy).Contents (Elt F) → (⟨S32x1x1, .f32⟩ : BufTy).Contents (Elt F)),
    StableHlo.reshape main_v895 main_v896 rfl shapeCasts_S32x1x1_S32,
    StableHlo.unary main_v894 main_v897 ((extractStridedSlice S32x1x1 ![0, 0, 3] · slices_S32x4x4_S32x1x1_0_0_3) : (⟨S32x4x4, .f32⟩ : BufTy).Contents (Elt F) → (⟨S32x1x1, .f32⟩ : BufTy).Contents (Elt F)),
    StableHlo.reshape main_v897 main_v898 rfl shapeCasts_S32x1x1_S32,
    StableHlo.unary main_v894 main_v899 ((extractStridedSlice S32x1x1 ![0, 1, 0] · slices_S32x4x4_S32x1x1_0_1_0) : (⟨S32x4x4, .f32⟩ : BufTy).Contents (Elt F) → (⟨S32x1x1, .f32⟩ : BufTy).Contents (Elt F)),
    StableHlo.reshape main_v899 main_v900 rfl shapeCasts_S32x1x1_S32,
    StableHlo.unary main_v894 main_v901 ((extractStridedSlice S32x1x1 ![0, 1, 3] · slices_S32x4x4_S32x1x1_0_1_3) : (⟨S32x4x4, .f32⟩ : BufTy).Contents (Elt F) → (⟨S32x1x1, .f32⟩ : BufTy).Contents (Elt F)),
    StableHlo.reshape main_v901 main_v902 rfl shapeCasts_S32x1x1_S32,
    StableHlo.unary main_v894 main_v903 ((extractStridedSlice S32x1x1 ![0, 2, 0] · slices_S32x4x4_S32x1x1_0_2_0) : (⟨S32x4x4, .f32⟩ : BufTy).Contents (Elt F) → (⟨S32x1x1, .f32⟩ : BufTy).Contents (Elt F)),
    StableHlo.reshape main_v903 main_v904 rfl shapeCasts_S32x1x1_S32,
    StableHlo.unary main_v894 main_v905 ((extractStridedSlice S32x1x1 ![0, 2, 3] · slices_S32x4x4_S32x1x1_0_2_3) : (⟨S32x4x4, .f32⟩ : BufTy).Contents (Elt F) → (⟨S32x1x1, .f32⟩ : BufTy).Contents (Elt F)),
    StableHlo.reshape main_v905 main_v906 rfl shapeCasts_S32x1x1_S32,
    StableHlo.unary main_v894 main_v907 ((extractStridedSlice S32x1x1 ![0, 3, 0] · slices_S32x4x4_S32x1x1_0_3_0) : (⟨S32x4x4, .f32⟩ : BufTy).Contents (Elt F) → (⟨S32x1x1, .f32⟩ : BufTy).Contents (Elt F)),
    StableHlo.reshape main_v907 main_v908 rfl shapeCasts_S32x1x1_S32,
    StableHlo.unary main_v894 main_v909 ((extractStridedSlice S32x1x1 ![0, 3, 3] · slices_S32x4x4_S32x1x1_0_3_3) : (⟨S32x4x4, .f32⟩ : BufTy).Contents (Elt F) → (⟨S32x1x1, .f32⟩ : BufTy).Contents (Elt F)),
    StableHlo.reshape main_v909 main_v910 rfl shapeCasts_S32x1x1_S32,
    StableHlo.binary main_v896 main_v896 main_v911 (mulf : (⟨S32, .f32⟩ : BufTy).Contents (Elt F) → (⟨S32, .f32⟩ : BufTy).Contents (Elt F) → (⟨S32, .f32⟩ : BufTy).Contents (Elt F)),
    StableHlo.binary main_v900 main_v900 main_v912 (mulf : (⟨S32, .f32⟩ : BufTy).Contents (Elt F) → (⟨S32, .f32⟩ : BufTy).Contents (Elt F) → (⟨S32, .f32⟩ : BufTy).Contents (Elt F)),
    StableHlo.binary main_v911 main_v912 main_v913 (addf : (⟨S32, .f32⟩ : BufTy).Contents (Elt F) → (⟨S32, .f32⟩ : BufTy).Contents (Elt F) → (⟨S32, .f32⟩ : BufTy).Contents (Elt F)),
    StableHlo.binary main_v904 main_v904 main_v914 (mulf : (⟨S32, .f32⟩ : BufTy).Contents (Elt F) → (⟨S32, .f32⟩ : BufTy).Contents (Elt F) → (⟨S32, .f32⟩ : BufTy).Contents (Elt F)),
    StableHlo.binary main_v913 main_v914 main_v915 (subf : (⟨S32, .f32⟩ : BufTy).Contents (Elt F) → (⟨S32, .f32⟩ : BufTy).Contents (Elt F) → (⟨S32, .f32⟩ : BufTy).Contents (Elt F)),
    StableHlo.binary main_v908 main_v908 main_v916 (mulf : (⟨S32, .f32⟩ : BufTy).Contents (Elt F) → (⟨S32, .f32⟩ : BufTy).Contents (Elt F) → (⟨S32, .f32⟩ : BufTy).Contents (Elt F)),
    StableHlo.binary main_v915 main_v916 main_v917 (subf : (⟨S32, .f32⟩ : BufTy).Contents (Elt F) → (⟨S32, .f32⟩ : BufTy).Contents (Elt F) → (⟨S32, .f32⟩ : BufTy).Contents (Elt F)),
    StableHlo.binary main_v898 main_v898 main_v918 (mulf : (⟨S32, .f32⟩ : BufTy).Contents (Elt F) → (⟨S32, .f32⟩ : BufTy).Contents (Elt F) → (⟨S32, .f32⟩ : BufTy).Contents (Elt F)),
    StableHlo.binary main_v902 main_v902 main_v919 (mulf : (⟨S32, .f32⟩ : BufTy).Contents (Elt F) → (⟨S32, .f32⟩ : BufTy).Contents (Elt F) → (⟨S32, .f32⟩ : BufTy).Contents (Elt F)),
    StableHlo.binary main_v918 main_v919 main_v920 (addf : (⟨S32, .f32⟩ : BufTy).Contents (Elt F) → (⟨S32, .f32⟩ : BufTy).Contents (Elt F) → (⟨S32, .f32⟩ : BufTy).Contents (Elt F)),
    StableHlo.binary main_v906 main_v906 main_v921 (mulf : (⟨S32, .f32⟩ : BufTy).Contents (Elt F) → (⟨S32, .f32⟩ : BufTy).Contents (Elt F) → (⟨S32, .f32⟩ : BufTy).Contents (Elt F)),
    StableHlo.binary main_v920 main_v921 main_v922 (subf : (⟨S32, .f32⟩ : BufTy).Contents (Elt F) → (⟨S32, .f32⟩ : BufTy).Contents (Elt F) → (⟨S32, .f32⟩ : BufTy).Contents (Elt F)),
    StableHlo.binary main_v910 main_v910 main_v923 (mulf : (⟨S32, .f32⟩ : BufTy).Contents (Elt F) → (⟨S32, .f32⟩ : BufTy).Contents (Elt F) → (⟨S32, .f32⟩ : BufTy).Contents (Elt F)),
    StableHlo.binary main_v922 main_v923 main_v924 (subf : (⟨S32, .f32⟩ : BufTy).Contents (Elt F) → (⟨S32, .f32⟩ : BufTy).Contents (Elt F) → (⟨S32, .f32⟩ : BufTy).Contents (Elt F)),
    StableHlo.binary main_v896 main_v898 main_v925 (mulf : (⟨S32, .f32⟩ : BufTy).Contents (Elt F) → (⟨S32, .f32⟩ : BufTy).Contents (Elt F) → (⟨S32, .f32⟩ : BufTy).Contents (Elt F)),
    StableHlo.binary main_v900 main_v902 main_v926 (mulf : (⟨S32, .f32⟩ : BufTy).Contents (Elt F) → (⟨S32, .f32⟩ : BufTy).Contents (Elt F) → (⟨S32, .f32⟩ : BufTy).Contents (Elt F)),
    StableHlo.binary main_v925 main_v926 main_v927 (addf : (⟨S32, .f32⟩ : BufTy).Contents (Elt F) → (⟨S32, .f32⟩ : BufTy).Contents (Elt F) → (⟨S32, .f32⟩ : BufTy).Contents (Elt F)),
    StableHlo.binary main_v904 main_v906 main_v928 (mulf : (⟨S32, .f32⟩ : BufTy).Contents (Elt F) → (⟨S32, .f32⟩ : BufTy).Contents (Elt F) → (⟨S32, .f32⟩ : BufTy).Contents (Elt F)),
    StableHlo.binary main_v927 main_v928 main_v929 (subf : (⟨S32, .f32⟩ : BufTy).Contents (Elt F) → (⟨S32, .f32⟩ : BufTy).Contents (Elt F) → (⟨S32, .f32⟩ : BufTy).Contents (Elt F)),
    StableHlo.binary main_v908 main_v910 main_v930 (mulf : (⟨S32, .f32⟩ : BufTy).Contents (Elt F) → (⟨S32, .f32⟩ : BufTy).Contents (Elt F) → (⟨S32, .f32⟩ : BufTy).Contents (Elt F)),
    StableHlo.binary main_v929 main_v930 main_v931 (subf : (⟨S32, .f32⟩ : BufTy).Contents (Elt F) → (⟨S32, .f32⟩ : BufTy).Contents (Elt F) → (⟨S32, .f32⟩ : BufTy).Contents (Elt F)),
    StableHlo.nullary main_cst_71 (constant S_ .f32 0xC0000000#32),
    StableHlo.unary main_cst_71 main_v932 (broadcastInDim S32 ![] bcast_S_S32 : (⟨S_, .f32⟩ : BufTy).Contents (Elt F) → (⟨S32, .f32⟩ : BufTy).Contents (Elt F)),
    StableHlo.binary main_v932 main_v931 main_v933 (mulf : (⟨S32, .f32⟩ : BufTy).Contents (Elt F) → (⟨S32, .f32⟩ : BufTy).Contents (Elt F) → (⟨S32, .f32⟩ : BufTy).Contents (Elt F)),
    StableHlo.binary main_v917 main_v924 main_v934 (addf : (⟨S32, .f32⟩ : BufTy).Contents (Elt F) → (⟨S32, .f32⟩ : BufTy).Contents (Elt F) → (⟨S32, .f32⟩ : BufTy).Contents (Elt F)),
    StableHlo.nullary main_cst_72 (constant S_ .f32 0x3F000000#32),
    StableHlo.unary main_cst_72 main_v935 (broadcastInDim S32 ![] bcast_S_S32 : (⟨S_, .f32⟩ : BufTy).Contents (Elt F) → (⟨S32, .f32⟩ : BufTy).Contents (Elt F)),
    StableHlo.binary main_v934 main_v935 main_v936 (mulf : (⟨S32, .f32⟩ : BufTy).Contents (Elt F) → (⟨S32, .f32⟩ : BufTy).Contents (Elt F) → (⟨S32, .f32⟩ : BufTy).Contents (Elt F)),
    StableHlo.binary main_v917 main_v924 main_v937 (subf : (⟨S32, .f32⟩ : BufTy).Contents (Elt F) → (⟨S32, .f32⟩ : BufTy).Contents (Elt F) → (⟨S32, .f32⟩ : BufTy).Contents (Elt F)),
    StableHlo.nullary main_cst_73 (constant S_ .f32 0x3F000000#32),
    StableHlo.unary main_cst_73 main_v938 (broadcastInDim S32 ![] bcast_S_S32 : (⟨S_, .f32⟩ : BufTy).Contents (Elt F) → (⟨S32, .f32⟩ : BufTy).Contents (Elt F)),
    StableHlo.binary main_v937 main_v938 main_v939 (mulf : (⟨S32, .f32⟩ : BufTy).Contents (Elt F) → (⟨S32, .f32⟩ : BufTy).Contents (Elt F) → (⟨S32, .f32⟩ : BufTy).Contents (Elt F)),
    StableHlo.nullary main_cst_74 (constant S_ .f32 0x3F000000#32),
    StableHlo.unary main_cst_74 main_v940 (broadcastInDim S32 ![] bcast_S_S32 : (⟨S_, .f32⟩ : BufTy).Contents (Elt F) → (⟨S32, .f32⟩ : BufTy).Contents (Elt F)),
    StableHlo.binary main_v933 main_v940 main_v941 (mulf : (⟨S32, .f32⟩ : BufTy).Contents (Elt F) → (⟨S32, .f32⟩ : BufTy).Contents (Elt F) → (⟨S32, .f32⟩ : BufTy).Contents (Elt F)),
    StableHlo.unary main_v936 main_v942 (broadcastInDim S1x32 ![1] bcast_S32_S1x32_1 : (⟨S32, .f32⟩ : BufTy).Contents (Elt F) → (⟨S1x32, .f32⟩ : BufTy).Contents (Elt F)),
    StableHlo.unary main_v939 main_v943 (broadcastInDim S1x32 ![1] bcast_S32_S1x32_1 : (⟨S32, .f32⟩ : BufTy).Contents (Elt F) → (⟨S1x32, .f32⟩ : BufTy).Contents (Elt F)),
    StableHlo.unary main_v941 main_v944 (broadcastInDim S1x32 ![1] bcast_S32_S1x32_1 : (⟨S32, .f32⟩ : BufTy).Contents (Elt F) → (⟨S1x32, .f32⟩ : BufTy).Contents (Elt F)),
    StableHlo.nary ![main_v942, main_v943, main_v944] main_v945 (fun u => concatenate S3x32 0 [⟨S1x32, u 0⟩, ⟨S1x32, u 1⟩, ⟨S1x32, u 2⟩] concatenates_S1x32_S1x32_S1x32_S3x32_d0),
    StableHlo.reshape main_arg0 main_v946 rfl shapeCasts_S262144x32_S65536x128,
    StableHlo.reshape main_v945 main_v947 rfl shapeCasts_S3x32_S1x3x1x32,
    StableHlo.unary main_v947 main_v948 (broadcastInDim S1x3x4x32 ![0, 1, 2, 3] bcast_S1x3x1x32_S1x3x4x32_0_1_2_3 : (⟨S1x3x1x32, .f32⟩ : BufTy).Contents (Elt F) → (⟨S1x3x4x32, .f32⟩ : BufTy).Contents (Elt F)),
    StableHlo.reshape main_v948 main_v949 rfl shapeCasts_S1x3x4x32_S3x128 ]

set_option maxHeartbeats 4000000 in
/-- The stretches, appended in order, are the generated list of host operations. -/
theorem hostOps0_split : (hostOps0 : List (HloOp τ sig (Elt F))) = preOps ++ (gateOps_0_0 ++ (gateOps_0_1 ++ (gateOps_0_2 ++ (dotOps_0 ++ (gateOps_1_0 ++ (gateOps_1_1 ++ (gateOps_1_2 ++ (dotOps_1 ++ (gateOps_2_0 ++ (gateOps_2_1 ++ (gateOps_2_2 ++ (dotOps_2 ++ (gateOps_3_0 ++ (gateOps_3_1 ++ (gateOps_3_2 ++ (dotOps_3 ++ (gateOps_4_0 ++ (gateOps_4_1 ++ (gateOps_4_2 ++ (dotOps_4 ++ (gateOps_5_0 ++ (gateOps_5_1 ++ (gateOps_5_2 ++ (dotOps_5 ++ (gateOps_6_0 ++ (gateOps_6_1 ++ (gateOps_6_2 ++ (dotOps_6 ++ (gateOps_7_0 ++ (gateOps_7_1 ++ (gateOps_7_2 ++ (dotOps_7 ++ (tailOps))))))))))))))))))))))))))))))))) := rfl

end Cert.KernelIdeal.HostChunks

end
-- ==== Proof.LibHostIdx.lean ====
/-
  Layout operations of the coefficient stage read at an index given by coordinates, a three-operand
  concatenation's result with each operand at its own reference, and the two float words 1/2 and −2 as reals.

  The shapes are the literal ones of the program: a [32,4,4] stack of matrices cut to one entry per matrix
  ([32,1,1], then [32]), vectors [32] laid as rows [1,32], three rows stacked to [3,32], that array viewed as
  [1,3,1,32], repeated four times along the third axis ([1,3,4,32]) and flattened row-major to [3,128]; and the
  input [262144,32] flattened row-major to [65536,128]. Row-major positions: entry (k, j) of [3,128] is at
  k·128 + j = ((0·3 + k)·4 + j / 32)·32 + j % 32, and entry (i, j) of [65536,128] is at
  i·128 + j = (4·i + j / 32)·32 + j % 32.
-/
import Idealize.ShloMosaic.Lib.ValueLayout
import Idealize.ShloMosaic.Lib.IdealHost
import Idealize.ShloMosaic.Lib.StableHlo.Run

noncomputable section

namespace Cert.KernelIdeal.HostIdx

open Idealize.ShloMosaic Idealize.ShloMosaic.ValueIdx

variable {α : Type}

/-! ## Reshapes -/

/-- [1,3,4,32] flattened to [3,128]: entry (k, j) is entry (0, k, j / 32, j % 32). -/
theorem shapeCast_1x3x4x32_3x128_apply (x : (⟨4, ![1, 3, 4, 32]⟩ : Shape).Idx → α)
    (h : (⟨4, ![1, 3, 4, 32]⟩ : Shape).ShapeCasts ⟨2, ![3, 128]⟩) (k : Fin 3) (j : Fin 128) :
    shapeCast ⟨2, ![3, 128]⟩ x h (ix2 k j)
      = x (ix4 (0 : Fin 1) k (⟨j.val / 32, by have := j.isLt; omega⟩ : Fin 4)
            (⟨j.val % 32, Nat.mod_lt _ (by decide)⟩ : Fin 32)) :=
  shapeCast_apply x h _ _ (by
    rw [Shape.rowMajor_val_four, Shape.rowMajor_val_two]
    show ((0 * 3 + k.val) * 4 + j.val / 32) * 32 + j.val % 32 = k.val * 128 + j.val
    omega)

/-- [3,32] viewed as [1,3,1,32]: entry (u, k, v, b) is entry (k, b). -/
theorem shapeCast_3x32_1x3x1x32_apply (x : (⟨2, ![3, 32]⟩ : Shape).Idx → α)
    (h : (⟨2, ![3, 32]⟩ : Shape).ShapeCasts ⟨4, ![1, 3, 1, 32]⟩) (u : Fin 1) (k : Fin 3) (v : Fin 1) (b : Fin 32) :
    shapeCast ⟨4, ![1, 3, 1, 32]⟩ x h (ix4 u k v b) = x (ix2 k b) :=
  shapeCast_apply x h _ _ (by
    rw [Shape.rowMajor_val_two, Shape.rowMajor_val_four]
    have hu := u.isLt
    have hv := v.isLt
    show k.val * 32 + b.val = ((u.val * 3 + k.val) * 1 + v.val) * 32 + b.val
    omega)

/-- [32,1,1] flattened to [32]: entry b is entry (b, 0, 0). -/
theorem shapeCast_32x1x1_32_apply (x : (⟨3, ![32, 1, 1]⟩ : Shape).Idx → α)
    (h : (⟨3, ![32, 1, 1]⟩ : Shape).ShapeCasts ⟨1, ![32]⟩) (b : Fin 32) :
    shapeCast ⟨1, ![32]⟩ x h (ix1 b) = x (ix3 b (0 : Fin 1) (0 : Fin 1)) :=
  shapeCast_apply x h _ _ (by
    rw [Shape.rowMajor_val_three, Shape.rowMajor_val_one]
    show (b.val * 1 + 0) * 1 + 0 = b.val
    omega)

/-- [262144,32] flattened to [65536,128]: entry (i, j) is entry (4·i + j / 32, j % 32). -/
theorem shapeCast_262144x32_65536x128_apply (x : (⟨2, ![262144, 32]⟩ : Shape).Idx → α)
    (h : (⟨2, ![262144, 32]⟩ : Shape).ShapeCasts ⟨2, ![65536, 128]⟩) (i : Fin 65536) (j : Fin 128) :
    shapeCast ⟨2, ![65536, 128]⟩ x h (ix2 i j)
      = x (ix2 (⟨4 * i.val + j.val / 32, by have := i.isLt; have := j.isLt; omega⟩ : Fin 262144)
            (⟨j.val % 32, Nat.mod_lt _ (by decide)⟩ : Fin 32)) :=
  shapeCast_apply x h _ _ (by
    rw [Shape.rowMajor_val_two, Shape.rowMajor_val_two]
    show (4 * i.val + j.val / 32) * 32 + j.val % 32 = i.val * 128 + j.val
    omega)

/-! ## Broadcasts -/

/-- [1,3,1,32] repeated along the third axis to [1,3,4,32]: entry (u, k, a, b) is entry (0, k, 0, b). -/
theorem broadcastInDim_1x3x1x32_1x3x4x32_apply
    (h : (⟨4, ![1, 3, 1, 32]⟩ : Shape).BroadcastsInDim ⟨4, ![1, 3, 4, 32]⟩ ![0, 1, 2, 3])
    (x : (⟨4, ![1, 3, 1, 32]⟩ : Shape).Idx → α) (u : Fin 1) (k : Fin 3) (a : Fin 4) (b : Fin 32) :
    broadcastInDim ⟨4, ![1, 3, 4, 32]⟩ ![0, 1, 2, 3] h x (ix4 u k a b) = x (ix4 (0 : Fin 1) k (0 : Fin 1) b) :=
  broadcastInDim_apply _ h x _ _ (fun ax => match ax with
    | ⟨0, _⟩ => rfl
    | ⟨1, _⟩ => rfl
    | ⟨2, _⟩ => rfl
    | ⟨3, _⟩ => rfl)

/-- A vector [32] laid as the row of [1,32]: entry (u, b) is entry b. -/
theorem broadcastInDim_32_1x32_apply (h : (⟨1, ![32]⟩ : Shape).BroadcastsInDim ⟨2, ![1, 32]⟩ ![1])
    (x : (⟨1, ![32]⟩ : Shape).Idx → α) (u : Fin 1) (b : Fin 32) :
    broadcastInDim ⟨2, ![1, 32]⟩ ![1] h x (ix2 u b) = x (ix1 b) :=
  broadcastInDim_apply _ h x _ _ (fun ax => match ax with
    | ⟨0, _⟩ => rfl)

/-! ## One entry of each matrix of a stack -/

/-- The [32,1,1] cut of a [32,4,4] stack at (row r, column c): entry (b, u, v) is entry (b, r, c). -/
theorem slice_entry_apply (r c : Nat) (x : (⟨3, ![32, 4, 4]⟩ : Shape).Idx → α)
    (h : (⟨3, ![32, 4, 4]⟩ : Shape).Slices ![0, r, c] ⟨3, ![32, 1, 1]⟩) (b : Fin 32) (u v : Fin 1)
    (i j : Fin 4) (hi : i.val = r) (hj : j.val = c) :
    extractStridedSlice ⟨3, ![32, 1, 1]⟩ ![0, r, c] x h (ix3 b u v) = x (ix3 b i j) :=
  extractStridedSlice_apply _ x h _ _ (fun ax => match ax with
    | ⟨0, _⟩ => by show b.val = 0 + b.val; omega
    | ⟨1, _⟩ => by have := u.isLt; show i.val = r + u.val; omega
    | ⟨2, _⟩ => by have := v.isLt; show j.val = c + v.val; omega)

/-! ## Three rows stacked -/

/-- Three rows [1,32] stacked along axis 0 to [3,32]: entry (k, b) is entry (0, b) of row k. -/
theorem concatenate_3rows_apply (x0 x1 x2 : (⟨2, ![1, 32]⟩ : Shape).Idx → α)
    (h : Shape.Concatenates (([⟨⟨2, ![1, 32]⟩, x0⟩, ⟨⟨2, ![1, 32]⟩, x1⟩, ⟨⟨2, ![1, 32]⟩, x2⟩] :
        List ((s : Shape) × (s.Idx → α))).map (·.1)) ⟨2, ![3, 32]⟩ 0) (k : Fin 3) (b : Fin 32) :
    concatenate ⟨2, ![3, 32]⟩ 0 [⟨⟨2, ![1, 32]⟩, x0⟩, ⟨⟨2, ![1, 32]⟩, x1⟩, ⟨⟨2, ![1, 32]⟩, x2⟩] h (ix2 k b)
      = (![x0, x1, x2] k) (ix2 (0 : Fin 1) b) := by
  have hi : ∀ (k : Fin 3) (c : Fin (⟨2, ![1, 32]⟩ : Shape).rank), c.cast (rfl : (2 : Nat) = 2) ≠ (0 : Fin 2) →
      ((ix2 (0 : Fin 1) b : (⟨2, ![1, 32]⟩ : Shape).Idx) c).val = ((ix2 k b : (⟨2, ![3, 32]⟩ : Shape).Idx) (c.cast rfl)).val := by
    intro k c hc
    match c with
    | ⟨0, _⟩ => exact absurd rfl hc
    | ⟨1, _⟩ => rfl
  match k with
  | ⟨0, hk⟩ =>
    exact concatenate_apply_piece (0 : Fin 2) [⟨⟨2, ![1, 32]⟩, x0⟩, ⟨⟨2, ![1, 32]⟩, x1⟩, ⟨⟨2, ![1, 32]⟩, x2⟩] h
      (ix2 (⟨0, hk⟩ : Fin 3) b) 0 (by simp)
      ⟨2, ![1, 32]⟩ x0 rfl rfl 0 rfl (ix2 (0 : Fin 1) b) (hi _) rfl
  | ⟨1, hk⟩ =>
    exact concatenate_apply_piece (0 : Fin 2) [⟨⟨2, ![1, 32]⟩, x0⟩, ⟨⟨2, ![1, 32]⟩, x1⟩, ⟨⟨2, ![1, 32]⟩, x2⟩] h
      (ix2 (⟨1, hk⟩ : Fin 3) b) 1 (by simp)
      ⟨2, ![1, 32]⟩ x1 rfl rfl 1 rfl (ix2 (0 : Fin 1) b) (hi _) rfl
  | ⟨2, hk⟩ =>
    exact concatenate_apply_piece (0 : Fin 2) [⟨⟨2, ![1, 32]⟩, x0⟩, ⟨⟨2, ![1, 32]⟩, x1⟩, ⟨⟨2, ![1, 32]⟩, x2⟩] h
      (ix2 (⟨2, hk⟩ : Fin 3) b) 2 (by simp)
      ⟨2, ![1, 32]⟩ x2 rfl rfl 2 rfl (ix2 (0 : Fin 1) b) (hi _) rfl

/-! ## The two float words -/

/-- The word 0x3F000000 is the real 1/2. -/
theorem ofBits_half : Ideal.ofBits .f32 0x3F000000#32 = (((1 : ℝ) / 2 : ℝ) : EReal) := by
  simp [Ideal.ofBits, Ideal.ieee, -EReal.coe_mul]; norm_num

/-- The word 0xC0000000 is the real −2. -/
theorem ofBits_neg_two : Ideal.ofBits .f32 0xC0000000#32 = ((-2 : ℝ) : EReal) := by
  simp [Ideal.ofBits, Ideal.ieee, -EReal.coe_mul, -EReal.coe_neg]; norm_num

end Cert.KernelIdeal.HostIdx

/-! ## A three-operand operation's result, each operand at its own reference -/

namespace Cert.KernelIdeal.HostIdx

open Idealize.ShloMosaic Idealize.ShloMosaic.StableHlo Idealize.SL.Sem

variable {τ : Topo} {sig : RefSig} {Val : EltTy → Type} {x a b y : Ref sig .tc}

/-- The result of an operation over a literal family of three references, with each operand's contents at its
    own reference (so that the operands' contents can be rewritten in turn). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.KernelIdeal.HostIdx

end
-- ==== Proof.HostPre.lean ====
/-
  The first eight host operations build the 4×4 identity matrix and copy it over the 32 qubits.

  Entry (i, j) of the 4×4 array is the float of the bit "row number + 0 = column number": both numbers are below 4,
  so as 32-bit words they are equal exactly when i = j, and the bit read as an unsigned number is 1 or 0 —
  the entry (i, j) of the identity matrix. The copy over the qubits reads entry (q, i, j) at (i, j).
  None of the eight operations writes an argument of the program.
-/
import proofs.«119607_j65481071399210_2_alg».proof.Proof.HostChunks
import proofs.«119607_j65481071399210_2_alg».proof.Proof.LibHostIdx

set_option maxRecDepth 65536

noncomputable section

namespace Cert.KernelIdeal.HostValue

open Cert.KernelIdeal Cert.KernelIdeal.Gen Cert.KernelIdeal.HostChunks Cert.KernelIdeal.HostIdx
open Idealize.ShloMosaic Idealize.ShloMosaic.ValueIdx Idealize.SL.Sem Idealize.ShloMosaic.StableHlo

/-- The bit of "i + 0 = j" on 32-bit words, for i, j below 4, is the bit of i = j. -/
theorem eye_bit (i j : Fin 4) :
    IntOp.cmpi .eq (IntOp.addi (BitVec.ofNat 32 i.val) 0#32) (BitVec.ofNat 32 j.val) = if i = j then 1#1 else 0#1 := by
  revert i j; decide

/-- After the first eight operations the accumulated matrix of every qubit is the identity. -/
theorem pre_apply (W : Valuation τ sig (Elt Ideal)) (q : Fin 32) (i j : Fin 4) :
    (StableHlo.after (preOps (F := Ideal)) W (Proc.devRef .tc main_v6) : S32x4x4.Idx → EReal) (ValueIdx.ix3 q i j)
      = (((1 : Matrix (Fin 4) (Fin 4) ℝ) i j : ℝ) : EReal) := by
  after_results_simp
  refine (broadcastInDim_apply _ _ _ _ (ix2 i j) (fun ax => match ax with
    | ⟨0, _⟩ => rfl
    | ⟨1, _⟩ => rfl)).trans ?_
  show FloatOps.uitofp (F := Ideal) .f32 (IntOp.cmpi .eq (IntOp.addi (BitVec.ofNat 32 i.val) 0#32) (BitVec.ofNat 32 j.val)) = _
  rw [eye_bit, Matrix.one_apply]
  by_cases h : i = j
  · rw [if_pos h, if_pos h]; show (((1#1 : BitVec 1).toNat : ℝ) : EReal) = _; norm_num
  · rw [if_neg h, if_neg h]; show (((0#1 : BitVec 1).toNat : ℝ) : EReal) = _; norm_num

/-- The first eight operations leave the input array as it was. -/
theorem pre_arg0 (W : Valuation τ sig (Elt Ideal)) :
    StableHlo.after (preOps (F := Ideal)) W (Proc.devRef .tc main_arg0) = W (Proc.devRef .tc main_arg0) := by
  after_results_simp

/-- The first eight operations leave the angles as they were. -/
theorem pre_arg1 (W : Valuation τ sig (Elt Ideal)) :
    StableHlo.after (preOps (F := Ideal)) W (Proc.devRef .tc main_arg1) = W (Proc.devRef .tc main_arg1) := by
  after_results_simp

end Cert.KernelIdeal.HostValue

end
-- ==== Proof.HostTail.lean ====
/-
  The last host operations: from the accumulated 32×4×4 matrices M to the coefficient array [3,128], and the input
  [262144,32] re-laid as [65536,128].

  For each qubit q, with A = M00² + M10² − M20² − M30², D = M03² + M13² − M23² − M33² and
  B = −2·(M00·M03 + M10·M13 − M20·M23 − M30·M33) (entries of M q), the three vectors are (A + D)·½, (A − D)·½, B·½.
  They are stacked as the rows of a [3,32] array, which is viewed as [1,3,1,32], repeated four times along the third
  axis and flattened row-major: lane j of row k of the [3,128] result is entry (k, j % 32) of the stack.
  The whole stage is written once as a function `coefWide` of the matrices; the operations' composition is that
  function, and the function is read at an index.
-/
import proofs.«119607_j65481071399210_2_alg».proof.Proof.HostChunks
import proofs.«119607_j65481071399210_2_alg».proof.Proof.LibHostIdx
import proofs.«119607_j65481071399210_2_alg».proof.Proof.Spec

set_option maxRecDepth 65536

noncomputable section

namespace Cert.KernelIdeal.HostValue

open Cert.KernelIdeal Cert.KernelIdeal.Gen Cert.KernelIdeal.HostChunks Cert.KernelIdeal.HostIdx
open Idealize.ShloMosaic Idealize.ShloMosaic.ValueIdx Idealize.SL.Sem Idealize.ShloMosaic.StableHlo

/-! ## The stage as one function of the accumulated matrices -/

/-- Entry (r, c) of every qubit's matrix, as a vector over the qubits. -/
def entry (X : FVec Ideal S32x4x4 .f32) (r c : Nat) (h : S32x4x4.Slices ![0, r, c] S32x1x1) : FVec Ideal S32 .f32 :=
  shapeCast S32 (extractStridedSlice S32x1x1 ![0, r, c] X h) shapeCasts_S32x1x1_S32

/-- The splat of the word `w` over the qubits. -/
def splat (w : BitVec 32) : FVec Ideal S32 .f32 :=
  broadcastInDim S32 ![] bcast_S_S32 (constant (F := Ideal) S_ .f32 w)

/-- A = M00² + M10² − M20² − M30². -/
def quadA (X : FVec Ideal S32x4x4 .f32) : FVec Ideal S32 .f32 :=
  subf (subf (addf
    (mulf (entry X 0 0 slices_S32x4x4_S32x1x1_0_0_0) (entry X 0 0 slices_S32x4x4_S32x1x1_0_0_0))
    (mulf (entry X 1 0 slices_S32x4x4_S32x1x1_0_1_0) (entry X 1 0 slices_S32x4x4_S32x1x1_0_1_0)))
    (mulf (entry X 2 0 slices_S32x4x4_S32x1x1_0_2_0) (entry X 2 0 slices_S32x4x4_S32x1x1_0_2_0)))
    (mulf (entry X 3 0 slices_S32x4x4_S32x1x1_0_3_0) (entry X 3 0 slices_S32x4x4_S32x1x1_0_3_0))

/-- D = M03² + M13² − M23² − M33². -/
def quadD (X : FVec Ideal S32x4x4 .f32) : FVec Ideal S32 .f32 :=
  subf (subf (addf
    (mulf (entry X 0 3 slices_S32x4x4_S32x1x1_0_0_3) (entry X 0 3 slices_S32x4x4_S32x1x1_0_0_3))
    (mulf (entry X 1 3 slices_S32x4x4_S32x1x1_0_1_3) (entry X 1 3 slices_S32x4x4_S32x1x1_0_1_3)))
    (mulf (entry X 2 3 slices_S32x4x4_S32x1x1_0_2_3) (entry X 2 3 slices_S32x4x4_S32x1x1_0_2_3)))
    (mulf (entry X 3 3 slices_S32x4x4_S32x1x1_0_3_3) (entry X 3 3 slices_S32x4x4_S32x1x1_0_3_3))

/-- M00·M03 + M10·M13 − M20·M23 − M30·M33. -/
def crossAD (X : FVec Ideal S32x4x4 .f32) : FVec Ideal S32 .f32 :=
  subf (subf (addf
    (mulf (entry X 0 0 slices_S32x4x4_S32x1x1_0_0_0) (entry X 0 3 slices_S32x4x4_S32x1x1_0_0_3))
    (mulf (entry X 1 0 slices_S32x4x4_S32x1x1_0_1_0) (entry X 1 3 slices_S32x4x4_S32x1x1_0_1_3)))
    (mulf (entry X 2 0 slices_S32x4x4_S32x1x1_0_2_0) (entry X 2 3 slices_S32x4x4_S32x1x1_0_2_3)))
    (mulf (entry X 3 0 slices_S32x4x4_S32x1x1_0_3_0) (entry X 3 3 slices_S32x4x4_S32x1x1_0_3_3))

/-- The constant coefficient (A + D)·½. -/
def vecP (X : FVec Ideal S32x4x4 .f32) : FVec Ideal S32 .f32 :=
  mulf (addf (quadA X) (quadD X)) (splat 0x3F000000#32)
/-- The cosine coefficient (A − D)·½. -/
def vecC (X : FVec Ideal S32x4x4 .f32) : FVec Ideal S32 .f32 :=
  mulf (subf (quadA X) (quadD X)) (splat 0x3F000000#32)
/-- The sine coefficient (−2·(M00·M03 + M10·M13 − M20·M23 − M30·M33))·½. -/
def vecS (X : FVec Ideal S32x4x4 .f32) : FVec Ideal S32 .f32 :=
  mulf (mulf (splat 0xC0000000#32) (crossAD X)) (splat 0x3F000000#32)

/-- The three coefficient vectors as the rows of a [3,32] array. -/
def coefStack (X : FVec Ideal S32x4x4 .f32) : FVec Ideal S3x32 .f32 :=
  concatenate S3x32 0
    [⟨S1x32, broadcastInDim S1x32 ![1] bcast_S32_S1x32_1 (vecP X)⟩,
     ⟨S1x32, broadcastInDim S1x32 ![1] bcast_S32_S1x32_1 (vecC X)⟩,
     ⟨S1x32, broadcastInDim S1x32 ![1] bcast_S32_S1x32_1 (vecS X)⟩]
    concatenates_S1x32_S1x32_S1x32_S3x32_d0

/-- The stack repeated four times along the lanes: the [3,128] array the kernel reads. -/
def coefWide (X : FVec Ideal S32x4x4 .f32) : FVec Ideal S3x128 .f32 :=
  shapeCast S3x128
    (broadcastInDim S1x3x4x32 ![0, 1, 2, 3] bcast_S1x3x1x32_S1x3x4x32_0_1_2_3
      (shapeCast S1x3x1x32 (coefStack X) shapeCasts_S3x32_S1x3x1x32))
    shapeCasts_S1x3x4x32_S3x128

/-! ## The function read at an index -/

section Read

variable (X : FVec Ideal S32x4x4 .f32) (Mr : Fin 32 → Matrix (Fin 4) (Fin 4) ℝ)
  (hX : ∀ (q : Fin 32) (i j : Fin 4), X (ix3 q i j) = ((Mr q i j : ℝ) : EReal))
include hX

/-- Entry (r, c) of qubit b's matrix. -/
theorem entry_apply (r c : Nat) (h : S32x4x4.Slices ![0, r, c] S32x1x1) (b : Fin 32) (i j : Fin 4)
    (hi : i.val = r) (hj : j.val = c) : entry X r c h (ix1 b) = ((Mr b i j : ℝ) : EReal) := by
  unfold entry
  rw [shapeCast_32x1x1_32_apply, slice_entry_apply r c X h b 0 0 i j hi hj]
  exact hX b i j

omit hX in
/-- A splat read at a qubit is the word's value. -/
theorem splat_apply (w : BitVec 32) (b : Fin 32) : splat w (ix1 b) = Ideal.ofBits .f32 w := by
  unfold splat
  rw [broadcastInDim_scalar_apply]
  rfl

theorem quadA_apply (b : Fin 32) :
    quadA X (ix1 b) = ((Mr b 0 0 * Mr b 0 0 + Mr b 1 0 * Mr b 1 0 - Mr b 2 0 * Mr b 2 0 - Mr b 3 0 * Mr b 3 0 : ℝ) : EReal) := by
  unfold quadA
  simp only [subf_apply, addf_apply, mulf_apply]
  rw [entry_apply X Mr hX 0 0 _ b 0 0 rfl rfl, entry_apply X Mr hX 1 0 _ b 1 0 rfl rfl,
    entry_apply X Mr hX 2 0 _ b 2 0 rfl rfl, entry_apply X Mr hX 3 0 _ b 3 0 rfl rfl]
  simp only [← EReal.coe_mul, ← EReal.coe_add, ← EReal.coe_sub]

theorem quadD_apply (b : Fin 32) :
    quadD X (ix1 b) = ((Mr b 0 3 * Mr b 0 3 + Mr b 1 3 * Mr b 1 3 - Mr b 2 3 * Mr b 2 3 - Mr b 3 3 * Mr b 3 3 : ℝ) : EReal) := by
  unfold quadD
  simp only [subf_apply, addf_apply, mulf_apply]
  rw [entry_apply X Mr hX 0 3 _ b 0 3 rfl rfl, entry_apply X Mr hX 1 3 _ b 1 3 rfl rfl,
    entry_apply X Mr hX 2 3 _ b 2 3 rfl rfl, entry_apply X Mr hX 3 3 _ b 3 3 rfl rfl]
  simp only [← EReal.coe_mul, ← EReal.coe_add, ← EReal.coe_sub]

theorem crossAD_apply (b : Fin 32) :
    crossAD X (ix1 b) = ((Mr b 0 0 * Mr b 0 3 + Mr b 1 0 * Mr b 1 3 - Mr b 2 0 * Mr b 2 3 - Mr b 3 0 * Mr b 3 3 : ℝ) : EReal) := by
  unfold crossAD
  simp only [subf_apply, addf_apply, mulf_apply]
  rw [entry_apply X Mr hX 0 0 _ b 0 0 rfl rfl, entry_apply X Mr hX 1 0 _ b 1 0 rfl rfl,
    entry_apply X Mr hX 2 0 _ b 2 0 rfl rfl, entry_apply X Mr hX 3 0 _ b 3 0 rfl rfl,
    entry_apply X Mr hX 0 3 _ b 0 3 rfl rfl, entry_apply X Mr hX 1 3 _ b 1 3 rfl rfl,
    entry_apply X Mr hX 2 3 _ b 2 3 rfl rfl, entry_apply X Mr hX 3 3 _ b 3 3 rfl rfl]
  simp only [← EReal.coe_mul, ← EReal.coe_add, ← EReal.coe_sub]

theorem vecP_apply (b : Fin 32) : vecP X (ix1 b) = ((Cert.Spec.coefOf (Mr b) 0 : ℝ) : EReal) := by
  unfold vecP
  rw [mulf_apply, addf_apply, quadA_apply X Mr hX, quadD_apply X Mr hX, splat_apply, ofBits_half,
    ← EReal.coe_add, ← EReal.coe_mul]
  rfl

theorem vecC_apply (b : Fin 32) : vecC X (ix1 b) = ((Cert.Spec.coefOf (Mr b) 1 : ℝ) : EReal) := by
  unfold vecC
  rw [mulf_apply, subf_apply, quadA_apply X Mr hX, quadD_apply X Mr hX, splat_apply, ofBits_half,
    ← EReal.coe_sub, ← EReal.coe_mul]
  rfl

theorem vecS_apply (b : Fin 32) : vecS X (ix1 b) = ((Cert.Spec.coefOf (Mr b) 2 : ℝ) : EReal) := by
  unfold vecS
  rw [mulf_apply, mulf_apply, crossAD_apply X Mr hX, splat_apply, splat_apply, ofBits_half, ofBits_neg_two,
    ← EReal.coe_mul, ← EReal.coe_mul]
  rfl

/-- Row k of the stack at qubit b is the k-th coefficient of qubit b's matrix. -/
theorem coefStack_apply (k : Fin 3) (b : Fin 32) :
    coefStack X (ix2 k b) = ((Cert.Spec.coefOf (Mr b) k : ℝ) : EReal) := by
  unfold coefStack
  refine (concatenate_3rows_apply _ _ _ _ k b).trans ?_
  match k with
  | ⟨0, _⟩ =>
    show broadcastInDim S1x32 ![1] bcast_S32_S1x32_1 (vecP X) (ix2 (0 : Fin 1) b) = _
    rw [broadcastInDim_32_1x32_apply]; exact vecP_apply X Mr hX b
  | ⟨1, _⟩ =>
    show broadcastInDim S1x32 ![1] bcast_S32_S1x32_1 (vecC X) (ix2 (0 : Fin 1) b) = _
    rw [broadcastInDim_32_1x32_apply]; exact vecC_apply X Mr hX b
  | ⟨2, _⟩ =>
    show broadcastInDim S1x32 ![1] bcast_S32_S1x32_1 (vecS X) (ix2 (0 : Fin 1) b) = _
    rw [broadcastInDim_32_1x32_apply]; exact vecS_apply X Mr hX b

/-- Lane j of row k of the wide array is the k-th coefficient of qubit j % 32's matrix. -/
theorem coefWide_apply (k : Fin 3) (j : Fin 128) :
    coefWide X (ix2 k j) = ((Cert.Spec.coefOf (Mr ⟨j.val % 32, Nat.mod_lt _ (by decide)⟩) k : ℝ) : EReal) := by
  unfold coefWide
  rw [shapeCast_1x3x4x32_3x128_apply, broadcastInDim_1x3x1x32_1x3x4x32_apply, shapeCast_3x32_1x3x1x32_apply]
  exact coefStack_apply X Mr hX k _

end Read

/-! ## The operations' composition is that function -/

set_option maxHeartbeats 2000000 in
/-- The coefficient array after the last host operations is `coefWide` of the accumulated matrices before them. -/
theorem tail_v949_eq (W : Valuation τ sig (Elt Ideal)) :
    (StableHlo.after (tailOps (F := Ideal)) W (Proc.devRef .tc main_v949) : S3x128.Idx → EReal)
      = coefWide (W (Proc.devRef .tc main_v894)) := by
  simp (disch := decide) only [after_cons, after_nil,
      nullary_result', unary_result', binary_result', reshape_result', nary3_result', nary_result',
      nullary_result_ne', unary_result_ne', binary_result_ne', reshape_result_ne', nary_result_ne']
  rfl

set_option maxHeartbeats 2000000 in
/-- The re-laid input after the last host operations is the input's row-major flattening to [65536,128]. -/
theorem tail_v946_eq (W : Valuation τ sig (Elt Ideal)) :
    (StableHlo.after (tailOps (F := Ideal)) W (Proc.devRef .tc main_v946) : S65536x128.Idx → EReal)
      = shapeCast S65536x128 (W (Proc.devRef .tc main_arg0) : S262144x32.Idx → EReal) shapeCasts_S262144x32_S65536x128 := by
  simp (disch := decide) only [after_cons, after_nil,
      nullary_result', unary_result', binary_result', reshape_result', nary3_result', nary_result',
      nullary_result_ne', unary_result_ne', binary_result_ne', reshape_result_ne', nary_result_ne']
  rfl

/-! ## The two results at an index -/

/-- Given the accumulated matrices as reals, the coefficient array holds, in lane j of row k, the k-th coefficient
    read off the matrix of qubit j % 32. -/
theorem tail_coef_apply (W : Valuation τ sig (Elt Ideal)) (Mr : Fin 32 → Matrix (Fin 4) (Fin 4) ℝ)
    (hM : ∀ (q : Fin 32) (i j : Fin 4),
      (W (Proc.devRef .tc main_v894) : S32x4x4.Idx → EReal) (ValueIdx.ix3 q i j) = ((Mr q i j : ℝ) : EReal))
    (k : Fin 3) (j : Fin 128) :
    (StableHlo.after (tailOps (F := Ideal)) W (Proc.devRef .tc main_v949) : S3x128.Idx → EReal) (ValueIdx.ix2 k j)
      = ((Cert.Spec.coefOf (Mr ⟨j.val % 32, Nat.mod_lt _ (by decide)⟩) k : ℝ) : EReal) := by
  rw [tail_v949_eq]
  exact coefWide_apply _ Mr hM k j

/-- The re-laid input at (i, j) is the input at (4·i + j / 32, j % 32). -/
theorem tail_x_apply (W : Valuation τ sig (Elt Ideal)) (i : Fin 65536) (j : Fin 128) :
    (StableHlo.after (tailOps (F := Ideal)) W (Proc.devRef .tc main_v946) : S65536x128.Idx → EReal) (ValueIdx.ix2 i j)
      = (W (Proc.devRef .tc main_arg0) : S262144x32.Idx → EReal)
          (ValueIdx.ix2 ⟨4 * i.val + j.val / 32, by have := i.isLt; have := j.isLt; omega⟩ ⟨j.val % 32, Nat.mod_lt _ (by decide)⟩) := by
  rw [tail_v946_eq]
  exact shapeCast_262144x32_65536x128_apply _ _ i j

end Cert.KernelIdeal.HostValue

end
-- ==== Proof.HostChain.lean ====
/-
  The host operations before the region, run stage by stage: the identity stage, the eight layers, the last stage.

  The list of operations is the stretches appended in order, so its run is the stretches' runs in a row. After the
  identity stage every qubit's matrix is 1, the empty product; layer l multiplies it on the left by the layer's matrix
  of the qubit's angles, so after l + 1 layers it is the product of the first l + 1 layer matrices; no stage writes
  the two arguments. The last stage then reads the coefficients off the product of all eight, and re-lays the input.
  What each layer does is taken here as a hypothesis (`LayerFacts`), one statement per layer.
-/
import proofs.«119607_j65481071399210_2_alg».proof.Proof.HostChunks
import proofs.«119607_j65481071399210_2_alg».proof.Proof.Spec
import proofs.«119607_j65481071399210_2_alg».proof.Proof.LibHostIdx
import proofs.«119607_j65481071399210_2_alg».proof.Proof.HostPre
import proofs.«119607_j65481071399210_2_alg».proof.Proof.HostTail
import Idealize.ShloMosaic.Lib.Pipeline.Frame

set_option maxRecDepth 65536

noncomputable section

namespace Cert.KernelIdeal.HostValue

open Cert.KernelIdeal Cert.KernelIdeal.Gen Cert.KernelIdeal.HostChunks
open Idealize.ShloMosaic Idealize.ShloMosaic.ValueIdx Idealize.SL.Sem

/-! ## What the chain asks of each layer -/

/-- Per layer l: given the angles and the accumulated matrices as reals before the layer's line of operations, the
    accumulated matrix after it is the layer's matrix times the one before; the line writes neither argument. -/
structure LayerFacts : Prop where
  /-- Layer 0: the accumulated matrix is multiplied on the left by the layer's matrix. -/
  layer_0 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v6) : S32x4x4.Idx → EReal) (ValueIdx.ix3 q i j) = ((Mr q i j : ℝ) : EReal))
    (q : Fin 32) (i j : Fin 4),
    (StableHlo.after (gateOps_0_0 ++ (gateOps_0_1 ++ (gateOps_0_2 ++ dotOps_0))) W (Proc.devRef .tc main_v117) : S32x4x4.Idx → EReal) (ValueIdx.ix3 q i j)
      = (((Cert.Spec.mLayer (fun g => pr ⟨0, by decide⟩ q g) * Mr q) i j : ℝ) : EReal)
  /-- Layer 0 leaves the input array as it was. -/
  layer_0_arg0 : ∀ (W : Valuation τ sig (Elt Ideal)),
    StableHlo.after (gateOps_0_0 ++ (gateOps_0_1 ++ (gateOps_0_2 ++ dotOps_0))) W (Proc.devRef .tc main_arg0) = W (Proc.devRef .tc main_arg0)
  /-- Layer 0 leaves the angles as they were. -/
  layer_0_arg1 : ∀ (W : Valuation τ sig (Elt Ideal)),
    StableHlo.after (gateOps_0_0 ++ (gateOps_0_1 ++ (gateOps_0_2 ++ dotOps_0))) W (Proc.devRef .tc main_arg1) = W (Proc.devRef .tc main_arg1)
  /-- Layer 1: the accumulated matrix is multiplied on the left by the layer's matrix. -/
  layer_1 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v117) : S32x4x4.Idx → EReal) (ValueIdx.ix3 q i j) = ((Mr q i j : ℝ) : EReal))
    (q : Fin 32) (i j : Fin 4),
    (StableHlo.after (gateOps_1_0 ++ (gateOps_1_1 ++ (gateOps_1_2 ++ dotOps_1))) W (Proc.devRef .tc main_v228) : S32x4x4.Idx → EReal) (ValueIdx.ix3 q i j)
      = (((Cert.Spec.mLayer (fun g => pr ⟨1, by decide⟩ q g) * Mr q) i j : ℝ) : EReal)
  /-- Layer 1 leaves the input array as it was. -/
  layer_1_arg0 : ∀ (W : Valuation τ sig (Elt Ideal)),
    StableHlo.after (gateOps_1_0 ++ (gateOps_1_1 ++ (gateOps_1_2 ++ dotOps_1))) W (Proc.devRef .tc main_arg0) = W (Proc.devRef .tc main_arg0)
  /-- Layer 1 leaves the angles as they were. -/
  layer_1_arg1 : ∀ (W : Valuation τ sig (Elt Ideal)),
    StableHlo.after (gateOps_1_0 ++ (gateOps_1_1 ++ (gateOps_1_2 ++ dotOps_1))) W (Proc.devRef .tc main_arg1) = W (Proc.devRef .tc main_arg1)
  /-- Layer 2: the accumulated matrix is multiplied on the left by the layer's matrix. -/
  layer_2 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v228) : S32x4x4.Idx → EReal) (ValueIdx.ix3 q i j) = ((Mr q i j : ℝ) : EReal))
    (q : Fin 32) (i j : Fin 4),
    (StableHlo.after (gateOps_2_0 ++ (gateOps_2_1 ++ (gateOps_2_2 ++ dotOps_2))) W (Proc.devRef .tc main_v339) : S32x4x4.Idx → EReal) (ValueIdx.ix3 q i j)
      = (((Cert.Spec.mLayer (fun g => pr ⟨2, by decide⟩ q g) * Mr q) i j : ℝ) : EReal)
  /-- Layer 2 leaves the input array as it was. -/
  layer_2_arg0 : ∀ (W : Valuation τ sig (Elt Ideal)),
    StableHlo.after (gateOps_2_0 ++ (gateOps_2_1 ++ (gateOps_2_2 ++ dotOps_2))) W (Proc.devRef .tc main_arg0) = W (Proc.devRef .tc main_arg0)
  /-- Layer 2 leaves the angles as they were. -/
  layer_2_arg1 : ∀ (W : Valuation τ sig (Elt Ideal)),
    StableHlo.after (gateOps_2_0 ++ (gateOps_2_1 ++ (gateOps_2_2 ++ dotOps_2))) W (Proc.devRef .tc main_arg1) = W (Proc.devRef .tc main_arg1)
  /-- Layer 3: the accumulated matrix is multiplied on the left by the layer's matrix. -/
  layer_3 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v339) : S32x4x4.Idx → EReal) (ValueIdx.ix3 q i j) = ((Mr q i j : ℝ) : EReal))
    (q : Fin 32) (i j : Fin 4),
    (StableHlo.after (gateOps_3_0 ++ (gateOps_3_1 ++ (gateOps_3_2 ++ dotOps_3))) W (Proc.devRef .tc main_v450) : S32x4x4.Idx → EReal) (ValueIdx.ix3 q i j)
      = (((Cert.Spec.mLayer (fun g => pr ⟨3, by decide⟩ q g) * Mr q) i j : ℝ) : EReal)
  /-- Layer 3 leaves the input array as it was. -/
  layer_3_arg0 : ∀ (W : Valuation τ sig (Elt Ideal)),
    StableHlo.after (gateOps_3_0 ++ (gateOps_3_1 ++ (gateOps_3_2 ++ dotOps_3))) W (Proc.devRef .tc main_arg0) = W (Proc.devRef .tc main_arg0)
  /-- Layer 3 leaves the angles as they were. -/
  layer_3_arg1 : ∀ (W : Valuation τ sig (Elt Ideal)),
    StableHlo.after (gateOps_3_0 ++ (gateOps_3_1 ++ (gateOps_3_2 ++ dotOps_3))) W (Proc.devRef .tc main_arg1) = W (Proc.devRef .tc main_arg1)
  /-- Layer 4: the accumulated matrix is multiplied on the left by the layer's matrix. -/
  layer_4 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v450) : S32x4x4.Idx → EReal) (ValueIdx.ix3 q i j) = ((Mr q i j : ℝ) : EReal))
    (q : Fin 32) (i j : Fin 4),
    (StableHlo.after (gateOps_4_0 ++ (gateOps_4_1 ++ (gateOps_4_2 ++ dotOps_4))) W (Proc.devRef .tc main_v561) : S32x4x4.Idx → EReal) (ValueIdx.ix3 q i j)
      = (((Cert.Spec.mLayer (fun g => pr ⟨4, by decide⟩ q g) * Mr q) i j : ℝ) : EReal)
  /-- Layer 4 leaves the input array as it was. -/
  layer_4_arg0 : ∀ (W : Valuation τ sig (Elt Ideal)),
    StableHlo.after (gateOps_4_0 ++ (gateOps_4_1 ++ (gateOps_4_2 ++ dotOps_4))) W (Proc.devRef .tc main_arg0) = W (Proc.devRef .tc main_arg0)
  /-- Layer 4 leaves the angles as they were. -/
  layer_4_arg1 : ∀ (W : Valuation τ sig (Elt Ideal)),
    StableHlo.after (gateOps_4_0 ++ (gateOps_4_1 ++ (gateOps_4_2 ++ dotOps_4))) W (Proc.devRef .tc main_arg1) = W (Proc.devRef .tc main_arg1)
  /-- Layer 5: the accumulated matrix is multiplied on the left by the layer's matrix. -/
  layer_5 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v561) : S32x4x4.Idx → EReal) (ValueIdx.ix3 q i j) = ((Mr q i j : ℝ) : EReal))
    (q : Fin 32) (i j : Fin 4),
    (StableHlo.after (gateOps_5_0 ++ (gateOps_5_1 ++ (gateOps_5_2 ++ dotOps_5))) W (Proc.devRef .tc main_v672) : S32x4x4.Idx → EReal) (ValueIdx.ix3 q i j)
      = (((Cert.Spec.mLayer (fun g => pr ⟨5, by decide⟩ q g) * Mr q) i j : ℝ) : EReal)
  /-- Layer 5 leaves the input array as it was. -/
  layer_5_arg0 : ∀ (W : Valuation τ sig (Elt Ideal)),
    StableHlo.after (gateOps_5_0 ++ (gateOps_5_1 ++ (gateOps_5_2 ++ dotOps_5))) W (Proc.devRef .tc main_arg0) = W (Proc.devRef .tc main_arg0)
  /-- Layer 5 leaves the angles as they were. -/
  layer_5_arg1 : ∀ (W : Valuation τ sig (Elt Ideal)),
    StableHlo.after (gateOps_5_0 ++ (gateOps_5_1 ++ (gateOps_5_2 ++ dotOps_5))) W (Proc.devRef .tc main_arg1) = W (Proc.devRef .tc main_arg1)
  /-- Layer 6: the accumulated matrix is multiplied on the left by the layer's matrix. -/
  layer_6 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v672) : S32x4x4.Idx → EReal) (ValueIdx.ix3 q i j) = ((Mr q i j : ℝ) : EReal))
    (q : Fin 32) (i j : Fin 4),
    (StableHlo.after (gateOps_6_0 ++ (gateOps_6_1 ++ (gateOps_6_2 ++ dotOps_6))) W (Proc.devRef .tc main_v783) : S32x4x4.Idx → EReal) (ValueIdx.ix3 q i j)
      = (((Cert.Spec.mLayer (fun g => pr ⟨6, by decide⟩ q g) * Mr q) i j : ℝ) : EReal)
  /-- Layer 6 leaves the input array as it was. -/
  layer_6_arg0 : ∀ (W : Valuation τ sig (Elt Ideal)),
    StableHlo.after (gateOps_6_0 ++ (gateOps_6_1 ++ (gateOps_6_2 ++ dotOps_6))) W (Proc.devRef .tc main_arg0) = W (Proc.devRef .tc main_arg0)
  /-- Layer 6 leaves the angles as they were. -/
  layer_6_arg1 : ∀ (W : Valuation τ sig (Elt Ideal)),
    StableHlo.after (gateOps_6_0 ++ (gateOps_6_1 ++ (gateOps_6_2 ++ dotOps_6))) W (Proc.devRef .tc main_arg1) = W (Proc.devRef .tc main_arg1)
  /-- Layer 7: the accumulated matrix is multiplied on the left by the layer's matrix. -/
  layer_7 : ∀ (W : Valuation τ sig (Elt Ideal)) (pr : Fin 8 → Fin 32 → Fin 3 → ℝ)
    (_ : ∀ (a : Fin 8) (q : Fin 32) (g : Fin 3), (W (Proc.devRef .tc main_arg1) : S8x32x3.Idx → EReal) (ValueIdx.ix3 a q g) = ((pr a q g : ℝ) : EReal))
    (Mr : Fin 32 → Matrix (Fin 4) (Fin 4) ℝ)
    (_ : ∀ (q : Fin 32) (i j : Fin 4), (W (Proc.devRef .tc main_v783) : S32x4x4.Idx → EReal) (ValueIdx.ix3 q i j) = ((Mr q i j : ℝ) : EReal))
    (q : Fin 32) (i j : Fin 4),
    (StableHlo.after (gateOps_7_0 ++ (gateOps_7_1 ++ (gateOps_7_2 ++ dotOps_7))) W (Proc.devRef .tc main_v894) : S32x4x4.Idx → EReal) (ValueIdx.ix3 q i j)
      = (((Cert.Spec.mLayer (fun g => pr ⟨7, by decide⟩ q g) * Mr q) i j : ℝ) : EReal)
  /-- Layer 7 leaves the input array as it was. -/
  layer_7_arg0 : ∀ (W : Valuation τ sig (Elt Ideal)),
    StableHlo.after (gateOps_7_0 ++ (gateOps_7_1 ++ (gateOps_7_2 ++ dotOps_7))) W (Proc.devRef .tc main_arg0) = W (Proc.devRef .tc main_arg0)
  /-- Layer 7 leaves the angles as they were. -/
  layer_7_arg1 : ∀ (W : Valuation τ sig (Elt Ideal)),
    StableHlo.after (gateOps_7_0 ++ (gateOps_7_1 ++ (gateOps_7_2 ++ dotOps_7))) W (Proc.devRef .tc main_arg1) = W (Proc.devRef .tc main_arg1)

/-! ## The line of host operations, stage by stage -/

/-- One layer's four stretches, followed by the rest, run as the layer's line and then the rest. -/
theorem after_layer_append {Val : EltTy → Type} (a b c d rest : List (HloOp τ sig Val)) (V : Valuation τ sig Val) :
    StableHlo.after (a ++ (b ++ (c ++ (d ++ rest)))) V = StableHlo.after rest (StableHlo.after (a ++ (b ++ (c ++ d))) V) := by
  simp only [StableHlo.after_append]

/-- The buffers after the identity stage. -/
def val0 (W : Valuation τ sig (Elt Ideal)) : Valuation τ sig (Elt Ideal) := StableHlo.after (preOps (F := Ideal)) W
/-- The buffers after layer 0. -/
def val1 (W : Valuation τ sig (Elt Ideal)) : Valuation τ sig (Elt Ideal) :=
  StableHlo.after (gateOps_0_0 ++ (gateOps_0_1 ++ (gateOps_0_2 ++ dotOps_0))) (val0 W)
/-- The buffers after layer 1. -/
def val2 (W : Valuation τ sig (Elt Ideal)) : Valuation τ sig (Elt Ideal) :=
  StableHlo.after (gateOps_1_0 ++ (gateOps_1_1 ++ (gateOps_1_2 ++ dotOps_1))) (val1 W)
/-- The buffers after layer 2. -/
def val3 (W : Valuation τ sig (Elt Ideal)) : Valuation τ sig (Elt Ideal) :=
  StableHlo.after (gateOps_2_0 ++ (gateOps_2_1 ++ (gateOps_2_2 ++ dotOps_2))) (val2 W)
/-- The buffers after layer 3. -/
def val4 (W : Valuation τ sig (Elt Ideal)) : Valuation τ sig (Elt Ideal) :=
  StableHlo.after (gateOps_3_0 ++ (gateOps_3_1 ++ (gateOps_3_2 ++ dotOps_3))) (val3 W)
/-- The buffers after layer 4. -/
def val5 (W : Valuation τ sig (Elt Ideal)) : Valuation τ sig (Elt Ideal) :=
  StableHlo.after (gateOps_4_0 ++ (gateOps_4_1 ++ (gateOps_4_2 ++ dotOps_4))) (val4 W)
/-- The buffers after layer 5. -/
def val6 (W : Valuation τ sig (Elt Ideal)) : Valuation τ sig (Elt Ideal) :=
  StableHlo.after (gateOps_5_0 ++ (gateOps_5_1 ++ (gateOps_5_2 ++ dotOps_5))) (val5 W)
/-- The buffers after layer 6. -/
def val7 (W : Valuation τ sig (Elt Ideal)) : Valuation τ sig (Elt Ideal) :=
  StableHlo.after (gateOps_6_0 ++ (gateOps_6_1 ++ (gateOps_6_2 ++ dotOps_6))) (val6 W)
/-- The buffers after layer 7. -/
def val8 (W : Valuation τ sig (Elt Ideal)) : Valuation τ sig (Elt Ideal) :=
  StableHlo.after (gateOps_7_0 ++ (gateOps_7_1 ++ (gateOps_7_2 ++ dotOps_7))) (val7 W)

set_option maxHeartbeats 2000000 in
/-- All the host operations before the region are the identity stage, the eight layers and the last stage in a row. -/
theorem after_hostOps0 (W : Valuation τ sig (Elt Ideal)) :
    StableHlo.after (hostOps0 (F := Ideal)) W = StableHlo.after (tailOps (F := Ideal)) (val8 W) := by
  rw [hostOps0_split, StableHlo.after_append, after_layer_append, after_layer_append, after_layer_append, after_layer_append,
    after_layer_append, after_layer_append, after_layer_append, after_layer_append]
  rfl

section Stages

variable (H : LayerFacts) (W : Valuation τ sig (Elt Ideal)) (pr : Fin 8 → Fin 32 → Fin 3 → ℝ)
  (hp : ∀ (a : Fin 8) (q : Fin 32) (g : Fin 3),
    (W (Proc.devRef .tc main_arg1) : S8x32x3.Idx → EReal) (ValueIdx.ix3 a q g) = ((pr a q g : ℝ) : EReal))

theorem val0_arg0 : val0 W (Proc.devRef .tc main_arg0) = W (Proc.devRef .tc main_arg0) := pre_arg0 W
theorem val0_arg1 : val0 W (Proc.devRef .tc main_arg1) = W (Proc.devRef .tc main_arg1) := pre_arg1 W
/-- After the identity stage every qubit's matrix is the empty product. -/
theorem val0_M (θ : Fin 32 → Fin 8 → Fin 3 → ℝ) (q : Fin 32) (i j : Fin 4) :
    (val0 W (Proc.devRef .tc main_v6) : S32x4x4.Idx → EReal) (ValueIdx.ix3 q i j) = ((Cert.Spec.mTot (θ q) 0 i j : ℝ) : EReal) :=
  pre_apply W q i j

include H in
theorem val1_arg0 : val1 W (Proc.devRef .tc main_arg0) = W (Proc.devRef .tc main_arg0) :=
  (H.layer_0_arg0 (val0 W)).trans (val0_arg0 W)
include H in
theorem val1_arg1 : val1 W (Proc.devRef .tc main_arg1) = W (Proc.devRef .tc main_arg1) :=
  (H.layer_0_arg1 (val0 W)).trans (val0_arg1 W)
include H hp in
/-- After layer 0 qubit q's matrix is the product of the first 1 layer matrices of its angles. -/
theorem val1_M (q : Fin 32) (i j : Fin 4) :
    (val1 W (Proc.devRef .tc main_v117) : S32x4x4.Idx → EReal) (ValueIdx.ix3 q i j)
      = ((Cert.Spec.mTot (fun a g => pr a q g) 1 i j : ℝ) : EReal) :=
  H.layer_0 (val0 W) pr (fun a q g => (congrFun (val0_arg1 W) (ValueIdx.ix3 a q g)).trans (hp a q g))
    (fun q => Cert.Spec.mTot (fun a g => pr a q g) 0) (val0_M W (fun q a g => pr a q g)) q i j

include H in
theorem val2_arg0 : val2 W (Proc.devRef .tc main_arg0) = W (Proc.devRef .tc main_arg0) :=
  (H.layer_1_arg0 (val1 W)).trans (val1_arg0 H W)
include H in
theorem val2_arg1 : val2 W (Proc.devRef .tc main_arg1) = W (Proc.devRef .tc main_arg1) :=
  (H.layer_1_arg1 (val1 W)).trans (val1_arg1 H W)
include H hp in
/-- After layer 1 qubit q's matrix is the product of the first 2 layer matrices of its angles. -/
theorem val2_M (q : Fin 32) (i j : Fin 4) :
    (val2 W (Proc.devRef .tc main_v228) : S32x4x4.Idx → EReal) (ValueIdx.ix3 q i j)
      = ((Cert.Spec.mTot (fun a g => pr a q g) 2 i j : ℝ) : EReal) :=
  H.layer_1 (val1 W) pr (fun a q g => (congrFun (val1_arg1 H W) (ValueIdx.ix3 a q g)).trans (hp a q g))
    (fun q => Cert.Spec.mTot (fun a g => pr a q g) 1) (val1_M H W pr hp) q i j

include H in
theorem val3_arg0 : val3 W (Proc.devRef .tc main_arg0) = W (Proc.devRef .tc main_arg0) :=
  (H.layer_2_arg0 (val2 W)).trans (val2_arg0 H W)
include H in
theorem val3_arg1 : val3 W (Proc.devRef .tc main_arg1) = W (Proc.devRef .tc main_arg1) :=
  (H.layer_2_arg1 (val2 W)).trans (val2_arg1 H W)
include H hp in
/-- After layer 2 qubit q's matrix is the product of the first 3 layer matrices of its angles. -/
theorem val3_M (q : Fin 32) (i j : Fin 4) :
    (val3 W (Proc.devRef .tc main_v339) : S32x4x4.Idx → EReal) (ValueIdx.ix3 q i j)
      = ((Cert.Spec.mTot (fun a g => pr a q g) 3 i j : ℝ) : EReal) :=
  H.layer_2 (val2 W) pr (fun a q g => (congrFun (val2_arg1 H W) (ValueIdx.ix3 a q g)).trans (hp a q g))
    (fun q => Cert.Spec.mTot (fun a g => pr a q g) 2) (val2_M H W pr hp) q i j

include H in
theorem val4_arg0 : val4 W (Proc.devRef .tc main_arg0) = W (Proc.devRef .tc main_arg0) :=
  (H.layer_3_arg0 (val3 W)).trans (val3_arg0 H W)
include H in
theorem val4_arg1 : val4 W (Proc.devRef .tc main_arg1) = W (Proc.devRef .tc main_arg1) :=
  (H.layer_3_arg1 (val3 W)).trans (val3_arg1 H W)
include H hp in
/-- After layer 3 qubit q's matrix is the product of the first 4 layer matrices of its angles. -/
theorem val4_M (q : Fin 32) (i j : Fin 4) :
    (val4 W (Proc.devRef .tc main_v450) : S32x4x4.Idx → EReal) (ValueIdx.ix3 q i j)
      = ((Cert.Spec.mTot (fun a g => pr a q g) 4 i j : ℝ) : EReal) :=
  H.layer_3 (val3 W) pr (fun a q g => (congrFun (val3_arg1 H W) (ValueIdx.ix3 a q g)).trans (hp a q g))
    (fun q => Cert.Spec.mTot (fun a g => pr a q g) 3) (val3_M H W pr hp) q i j

include H in
theorem val5_arg0 : val5 W (Proc.devRef .tc main_arg0) = W (Proc.devRef .tc main_arg0) :=
  (H.layer_4_arg0 (val4 W)).trans (val4_arg0 H W)
include H in
theorem val5_arg1 : val5 W (Proc.devRef .tc main_arg1) = W (Proc.devRef .tc main_arg1) :=
  (H.layer_4_arg1 (val4 W)).trans (val4_arg1 H W)
include H hp in
/-- After layer 4 qubit q's matrix is the product of the first 5 layer matrices of its angles. -/
theorem val5_M (q : Fin 32) (i j : Fin 4) :
    (val5 W (Proc.devRef .tc main_v561) : S32x4x4.Idx → EReal) (ValueIdx.ix3 q i j)
      = ((Cert.Spec.mTot (fun a g => pr a q g) 5 i j : ℝ) : EReal) :=
  H.layer_4 (val4 W) pr (fun a q g => (congrFun (val4_arg1 H W) (ValueIdx.ix3 a q g)).trans (hp a q g))
    (fun q => Cert.Spec.mTot (fun a g => pr a q g) 4) (val4_M H W pr hp) q i j

include H in
theorem val6_arg0 : val6 W (Proc.devRef .tc main_arg0) = W (Proc.devRef .tc main_arg0) :=
  (H.layer_5_arg0 (val5 W)).trans (val5_arg0 H W)
include H in
theorem val6_arg1 : val6 W (Proc.devRef .tc main_arg1) = W (Proc.devRef .tc main_arg1) :=
  (H.layer_5_arg1 (val5 W)).trans (val5_arg1 H W)
include H hp in
/-- After layer 5 qubit q's matrix is the product of the first 6 layer matrices of its angles. -/
theorem val6_M (q : Fin 32) (i j : Fin 4) :
    (val6 W (Proc.devRef .tc main_v672) : S32x4x4.Idx → EReal) (ValueIdx.ix3 q i j)
      = ((Cert.Spec.mTot (fun a g => pr a q g) 6 i j : ℝ) : EReal) :=
  H.layer_5 (val5 W) pr (fun a q g => (congrFun (val5_arg1 H W) (ValueIdx.ix3 a q g)).trans (hp a q g))
    (fun q => Cert.Spec.mTot (fun a g => pr a q g) 5) (val5_M H W pr hp) q i j

include H in
theorem val7_arg0 : val7 W (Proc.devRef .tc main_arg0) = W (Proc.devRef .tc main_arg0) :=
  (H.layer_6_arg0 (val6 W)).trans (val6_arg0 H W)
include H in
theorem val7_arg1 : val7 W (Proc.devRef .tc main_arg1) = W (Proc.devRef .tc main_arg1) :=
  (H.layer_6_arg1 (val6 W)).trans (val6_arg1 H W)
include H hp in
/-- After layer 6 qubit q's matrix is the product of the first 7 layer matrices of its angles. -/
theorem val7_M (q : Fin 32) (i j : Fin 4) :
    (val7 W (Proc.devRef .tc main_v783) : S32x4x4.Idx → EReal) (ValueIdx.ix3 q i j)
      = ((Cert.Spec.mTot (fun a g => pr a q g) 7 i j : ℝ) : EReal) :=
  H.layer_6 (val6 W) pr (fun a q g => (congrFun (val6_arg1 H W) (ValueIdx.ix3 a q g)).trans (hp a q g))
    (fun q => Cert.Spec.mTot (fun a g => pr a q g) 6) (val6_M H W pr hp) q i j

include H in
theorem val8_arg0 : val8 W (Proc.devRef .tc main_arg0) = W (Proc.devRef .tc main_arg0) :=
  (H.layer_7_arg0 (val7 W)).trans (val7_arg0 H W)
include H in
theorem val8_arg1 : val8 W (Proc.devRef .tc main_arg1) = W (Proc.devRef .tc main_arg1) :=
  (H.layer_7_arg1 (val7 W)).trans (val7_arg1 H W)
include H hp in
/-- After layer 7 qubit q's matrix is the product of the first 8 layer matrices of its angles. -/
theorem val8_M (q : Fin 32) (i j : Fin 4) :
    (val8 W (Proc.devRef .tc main_v894) : S32x4x4.Idx → EReal) (ValueIdx.ix3 q i j)
      = ((Cert.Spec.mTot (fun a g => pr a q g) 8 i j : ℝ) : EReal) :=
  H.layer_7 (val7 W) pr (fun a q g => (congrFun (val7_arg1 H W) (ValueIdx.ix3 a q g)).trans (hp a q g))
    (fun q => Cert.Spec.mTot (fun a g => pr a q g) 7) (val7_M H W pr hp) q i j

end Stages

/-! ## The two arrays the kernel reads -/

/-- Lane j of row k of the coefficient array is the k-th coefficient of the circuit with qubit j % 32's angles. -/
theorem coefwide_apply_of (H : LayerFacts) (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ValueIdx.ix3 a q g) = ((pr a q g : ℝ) : EReal))
    (k : Fin 3) (j : Fin 128) :
    (StableHlo.after (hostOps0 (F := Ideal)) W (Proc.devRef .tc main_v949) : S3x128.Idx → EReal) (ValueIdx.ix2 k j)
      = ((Cert.Spec.coef (fun a g => pr a ⟨j.val % 32, Nat.mod_lt _ (by decide)⟩ g) k : ℝ) : EReal) := by
  rw [after_hostOps0]
  exact tail_coef_apply (val8 W) (fun q => Cert.Spec.mTot (fun a g => pr a q g) 8) (val8_M H W pr hp) k j

/-- The kernel's input array at (i, j) is the program's input at (4·i + j / 32, j % 32). -/
theorem xwide_apply_of (H : LayerFacts) (W : Valuation τ sig (Elt Ideal)) (i : Fin 65536) (j : Fin 128) :
    (StableHlo.after (hostOps0 (F := Ideal)) W (Proc.devRef .tc main_v946) : S65536x128.Idx → EReal) (ValueIdx.ix2 i j)
      = (W (Proc.devRef .tc main_arg0) : S262144x32.Idx → EReal) (ValueIdx.ix2 ⟨4 * i.val + j.val / 32, by omega⟩ ⟨j.val % 32, Nat.mod_lt _ (by decide)⟩) := by
  rw [after_hostOps0]
  exact (tail_x_apply (val8 W) i j).trans (congrFun (val8_arg0 H W) _)

end Cert.KernelIdeal.HostValue

end
-- ==== Proof.HostLayerAssemble.lean ====
/-
  A 32×4×4 array assembled from sixteen vectors of length 32, the way both gate constructors of the host program do it:
  each vector becomes a column [32,1], four columns are laid side by side into a row block [32,4], each row block gets a
  unit middle axis [32,1,4], and the four row blocks are stacked along that axis. Read at (q, i, j) the result is entry
  vector (i, j) at q.
-/
import proofs.«119607_j65481071399210_2_alg».proof.Proof.Gen.KernelIdeal
import Idealize.ShloMosaic.Lib.Pipeline.Value
import Idealize.ShloMosaic.Lib.ValueIdx

noncomputable section

namespace Cert.KernelIdeal.HostLayer

open Cert.KernelIdeal Cert.KernelIdeal.Gen Idealize.ShloMosaic Idealize.ShloMosaic.ValueIdx Idealize.SL.Sem

variable {α : Type}

/-- A vector of length 32 as a column [32,1], read at (q, 0): the vector at q. -/
theorem col_apply (x : S32.Idx → α) (q : Fin 32) :
    broadcastInDim S32x1 ![0] bcast_S32_S32x1_0 x (ix2 q (0 : Fin 1)) = x (ix1 q) :=
  broadcastInDim_apply _ _ x (ix2 q (0 : Fin 1)) (ix1 q) (fun a => match a with | ⟨0, _⟩ => rfl)

/-- A [32,4] block with a unit middle axis put in, read at (q, 0, c): the block at (q, c). -/
theorem mid_apply (x : S32x4.Idx → α) (q : Fin 32) (c : Fin 4) :
    broadcastInDim S32x1x4 ![0, 2] bcast_S32x4_S32x1x4_0_2 x (ix3 q (0 : Fin 1) c) = x (ix2 q c) :=
  broadcastInDim_apply _ _ x (ix3 q (0 : Fin 1) c) (ix2 q c) (fun a => match a with | ⟨0, _⟩ => rfl | ⟨1, _⟩ => rfl)

/-- Four columns side by side, read at (q, c): column c at (q, 0). -/
theorem row4_apply (x0 x1 x2 x3 : S32x1.Idx → α) (q : Fin 32) (c : Fin 4) :
    concatenate S32x4 1 [⟨S32x1, x0⟩, ⟨S32x1, x1⟩, ⟨S32x1, x2⟩, ⟨S32x1, x3⟩]
        concatenates_S32x1_S32x1_S32x1_S32x1_S32x4_d1 (ix2 q c)
      = (![x0, x1, x2, x3] c) (ix2 q (0 : Fin 1)) := by
  have hi : ∀ b : Fin S32x1.rank, b.cast (rfl : S32x1.rank = S32x4.rank) ≠ (1 : Fin S32x4.rank) →
      ((ix2 q (0 : Fin 1) : S32x1.Idx) b).val = ((ix2 q c : S32x4.Idx) (b.cast rfl)).val :=
    fun b hb => match b, hb with
      | ⟨0, _⟩, _ => rfl
      | ⟨1, _⟩, hb => absurd rfl hb
  match c with
  | ⟨0, _⟩ => exact concatenate_apply_piece (1 : Fin S32x4.rank) _ _ _ 0 (by simp) S32x1 x0 rfl rfl 0 rfl (ix2 q (0 : Fin 1)) hi rfl
  | ⟨1, _⟩ => exact concatenate_apply_piece (1 : Fin S32x4.rank) _ _ _ 1 (by simp) S32x1 x1 rfl rfl 1 rfl (ix2 q (0 : Fin 1)) hi rfl
  | ⟨2, _⟩ => exact concatenate_apply_piece (1 : Fin S32x4.rank) _ _ _ 2 (by simp) S32x1 x2 rfl rfl 2 rfl (ix2 q (0 : Fin 1)) hi rfl
  | ⟨3, _⟩ => exact concatenate_apply_piece (1 : Fin S32x4.rank) _ _ _ 3 (by simp) S32x1 x3 rfl rfl 3 rfl (ix2 q (0 : Fin 1)) hi rfl

/-- Four row blocks stacked along the middle axis, read at (q, r, c): block r at (q, 0, c). -/
theorem stack4_apply (x0 x1 x2 x3 : S32x1x4.Idx → α) (q : Fin 32) (r c : Fin 4) :
    concatenate S32x4x4 1 [⟨S32x1x4, x0⟩, ⟨S32x1x4, x1⟩, ⟨S32x1x4, x2⟩, ⟨S32x1x4, x3⟩]
        concatenates_S32x1x4_S32x1x4_S32x1x4_S32x1x4_S32x4x4_d1 (ix3 q r c)
      = (![x0, x1, x2, x3] r) (ix3 q (0 : Fin 1) c) := by
  have hi : ∀ b : Fin S32x1x4.rank, b.cast (rfl : S32x1x4.rank = S32x4x4.rank) ≠ (1 : Fin S32x4x4.rank) →
      ((ix3 q (0 : Fin 1) c : S32x1x4.Idx) b).val = ((ix3 q r c : S32x4x4.Idx) (b.cast rfl)).val :=
    fun b hb => match b, hb with
      | ⟨0, _⟩, _ => rfl
      | ⟨1, _⟩, hb => absurd rfl hb
      | ⟨2, _⟩, _ => rfl
  match r with
  | ⟨0, _⟩ => exact concatenate_apply_piece (1 : Fin S32x4x4.rank) _ _ _ 0 (by simp) S32x1x4 x0 rfl rfl 0 rfl (ix3 q (0 : Fin 1) c) hi rfl
  | ⟨1, _⟩ => exact concatenate_apply_piece (1 : Fin S32x4x4.rank) _ _ _ 1 (by simp) S32x1x4 x1 rfl rfl 1 rfl (ix3 q (0 : Fin 1) c) hi rfl
  | ⟨2, _⟩ => exact concatenate_apply_piece (1 : Fin S32x4x4.rank) _ _ _ 2 (by simp) S32x1x4 x2 rfl rfl 2 rfl (ix3 q (0 : Fin 1) c) hi rfl
  | ⟨3, _⟩ => exact concatenate_apply_piece (1 : Fin S32x4x4.rank) _ _ _ 3 (by simp) S32x1x4 x3 rfl rfl 3 rfl (ix3 q (0 : Fin 1) c) hi rfl

/-- One row block [32,4] from four vectors of length 32. -/
def rowOf (a b c d : S32.Idx → α) : S32x4.Idx → α :=
  concatenate S32x4 1 [⟨S32x1, broadcastInDim S32x1 ![0] bcast_S32_S32x1_0 a⟩, ⟨S32x1, broadcastInDim S32x1 ![0] bcast_S32_S32x1_0 b⟩,
    ⟨S32x1, broadcastInDim S32x1 ![0] bcast_S32_S32x1_0 c⟩, ⟨S32x1, broadcastInDim S32x1 ![0] bcast_S32_S32x1_0 d⟩]
    concatenates_S32x1_S32x1_S32x1_S32x1_S32x4_d1

theorem rowOf_apply (a b c d : S32.Idx → α) (q : Fin 32) (j : Fin 4) :
    rowOf a b c d (ix2 q j) = (![a, b, c, d] j) (ix1 q) := by
  unfold rowOf
  rw [row4_apply]
  match j with
  | ⟨0, _⟩ => exact col_apply a q
  | ⟨1, _⟩ => exact col_apply b q
  | ⟨2, _⟩ => exact col_apply c q
  | ⟨3, _⟩ => exact col_apply d q

/-- The 32×4×4 array whose entry (q, i, j) is entry vector (i, j) at q, built from the sixteen vectors row by row. -/
def matOf (e00 e01 e02 e03 e10 e11 e12 e13 e20 e21 e22 e23 e30 e31 e32 e33 : S32.Idx → α) : S32x4x4.Idx → α :=
  concatenate S32x4x4 1 [⟨S32x1x4, broadcastInDim S32x1x4 ![0, 2] bcast_S32x4_S32x1x4_0_2 (rowOf e00 e01 e02 e03)⟩,
    ⟨S32x1x4, broadcastInDim S32x1x4 ![0, 2] bcast_S32x4_S32x1x4_0_2 (rowOf e10 e11 e12 e13)⟩,
    ⟨S32x1x4, broadcastInDim S32x1x4 ![0, 2] bcast_S32x4_S32x1x4_0_2 (rowOf e20 e21 e22 e23)⟩,
    ⟨S32x1x4, broadcastInDim S32x1x4 ![0, 2] bcast_S32x4_S32x1x4_0_2 (rowOf e30 e31 e32 e33)⟩]
    concatenates_S32x1x4_S32x1x4_S32x1x4_S32x1x4_S32x4x4_d1

theorem matOf_apply (e00 e01 e02 e03 e10 e11 e12 e13 e20 e21 e22 e23 e30 e31 e32 e33 : S32.Idx → α)
    (q : Fin 32) (i j : Fin 4) :
    matOf e00 e01 e02 e03 e10 e11 e12 e13 e20 e21 e22 e23 e30 e31 e32 e33 (ix3 q i j)
      = (![![e00, e01, e02, e03], ![e10, e11, e12, e13], ![e20, e21, e22, e23], ![e30, e31, e32, e33]] i j) (ix1 q) := by
  unfold matOf
  rw [stack4_apply]
  match i with
  | ⟨0, _⟩ => exact (mid_apply _ q j).trans (rowOf_apply e00 e01 e02 e03 q j)
  | ⟨1, _⟩ => exact (mid_apply _ q j).trans (rowOf_apply e10 e11 e12 e13 q j)
  | ⟨2, _⟩ => exact (mid_apply _ q j).trans (rowOf_apply e20 e21 e22 e23 q j)
  | ⟨3, _⟩ => exact (mid_apply _ q j).trans (rowOf_apply e30 e31 e32 e33 q j)

end Cert.KernelIdeal.HostLayer

end
-- ==== Proof.HostLayerVec.lean ====
/-
  The entry vectors of a gate matrix, as the host program computes them from the angle array, read at a qubit:
  params[l, :, g] cut out and flattened to a vector of 32 angles, each angle halved (times the single-precision 1/2),
  then its cosine, its sine, the sine negated, and the zero vector. Under the hypothesis that the angle array holds
  real numbers, each is the corresponding real number; the three gate matrices assembled from them are, at qubit q,
  the real matrices RY, RZ, RX of that qubit's angle.
-/
import proofs.«119607_j65481071399210_2_alg».proof.Proof.HostLayerAssemble
import proofs.«119607_j65481071399210_2_alg».proof.Proof.Spec
import Idealize.ShloMosaic.Lib.IdealHost

noncomputable section

namespace Cert.KernelIdeal.HostLayer

open Cert.KernelIdeal Cert.KernelIdeal.Gen Idealize.ShloMosaic Idealize.ShloMosaic.ValueIdx Idealize.SL.Sem

/-- The single-precision pattern 0x3F000000 is the real number 1/2. -/
theorem ofBits_half : Ideal.ofBits .f32 0x3F000000#32 = (((1/2 : ℝ)) : EReal) := by
  simp [Ideal.ofBits, Ideal.ieee, -EReal.coe_mul]; norm_num

/-- The single-precision pattern 0x00000000 is the real number 0. -/
theorem ofBits_zero : Ideal.ofBits .f32 0x00000000#32 = ((0 : ℝ) : EReal) := by
  simp [Ideal.ofBits, Ideal.ieee]

/-- The angles params[l, :, g]: the [1,32,1] block at offsets `off` flattened to 32 entries. -/
def angle (p : FVec Ideal S8x32x3 .f32) (off : Fin 3 → Nat) (h : S8x32x3.Slices off S1x32x1) : FVec Ideal S32 .f32 :=
  shapeCast S32 (extractStridedSlice S1x32x1 off p h) shapeCasts_S1x32x1_S32

/-- The angle vector at q is the angle array at (l, q, g), where the offsets are (l, 0, g). -/
theorem angle_apply (p : FVec Ideal S8x32x3 .f32) (off : Fin 3 → Nat) (h : S8x32x3.Slices off S1x32x1)
    (l : Fin 8) (g : Fin 3) (h0 : off 0 = l.val) (h1 : off 1 = 0) (h2 : off 2 = g.val) (q : Fin 32) :
    angle p off h (ix1 q) = p (ix3 l q g) := by
  unfold angle
  refine (shapeCast_apply _ shapeCasts_S1x32x1_S32 (ix1 q) (ix3 (0 : Fin 1) q (0 : Fin 1)) ?_).trans ?_
  · rw [Shape.rowMajor_val_three, Shape.rowMajor_val_one]
    show (0 * 32 + q.val) * 1 + 0 = q.val
    omega
  · refine extractStridedSlice_apply off p h _ (ix3 l q g) (fun a => ?_)
    match a with
    | ⟨0, _⟩ => show l.val = off 0 + 0; omega
    | ⟨1, _⟩ => show q.val = off 1 + q.val; omega
    | ⟨2, _⟩ => show g.val = off 2 + 0; omega

/-- Half the angles: each entry times the single-precision 1/2. -/
def half (t : FVec Ideal S32 .f32) : FVec Ideal S32 .f32 :=
  mulf t (broadcastInDim S32 ![] bcast_S_S32 (constant (F := Ideal) S_ .f32 0x3F000000#32))

/-- The cosines of the half angles. -/
def cosV (t : FVec Ideal S32 .f32) : FVec Ideal S32 .f32 := Host.cos (half t)
/-- The sines of the half angles. -/
def sinV (t : FVec Ideal S32 .f32) : FVec Ideal S32 .f32 := Host.sin (half t)
/-- The negated sines of the half angles. -/
def nsinV (t : FVec Ideal S32 .f32) : FVec Ideal S32 .f32 := Host.negf (sinV t)
/-- The zero vector. -/
def zeroV : FVec Ideal S32 .f32 := broadcastInDim S32 ![] bcast_S_S32 (constant (F := Ideal) S_ .f32 0x00000000#32)

theorem half_apply (t : FVec Ideal S32 .f32) (q : Fin 32) (r : ℝ) (ht : t (ix1 q) = (r : EReal)) :
    half t (ix1 q) = ((r * (1/2) : ℝ) : EReal) := by
  unfold half
  rw [mulf_apply, broadcastInDim_scalar_apply, constant_apply, ht, ofBits_half, ← EReal.coe_mul]

theorem cosV_apply (t : FVec Ideal S32 .f32) (q : Fin 32) (r : ℝ) (ht : t (ix1 q) = (r : EReal)) :
    cosV t (ix1 q) = ((Real.cos (r * (1/2)) : ℝ) : EReal) := by
  show Ideal.cos (half t (ix1 q)) = _
  rw [half_apply t q r ht, Ideal.cos_coe]

theorem sinV_apply (t : FVec Ideal S32 .f32) (q : Fin 32) (r : ℝ) (ht : t (ix1 q) = (r : EReal)) :
    sinV t (ix1 q) = ((Real.sin (r * (1/2)) : ℝ) : EReal) := by
  show Ideal.sin (half t (ix1 q)) = _
  rw [half_apply t q r ht, Ideal.sin_coe]

theorem nsinV_apply (t : FVec Ideal S32 .f32) (q : Fin 32) (r : ℝ) (ht : t (ix1 q) = (r : EReal)) :
    nsinV t (ix1 q) = ((-Real.sin (r * (1/2)) : ℝ) : EReal) := by
  show -(sinV t (ix1 q)) = _
  rw [sinV_apply t q r ht, ← EReal.coe_neg]

theorem zeroV_apply (q : Fin 32) : zeroV (ix1 q) = ((0 : ℝ) : EReal) := by
  unfold zeroV
  rw [broadcastInDim_scalar_apply, constant_apply, ofBits_zero]

/-- A matrix assembled from sixteen vectors that are real numbers at q is, at q, the real matrix of those numbers. -/
theorem matOf_real (e00 e01 e02 e03 e10 e11 e12 e13 e20 e21 e22 e23 e30 e31 e32 e33 : FVec Ideal S32 .f32)
    (r00 r01 r02 r03 r10 r11 r12 r13 r20 r21 r22 r23 r30 r31 r32 r33 : ℝ) (q : Fin 32)
    (h00 : e00 (ix1 q) = (r00 : EReal)) (h01 : e01 (ix1 q) = (r01 : EReal)) (h02 : e02 (ix1 q) = (r02 : EReal)) (h03 : e03 (ix1 q) = (r03 : EReal))
    (h10 : e10 (ix1 q) = (r10 : EReal)) (h11 : e11 (ix1 q) = (r11 : EReal)) (h12 : e12 (ix1 q) = (r12 : EReal)) (h13 : e13 (ix1 q) = (r13 : EReal))
    (h20 : e20 (ix1 q) = (r20 : EReal)) (h21 : e21 (ix1 q) = (r21 : EReal)) (h22 : e22 (ix1 q) = (r22 : EReal)) (h23 : e23 (ix1 q) = (r23 : EReal))
    (h30 : e30 (ix1 q) = (r30 : EReal)) (h31 : e31 (ix1 q) = (r31 : EReal)) (h32 : e32 (ix1 q) = (r32 : EReal)) (h33 : e33 (ix1 q) = (r33 : EReal))
    (i j : Fin 4) :
    matOf e00 e01 e02 e03 e10 e11 e12 e13 e20 e21 e22 e23 e30 e31 e32 e33 (ix3 q i j)
      = (((!![r00, r01, r02, r03; r10, r11, r12, r13; r20, r21, r22, r23; r30, r31, r32, r33] : Matrix (Fin 4) (Fin 4) ℝ) i j : ℝ) : EReal) := by
  rw [matOf_apply]
  fin_cases i <;> fin_cases j
  · exact h00
  · exact h01
  · exact h02
  · exact h03
  · exact h10
  · exact h11
  · exact h12
  · exact h13
  · exact h20
  · exact h21
  · exact h22
  · exact h23
  · exact h30
  · exact h31
  · exact h32
  · exact h33

/-- The RY gate's matrices, one per qubit, from the angle vector: rows (c, 0, −s, 0), (0, c, 0, −s), (s, 0, c, 0), (0, s, 0, c). -/
def ryMat (t : FVec Ideal S32 .f32) : FVec Ideal S32x4x4 .f32 :=
  matOf (cosV t) zeroV (nsinV t) zeroV  zeroV (cosV t) zeroV (nsinV t)  (sinV t) zeroV (cosV t) zeroV  zeroV (sinV t) zeroV (cosV t)

/-- The RZ gate's matrices: rows (c, s, 0, 0), (−s, c, 0, 0), (0, 0, c, −s), (0, 0, s, c). -/
def rzMat (t : FVec Ideal S32 .f32) : FVec Ideal S32x4x4 .f32 :=
  matOf (cosV t) (sinV t) zeroV zeroV  (nsinV t) (cosV t) zeroV zeroV  zeroV zeroV (cosV t) (nsinV t)  zeroV zeroV (sinV t) (cosV t)

/-- The RX gate's matrices: rows (c, 0, 0, s), (0, c, −s, 0), (0, s, c, 0), (−s, 0, 0, c). -/
def rxMat (t : FVec Ideal S32 .f32) : FVec Ideal S32x4x4 .f32 :=
  matOf (cosV t) zeroV zeroV (sinV t)  zeroV (cosV t) (nsinV t) zeroV  zeroV (sinV t) (cosV t) zeroV  (nsinV t) zeroV zeroV (cosV t)

theorem ryMat_apply (t : FVec Ideal S32 .f32) (q : Fin 32) (r : ℝ) (ht : t (ix1 q) = (r : EReal)) (i j : Fin 4) :
    ryMat t (ix3 q i j) = ((Cert.Spec.mRy r i j : ℝ) : EReal) :=
  matOf_real _ _ _ _ _ _ _ _ _ _ _ _ _ _ _ _ _ _ _ _ _ _ _ _ _ _ _ _ _ _ _ _ q
    (cosV_apply t q r ht) (zeroV_apply q) (nsinV_apply t q r ht) (zeroV_apply q)
    (zeroV_apply q) (cosV_apply t q r ht) (zeroV_apply q) (nsinV_apply t q r ht)
    (sinV_apply t q r ht) (zeroV_apply q) (cosV_apply t q r ht) (zeroV_apply q)
    (zeroV_apply q) (sinV_apply t q r ht) (zeroV_apply q) (cosV_apply t q r ht) i j

theorem rzMat_apply (t : FVec Ideal S32 .f32) (q : Fin 32) (r : ℝ) (ht : t (ix1 q) = (r : EReal)) (i j : Fin 4) :
    rzMat t (ix3 q i j) = ((Cert.Spec.mRz r i j : ℝ) : EReal) :=
  matOf_real _ _ _ _ _ _ _ _ _ _ _ _ _ _ _ _ _ _ _ _ _ _ _ _ _ _ _ _ _ _ _ _ q
    (cosV_apply t q r ht) (sinV_apply t q r ht) (zeroV_apply q) (zeroV_apply q)
    (nsinV_apply t q r ht) (cosV_apply t q r ht) (zeroV_apply q) (zeroV_apply q)
    (zeroV_apply q) (zeroV_apply q) (cosV_apply t q r ht) (nsinV_apply t q r ht)
    (zeroV_apply q) (zeroV_apply q) (sinV_apply t q r ht) (cosV_apply t q r ht) i j

theorem rxMat_apply (t : FVec Ideal S32 .f32) (q : Fin 32) (r : ℝ) (ht : t (ix1 q) = (r : EReal)) (i j : Fin 4) :
    rxMat t (ix3 q i j) = ((Cert.Spec.mRx r i j : ℝ) : EReal) :=
  matOf_real _ _ _ _ _ _ _ _ _ _ _ _ _ _ _ _ _ _ _ _ _ _ _ _ _ _ _ _ _ _ _ _ q
    (cosV_apply t q r ht) (zeroV_apply q) (zeroV_apply q) (sinV_apply t q r ht)
    (zeroV_apply q) (cosV_apply t q r ht) (nsinV_apply t q r ht) (zeroV_apply q)
    (zeroV_apply q) (sinV_apply t q r ht) (cosV_apply t q r ht) (zeroV_apply q)
    (nsinV_apply t q r ht) (zeroV_apply q) (zeroV_apply q) (cosV_apply t q r ht) i j

end Cert.KernelIdeal.HostLayer

end
-- ==== Proof.HostLayerDot.lean ====
/-
  The batched 4×4 matrix product of the host program (one product per qubit: batch axis 0, the left factor's last axis
  contracted with the right factor's middle axis), read at (q, i, j) on arrays of real numbers: the (i, j) entry of the
  product of the two real matrices of qubit q. One layer of the circuit is three such products: RZ·RY, RX·(RZ·RY), and
  that times the matrix accumulated so far.
-/
import proofs.«119607_j65481071399210_2_alg».proof.Proof.HostLayerVec
import Idealize.ShloMosaic.Lib.StackMember

noncomputable section

namespace Cert.KernelIdeal.HostLayer

open Cert.KernelIdeal Cert.KernelIdeal.Gen Idealize.ShloMosaic Idealize.ShloMosaic.ValueIdx Idealize.SL.Sem

/-- The host's batched product at (q, i, j), when both factors hold real matrices at qubit q. -/
theorem dot_apply (A B : FVec Ideal S32x4x4 .f32) (Ar Br : Matrix (Fin 4) (Fin 4) ℝ) (q : Fin 32)
    (hA : ∀ i j : Fin 4, A (ix3 q i j) = ((Ar i j : ℝ) : EReal)) (hB : ∀ i j : Fin 4, B (ix3 q i j) = ((Br i j : ℝ) : EReal))
    (i j : Fin 4) :
    Host.dotGeneral dot_S32x4x4_S32x4x4_S32x4x4_2_1_1_2_0_0 none A B (ix3 q i j) = (((Ar * Br) i j : ℝ) : EReal) := by
  refine (StackMember.dotGeneral_stack_apply (G := 32) (m := 4) (n := 4) (k := 4)
    dot_S32x4x4_S32x4x4_S32x4x4_2_1_1_2_0_0_wf none A B q i j).trans ?_
  rw [Matrix.mul_apply, Fin.sum_univ_four, Fin.sum_univ_four]
  simp only [hA, hB, EReal.coe_add, EReal.coe_mul]

/-- One layer on values: from the angle array `p` and the accumulated matrices `M`, the three gate matrices at the
    layer's three offsets into `p`, then RX·(RZ·RY) times `M`. -/
def layerVal (p : FVec Ideal S8x32x3 .f32) (M : FVec Ideal S32x4x4 .f32) (o0 o1 o2 : Fin 3 → Nat)
    (h0 : S8x32x3.Slices o0 S1x32x1) (h1 : S8x32x3.Slices o1 S1x32x1) (h2 : S8x32x3.Slices o2 S1x32x1) :
    FVec Ideal S32x4x4 .f32 :=
  Host.dotGeneral dot_S32x4x4_S32x4x4_S32x4x4_2_1_1_2_0_0 none
    (Host.dotGeneral dot_S32x4x4_S32x4x4_S32x4x4_2_1_1_2_0_0 none (rxMat (angle p o2 h2))
      (Host.dotGeneral dot_S32x4x4_S32x4x4_S32x4x4_2_1_1_2_0_0 none (rzMat (angle p o1 h1)) (ryMat (angle p o0 h0))))
    M

/-- One layer on arrays of real numbers, at (q, i, j): the layer's real matrix for qubit q's three angles times the
    accumulated real matrix of qubit q. -/
theorem layerVal_apply (p : FVec Ideal S8x32x3 .f32) (M : FVec Ideal S32x4x4 .f32) (o0 o1 o2 : Fin 3 → Nat)
    (h0 : S8x32x3.Slices o0 S1x32x1) (h1 : S8x32x3.Slices o1 S1x32x1) (h2 : S8x32x3.Slices o2 S1x32x1)
    (l : Fin 8) (e0 : o0 = ![l.val, 0, 0]) (e1 : o1 = ![l.val, 0, 1]) (e2 : o2 = ![l.val, 0, 2])
    (pr : Fin 8 → Fin 32 → Fin 3 → ℝ) (hp : ∀ (a : Fin 8) (q : Fin 32) (g : Fin 3), p (ix3 a q g) = ((pr a q g : ℝ) : EReal))
    (Mr : Fin 32 → Matrix (Fin 4) (Fin 4) ℝ) (hM : ∀ (q : Fin 32) (i j : Fin 4), M (ix3 q i j) = ((Mr q i j : ℝ) : EReal))
    (q : Fin 32) (i j : Fin 4) :
    layerVal p M o0 o1 o2 h0 h1 h2 (ix3 q i j)
      = (((Cert.Spec.mLayer (fun g => pr l q g) * Mr q) i j : ℝ) : EReal) := by
  have t0 : angle p o0 h0 (ix1 q) = ((pr l q 0 : ℝ) : EReal) :=
    (angle_apply p o0 h0 l 0 (congrFun e0 0) (congrFun e0 1) (congrFun e0 2) q).trans (hp l q 0)
  have t1 : angle p o1 h1 (ix1 q) = ((pr l q 1 : ℝ) : EReal) :=
    (angle_apply p o1 h1 l 1 (congrFun e1 0) (congrFun e1 1) (congrFun e1 2) q).trans (hp l q 1)
  have t2 : angle p o2 h2 (ix1 q) = ((pr l q 2 : ℝ) : EReal) :=
    (angle_apply p o2 h2 l 2 (congrFun e2 0) (congrFun e2 1) (congrFun e2 2) q).trans (hp l q 2)
  unfold layerVal Cert.Spec.mLayer
  exact dot_apply _ _ _ _ q
    (dot_apply _ _ _ _ q (rxMat_apply _ q _ t2)
      (dot_apply _ _ _ _ q (rzMat_apply _ q _ t1) (ryMat_apply _ q _ t0)))
    (hM q) i j

end Cert.KernelIdeal.HostLayer

end
-- ==== Proof.HostLayerKeep.lean ====
/-
  Book-keeping for stretches of host operations: a reference that none of four consecutive stretches writes holds, after
  the four, what it held before; and the routine check, used for every stretch, that its operations write only the
  references of a given list.
-/
import proofs.«119607_j65481071399210_2_alg».proof.Proof.HostChunks
import proofs.«119607_j65481071399210_2_alg».proof.Proof.HostLayerDot

set_option maxRecDepth 65536

noncomputable section

namespace Cert.KernelIdeal.HostLayer

open Cert.KernelIdeal Cert.KernelIdeal.Gen Idealize.ShloMosaic Idealize.ShloMosaic.ValueIdx Idealize.SL.Sem

open StableHlo

/-- Every operation of a literal stretch writes only references of the given literal list: one membership per operation. -/
macro "stretch_writes" : tactic =>
  `(tactic| (simp only [List.Forall]
             repeat' apply And.intro
             all_goals (simp only [nullary_writes, unary_writes, binary_writes, ternary_writes, quaternary_writes, reshape_writes,
               binaryIndexed_writes, nary_writes, unaryIndexed_writes, Finset.singleton_subset_iff, List.mem_toFinset]
                        exact List.mem_map_of_mem (by decide))))

/-- Four stretches run in a row leave alone every reference that none of them writes. -/
theorem keep4 {g0 g1 g2 d : List (HloOp τ sig (Elt Ideal))} {W0 W1 W2 Wd : List (Ref sig .tc)}
    (k0 : ∀ (V : Valuation τ sig (Elt Ideal)) (r : Ref sig .tc), r ∉ W0 → after g0 V (Proc.devRef .tc r) = V (Proc.devRef .tc r))
    (k1 : ∀ (V : Valuation τ sig (Elt Ideal)) (r : Ref sig .tc), r ∉ W1 → after g1 V (Proc.devRef .tc r) = V (Proc.devRef .tc r))
    (k2 : ∀ (V : Valuation τ sig (Elt Ideal)) (r : Ref sig .tc), r ∉ W2 → after g2 V (Proc.devRef .tc r) = V (Proc.devRef .tc r))
    (kd : ∀ (V : Valuation τ sig (Elt Ideal)) (r : Ref sig .tc), r ∉ Wd → after d V (Proc.devRef .tc r) = V (Proc.devRef .tc r))
    (V : Valuation τ sig (Elt Ideal)) (r : Ref sig .tc) (hr : r ∉ W0 ++ (W1 ++ (W2 ++ Wd))) :
    after (g0 ++ (g1 ++ (g2 ++ d))) V (Proc.devRef .tc r) = V (Proc.devRef .tc r) := by
  have h0 : r ∉ W0 := fun h => hr (List.mem_append_left _ h)
  have h1 : r ∉ W1 := fun h => hr (List.mem_append_right _ (List.mem_append_left _ h))
  have h2 : r ∉ W2 := fun h => hr (List.mem_append_right _ (List.mem_append_right _ (List.mem_append_left _ h)))
  have hd : r ∉ Wd := fun h => hr (List.mem_append_right _ (List.mem_append_right _ (List.mem_append_right _ h)))
  rw [after_append, after_append, after_append, kd _ r hd, k2 _ r h2, k1 _ r h1, k0 _ r h0]

end Cert.KernelIdeal.HostLayer

end
-- ==== Proof.HostLayerL0.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 0 of the host program, stretch by stretch: the three gate stretches leave the RY, RZ and RX matrices of the
  angles params[0, :, 0], params[0, :, 1], params[0, :, 2] in their result buffers, the three products leave
  RX·(RZ·RY) times the matrix accumulated so far in `main_v117`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 0 writes. -/
abbrev gateW_0_0 : List (Ref sig .tc) := [main_v7, main_v8, main_cst, main_v9, main_v10, main_v11, main_cst_0, main_v12, main_v13, main_v14, main_cst_1, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]
theorem gate_0_0_writes : (gateOps_0_0 : List (HloOp τ sig (Elt Ideal))).Forall fun op => op.writes ⊆ (gateW_0_0.map (Proc.devRef (τ := τ) .tc)).toFinset := by
  stretch_writes
theorem gate_0_0_keep (V : Valuation τ sig (Elt Ideal)) (r : Ref sig .tc) (h : r ∉ gateW_0_0) :
    after gateOps_0_0 V (Proc.devRef .tc r) = V (Proc.devRef .tc r) :=
  after_of_writes_sub gateOps_0_0 V gate_0_0_writes h
/-- The RY stretch of layer 0 leaves the RY matrices of the angles params[0, :, 0] in `main_v42`. -/
theorem gate_0_0_val (V : Valuation τ sig (Elt Ideal)) :
    (after gateOps_0_0 V (Proc.devRef .tc main_v42) : FVec Ideal S32x4x4 .f32)
      = ryMat (angle (V (Proc.devRef .tc main_arg1)) ![0, 0, 0] slices_S8x32x3_S1x32x1_0_0_0) := by
  dsimp only [gateOps_0_0]
  after_results_simp
  rfl

/-- The references the RZ stretch of layer 0 writes. -/
abbrev gateW_0_1 : List (Ref sig .tc) := [main_v43, main_v44, main_cst_2, main_v45, main_v46, main_v47, main_cst_3, main_v48, main_v49, main_v50, main_cst_4, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78]
theorem gate_0_1_writes : (gateOps_0_1 : List (HloOp τ sig (Elt Ideal))).Forall fun op => op.writes ⊆ (gateW_0_1.map (Proc.devRef (τ := τ) .tc)).toFinset := by
  stretch_writes
theorem gate_0_1_keep (V : Valuation τ sig (Elt Ideal)) (r : Ref sig .tc) (h : r ∉ gateW_0_1) :
    after gateOps_0_1 V (Proc.devRef .tc r) = V (Proc.devRef .tc r) :=
  after_of_writes_sub gateOps_0_1 V gate_0_1_writes h
/-- The RZ stretch of layer 0 leaves the RZ matrices of the angles params[0, :, 1] in `main_v78`. -/
theorem gate_0_1_val (V : Valuation τ sig (Elt Ideal)) :
    (after gateOps_0_1 V (Proc.devRef .tc main_v78) : FVec Ideal S32x4x4 .f32)
      = rzMat (angle (V (Proc.devRef .tc main_arg1)) ![0, 0, 1] slices_S8x32x3_S1x32x1_0_0_1) := by
  dsimp only [gateOps_0_1]
  after_results_simp
  rfl

/-- The references the RX stretch of layer 0 writes. -/
abbrev gateW_0_2 : List (Ref sig .tc) := [main_v79, main_v80, main_cst_5, main_v81, main_v82, main_v83, main_cst_6, main_v84, main_v85, main_v86, main_cst_7, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]
theorem gate_0_2_writes : (gateOps_0_2 : List (HloOp τ sig (Elt Ideal))).Forall fun op => op.writes ⊆ (gateW_0_2.map (Proc.devRef (τ := τ) .tc)).toFinset := by
  stretch_writes
theorem gate_0_2_keep (V : Valuation τ sig (Elt Ideal)) (r : Ref sig .tc) (h : r ∉ gateW_0_2) :
    after gateOps_0_2 V (Proc.devRef .tc r) = V (Proc.devRef .tc r) :=
  after_of_writes_sub gateOps_0_2 V gate_0_2_writes h
/-- The RX stretch of layer 0 leaves the RX matrices of the angles params[0, :, 2] in `main_v114`. -/
theorem gate_0_2_val (V : Valuation τ sig (Elt Ideal)) :
    (after gateOps_0_2 V (Proc.devRef .tc main_v114) : FVec Ideal S32x4x4 .f32)
      = rxMat (angle (V (Proc.devRef .tc main_arg1)) ![0, 0, 2] slices_S8x32x3_S1x32x1_0_0_2) := by
  dsimp only [gateOps_0_2]
  after_results_simp
  rfl

/-- The references the three products of layer 0 write. -/
abbrev dotW_0 : List (Ref sig .tc) := [main_v115, main_v116, main_v117]
theorem dots_0_writes : (dotOps_0 : List (HloOp τ sig (Elt Ideal))).Forall fun op => op.writes ⊆ (dotW_0.map (Proc.devRef (τ := τ) .tc)).toFinset := by
  stretch_writes
theorem dots_0_keep (V : Valuation τ sig (Elt Ideal)) (r : Ref sig .tc) (h : r ∉ dotW_0) :
    after dotOps_0 V (Proc.devRef .tc r) = V (Proc.devRef .tc r) :=
  after_of_writes_sub dotOps_0 V dots_0_writes h
/-- The three products of layer 0: RZ·RY, then RX·(RZ·RY), then that times the accumulated matrix. -/
theorem dots_0_val (V : Valuation τ sig (Elt Ideal)) :
    (after dotOps_0 V (Proc.devRef .tc main_v117) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v114))
            (Host.dotGeneral (F := Ideal) (φ₁ := .f32) (φ₂ := .f32) dot_S32x4x4_S32x4x4_S32x4x4_2_1_1_2_0_0 none (V (Proc.devRef .tc main_v78)) (V (Proc.devRef .tc main_v42))))
          (V (Proc.devRef .tc main_v6)) := by
  dsimp only [dotOps_0]
  after_results_simp

/-- The references layer 0 writes. -/
abbrev layerW_0 : List (Ref sig .tc) := gateW_0_0 ++ (gateW_0_1 ++ (gateW_0_2 ++ dotW_0))

/-- Layer 0 leaves alone every reference it does not write. -/
theorem layer_0_keep (V : Valuation τ sig (Elt Ideal)) (r : Ref sig .tc) (h : r ∉ layerW_0) :
    after (gateOps_0_0 ++ (gateOps_0_1 ++ (gateOps_0_2 ++ dotOps_0))) V (Proc.devRef .tc r) = V (Proc.devRef .tc r) :=
  keep4 gate_0_0_keep gate_0_1_keep gate_0_2_keep dots_0_keep V r h

/-- Layer 0 on values: `main_v117` ends at the layer's three gate matrices, multiplied up, times what `main_v6` held. -/
theorem layer_0_val (V : Valuation τ sig (Elt Ideal)) :
    (after (gateOps_0_0 ++ (gateOps_0_1 ++ (gateOps_0_2 ++ dotOps_0))) V (Proc.devRef .tc main_v117) : FVec Ideal S32x4x4 .f32)
      = layerVal (V (Proc.devRef .tc main_arg1)) (V (Proc.devRef .tc main_v6)) ![0, 0, 0] ![0, 0, 1] ![0, 0, 2]
          slices_S8x32x3_S1x32x1_0_0_0 slices_S8x32x3_S1x32x1_0_0_1 slices_S8x32x3_S1x32x1_0_0_2 := by
  rw [after_append, after_append, after_append, dots_0_val,
    gate_0_2_val, gate_0_2_keep _ main_v78 (by decide), gate_0_2_keep _ main_v42 (by decide), gate_0_2_keep _ main_v6 (by decide),
    gate_0_1_val, gate_0_1_keep _ main_v42 (by decide), gate_0_1_keep _ main_v6 (by decide), gate_0_1_keep _ main_arg1 (by decide),
    gate_0_0_val, gate_0_0_keep _ main_v6 (by decide), gate_0_0_keep _ main_arg1 (by decide)]
  rfl

end Cert.KernelIdeal.HostLayer

end
-- ==== Proof.HostLayerL1.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 1 of the host program, stretch by stretch: the three gate stretches leave the RY, RZ and RX matrices of the
  angles params[1, :, 0], params[1, :, 1], params[1, :, 2] in their result buffers, the three products leave
  RX·(RZ·RY) times the matrix accumulated so far in `main_v228`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 1 writes. -/
abbrev gateW_1_0 : List (Ref sig .tc) := [main_v118, main_v119, main_cst_8, main_v120, main_v121, main_v122, main_cst_9, main_v123, main_v124, main_v125, main_cst_10, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153]
theorem gate_1_0_writes : (gateOps_1_0 : List (HloOp τ sig (Elt Ideal))).Forall fun op => op.writes ⊆ (gateW_1_0.map (Proc.devRef (τ := τ) .tc)).toFinset := by
  stretch_writes
theorem gate_1_0_keep (V : Valuation τ sig (Elt Ideal)) (r : Ref sig .tc) (h : r ∉ gateW_1_0) :
    after gateOps_1_0 V (Proc.devRef .tc r) = V (Proc.devRef .tc r) :=
  after_of_writes_sub gateOps_1_0 V gate_1_0_writes h
/-- The RY stretch of layer 1 leaves the RY matrices of the angles params[1, :, 0] in `main_v153`. -/
theorem gate_1_0_val (V : Valuation τ sig (Elt Ideal)) :
    (after gateOps_1_0 V (Proc.devRef .tc main_v153) : FVec Ideal S32x4x4 .f32)
      = ryMat (angle (V (Proc.devRef .tc main_arg1)) ![1, 0, 0] slices_S8x32x3_S1x32x1_1_0_0) := by
  dsimp only [gateOps_1_0]
  after_results_simp
  rfl

/-- The references the RZ stretch of layer 1 writes. -/
abbrev gateW_1_1 : List (Ref sig .tc) := [main_v154, main_v155, main_cst_11, main_v156, main_v157, main_v158, main_cst_12, main_v159, main_v160, main_v161, main_cst_13, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189]
theorem gate_1_1_writes : (gateOps_1_1 : List (HloOp τ sig (Elt Ideal))).Forall fun op => op.writes ⊆ (gateW_1_1.map (Proc.devRef (τ := τ) .tc)).toFinset := by
  stretch_writes
theorem gate_1_1_keep (V : Valuation τ sig (Elt Ideal)) (r : Ref sig .tc) (h : r ∉ gateW_1_1) :
    after gateOps_1_1 V (Proc.devRef .tc r) = V (Proc.devRef .tc r) :=
  after_of_writes_sub gateOps_1_1 V gate_1_1_writes h
/-- The RZ stretch of layer 1 leaves the RZ matrices of the angles params[1, :, 1] in `main_v189`. -/
theorem gate_1_1_val (V : Valuation τ sig (Elt Ideal)) :
    (after gateOps_1_1 V (Proc.devRef .tc main_v189) : FVec Ideal S32x4x4 .f32)
      = rzMat (angle (V (Proc.devRef .tc main_arg1)) ![1, 0, 1] slices_S8x32x3_S1x32x1_1_0_1) := by
  dsimp only [gateOps_1_1]
  after_results_simp
  rfl

/-- The references the RX stretch of layer 1 writes. -/
abbrev gateW_1_2 : List (Ref sig .tc) := [main_v190, main_v191, main_cst_14, main_v192, main_v193, main_v194, main_cst_15, main_v195, main_v196, main_v197, main_cst_16, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225]
theorem gate_1_2_writes : (gateOps_1_2 : List (HloOp τ sig (Elt Ideal))).Forall fun op => op.writes ⊆ (gateW_1_2.map (Proc.devRef (τ := τ) .tc)).toFinset := by
  stretch_writes
theorem gate_1_2_keep (V : Valuation τ sig (Elt Ideal)) (r : Ref sig .tc) (h : r ∉ gateW_1_2) :
    after gateOps_1_2 V (Proc.devRef .tc r) = V (Proc.devRef .tc r) :=
  after_of_writes_sub gateOps_1_2 V gate_1_2_writes h
/-- The RX stretch of layer 1 leaves the RX matrices of the angles params[1, :, 2] in `main_v225`. -/
theorem gate_1_2_val (V : Valuation τ sig (Elt Ideal)) :
    (after gateOps_1_2 V (Proc.devRef .tc main_v225) : FVec Ideal S32x4x4 .f32)
      = rxMat (angle (V (Proc.devRef .tc main_arg1)) ![1, 0, 2] slices_S8x32x3_S1x32x1_1_0_2) := by
  dsimp only [gateOps_1_2]
  after_results_simp
  rfl

/-- The references the three products of layer 1 write. -/
abbrev dotW_1 : List (Ref sig .tc) := [main_v226, main_v227, main_v228]
theorem dots_1_writes : (dotOps_1 : List (HloOp τ sig (Elt Ideal))).Forall fun op => op.writes ⊆ (dotW_1.map (Proc.devRef (τ := τ) .tc)).toFinset := by
  stretch_writes
theorem dots_1_keep (V : Valuation τ sig (Elt Ideal)) (r : Ref sig .tc) (h : r ∉ dotW_1) :
    after dotOps_1 V (Proc.devRef .tc r) = V (Proc.devRef .tc r) :=
  after_of_writes_sub dotOps_1 V dots_1_writes h
/-- The three products of layer 1: RZ·RY, then RX·(RZ·RY), then that times the accumulated matrix. -/
theorem dots_1_val (V : Valuation τ sig (Elt Ideal)) :
    (after dotOps_1 V (Proc.devRef .tc main_v228) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v225))
            (Host.dotGeneral (F := Ideal) (φ₁ := .f32) (φ₂ := .f32) dot_S32x4x4_S32x4x4_S32x4x4_2_1_1_2_0_0 none (V (Proc.devRef .tc main_v189)) (V (Proc.devRef .tc main_v153))))
          (V (Proc.devRef .tc main_v117)) := by
  dsimp only [dotOps_1]
  after_results_simp

/-- The references layer 1 writes. -/
abbrev layerW_1 : List (Ref sig .tc) := gateW_1_0 ++ (gateW_1_1 ++ (gateW_1_2 ++ dotW_1))

/-- Layer 1 leaves alone every reference it does not write. -/
theorem layer_1_keep (V : Valuation τ sig (Elt Ideal)) (r : Ref sig .tc) (h : r ∉ layerW_1) :
    after (gateOps_1_0 ++ (gateOps_1_1 ++ (gateOps_1_2 ++ dotOps_1))) V (Proc.devRef .tc r) = V (Proc.devRef .tc r) :=
  keep4 gate_1_0_keep gate_1_1_keep gate_1_2_keep dots_1_keep V r h

/-- Layer 1 on values: `main_v228` ends at the layer's three gate matrices, multiplied up, times what `main_v117` held. -/
theorem layer_1_val (V : Valuation τ sig (Elt Ideal)) :
    (after (gateOps_1_0 ++ (gateOps_1_1 ++ (gateOps_1_2 ++ dotOps_1))) V (Proc.devRef .tc main_v228) : FVec Ideal S32x4x4 .f32)
      = layerVal (V (Proc.devRef .tc main_arg1)) (V (Proc.devRef .tc main_v117)) ![1, 0, 0] ![1, 0, 1] ![1, 0, 2]
          slices_S8x32x3_S1x32x1_1_0_0 slices_S8x32x3_S1x32x1_1_0_1 slices_S8x32x3_S1x32x1_1_0_2 := by
  rw [after_append, after_append, after_append, dots_1_val,
    gate_1_2_val, gate_1_2_keep _ main_v189 (by decide), gate_1_2_keep _ main_v153 (by decide), gate_1_2_keep _ main_v117 (by decide),
    gate_1_1_val, gate_1_1_keep _ main_v153 (by decide), gate_1_1_keep _ main_v117 (by decide), gate_1_1_keep _ main_arg1 (by decide),
    gate_1_0_val, gate_1_0_keep _ main_v117 (by decide), gate_1_0_keep _ main_arg1 (by decide)]
  rfl

end Cert.KernelIdeal.HostLayer

end
-- ==== Proof.HostLayerL2.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 2 of the host program, stretch by stretch: the three gate stretches leave the RY, RZ and RX matrices of the
  angles params[2, :, 0], params[2, :, 1], params[2, :, 2] in their result buffers, the three products leave
  RX·(RZ·RY) times the matrix accumulated so far in `main_v339`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 2 writes. -/
abbrev gateW_2_0 : List (Ref sig .tc) := [main_v229, main_v230, main_cst_17, main_v231, main_v232, main_v233, main_cst_18, main_v234, main_v235, main_v236, main_cst_19, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264]
theorem gate_2_0_writes : (gateOps_2_0 : List (HloOp τ sig (Elt Ideal))).Forall fun op => op.writes ⊆ (gateW_2_0.map (Proc.devRef (τ := τ) .tc)).toFinset := by
  stretch_writes
theorem gate_2_0_keep (V : Valuation τ sig (Elt Ideal)) (r : Ref sig .tc) (h : r ∉ gateW_2_0) :
    after gateOps_2_0 V (Proc.devRef .tc r) = V (Proc.devRef .tc r) :=
  after_of_writes_sub gateOps_2_0 V gate_2_0_writes h
/-- The RY stretch of layer 2 leaves the RY matrices of the angles params[2, :, 0] in `main_v264`. -/
theorem gate_2_0_val (V : Valuation τ sig (Elt Ideal)) :
    (after gateOps_2_0 V (Proc.devRef .tc main_v264) : FVec Ideal S32x4x4 .f32)
      = ryMat (angle (V (Proc.devRef .tc main_arg1)) ![2, 0, 0] slices_S8x32x3_S1x32x1_2_0_0) := by
  dsimp only [gateOps_2_0]
  after_results_simp
  rfl

/-- The references the RZ stretch of layer 2 writes. -/
abbrev gateW_2_1 : List (Ref sig .tc) := [main_v265, main_v266, main_cst_20, main_v267, main_v268, main_v269, main_cst_21, main_v270, main_v271, main_v272, main_cst_22, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300]
theorem gate_2_1_writes : (gateOps_2_1 : List (HloOp τ sig (Elt Ideal))).Forall fun op => op.writes ⊆ (gateW_2_1.map (Proc.devRef (τ := τ) .tc)).toFinset := by
  stretch_writes
theorem gate_2_1_keep (V : Valuation τ sig (Elt Ideal)) (r : Ref sig .tc) (h : r ∉ gateW_2_1) :
    after gateOps_2_1 V (Proc.devRef .tc r) = V (Proc.devRef .tc r) :=
  after_of_writes_sub gateOps_2_1 V gate_2_1_writes h
/-- The RZ stretch of layer 2 leaves the RZ matrices of the angles params[2, :, 1] in `main_v300`. -/
theorem gate_2_1_val (V : Valuation τ sig (Elt Ideal)) :
    (after gateOps_2_1 V (Proc.devRef .tc main_v300) : FVec Ideal S32x4x4 .f32)
      = rzMat (angle (V (Proc.devRef .tc main_arg1)) ![2, 0, 1] slices_S8x32x3_S1x32x1_2_0_1) := by
  dsimp only [gateOps_2_1]
  after_results_simp
  rfl

/-- The references the RX stretch of layer 2 writes. -/
abbrev gateW_2_2 : List (Ref sig .tc) := [main_v301, main_v302, main_cst_23, main_v303, main_v304, main_v305, main_cst_24, main_v306, main_v307, main_v308, main_cst_25, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336]
theorem gate_2_2_writes : (gateOps_2_2 : List (HloOp τ sig (Elt Ideal))).Forall fun op => op.writes ⊆ (gateW_2_2.map (Proc.devRef (τ := τ) .tc)).toFinset := by
  stretch_writes
theorem gate_2_2_keep (V : Valuation τ sig (Elt Ideal)) (r : Ref sig .tc) (h : r ∉ gateW_2_2) :
    after gateOps_2_2 V (Proc.devRef .tc r) = V (Proc.devRef .tc r) :=
  after_of_writes_sub gateOps_2_2 V gate_2_2_writes h
/-- The RX stretch of layer 2 leaves the RX matrices of the angles params[2, :, 2] in `main_v336`. -/
theorem gate_2_2_val (V : Valuation τ sig (Elt Ideal)) :
    (after gateOps_2_2 V (Proc.devRef .tc main_v336) : FVec Ideal S32x4x4 .f32)
      = rxMat (angle (V (Proc.devRef .tc main_arg1)) ![2, 0, 2] slices_S8x32x3_S1x32x1_2_0_2) := by
  dsimp only [gateOps_2_2]
  after_results_simp
  rfl

/-- The references the three products of layer 2 write. -/
abbrev dotW_2 : List (Ref sig .tc) := [main_v337, main_v338, main_v339]
theorem dots_2_writes : (dotOps_2 : List (HloOp τ sig (Elt Ideal))).Forall fun op => op.writes ⊆ (dotW_2.map (Proc.devRef (τ := τ) .tc)).toFinset := by
  stretch_writes
theorem dots_2_keep (V : Valuation τ sig (Elt Ideal)) (r : Ref sig .tc) (h : r ∉ dotW_2) :
    after dotOps_2 V (Proc.devRef .tc r) = V (Proc.devRef .tc r) :=
  after_of_writes_sub dotOps_2 V dots_2_writes h
/-- The three products of layer 2: RZ·RY, then RX·(RZ·RY), then that times the accumulated matrix. -/
theorem dots_2_val (V : Valuation τ sig (Elt Ideal)) :
    (after dotOps_2 V (Proc.devRef .tc main_v339) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v336))
            (Host.dotGeneral (F := Ideal) (φ₁ := .f32) (φ₂ := .f32) dot_S32x4x4_S32x4x4_S32x4x4_2_1_1_2_0_0 none (V (Proc.devRef .tc main_v300)) (V (Proc.devRef .tc main_v264))))
          (V (Proc.devRef .tc main_v228)) := by
  dsimp only [dotOps_2]
  after_results_simp

/-- The references layer 2 writes. -/
abbrev layerW_2 : List (Ref sig .tc) := gateW_2_0 ++ (gateW_2_1 ++ (gateW_2_2 ++ dotW_2))

/-- Layer 2 leaves alone every reference it does not write. -/
theorem layer_2_keep (V : Valuation τ sig (Elt Ideal)) (r : Ref sig .tc) (h : r ∉ layerW_2) :
    after (gateOps_2_0 ++ (gateOps_2_1 ++ (gateOps_2_2 ++ dotOps_2))) V (Proc.devRef .tc r) = V (Proc.devRef .tc r) :=
  keep4 gate_2_0_keep gate_2_1_keep gate_2_2_keep dots_2_keep V r h

/-- Layer 2 on values: `main_v339` ends at the layer's three gate matrices, multiplied up, times what `main_v228` held. -/
theorem layer_2_val (V : Valuation τ sig (Elt Ideal)) :
    (after (gateOps_2_0 ++ (gateOps_2_1 ++ (gateOps_2_2 ++ dotOps_2))) V (Proc.devRef .tc main_v339) : FVec Ideal S32x4x4 .f32)
      = layerVal (V (Proc.devRef .tc main_arg1)) (V (Proc.devRef .tc main_v228)) ![2, 0, 0] ![2, 0, 1] ![2, 0, 2]
          slices_S8x32x3_S1x32x1_2_0_0 slices_S8x32x3_S1x32x1_2_0_1 slices_S8x32x3_S1x32x1_2_0_2 := by
  rw [after_append, after_append, after_append, dots_2_val,
    gate_2_2_val, gate_2_2_keep _ main_v300 (by decide), gate_2_2_keep _ main_v264 (by decide), gate_2_2_keep _ main_v228 (by decide),
    gate_2_1_val, gate_2_1_keep _ main_v264 (by decide), gate_2_1_keep _ main_v228 (by decide), gate_2_1_keep _ main_arg1 (by decide),
    gate_2_0_val, gate_2_0_keep _ main_v228 (by decide), gate_2_0_keep _ main_arg1 (by decide)]
  rfl

end Cert.KernelIdeal.HostLayer

end
-- ==== Proof.HostLayerL3.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 3 of the host program, stretch by stretch: the three gate stretches leave the RY, RZ and RX matrices of the
  angles params[3, :, 0], params[3, :, 1], params[3, :, 2] in their result buffers, the three products leave
  RX·(RZ·RY) times the matrix accumulated so far in `main_v450`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 3 writes. -/
abbrev gateW_3_0 : List (Ref sig .tc) := [main_v340, main_v341, main_cst_26, main_v342, main_v343, main_v344, main_cst_27, main_v345, main_v346, main_v347, main_cst_28, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375]
theorem gate_3_0_writes : (gateOps_3_0 : List (HloOp τ sig (Elt Ideal))).Forall fun op => op.writes ⊆ (gateW_3_0.map (Proc.devRef (τ := τ) .tc)).toFinset := by
  stretch_writes
theorem gate_3_0_keep (V : Valuation τ sig (Elt Ideal)) (r : Ref sig .tc) (h : r ∉ gateW_3_0) :
    after gateOps_3_0 V (Proc.devRef .tc r) = V (Proc.devRef .tc r) :=
  after_of_writes_sub gateOps_3_0 V gate_3_0_writes h
/-- The RY stretch of layer 3 leaves the RY matrices of the angles params[3, :, 0] in `main_v375`. -/
theorem gate_3_0_val (V : Valuation τ sig (Elt Ideal)) :
    (after gateOps_3_0 V (Proc.devRef .tc main_v375) : FVec Ideal S32x4x4 .f32)
      = ryMat (angle (V (Proc.devRef .tc main_arg1)) ![3, 0, 0] slices_S8x32x3_S1x32x1_3_0_0) := by
  dsimp only [gateOps_3_0]
  after_results_simp
  rfl

/-- The references the RZ stretch of layer 3 writes. -/
abbrev gateW_3_1 : List (Ref sig .tc) := [main_v376, main_v377, main_cst_29, main_v378, main_v379, main_v380, main_cst_30, main_v381, main_v382, main_v383, main_cst_31, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411]
theorem gate_3_1_writes : (gateOps_3_1 : List (HloOp τ sig (Elt Ideal))).Forall fun op => op.writes ⊆ (gateW_3_1.map (Proc.devRef (τ := τ) .tc)).toFinset := by
  stretch_writes
theorem gate_3_1_keep (V : Valuation τ sig (Elt Ideal)) (r : Ref sig .tc) (h : r ∉ gateW_3_1) :
    after gateOps_3_1 V (Proc.devRef .tc r) = V (Proc.devRef .tc r) :=
  after_of_writes_sub gateOps_3_1 V gate_3_1_writes h
/-- The RZ stretch of layer 3 leaves the RZ matrices of the angles params[3, :, 1] in `main_v411`. -/
theorem gate_3_1_val (V : Valuation τ sig (Elt Ideal)) :
    (after gateOps_3_1 V (Proc.devRef .tc main_v411) : FVec Ideal S32x4x4 .f32)
      = rzMat (angle (V (Proc.devRef .tc main_arg1)) ![3, 0, 1] slices_S8x32x3_S1x32x1_3_0_1) := by
  dsimp only [gateOps_3_1]
  after_results_simp
  rfl

/-- The references the RX stretch of layer 3 writes. -/
abbrev gateW_3_2 : List (Ref sig .tc) := [main_v412, main_v413, main_cst_32, main_v414, main_v415, main_v416, main_cst_33, main_v417, main_v418, main_v419, main_cst_34, main_v420, main_v421, main_v422, main_v423, main_v424, main_v425, main_v426, main_v427, main_v428, main_v429, main_v430, main_v431, main_v432, main_v433, main_v434, main_v435, main_v436, main_v437, main_v438, main_v439, main_v440, main_v441, main_v442, main_v443, main_v444, main_v445, main_v446, main_v447]
theorem gate_3_2_writes : (gateOps_3_2 : List (HloOp τ sig (Elt Ideal))).Forall fun op => op.writes ⊆ (gateW_3_2.map (Proc.devRef (τ := τ) .tc)).toFinset := by
  stretch_writes
theorem gate_3_2_keep (V : Valuation τ sig (Elt Ideal)) (r : Ref sig .tc) (h : r ∉ gateW_3_2) :
    after gateOps_3_2 V (Proc.devRef .tc r) = V (Proc.devRef .tc r) :=
  after_of_writes_sub gateOps_3_2 V gate_3_2_writes h
/-- The RX stretch of layer 3 leaves the RX matrices of the angles params[3, :, 2] in `main_v447`. -/
theorem gate_3_2_val (V : Valuation τ sig (Elt Ideal)) :
    (after gateOps_3_2 V (Proc.devRef .tc main_v447) : FVec Ideal S32x4x4 .f32)
      = rxMat (angle (V (Proc.devRef .tc main_arg1)) ![3, 0, 2] slices_S8x32x3_S1x32x1_3_0_2) := by
  dsimp only [gateOps_3_2]
  after_results_simp
  rfl

/-- The references the three products of layer 3 write. -/
abbrev dotW_3 : List (Ref sig .tc) := [main_v448, main_v449, main_v450]
theorem dots_3_writes : (dotOps_3 : List (HloOp τ sig (Elt Ideal))).Forall fun op => op.writes ⊆ (dotW_3.map (Proc.devRef (τ := τ) .tc)).toFinset := by
  stretch_writes
theorem dots_3_keep (V : Valuation τ sig (Elt Ideal)) (r : Ref sig .tc) (h : r ∉ dotW_3) :
    after dotOps_3 V (Proc.devRef .tc r) = V (Proc.devRef .tc r) :=
  after_of_writes_sub dotOps_3 V dots_3_writes h
/-- The three products of layer 3: RZ·RY, then RX·(RZ·RY), then that times the accumulated matrix. -/
theorem dots_3_val (V : Valuation τ sig (Elt Ideal)) :
    (after dotOps_3 V (Proc.devRef .tc main_v450) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v447))
            (Host.dotGeneral (F := Ideal) (φ₁ := .f32) (φ₂ := .f32) dot_S32x4x4_S32x4x4_S32x4x4_2_1_1_2_0_0 none (V (Proc.devRef .tc main_v411)) (V (Proc.devRef .tc main_v375))))
          (V (Proc.devRef .tc main_v339)) := by
  dsimp only [dotOps_3]
  after_results_simp

/-- The references layer 3 writes. -/
abbrev layerW_3 : List (Ref sig .tc) := gateW_3_0 ++ (gateW_3_1 ++ (gateW_3_2 ++ dotW_3))

/-- Layer 3 leaves alone every reference it does not write. -/
theorem layer_3_keep (V : Valuation τ sig (Elt Ideal)) (r : Ref sig .tc) (h : r ∉ layerW_3) :
    after (gateOps_3_0 ++ (gateOps_3_1 ++ (gateOps_3_2 ++ dotOps_3))) V (Proc.devRef .tc r) = V (Proc.devRef .tc r) :=
  keep4 gate_3_0_keep gate_3_1_keep gate_3_2_keep dots_3_keep V r h

/-- Layer 3 on values: `main_v450` ends at the layer's three gate matrices, multiplied up, times what `main_v339` held. -/
theorem layer_3_val (V : Valuation τ sig (Elt Ideal)) :
    (after (gateOps_3_0 ++ (gateOps_3_1 ++ (gateOps_3_2 ++ dotOps_3))) V (Proc.devRef .tc main_v450) : FVec Ideal S32x4x4 .f32)
      = layerVal (V (Proc.devRef .tc main_arg1)) (V (Proc.devRef .tc main_v339)) ![3, 0, 0] ![3, 0, 1] ![3, 0, 2]
          slices_S8x32x3_S1x32x1_3_0_0 slices_S8x32x3_S1x32x1_3_0_1 slices_S8x32x3_S1x32x1_3_0_2 := by
  rw [after_append, after_append, after_append, dots_3_val,
    gate_3_2_val, gate_3_2_keep _ main_v411 (by decide), gate_3_2_keep _ main_v375 (by decide), gate_3_2_keep _ main_v339 (by decide),
    gate_3_1_val, gate_3_1_keep _ main_v375 (by decide), gate_3_1_keep _ main_v339 (by decide), gate_3_1_keep _ main_arg1 (by decide),
    gate_3_0_val, gate_3_0_keep _ main_v339 (by decide), gate_3_0_keep _ main_arg1 (by decide)]
  rfl

end Cert.KernelIdeal.HostLayer

end
-- ==== Proof.HostLayerL4.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 4 of the host program, stretch by stretch: the three gate stretches leave the RY, RZ and RX matrices of the
  angles params[4, :, 0], params[4, :, 1], params[4, :, 2] in their result buffers, the three products leave
  RX·(RZ·RY) times the matrix accumulated so far in `main_v561`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 4 writes. -/
abbrev gateW_4_0 : List (Ref sig .tc) := [main_v451, main_v452, main_cst_35, main_v453, main_v454, main_v455, main_cst_36, main_v456, main_v457, main_v458, main_cst_37, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486]
theorem gate_4_0_writes : (gateOps_4_0 : List (HloOp τ sig (Elt Ideal))).Forall fun op => op.writes ⊆ (gateW_4_0.map (Proc.devRef (τ := τ) .tc)).toFinset := by
  stretch_writes
theorem gate_4_0_keep (V : Valuation τ sig (Elt Ideal)) (r : Ref sig .tc) (h : r ∉ gateW_4_0) :
    after gateOps_4_0 V (Proc.devRef .tc r) = V (Proc.devRef .tc r) :=
  after_of_writes_sub gateOps_4_0 V gate_4_0_writes h
/-- The RY stretch of layer 4 leaves the RY matrices of the angles params[4, :, 0] in `main_v486`. -/
theorem gate_4_0_val (V : Valuation τ sig (Elt Ideal)) :
    (after gateOps_4_0 V (Proc.devRef .tc main_v486) : FVec Ideal S32x4x4 .f32)
      = ryMat (angle (V (Proc.devRef .tc main_arg1)) ![4, 0, 0] slices_S8x32x3_S1x32x1_4_0_0) := by
  dsimp only [gateOps_4_0]
  after_results_simp
  rfl

/-- The references the RZ stretch of layer 4 writes. -/
abbrev gateW_4_1 : List (Ref sig .tc) := [main_v487, main_v488, main_cst_38, main_v489, main_v490, main_v491, main_cst_39, main_v492, main_v493, main_v494, main_cst_40, main_v495, main_v496, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522]
theorem gate_4_1_writes : (gateOps_4_1 : List (HloOp τ sig (Elt Ideal))).Forall fun op => op.writes ⊆ (gateW_4_1.map (Proc.devRef (τ := τ) .tc)).toFinset := by
  stretch_writes
theorem gate_4_1_keep (V : Valuation τ sig (Elt Ideal)) (r : Ref sig .tc) (h : r ∉ gateW_4_1) :
    after gateOps_4_1 V (Proc.devRef .tc r) = V (Proc.devRef .tc r) :=
  after_of_writes_sub gateOps_4_1 V gate_4_1_writes h
/-- The RZ stretch of layer 4 leaves the RZ matrices of the angles params[4, :, 1] in `main_v522`. -/
theorem gate_4_1_val (V : Valuation τ sig (Elt Ideal)) :
    (after gateOps_4_1 V (Proc.devRef .tc main_v522) : FVec Ideal S32x4x4 .f32)
      = rzMat (angle (V (Proc.devRef .tc main_arg1)) ![4, 0, 1] slices_S8x32x3_S1x32x1_4_0_1) := by
  dsimp only [gateOps_4_1]
  after_results_simp
  rfl

/-- The references the RX stretch of layer 4 writes. -/
abbrev gateW_4_2 : List (Ref sig .tc) := [main_v523, main_v524, main_cst_41, main_v525, main_v526, main_v527, main_cst_42, main_v528, main_v529, main_v530, main_cst_43, main_v531, main_v532, main_v533, main_v534, main_v535, main_v536, main_v537, main_v538, main_v539, main_v540, main_v541, main_v542, main_v543, main_v544, main_v545, main_v546, main_v547, main_v548, main_v549, main_v550, main_v551, main_v552, main_v553, main_v554, main_v555, main_v556, main_v557, main_v558]
theorem gate_4_2_writes : (gateOps_4_2 : List (HloOp τ sig (Elt Ideal))).Forall fun op => op.writes ⊆ (gateW_4_2.map (Proc.devRef (τ := τ) .tc)).toFinset := by
  stretch_writes
theorem gate_4_2_keep (V : Valuation τ sig (Elt Ideal)) (r : Ref sig .tc) (h : r ∉ gateW_4_2) :
    after gateOps_4_2 V (Proc.devRef .tc r) = V (Proc.devRef .tc r) :=
  after_of_writes_sub gateOps_4_2 V gate_4_2_writes h
/-- The RX stretch of layer 4 leaves the RX matrices of the angles params[4, :, 2] in `main_v558`. -/
theorem gate_4_2_val (V : Valuation τ sig (Elt Ideal)) :
    (after gateOps_4_2 V (Proc.devRef .tc main_v558) : FVec Ideal S32x4x4 .f32)
      = rxMat (angle (V (Proc.devRef .tc main_arg1)) ![4, 0, 2] slices_S8x32x3_S1x32x1_4_0_2) := by
  dsimp only [gateOps_4_2]
  after_results_simp
  rfl

/-- The references the three products of layer 4 write. -/
abbrev dotW_4 : List (Ref sig .tc) := [main_v559, main_v560, main_v561]
theorem dots_4_writes : (dotOps_4 : List (HloOp τ sig (Elt Ideal))).Forall fun op => op.writes ⊆ (dotW_4.map (Proc.devRef (τ := τ) .tc)).toFinset := by
  stretch_writes
theorem dots_4_keep (V : Valuation τ sig (Elt Ideal)) (r : Ref sig .tc) (h : r ∉ dotW_4) :
    after dotOps_4 V (Proc.devRef .tc r) = V (Proc.devRef .tc r) :=
  after_of_writes_sub dotOps_4 V dots_4_writes h
/-- The three products of layer 4: RZ·RY, then RX·(RZ·RY), then that times the accumulated matrix. -/
theorem dots_4_val (V : Valuation τ sig (Elt Ideal)) :
    (after dotOps_4 V (Proc.devRef .tc main_v561) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v558))
            (Host.dotGeneral (F := Ideal) (φ₁ := .f32) (φ₂ := .f32) dot_S32x4x4_S32x4x4_S32x4x4_2_1_1_2_0_0 none (V (Proc.devRef .tc main_v522)) (V (Proc.devRef .tc main_v486))))
          (V (Proc.devRef .tc main_v450)) := by
  dsimp only [dotOps_4]
  after_results_simp

/-- The references layer 4 writes. -/
abbrev layerW_4 : List (Ref sig .tc) := gateW_4_0 ++ (gateW_4_1 ++ (gateW_4_2 ++ dotW_4))

/-- Layer 4 leaves alone every reference it does not write. -/
theorem layer_4_keep (V : Valuation τ sig (Elt Ideal)) (r : Ref sig .tc) (h : r ∉ layerW_4) :
    after (gateOps_4_0 ++ (gateOps_4_1 ++ (gateOps_4_2 ++ dotOps_4))) V (Proc.devRef .tc r) = V (Proc.devRef .tc r) :=
  keep4 gate_4_0_keep gate_4_1_keep gate_4_2_keep dots_4_keep V r h

/-- Layer 4 on values: `main_v561` ends at the layer's three gate matrices, multiplied up, times what `main_v450` held. -/
theorem layer_4_val (V : Valuation τ sig (Elt Ideal)) :
    (after (gateOps_4_0 ++ (gateOps_4_1 ++ (gateOps_4_2 ++ dotOps_4))) V (Proc.devRef .tc main_v561) : FVec Ideal S32x4x4 .f32)
      = layerVal (V (Proc.devRef .tc main_arg1)) (V (Proc.devRef .tc main_v450)) ![4, 0, 0] ![4, 0, 1] ![4, 0, 2]
          slices_S8x32x3_S1x32x1_4_0_0 slices_S8x32x3_S1x32x1_4_0_1 slices_S8x32x3_S1x32x1_4_0_2 := by
  rw [after_append, after_append, after_append, dots_4_val,
    gate_4_2_val, gate_4_2_keep _ main_v522 (by decide), gate_4_2_keep _ main_v486 (by decide), gate_4_2_keep _ main_v450 (by decide),
    gate_4_1_val, gate_4_1_keep _ main_v486 (by decide), gate_4_1_keep _ main_v450 (by decide), gate_4_1_keep _ main_arg1 (by decide),
    gate_4_0_val, gate_4_0_keep _ main_v450 (by decide), gate_4_0_keep _ main_arg1 (by decide)]
  rfl

end Cert.KernelIdeal.HostLayer

end
-- ==== Proof.HostLayerL5.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 5 of the host program, stretch by stretch: the three gate stretches leave the RY, RZ and RX matrices of the
  angles params[5, :, 0], params[5, :, 1], params[5, :, 2] in their result buffers, the three products leave
  RX·(RZ·RY) times the matrix accumulated so far in `main_v672`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 5 writes. -/
abbrev gateW_5_0 : List (Ref sig .tc) := [main_v562, main_v563, main_cst_44, main_v564, main_v565, main_v566, main_cst_45, main_v567, main_v568, main_v569, main_cst_46, main_v570, main_v571, main_v572, main_v573, main_v574, main_v575, main_v576, main_v577, main_v578, main_v579, main_v580, main_v581, main_v582, main_v583, main_v584, main_v585, main_v586, main_v587, main_v588, main_v589, main_v590, main_v591, main_v592, main_v593, main_v594, main_v595, main_v596, main_v597]
theorem gate_5_0_writes : (gateOps_5_0 : List (HloOp τ sig (Elt Ideal))).Forall fun op => op.writes ⊆ (gateW_5_0.map (Proc.devRef (τ := τ) .tc)).toFinset := by
  stretch_writes
theorem gate_5_0_keep (V : Valuation τ sig (Elt Ideal)) (r : Ref sig .tc) (h : r ∉ gateW_5_0) :
    after gateOps_5_0 V (Proc.devRef .tc r) = V (Proc.devRef .tc r) :=
  after_of_writes_sub gateOps_5_0 V gate_5_0_writes h
/-- The RY stretch of layer 5 leaves the RY matrices of the angles params[5, :, 0] in `main_v597`. -/
theorem gate_5_0_val (V : Valuation τ sig (Elt Ideal)) :
    (after gateOps_5_0 V (Proc.devRef .tc main_v597) : FVec Ideal S32x4x4 .f32)
      = ryMat (angle (V (Proc.devRef .tc main_arg1)) ![5, 0, 0] slices_S8x32x3_S1x32x1_5_0_0) := by
  dsimp only [gateOps_5_0]
  after_results_simp
  rfl

/-- The references the RZ stretch of layer 5 writes. -/
abbrev gateW_5_1 : List (Ref sig .tc) := [main_v598, main_v599, main_cst_47, main_v600, main_v601, main_v602, main_cst_48, main_v603, main_v604, main_v605, main_cst_49, main_v606, main_v607, main_v608, main_v609, main_v610, main_v611, main_v612, main_v613, main_v614, main_v615, main_v616, main_v617, main_v618, main_v619, main_v620, main_v621, main_v622, main_v623, main_v624, main_v625, main_v626, main_v627, main_v628, main_v629, main_v630, main_v631, main_v632, main_v633]
theorem gate_5_1_writes : (gateOps_5_1 : List (HloOp τ sig (Elt Ideal))).Forall fun op => op.writes ⊆ (gateW_5_1.map (Proc.devRef (τ := τ) .tc)).toFinset := by
  stretch_writes
theorem gate_5_1_keep (V : Valuation τ sig (Elt Ideal)) (r : Ref sig .tc) (h : r ∉ gateW_5_1) :
    after gateOps_5_1 V (Proc.devRef .tc r) = V (Proc.devRef .tc r) :=
  after_of_writes_sub gateOps_5_1 V gate_5_1_writes h
/-- The RZ stretch of layer 5 leaves the RZ matrices of the angles params[5, :, 1] in `main_v633`. -/
theorem gate_5_1_val (V : Valuation τ sig (Elt Ideal)) :
    (after gateOps_5_1 V (Proc.devRef .tc main_v633) : FVec Ideal S32x4x4 .f32)
      = rzMat (angle (V (Proc.devRef .tc main_arg1)) ![5, 0, 1] slices_S8x32x3_S1x32x1_5_0_1) := by
  dsimp only [gateOps_5_1]
  after_results_simp
  rfl

/-- The references the RX stretch of layer 5 writes. -/
abbrev gateW_5_2 : List (Ref sig .tc) := [main_v634, main_v635, main_cst_50, main_v636, main_v637, main_v638, main_cst_51, main_v639, main_v640, main_v641, main_cst_52, main_v642, main_v643, main_v644, main_v645, main_v646, main_v647, main_v648, main_v649, main_v650, main_v651, main_v652, main_v653, main_v654, main_v655, main_v656, main_v657, main_v658, main_v659, main_v660, main_v661, main_v662, main_v663, main_v664, main_v665, main_v666, main_v667, main_v668, main_v669]
theorem gate_5_2_writes : (gateOps_5_2 : List (HloOp τ sig (Elt Ideal))).Forall fun op => op.writes ⊆ (gateW_5_2.map (Proc.devRef (τ := τ) .tc)).toFinset := by
  stretch_writes
theorem gate_5_2_keep (V : Valuation τ sig (Elt Ideal)) (r : Ref sig .tc) (h : r ∉ gateW_5_2) :
    after gateOps_5_2 V (Proc.devRef .tc r) = V (Proc.devRef .tc r) :=
  after_of_writes_sub gateOps_5_2 V gate_5_2_writes h
/-- The RX stretch of layer 5 leaves the RX matrices of the angles params[5, :, 2] in `main_v669`. -/
theorem gate_5_2_val (V : Valuation τ sig (Elt Ideal)) :
    (after gateOps_5_2 V (Proc.devRef .tc main_v669) : FVec Ideal S32x4x4 .f32)
      = rxMat (angle (V (Proc.devRef .tc main_arg1)) ![5, 0, 2] slices_S8x32x3_S1x32x1_5_0_2) := by
  dsimp only [gateOps_5_2]
  after_results_simp
  rfl

/-- The references the three products of layer 5 write. -/
abbrev dotW_5 : List (Ref sig .tc) := [main_v670, main_v671, main_v672]
theorem dots_5_writes : (dotOps_5 : List (HloOp τ sig (Elt Ideal))).Forall fun op => op.writes ⊆ (dotW_5.map (Proc.devRef (τ := τ) .tc)).toFinset := by
  stretch_writes
theorem dots_5_keep (V : Valuation τ sig (Elt Ideal)) (r : Ref sig .tc) (h : r ∉ dotW_5) :
    after dotOps_5 V (Proc.devRef .tc r) = V (Proc.devRef .tc r) :=
  after_of_writes_sub dotOps_5 V dots_5_writes h
/-- The three products of layer 5: RZ·RY, then RX·(RZ·RY), then that times the accumulated matrix. -/
theorem dots_5_val (V : Valuation τ sig (Elt Ideal)) :
    (after dotOps_5 V (Proc.devRef .tc main_v672) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v669))
            (Host.dotGeneral (F := Ideal) (φ₁ := .f32) (φ₂ := .f32) dot_S32x4x4_S32x4x4_S32x4x4_2_1_1_2_0_0 none (V (Proc.devRef .tc main_v633)) (V (Proc.devRef .tc main_v597))))
          (V (Proc.devRef .tc main_v561)) := by
  dsimp only [dotOps_5]
  after_results_simp

/-- The references layer 5 writes. -/
abbrev layerW_5 : List (Ref sig .tc) := gateW_5_0 ++ (gateW_5_1 ++ (gateW_5_2 ++ dotW_5))

/-- Layer 5 leaves alone every reference it does not write. -/
theorem layer_5_keep (V : Valuation τ sig (Elt Ideal)) (r : Ref sig .tc) (h : r ∉ layerW_5) :
    after (gateOps_5_0 ++ (gateOps_5_1 ++ (gateOps_5_2 ++ dotOps_5))) V (Proc.devRef .tc r) = V (Proc.devRef .tc r) :=
  keep4 gate_5_0_keep gate_5_1_keep gate_5_2_keep dots_5_keep V r h

/-- Layer 5 on values: `main_v672` ends at the layer's three gate matrices, multiplied up, times what `main_v561` held. -/
theorem layer_5_val (V : Valuation τ sig (Elt Ideal)) :
    (after (gateOps_5_0 ++ (gateOps_5_1 ++ (gateOps_5_2 ++ dotOps_5))) V (Proc.devRef .tc main_v672) : FVec Ideal S32x4x4 .f32)
      = layerVal (V (Proc.devRef .tc main_arg1)) (V (Proc.devRef .tc main_v561)) ![5, 0, 0] ![5, 0, 1] ![5, 0, 2]
          slices_S8x32x3_S1x32x1_5_0_0 slices_S8x32x3_S1x32x1_5_0_1 slices_S8x32x3_S1x32x1_5_0_2 := by
  rw [after_append, after_append, after_append, dots_5_val,
    gate_5_2_val, gate_5_2_keep _ main_v633 (by decide), gate_5_2_keep _ main_v597 (by decide), gate_5_2_keep _ main_v561 (by decide),
    gate_5_1_val, gate_5_1_keep _ main_v597 (by decide), gate_5_1_keep _ main_v561 (by decide), gate_5_1_keep _ main_arg1 (by decide),
    gate_5_0_val, gate_5_0_keep _ main_v561 (by decide), gate_5_0_keep _ main_arg1 (by decide)]
  rfl

end Cert.KernelIdeal.HostLayer

end
-- ==== Proof.HostLayerL6.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 6 of the host program, stretch by stretch: the three gate stretches leave the RY, RZ and RX matrices of the
  angles params[6, :, 0], params[6, :, 1], params[6, :, 2] in their result buffers, the three products leave
  RX·(RZ·RY) times the matrix accumulated so far in `main_v783`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 6 writes. -/
abbrev gateW_6_0 : List (Ref sig .tc) := [main_v673, main_v674, main_cst_53, main_v675, main_v676, main_v677, main_cst_54, main_v678, main_v679, main_v680, main_cst_55, main_v681, main_v682, main_v683, main_v684, main_v685, main_v686, main_v687, main_v688, main_v689, main_v690, main_v691, main_v692, main_v693, main_v694, main_v695, main_v696, main_v697, main_v698, main_v699, main_v700, main_v701, main_v702, main_v703, main_v704, main_v705, main_v706, main_v707, main_v708]
theorem gate_6_0_writes : (gateOps_6_0 : List (HloOp τ sig (Elt Ideal))).Forall fun op => op.writes ⊆ (gateW_6_0.map (Proc.devRef (τ := τ) .tc)).toFinset := by
  stretch_writes
theorem gate_6_0_keep (V : Valuation τ sig (Elt Ideal)) (r : Ref sig .tc) (h : r ∉ gateW_6_0) :
    after gateOps_6_0 V (Proc.devRef .tc r) = V (Proc.devRef .tc r) :=
  after_of_writes_sub gateOps_6_0 V gate_6_0_writes h
/-- The RY stretch of layer 6 leaves the RY matrices of the angles params[6, :, 0] in `main_v708`. -/
theorem gate_6_0_val (V : Valuation τ sig (Elt Ideal)) :
    (after gateOps_6_0 V (Proc.devRef .tc main_v708) : FVec Ideal S32x4x4 .f32)
      = ryMat (angle (V (Proc.devRef .tc main_arg1)) ![6, 0, 0] slices_S8x32x3_S1x32x1_6_0_0) := by
  dsimp only [gateOps_6_0]
  after_results_simp
  rfl

/-- The references the RZ stretch of layer 6 writes. -/
abbrev gateW_6_1 : List (Ref sig .tc) := [main_v709, main_v710, main_cst_56, main_v711, main_v712, main_v713, main_cst_57, main_v714, main_v715, main_v716, main_cst_58, main_v717, main_v718, main_v719, main_v720, main_v721, main_v722, main_v723, main_v724, main_v725, main_v726, main_v727, main_v728, main_v729, main_v730, main_v731, main_v732, main_v733, main_v734, main_v735, main_v736, main_v737, main_v738, main_v739, main_v740, main_v741, main_v742, main_v743, main_v744]
theorem gate_6_1_writes : (gateOps_6_1 : List (HloOp τ sig (Elt Ideal))).Forall fun op => op.writes ⊆ (gateW_6_1.map (Proc.devRef (τ := τ) .tc)).toFinset := by
  stretch_writes
theorem gate_6_1_keep (V : Valuation τ sig (Elt Ideal)) (r : Ref sig .tc) (h : r ∉ gateW_6_1) :
    after gateOps_6_1 V (Proc.devRef .tc r) = V (Proc.devRef .tc r) :=
  after_of_writes_sub gateOps_6_1 V gate_6_1_writes h
/-- The RZ stretch of layer 6 leaves the RZ matrices of the angles params[6, :, 1] in `main_v744`. -/
theorem gate_6_1_val (V : Valuation τ sig (Elt Ideal)) :
    (after gateOps_6_1 V (Proc.devRef .tc main_v744) : FVec Ideal S32x4x4 .f32)
      = rzMat (angle (V (Proc.devRef .tc main_arg1)) ![6, 0, 1] slices_S8x32x3_S1x32x1_6_0_1) := by
  dsimp only [gateOps_6_1]
  after_results_simp
  rfl

/-- The references the RX stretch of layer 6 writes. -/
abbrev gateW_6_2 : List (Ref sig .tc) := [main_v745, main_v746, main_cst_59, main_v747, main_v748, main_v749, main_cst_60, main_v750, main_v751, main_v752, main_cst_61, main_v753, main_v754, main_v755, main_v756, main_v757, main_v758, main_v759, main_v760, main_v761, main_v762, main_v763, main_v764, main_v765, main_v766, main_v767, main_v768, main_v769, main_v770, main_v771, main_v772, main_v773, main_v774, main_v775, main_v776, main_v777, main_v778, main_v779, main_v780]
theorem gate_6_2_writes : (gateOps_6_2 : List (HloOp τ sig (Elt Ideal))).Forall fun op => op.writes ⊆ (gateW_6_2.map (Proc.devRef (τ := τ) .tc)).toFinset := by
  stretch_writes
theorem gate_6_2_keep (V : Valuation τ sig (Elt Ideal)) (r : Ref sig .tc) (h : r ∉ gateW_6_2) :
    after gateOps_6_2 V (Proc.devRef .tc r) = V (Proc.devRef .tc r) :=
  after_of_writes_sub gateOps_6_2 V gate_6_2_writes h
/-- The RX stretch of layer 6 leaves the RX matrices of the angles params[6, :, 2] in `main_v780`. -/
theorem gate_6_2_val (V : Valuation τ sig (Elt Ideal)) :
    (after gateOps_6_2 V (Proc.devRef .tc main_v780) : FVec Ideal S32x4x4 .f32)
      = rxMat (angle (V (Proc.devRef .tc main_arg1)) ![6, 0, 2] slices_S8x32x3_S1x32x1_6_0_2) := by
  dsimp only [gateOps_6_2]
  after_results_simp
  rfl

/-- The references the three products of layer 6 write. -/
abbrev dotW_6 : List (Ref sig .tc) := [main_v781, main_v782, main_v783]
theorem dots_6_writes : (dotOps_6 : List (HloOp τ sig (Elt Ideal))).Forall fun op => op.writes ⊆ (dotW_6.map (Proc.devRef (τ := τ) .tc)).toFinset := by
  stretch_writes
theorem dots_6_keep (V : Valuation τ sig (Elt Ideal)) (r : Ref sig .tc) (h : r ∉ dotW_6) :
    after dotOps_6 V (Proc.devRef .tc r) = V (Proc.devRef .tc r) :=
  after_of_writes_sub dotOps_6 V dots_6_writes h
/-- The three products of layer 6: RZ·RY, then RX·(RZ·RY), then that times the accumulated matrix. -/
theorem dots_6_val (V : Valuation τ sig (Elt Ideal)) :
    (after dotOps_6 V (Proc.devRef .tc main_v783) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v780))
            (Host.dotGeneral (F := Ideal) (φ₁ := .f32) (φ₂ := .f32) dot_S32x4x4_S32x4x4_S32x4x4_2_1_1_2_0_0 none (V (Proc.devRef .tc main_v744)) (V (Proc.devRef .tc main_v708))))
          (V (Proc.devRef .tc main_v672)) := by
  dsimp only [dotOps_6]
  after_results_simp

/-- The references layer 6 writes. -/
abbrev layerW_6 : List (Ref sig .tc) := gateW_6_0 ++ (gateW_6_1 ++ (gateW_6_2 ++ dotW_6))

/-- Layer 6 leaves alone every reference it does not write. -/
theorem layer_6_keep (V : Valuation τ sig (Elt Ideal)) (r : Ref sig .tc) (h : r ∉ layerW_6) :
    after (gateOps_6_0 ++ (gateOps_6_1 ++ (gateOps_6_2 ++ dotOps_6))) V (Proc.devRef .tc r) = V (Proc.devRef .tc r) :=
  keep4 gate_6_0_keep gate_6_1_keep gate_6_2_keep dots_6_keep V r h

/-- Layer 6 on values: `main_v783` ends at the layer's three gate matrices, multiplied up, times what `main_v672` held. -/
theorem layer_6_val (V : Valuation τ sig (Elt Ideal)) :
    (after (gateOps_6_0 ++ (gateOps_6_1 ++ (gateOps_6_2 ++ dotOps_6))) V (Proc.devRef .tc main_v783) : FVec Ideal S32x4x4 .f32)
      = layerVal (V (Proc.devRef .tc main_arg1)) (V (Proc.devRef .tc main_v672)) ![6, 0, 0] ![6, 0, 1] ![6, 0, 2]
          slices_S8x32x3_S1x32x1_6_0_0 slices_S8x32x3_S1x32x1_6_0_1 slices_S8x32x3_S1x32x1_6_0_2 := by
  rw [after_append, after_append, after_append, dots_6_val,
    gate_6_2_val, gate_6_2_keep _ main_v744 (by decide), gate_6_2_keep _ main_v708 (by decide), gate_6_2_keep _ main_v672 (by decide),
    gate_6_1_val, gate_6_1_keep _ main_v708 (by decide), gate_6_1_keep _ main_v672 (by decide), gate_6_1_keep _ main_arg1 (by decide),
    gate_6_0_val, gate_6_0_keep _ main_v672 (by decide), gate_6_0_keep _ main_arg1 (by decide)]
  rfl

end Cert.KernelIdeal.HostLayer

end
-- ==== Proof.HostLayerL7.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  Layer 7 of the host program, stretch by stretch: the three gate stretches leave the RY, RZ and RX matrices of the
  angles params[7, :, 0], params[7, :, 1], params[7, :, 2] in their result buffers, the three products leave
  RX·(RZ·RY) times the matrix accumulated so far in `main_v894`, and no stretch writes a reference outside its own list.
  (A table of cases: the same four statements for each stretch, over this layer's buffer names.)
-/
import proofs.«119607_j65481071399210_2_alg».proof.Proof.HostLayerKeep

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks
open StableHlo

/-- The references the RY stretch of layer 7 writes. -/
abbrev gateW_7_0 : List (Ref sig .tc) := [main_v784, main_v785, main_cst_62, main_v786, main_v787, main_v788, main_cst_63, main_v789, main_v790, main_v791, main_cst_64, main_v792, main_v793, main_v794, main_v795, main_v796, main_v797, main_v798, main_v799, main_v800, main_v801, main_v802, main_v803, main_v804, main_v805, main_v806, main_v807, main_v808, main_v809, main_v810, main_v811, main_v812, main_v813, main_v814, main_v815, main_v816, main_v817, main_v818, main_v819]
theorem gate_7_0_writes : (gateOps_7_0 : List (HloOp τ sig (Elt Ideal))).Forall fun op => op.writes ⊆ (gateW_7_0.map (Proc.devRef (τ := τ) .tc)).toFinset := by
  stretch_writes
theorem gate_7_0_keep (V : Valuation τ sig (Elt Ideal)) (r : Ref sig .tc) (h : r ∉ gateW_7_0) :
    after gateOps_7_0 V (Proc.devRef .tc r) = V (Proc.devRef .tc r) :=
  after_of_writes_sub gateOps_7_0 V gate_7_0_writes h
/-- The RY stretch of layer 7 leaves the RY matrices of the angles params[7, :, 0] in `main_v819`. -/
theorem gate_7_0_val (V : Valuation τ sig (Elt Ideal)) :
    (after gateOps_7_0 V (Proc.devRef .tc main_v819) : FVec Ideal S32x4x4 .f32)
      = ryMat (angle (V (Proc.devRef .tc main_arg1)) ![7, 0, 0] slices_S8x32x3_S1x32x1_7_0_0) := by
  dsimp only [gateOps_7_0]
  after_results_simp
  rfl

/-- The references the RZ stretch of layer 7 writes. -/
abbrev gateW_7_1 : List (Ref sig .tc) := [main_v820, main_v821, main_cst_65, main_v822, main_v823, main_v824, main_cst_66, main_v825, main_v826, main_v827, main_cst_67, main_v828, main_v829, main_v830, main_v831, main_v832, main_v833, main_v834, main_v835, main_v836, main_v837, main_v838, main_v839, main_v840, main_v841, main_v842, main_v843, main_v844, main_v845, main_v846, main_v847, main_v848, main_v849, main_v850, main_v851, main_v852, main_v853, main_v854, main_v855]
theorem gate_7_1_writes : (gateOps_7_1 : List (HloOp τ sig (Elt Ideal))).Forall fun op => op.writes ⊆ (gateW_7_1.map (Proc.devRef (τ := τ) .tc)).toFinset := by
  stretch_writes
theorem gate_7_1_keep (V : Valuation τ sig (Elt Ideal)) (r : Ref sig .tc) (h : r ∉ gateW_7_1) :
    after gateOps_7_1 V (Proc.devRef .tc r) = V (Proc.devRef .tc r) :=
  after_of_writes_sub gateOps_7_1 V gate_7_1_writes h
/-- The RZ stretch of layer 7 leaves the RZ matrices of the angles params[7, :, 1] in `main_v855`. -/
theorem gate_7_1_val (V : Valuation τ sig (Elt Ideal)) :
    (after gateOps_7_1 V (Proc.devRef .tc main_v855) : FVec Ideal S32x4x4 .f32)
      = rzMat (angle (V (Proc.devRef .tc main_arg1)) ![7, 0, 1] slices_S8x32x3_S1x32x1_7_0_1) := by
  dsimp only [gateOps_7_1]
  after_results_simp
  rfl

/-- The references the RX stretch of layer 7 writes. -/
abbrev gateW_7_2 : List (Ref sig .tc) := [main_v856, main_v857, main_cst_68, main_v858, main_v859, main_v860, main_cst_69, main_v861, main_v862, main_v863, main_cst_70, main_v864, main_v865, main_v866, main_v867, main_v868, main_v869, main_v870, main_v871, main_v872, main_v873, main_v874, main_v875, main_v876, main_v877, main_v878, main_v879, main_v880, main_v881, main_v882, main_v883, main_v884, main_v885, main_v886, main_v887, main_v888, main_v889, main_v890, main_v891]
theorem gate_7_2_writes : (gateOps_7_2 : List (HloOp τ sig (Elt Ideal))).Forall fun op => op.writes ⊆ (gateW_7_2.map (Proc.devRef (τ := τ) .tc)).toFinset := by
  stretch_writes
theorem gate_7_2_keep (V : Valuation τ sig (Elt Ideal)) (r : Ref sig .tc) (h : r ∉ gateW_7_2) :
    after gateOps_7_2 V (Proc.devRef .tc r) = V (Proc.devRef .tc r) :=
  after_of_writes_sub gateOps_7_2 V gate_7_2_writes h
/-- The RX stretch of layer 7 leaves the RX matrices of the angles params[7, :, 2] in `main_v891`. -/
theorem gate_7_2_val (V : Valuation τ sig (Elt Ideal)) :
    (after gateOps_7_2 V (Proc.devRef .tc main_v891) : FVec Ideal S32x4x4 .f32)
      = rxMat (angle (V (Proc.devRef .tc main_arg1)) ![7, 0, 2] slices_S8x32x3_S1x32x1_7_0_2) := by
  dsimp only [gateOps_7_2]
  after_results_simp
  rfl

/-- The references the three products of layer 7 write. -/
abbrev dotW_7 : List (Ref sig .tc) := [main_v892, main_v893, main_v894]
theorem dots_7_writes : (dotOps_7 : List (HloOp τ sig (Elt Ideal))).Forall fun op => op.writes ⊆ (dotW_7.map (Proc.devRef (τ := τ) .tc)).toFinset := by
  stretch_writes
theorem dots_7_keep (V : Valuation τ sig (Elt Ideal)) (r : Ref sig .tc) (h : r ∉ dotW_7) :
    after dotOps_7 V (Proc.devRef .tc r) = V (Proc.devRef .tc r) :=
  after_of_writes_sub dotOps_7 V dots_7_writes h
/-- The three products of layer 7: RZ·RY, then RX·(RZ·RY), then that times the accumulated matrix. -/
theorem dots_7_val (V : Valuation τ sig (Elt Ideal)) :
    (after dotOps_7 V (Proc.devRef .tc main_v894) : FVec Ideal S32x4x4 .f32)
      = Host.dotGeneral (F := Ideal) (φ₁ := .f32) (φ₂ := .f32) dot_S32x4x4_S32x4x4_S32x4x4_2_1_1_2_0_0 none
          (Host.dotGeneral (F := Ideal) (φ₁ := .f32) (φ₂ := .f32) dot_S32x4x4_S32x4x4_S32x4x4_2_1_1_2_0_0 none (V (Proc.devRef .tc main_v891))
            (Host.dotGeneral (F := Ideal) (φ₁ := .f32) (φ₂ := .f32) dot_S32x4x4_S32x4x4_S32x4x4_2_1_1_2_0_0 none (V (Proc.devRef .tc main_v855)) (V (Proc.devRef .tc main_v819))))
          (V (Proc.devRef .tc main_v783)) := by
  dsimp only [dotOps_7]
  after_results_simp

/-- The references layer 7 writes. -/
abbrev layerW_7 : List (Ref sig .tc) := gateW_7_0 ++ (gateW_7_1 ++ (gateW_7_2 ++ dotW_7))

/-- Layer 7 leaves alone every reference it does not write. -/
theorem layer_7_keep (V : Valuation τ sig (Elt Ideal)) (r : Ref sig .tc) (h : r ∉ layerW_7) :
    after (gateOps_7_0 ++ (gateOps_7_1 ++ (gateOps_7_2 ++ dotOps_7))) V (Proc.devRef .tc r) = V (Proc.devRef .tc r) :=
  keep4 gate_7_0_keep gate_7_1_keep gate_7_2_keep dots_7_keep V r h

/-- Layer 7 on values: `main_v894` ends at the layer's three gate matrices, multiplied up, times what `main_v783` held. -/
theorem layer_7_val (V : Valuation τ sig (Elt Ideal)) :
    (after (gateOps_7_0 ++ (gateOps_7_1 ++ (gateOps_7_2 ++ dotOps_7))) V (Proc.devRef .tc main_v894) : FVec Ideal S32x4x4 .f32)
      = layerVal (V (Proc.devRef .tc main_arg1)) (V (Proc.devRef .tc main_v783)) ![7, 0, 0] ![7, 0, 1] ![7, 0, 2]
          slices_S8x32x3_S1x32x1_7_0_0 slices_S8x32x3_S1x32x1_7_0_1 slices_S8x32x3_S1x32x1_7_0_2 := by
  rw [after_append, after_append, after_append, dots_7_val,
    gate_7_2_val, gate_7_2_keep _ main_v855 (by decide), gate_7_2_keep _ main_v819 (by decide), gate_7_2_keep _ main_v783 (by decide),
    gate_7_1_val, gate_7_1_keep _ main_v819 (by decide), gate_7_1_keep _ main_v783 (by decide), gate_7_1_keep _ main_arg1 (by decide),
    gate_7_0_val, gate_7_0_keep _ main_v783 (by decide), gate_7_0_keep _ main_arg1 (by decide)]
  rfl

end Cert.KernelIdeal.HostLayer

end
-- ==== Proof.HostLayer.lean ====
/- GENERATED by `bun scratch/gen_layers.js` (run in the unit directory) from proof/Proof/HostChunks.lean: a table of cases, the same
   statements for each layer over that layer's buffer names; the lemmas it cites are written by hand (HostLayerAssemble,
   HostLayerVec, HostLayerDot, HostLayerKeep).

  One layer of the host program read at an index. Under the hypotheses that the angle array holds the real numbers
  `pr` and that the matrix accumulated before layer l holds the real matrices `Mr`, the matrix accumulated after
  layer l holds, for qubit q, the real matrix RX(θ₂)·(RZ(θ₁)·RY(θ₀)) of that qubit's three angles of layer l times
  `Mr q`; and the layer writes neither argument array. (Eight instances of one statement; the argument is in the
  modules this one imports.)
-/
import proofs.«119607_j65481071399210_2_alg».proof.Proof.HostLayerL0
import proofs.«119607_j65481071399210_2_alg».proof.Proof.HostLayerL1
import proofs.«119607_j65481071399210_2_alg».proof.Proof.HostLayerL2
import proofs.«119607_j65481071399210_2_alg».proof.Proof.HostLayerL3
import proofs.«119607_j65481071399210_2_alg».proof.Proof.HostLayerL4
import proofs.«119607_j65481071399210_2_alg».proof.Proof.HostLayerL5
import proofs.«119607_j65481071399210_2_alg».proof.Proof.HostLayerL6
import proofs.«119607_j65481071399210_2_alg».proof.Proof.HostLayerL7

set_option maxRecDepth 65536

noncomputable section

namespace Cert.KernelIdeal.HostLayer

open Cert.KernelIdeal Cert.KernelIdeal.Gen Idealize.ShloMosaic Idealize.ShloMosaic.ValueIdx Idealize.SL.Sem Cert.KernelIdeal.HostChunks

/-- Layer 0: `main_v117` at (q, i, j) is entry (i, j) of the layer's matrix for qubit q times the matrix `main_v6` held for q. -/
theorem layer_0 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v6) : S32x4x4.Idx → EReal) (ix3 q i j) = ((Mr q i j : ℝ) : EReal))
    (q : Fin 32) (i j : Fin 4) :
    (StableHlo.after (gateOps_0_0 ++ (gateOps_0_1 ++ (gateOps_0_2 ++ dotOps_0))) W (Proc.devRef .tc main_v117) : S32x4x4.Idx → EReal) (ix3 q i j)
      = (((Cert.Spec.mLayer (fun g => pr ⟨0, by decide⟩ q g) * Mr q) i j : ℝ) : EReal) :=
  (congrFun (layer_0_val W) (ix3 q i j)).trans
    (layerVal_apply _ _ _ _ _ _ _ _ ⟨0, by decide⟩ rfl rfl rfl pr hp Mr hM q i j)

/-- Layer 0 does not write the input array. -/
theorem layer_0_arg0 (W : Valuation τ sig (Elt Ideal)) :
    StableHlo.after (gateOps_0_0 ++ (gateOps_0_1 ++ (gateOps_0_2 ++ dotOps_0))) W (Proc.devRef .tc main_arg0) = W (Proc.devRef .tc main_arg0) :=
  layer_0_keep W main_arg0 (by decide)

/-- Layer 0 does not write the angle array. -/
theorem layer_0_arg1 (W : Valuation τ sig (Elt Ideal)) :
    StableHlo.after (gateOps_0_0 ++ (gateOps_0_1 ++ (gateOps_0_2 ++ dotOps_0))) W (Proc.devRef .tc main_arg1) = W (Proc.devRef .tc main_arg1) :=
  layer_0_keep W main_arg1 (by decide)

/-- Layer 1: `main_v228` at (q, i, j) is entry (i, j) of the layer's matrix for qubit q times the matrix `main_v117` held for q. -/
theorem layer_1 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v117) : S32x4x4.Idx → EReal) (ix3 q i j) = ((Mr q i j : ℝ) : EReal))
    (q : Fin 32) (i j : Fin 4) :
    (StableHlo.after (gateOps_1_0 ++ (gateOps_1_1 ++ (gateOps_1_2 ++ dotOps_1))) W (Proc.devRef .tc main_v228) : S32x4x4.Idx → EReal) (ix3 q i j)
      = (((Cert.Spec.mLayer (fun g => pr ⟨1, by decide⟩ q g) * Mr q) i j : ℝ) : EReal) :=
  (congrFun (layer_1_val W) (ix3 q i j)).trans
    (layerVal_apply _ _ _ _ _ _ _ _ ⟨1, by decide⟩ rfl rfl rfl pr hp Mr hM q i j)

/-- Layer 1 does not write the input array. -/
theorem layer_1_arg0 (W : Valuation τ sig (Elt Ideal)) :
    StableHlo.after (gateOps_1_0 ++ (gateOps_1_1 ++ (gateOps_1_2 ++ dotOps_1))) W (Proc.devRef .tc main_arg0) = W (Proc.devRef .tc main_arg0) :=
  layer_1_keep W main_arg0 (by decide)

/-- Layer 1 does not write the angle array. -/
theorem layer_1_arg1 (W : Valuation τ sig (Elt Ideal)) :
    StableHlo.after (gateOps_1_0 ++ (gateOps_1_1 ++ (gateOps_1_2 ++ dotOps_1))) W (Proc.devRef .tc main_arg1) = W (Proc.devRef .tc main_arg1) :=
  layer_1_keep W main_arg1 (by decide)

/-- Layer 2: `main_v339` at (q, i, j) is entry (i, j) of the layer's matrix for qubit q times the matrix `main_v228` held for q. -/
theorem layer_2 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v228) : S32x4x4.Idx → EReal) (ix3 q i j) = ((Mr q i j : ℝ) : EReal))
    (q : Fin 32) (i j : Fin 4) :
    (StableHlo.after (gateOps_2_0 ++ (gateOps_2_1 ++ (gateOps_2_2 ++ dotOps_2))) W (Proc.devRef .tc main_v339) : S32x4x4.Idx → EReal) (ix3 q i j)
      = (((Cert.Spec.mLayer (fun g => pr ⟨2, by decide⟩ q g) * Mr q) i j : ℝ) : EReal) :=
  (congrFun (layer_2_val W) (ix3 q i j)).trans
    (layerVal_apply _ _ _ _ _ _ _ _ ⟨2, by decide⟩ rfl rfl rfl pr hp Mr hM q i j)

/-- Layer 2 does not write the input array. -/
theorem layer_2_arg0 (W : Valuation τ sig (Elt Ideal)) :
    StableHlo.after (gateOps_2_0 ++ (gateOps_2_1 ++ (gateOps_2_2 ++ dotOps_2))) W (Proc.devRef .tc main_arg0) = W (Proc.devRef .tc main_arg0) :=
  layer_2_keep W main_arg0 (by decide)

/-- Layer 2 does not write the angle array. -/
theorem layer_2_arg1 (W : Valuation τ sig (Elt Ideal)) :
    StableHlo.after (gateOps_2_0 ++ (gateOps_2_1 ++ (gateOps_2_2 ++ dotOps_2))) W (Proc.devRef .tc main_arg1) = W (Proc.devRef .tc main_arg1) :=
  layer_2_keep W main_arg1 (by decide)

/-- Layer 3: `main_v450` at (q, i, j) is entry (i, j) of the layer's matrix for qubit q times the matrix `main_v339` held for q. -/
theorem layer_3 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v339) : S32x4x4.Idx → EReal) (ix3 q i j) = ((Mr q i j : ℝ) : EReal))
    (q : Fin 32) (i j : Fin 4) :
    (StableHlo.after (gateOps_3_0 ++ (gateOps_3_1 ++ (gateOps_3_2 ++ dotOps_3))) W (Proc.devRef .tc main_v450) : S32x4x4.Idx → EReal) (ix3 q i j)
      = (((Cert.Spec.mLayer (fun g => pr ⟨3, by decide⟩ q g) * Mr q) i j : ℝ) : EReal) :=
  (congrFun (layer_3_val W) (ix3 q i j)).trans
    (layerVal_apply _ _ _ _ _ _ _ _ ⟨3, by decide⟩ rfl rfl rfl pr hp Mr hM q i j)

/-- Layer 3 does not write the input array. -/
theorem layer_3_arg0 (W : Valuation τ sig (Elt Ideal)) :
    StableHlo.after (gateOps_3_0 ++ (gateOps_3_1 ++ (gateOps_3_2 ++ dotOps_3))) W (Proc.devRef .tc main_arg0) = W (Proc.devRef .tc main_arg0) :=
  layer_3_keep W main_arg0 (by decide)

/-- Layer 3 does not write the angle array. -/
theorem layer_3_arg1 (W : Valuation τ sig (Elt Ideal)) :
    StableHlo.after (gateOps_3_0 ++ (gateOps_3_1 ++ (gateOps_3_2 ++ dotOps_3))) W (Proc.devRef .tc main_arg1) = W (Proc.devRef .tc main_arg1) :=
  layer_3_keep W main_arg1 (by decide)

/-- Layer 4: `main_v561` at (q, i, j) is entry (i, j) of the layer's matrix for qubit q times the matrix `main_v450` held for q. -/
theorem layer_4 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v450) : S32x4x4.Idx → EReal) (ix3 q i j) = ((Mr q i j : ℝ) : EReal))
    (q : Fin 32) (i j : Fin 4) :
    (StableHlo.after (gateOps_4_0 ++ (gateOps_4_1 ++ (gateOps_4_2 ++ dotOps_4))) W (Proc.devRef .tc main_v561) : S32x4x4.Idx → EReal) (ix3 q i j)
      = (((Cert.Spec.mLayer (fun g => pr ⟨4, by decide⟩ q g) * Mr q) i j : ℝ) : EReal) :=
  (congrFun (layer_4_val W) (ix3 q i j)).trans
    (layerVal_apply _ _ _ _ _ _ _ _ ⟨4, by decide⟩ rfl rfl rfl pr hp Mr hM q i j)

/-- Layer 4 does not write the input array. -/
theorem layer_4_arg0 (W : Valuation τ sig (Elt Ideal)) :
    StableHlo.after (gateOps_4_0 ++ (gateOps_4_1 ++ (gateOps_4_2 ++ dotOps_4))) W (Proc.devRef .tc main_arg0) = W (Proc.devRef .tc main_arg0) :=
  layer_4_keep W main_arg0 (by decide)

/-- Layer 4 does not write the angle array. -/
theorem layer_4_arg1 (W : Valuation τ sig (Elt Ideal)) :
    StableHlo.after (gateOps_4_0 ++ (gateOps_4_1 ++ (gateOps_4_2 ++ dotOps_4))) W (Proc.devRef .tc main_arg1) = W (Proc.devRef .tc main_arg1) :=
  layer_4_keep W main_arg1 (by decide)

/-- Layer 5: `main_v672` at (q, i, j) is entry (i, j) of the layer's matrix for qubit q times the matrix `main_v561` held for q. -/
theorem layer_5 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v561) : S32x4x4.Idx → EReal) (ix3 q i j) = ((Mr q i j : ℝ) : EReal))
    (q : Fin 32) (i j : Fin 4) :
    (StableHlo.after (gateOps_5_0 ++ (gateOps_5_1 ++ (gateOps_5_2 ++ dotOps_5))) W (Proc.devRef .tc main_v672) : S32x4x4.Idx → EReal) (ix3 q i j)
      = (((Cert.Spec.mLayer (fun g => pr ⟨5, by decide⟩ q g) * Mr q) i j : ℝ) : EReal) :=
  (congrFun (layer_5_val W) (ix3 q i j)).trans
    (layerVal_apply _ _ _ _ _ _ _ _ ⟨5, by decide⟩ rfl rfl rfl pr hp Mr hM q i j)

/-- Layer 5 does not write the input array. -/
theorem layer_5_arg0 (W : Valuation τ sig (Elt Ideal)) :
    StableHlo.after (gateOps_5_0 ++ (gateOps_5_1 ++ (gateOps_5_2 ++ dotOps_5))) W (Proc.devRef .tc main_arg0) = W (Proc.devRef .tc main_arg0) :=
  layer_5_keep W main_arg0 (by decide)

/-- Layer 5 does not write the angle array. -/
theorem layer_5_arg1 (W : Valuation τ sig (Elt Ideal)) :
    StableHlo.after (gateOps_5_0 ++ (gateOps_5_1 ++ (gateOps_5_2 ++ dotOps_5))) W (Proc.devRef .tc main_arg1) = W (Proc.devRef .tc main_arg1) :=
  layer_5_keep W main_arg1 (by decide)

/-- Layer 6: `main_v783` at (q, i, j) is entry (i, j) of the layer's matrix for qubit q times the matrix `main_v672` held for q. -/
theorem layer_6 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v672) : S32x4x4.Idx → EReal) (ix3 q i j) = ((Mr q i j : ℝ) : EReal))
    (q : Fin 32) (i j : Fin 4) :
    (StableHlo.after (gateOps_6_0 ++ (gateOps_6_1 ++ (gateOps_6_2 ++ dotOps_6))) W (Proc.devRef .tc main_v783) : S32x4x4.Idx → EReal) (ix3 q i j)
      = (((Cert.Spec.mLayer (fun g => pr ⟨6, by decide⟩ q g) * Mr q) i j : ℝ) : EReal) :=
  (congrFun (layer_6_val W) (ix3 q i j)).trans
    (layerVal_apply _ _ _ _ _ _ _ _ ⟨6, by decide⟩ rfl rfl rfl pr hp Mr hM q i j)

/-- Layer 6 does not write the input array. -/
theorem layer_6_arg0 (W : Valuation τ sig (Elt Ideal)) :
    StableHlo.after (gateOps_6_0 ++ (gateOps_6_1 ++ (gateOps_6_2 ++ dotOps_6))) W (Proc.devRef .tc main_arg0) = W (Proc.devRef .tc main_arg0) :=
  layer_6_keep W main_arg0 (by decide)

/-- Layer 6 does not write the angle array. -/
theorem layer_6_arg1 (W : Valuation τ sig (Elt Ideal)) :
    StableHlo.after (gateOps_6_0 ++ (gateOps_6_1 ++ (gateOps_6_2 ++ dotOps_6))) W (Proc.devRef .tc main_arg1) = W (Proc.devRef .tc main_arg1) :=
  layer_6_keep W main_arg1 (by decide)

/-- Layer 7: `main_v894` at (q, i, j) is entry (i, j) of the layer's matrix for qubit q times the matrix `main_v783` held for q. -/
theorem layer_7 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal))
    (Mr : Fin 32 → Matrix (Fin 4) (Fin 4) ℝ)
    (hM : ∀ (q : Fin 32) (i j : Fin 4), (W (Proc.devRef .tc main_v783) : S32x4x4.Idx → EReal) (ix3 q i j) = ((Mr q i j : ℝ) : EReal))
    (q : Fin 32) (i j : Fin 4) :
    (StableHlo.after (gateOps_7_0 ++ (gateOps_7_1 ++ (gateOps_7_2 ++ dotOps_7))) W (Proc.devRef .tc main_v894) : S32x4x4.Idx → EReal) (ix3 q i j)
      = (((Cert.Spec.mLayer (fun g => pr ⟨7, by decide⟩ q g) * Mr q) i j : ℝ) : EReal) :=
  (congrFun (layer_7_val W) (ix3 q i j)).trans
    (layerVal_apply _ _ _ _ _ _ _ _ ⟨7, by decide⟩ rfl rfl rfl pr hp Mr hM q i j)

/-- Layer 7 does not write the input array. -/
theorem layer_7_arg0 (W : Valuation τ sig (Elt Ideal)) :
    StableHlo.after (gateOps_7_0 ++ (gateOps_7_1 ++ (gateOps_7_2 ++ dotOps_7))) W (Proc.devRef .tc main_arg0) = W (Proc.devRef .tc main_arg0) :=
  layer_7_keep W main_arg0 (by decide)

/-- Layer 7 does not write the angle array. -/
theorem layer_7_arg1 (W : Valuation τ sig (Elt Ideal)) :
    StableHlo.after (gateOps_7_0 ++ (gateOps_7_1 ++ (gateOps_7_2 ++ dotOps_7))) W (Proc.devRef .tc main_arg1) = W (Proc.devRef .tc main_arg1) :=
  layer_7_keep W main_arg1 (by decide)

end Cert.KernelIdeal.HostLayer

end
-- ==== Proof.CoefValue.lean ====
/-
  The two arrays the kernel reads, as functions of the program's arguments: the coefficient array [3,128] holds, in
  lane j of row k, the k-th coefficient (constant, cosine, sine) of the eight-layer circuit with the angles of qubit
  j % 32; the array [65536,128] is the input [262144,32] re-laid row-major. The stage-by-stage run of the host
  operations is instantiated at the eight layers' statements.
-/
import proofs.«119607_j65481071399210_2_alg».proof.Proof.HostChain
import proofs.«119607_j65481071399210_2_alg».proof.Proof.HostLayer

set_option maxRecDepth 65536

noncomputable section

namespace Cert.KernelIdeal.HostValue

open Cert.KernelIdeal Cert.KernelIdeal.Gen Cert.KernelIdeal.HostChunks
open Idealize.ShloMosaic Idealize.ShloMosaic.ValueIdx Idealize.SL.Sem

/-- The eight layers' statements, together. -/
theorem layerFacts : LayerFacts :=
  ⟨HostLayer.layer_0, HostLayer.layer_0_arg0, HostLayer.layer_0_arg1,
   HostLayer.layer_1, HostLayer.layer_1_arg0, HostLayer.layer_1_arg1,
   HostLayer.layer_2, HostLayer.layer_2_arg0, HostLayer.layer_2_arg1,
   HostLayer.layer_3, HostLayer.layer_3_arg0, HostLayer.layer_3_arg1,
   HostLayer.layer_4, HostLayer.layer_4_arg0, HostLayer.layer_4_arg1,
   HostLayer.layer_5, HostLayer.layer_5_arg0, HostLayer.layer_5_arg1,
   HostLayer.layer_6, HostLayer.layer_6_arg0, HostLayer.layer_6_arg1,
   HostLayer.layer_7, HostLayer.layer_7_arg0, HostLayer.layer_7_arg1⟩

/-- Lane j of row k of the coefficient array is the k-th coefficient of the circuit with qubit j % 32's angles. -/
theorem coefwide_apply (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ValueIdx.ix3 a q g) = ((pr a q g : ℝ) : EReal))
    (k : Fin 3) (j : Fin 128) :
    (StableHlo.after (hostOps0 (F := Ideal)) W (Proc.devRef .tc main_v949) : S3x128.Idx → EReal) (ValueIdx.ix2 k j)
      = ((Cert.Spec.coef (fun a g => pr a ⟨j.val % 32, Nat.mod_lt _ (by decide)⟩ g) k : ℝ) : EReal) :=
  coefwide_apply_of layerFacts W pr hp k j

/-- The kernel's input array at (i, j) is the program's input at (4·i + j / 32, j % 32). -/
theorem xwide_apply (W : Valuation τ sig (Elt Ideal)) (i : Fin 65536) (j : Fin 128) :
    (StableHlo.after (hostOps0 (F := Ideal)) W (Proc.devRef .tc main_v946) : S65536x128.Idx → EReal) (ValueIdx.ix2 i j)
      = (W (Proc.devRef .tc main_arg0) : S262144x32.Idx → EReal) (ValueIdx.ix2 ⟨4 * i.val + j.val / 32, by omega⟩ ⟨j.val % 32, Nat.mod_lt _ (by decide)⟩) :=
  xwide_apply_of layerFacts W i j

end Cert.KernelIdeal.HostValue

end
-- ==== Proof.KResult.lean ====
/-
  The kernel program's result at (b, q) as a real number: with the inputs real, the re-laid input at row b / 4, lane
  (b % 4)·32 + q is x (b, q), the tiled coefficients at that lane are the coefficients of qubit q, and cos / sin of a real
  are real, so the entry is P q + C q · cos (x (b, q)) + S q · sin (x (b, q)) coerced.
-/
import proofs.«119607_j65481071399210_2_alg».proof.Proof.KValue
import proofs.«119607_j65481071399210_2_alg».proof.Proof.CoefValue

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Hand

variable (m : (ℓ : Loc nD τ sig) → Buf (Elt Ideal) ℓ)

/-- The re-laid input the region finds, at row b / 4 and lane (b % 4)·32 + q, is the input's entry (b, q). -/
theorem xw_apply (c : Dev nD) (b : Fin 262144) (q : Fin 32) :
    xw m c (ix2 (⟨b.val / 4, by omega⟩ : Fin 65536) (⟨(b.val % 4) * 32 + q.val, by omega⟩ : Fin 128))
      = (m ((c.tc : Thread nD τ).loc main_arg0) : S262144x32.Idx → EReal) (ix2 b q) := by
  unfold xw
  show (V0 m c (Proc.devRef .tc main_v946) : S65536x128.Idx → EReal) _ = _
  rw [V0_eq]
  refine (Cert.KernelIdeal.HostValue.xwide_apply _ _ _).trans ?_
  refine congrArg (m ((c.tc : Thread nD τ).loc main_arg0) : S262144x32.Idx → EReal) (funext fun a => Fin.ext ?_)
  match a with
  | ⟨0, _⟩ => show 4 * (b.val / 4) + ((b.val % 4) * 32 + q.val) / 32 = b.val; omega
  | ⟨1, _⟩ => show ((b.val % 4) * 32 + q.val) % 32 = q.val; omega

/-- The tiled coefficients the region finds, at row k and lane (b % 4)·32 + q, are qubit q's k-th coefficient. -/
theorem cw_apply (c : Dev nD) (pr : Fin 8 → Fin 32 → Fin 3 → ℝ)
    (hp : ∀ (a : Fin 8) (q : Fin 32) (g : Fin 3),
      (m ((c.tc : Thread nD τ).loc main_arg1) : S8x32x3.Idx → EReal) (ix3 a q g) = ((pr a q g : ℝ) : EReal))
    (k : Fin 3) (b : Fin 262144) (q : Fin 32) :
    cw m c (ix2 k (⟨(b.val % 4) * 32 + q.val, by omega⟩ : Fin 128))
      = ((Cert.Spec.coef (fun a g => pr a q g) k : ℝ) : EReal) := by
  unfold cw
  show (V0 m c (Proc.devRef .tc main_v949) : S3x128.Idx → EReal) _ = _
  rw [V0_eq]
  refine (Cert.KernelIdeal.HostValue.coefwide_apply _ pr hp k _).trans ?_
  exact congrArg (fun q' : Fin 32 => ((Cert.Spec.coef (fun a g => pr a q' g) k : ℝ) : EReal))
    (Fin.ext (by show ((b.val % 4) * 32 + q.val) % 32 = q.val; omega))

/-- The kernel program's result at (b, q), the inputs being real: the coerced real P + C·cos x + S·sin x. -/
theorem result_real (c : Dev nD) (xr : Fin 262144 → Fin 32 → ℝ) (pr : Fin 8 → Fin 32 → Fin 3 → ℝ)
    (hx : ∀ (b : Fin 262144) (q : Fin 32),
      (m ((c.tc : Thread nD τ).loc main_arg0) : S262144x32.Idx → EReal) (ix2 b q) = ((xr b q : ℝ) : EReal))
    (hp : ∀ (a : Fin 8) (q : Fin 32) (g : Fin 3),
      (m ((c.tc : Thread nD τ).loc main_arg1) : S8x32x3.Idx → EReal) (ix3 a q g) = ((pr a q g : ℝ) : EReal))
    (b : Fin 262144) (q : Fin 32) :
    result m c (ix2 b q) = ((Cert.Spec.kerOut (xr b q) (fun a g => pr a q g) : ℝ) : EReal) := by
  rw [result_apply, xw_apply, cw_apply m c pr hp 0, cw_apply m c pr hp 1, cw_apply m c pr hp 2, hx]
  simp only [Ideal.cos_coe, Ideal.sin_coe, ← EReal.coe_mul, ← EReal.coe_add]
  rfl

end Cert.KernelIdeal.KValue

end
-- ==== Proof.RefValueLib.lean ====
/-
  Arrays of extended reals read at one index: the layout operations of the reference program (a row broadcast
  along the batch axis, a scalar constant broadcast, a unit slice of the parameter array reshaped to a row) and
  the pointwise combinations  u·p + v·r,  u·p − v·r,  (−u)·p + v·r  of arrays that hold real numbers at the index.
  Every lemma says: if the operands are (coerced) reals at the index, so is the result, and which real.
-/
import Idealize.ShloMosaic.Lib.ValueIdx
import Idealize.ShloMosaic.Lib.Pipeline.Value
import Mathlib.Analysis.SpecialFunctions.Trigonometric.Basic

noncomputable section

namespace Cert.ReferenceIdeal.RefValue

open Idealize.ShloMosaic Idealize.ShloMosaic.ValueIdx

/-- The batch-by-qubit shape [262144, 32]. -/
abbrev SBQ : Shape := ⟨2, ![262144, 32]⟩
/-- A row [1, 32]. -/
abbrev SRow : Shape := ⟨2, ![1, 32]⟩
/-- The parameter array's shape [8, 32, 3]. -/
abbrev SPar : Shape := ⟨3, ![8, 32, 3]⟩
/-- A unit slice [1, 32, 1] of the parameter array. -/
abbrev SSl : Shape := ⟨3, ![1, 32, 1]⟩
/-- A vector [32]. -/
abbrev SVec : Shape := ⟨1, ![32]⟩
/-- The scalar shape. -/
abbrev SSc : Shape := ⟨0, ![]⟩

/-! ## The three float words the reference spells -/

/-- The word 0x3F000000 is 1/2. -/
theorem ofBits_half : Ideal.ofBits .f32 0x3F000000#32 = (((1 : ℝ) / 2 : ℝ) : EReal) := by
  simp [Ideal.ofBits, Ideal.ieee, -EReal.coe_mul]; norm_num

/-- The word 0x3F800000 is 1. -/
theorem ofBits_one : Ideal.ofBits .f32 0x3F800000#32 = ((1 : ℝ) : EReal) := by
  simp [Ideal.ofBits, Ideal.ieee, -EReal.coe_mul]; norm_num

/-- The zero word is 0. -/
theorem ofBits_zero : Ideal.ofBits .f32 0x00000000#32 = ((0 : ℝ) : EReal) := by
  simp [Ideal.ofBits, Ideal.ieee]

/-! ## Layout operations at an index -/

section Layout
variable {α : Type}

/-- A row broadcast along the batch axis reads, at (b, q), the row at (0, q). -/
theorem bcRow_apply (h : SRow.BroadcastsInDim SBQ (![0, 1] : Fin 2 → Fin SBQ.rank)) (c : SRow.Idx → α)
    (b : Fin 262144) (q : Fin 32) :
    broadcastInDim SBQ ![0, 1] h c (ix2 b q) = c (ix2 (0 : Fin 1) q) :=
  broadcastInDim_apply _ h c _ _ (fun a => match a with | ⟨0, _⟩ => rfl | ⟨1, _⟩ => rfl)

/-- A broadcast scalar reads the scalar everywhere. -/
theorem bcScalar_apply {t : Shape} (h : SSc.BroadcastsInDim t (![] : Fin 0 → Fin t.rank)) (x : SSc.Idx → α) (j : t.Idx) :
    broadcastInDim t ![] h x j = x ix0 :=
  broadcastInDim_apply _ h x j ix0 (fun a => a.elim0)

/-- The unit slice of the parameter array at layer `a`, angle `g`, reshaped to a vector and broadcast to a row, reads
    at (0, q) the parameter (a, q, g). -/
theorem paramRow_apply (a : Fin 8) (g : Fin 3) (P : SPar.Idx → α)
    (hs : SPar.Slices ![a.val, 0, g.val] SSl) (hc : SSl.ShapeCasts SVec)
    (hb : SVec.BroadcastsInDim SRow (![1] : Fin 1 → Fin SRow.rank)) (q : Fin 32) :
    broadcastInDim SRow ![1] hb (shapeCast SVec (extractStridedSlice SSl ![a.val, 0, g.val] P hs) hc) (ix2 (0 : Fin 1) q)
      = P (ix3 a q g) := by
  refine (broadcastInDim_apply _ hb _ _ (ix1 q) (fun i => match i with | ⟨0, _⟩ => rfl)).trans ?_
  refine (shapeCast_apply _ hc (ix1 q) (ix3 (0 : Fin 1) q (0 : Fin 1)) ?_).trans ?_
  · rw [Shape.rowMajor_val_three, Shape.rowMajor_val_one]
    show ((0 : Fin 1).val * 32 + q.val) * 1 + (0 : Fin 1).val = q.val
    simp
  · refine extractStridedSlice_apply _ P hs _ (ix3 a q g) (fun i => ?_)
    match i with
    | ⟨0, _⟩ => show a.val = a.val + (0 : Fin 1).val; simp
    | ⟨1, _⟩ => show q.val = 0 + q.val; simp
    | ⟨2, _⟩ => show g.val = g.val + (0 : Fin 1).val; simp

end Layout

/-! ## Half-angle cosine and sine of an array that holds a real at the index -/

section Trig
variable {s : Shape}

/-- cos (r · ½) at an index where `r` holds the real `t`. -/
theorem cos_half_apply (h0 : SSc.BroadcastsInDim s (![] : Fin 0 → Fin s.rank)) (r : FVec Ideal s .f32) (i : s.Idx) (t : ℝ)
    (hr : r i = ((t : ℝ) : EReal)) :
    Host.cos (mulf r (broadcastInDim s ![] h0 (constant (F := Ideal) SSc .f32 0x3F000000#32))) i
      = ((Real.cos (t * (1 / 2)) : ℝ) : EReal) := by
  show Ideal.cos (r i * broadcastInDim s ![] h0 (constant (F := Ideal) SSc .f32 0x3F000000#32) i) = _
  rw [bcScalar_apply, constant_apply, ofBits_half, hr, ← EReal.coe_mul]
  rfl

/-- sin (r · ½) at an index where `r` holds the real `t`. -/
theorem sin_half_apply (h0 : SSc.BroadcastsInDim s (![] : Fin 0 → Fin s.rank)) (r : FVec Ideal s .f32) (i : s.Idx) (t : ℝ)
    (hr : r i = ((t : ℝ) : EReal)) :
    Host.sin (mulf r (broadcastInDim s ![] h0 (constant (F := Ideal) SSc .f32 0x3F000000#32))) i
      = ((Real.sin (t * (1 / 2)) : ℝ) : EReal) := by
  show Ideal.sin (r i * broadcastInDim s ![] h0 (constant (F := Ideal) SSc .f32 0x3F000000#32) i) = _
  rw [bcScalar_apply, constant_apply, ofBits_half, hr, ← EReal.coe_mul]
  rfl

/-- A broadcast constant word at an index. -/
theorem bcConst_apply (h0 : SSc.BroadcastsInDim s (![] : Fin 0 → Fin s.rank)) (w : BitVec 32) (i : s.Idx) :
    (broadcastInDim s ![] h0 (constant (F := Ideal) SSc .f32 w) : FVec Ideal s .f32) i = Ideal.ofBits .f32 w := by
  rw [bcScalar_apply, constant_apply]

end Trig

/-! ## u·p ± v·r at an index -/

section Pointwise
variable {s : Shape}

/-- u·p + v·r. -/
theorem add_pt (u p v r : FVec Ideal s .f32) (i : s.Idx) (u' p' v' r' : ℝ)
    (hu : u i = ((u' : ℝ) : EReal)) (hp : p i = ((p' : ℝ) : EReal)) (hv : v i = ((v' : ℝ) : EReal)) (hr : r i = ((r' : ℝ) : EReal)) :
    addf (mulf u p) (mulf v r) i = ((u' * p' + v' * r' : ℝ) : EReal) := by
  show u i * p i + v i * r i = _
  rw [hu, hp, hv, hr, ← EReal.coe_mul, ← EReal.coe_mul, ← EReal.coe_add]

/-- u·p − v·r. -/
theorem sub_pt (u p v r : FVec Ideal s .f32) (i : s.Idx) (u' p' v' r' : ℝ)
    (hu : u i = ((u' : ℝ) : EReal)) (hp : p i = ((p' : ℝ) : EReal)) (hv : v i = ((v' : ℝ) : EReal)) (hr : r i = ((r' : ℝ) : EReal)) :
    subf (mulf u p) (mulf v r) i = ((u' * p' - v' * r' : ℝ) : EReal) := by
  show u i * p i - v i * r i = _
  rw [hu, hp, hv, hr, ← EReal.coe_mul, ← EReal.coe_mul, ← EReal.coe_sub]

/-- The negation of an array that holds a real. -/
theorem neg_pt (u : FVec Ideal s .f32) (i : s.Idx) (u' : ℝ) (hu : u i = ((u' : ℝ) : EReal)) :
    Host.negf u i = ((-u' : ℝ) : EReal) := by
  show -(u i) = _
  rw [hu, ← EReal.coe_neg]

end Pointwise

/-! ## The same with the coefficients rows broadcast along the batch axis -/

section Broadcast
variable (h : SRow.BroadcastsInDim SBQ (![0, 1] : Fin 2 → Fin SBQ.rank))

/-- (row u)·p + (row v)·r at (b, q). -/
theorem add_bc (u v : FVec Ideal SRow .f32) (p r : FVec Ideal SBQ .f32) (b : Fin 262144) (q : Fin 32) (u' p' v' r' : ℝ)
    (hu : u (ix2 (0 : Fin 1) q) = ((u' : ℝ) : EReal)) (hp : p (ix2 b q) = ((p' : ℝ) : EReal))
    (hv : v (ix2 (0 : Fin 1) q) = ((v' : ℝ) : EReal)) (hr : r (ix2 b q) = ((r' : ℝ) : EReal)) :
    addf (mulf (broadcastInDim SBQ ![0, 1] h u) p) (mulf (broadcastInDim SBQ ![0, 1] h v) r) (ix2 b q)
      = ((u' * p' + v' * r' : ℝ) : EReal) :=
  add_pt _ _ _ _ _ _ _ _ _ ((bcRow_apply h u b q).trans hu) hp ((bcRow_apply h v b q).trans hv) hr

/-- (row u)·p − (row v)·r at (b, q). -/
theorem sub_bc (u v : FVec Ideal SRow .f32) (p r : FVec Ideal SBQ .f32) (b : Fin 262144) (q : Fin 32) (u' p' v' r' : ℝ)
    (hu : u (ix2 (0 : Fin 1) q) = ((u' : ℝ) : EReal)) (hp : p (ix2 b q) = ((p' : ℝ) : EReal))
    (hv : v (ix2 (0 : Fin 1) q) = ((v' : ℝ) : EReal)) (hr : r (ix2 b q) = ((r' : ℝ) : EReal)) :
    subf (mulf (broadcastInDim SBQ ![0, 1] h u) p) (mulf (broadcastInDim SBQ ![0, 1] h v) r) (ix2 b q)
      = ((u' * p' - v' * r' : ℝ) : EReal) :=
  sub_pt _ _ _ _ _ _ _ _ _ ((bcRow_apply h u b q).trans hu) hp ((bcRow_apply h v b q).trans hv) hr

/-- (row (−u))·p + (row v)·r at (b, q). -/
theorem negadd_bc (u v : FVec Ideal SRow .f32) (p r : FVec Ideal SBQ .f32) (b : Fin 262144) (q : Fin 32) (u' p' v' r' : ℝ)
    (hu : u (ix2 (0 : Fin 1) q) = ((u' : ℝ) : EReal)) (hp : p (ix2 b q) = ((p' : ℝ) : EReal))
    (hv : v (ix2 (0 : Fin 1) q) = ((v' : ℝ) : EReal)) (hr : r (ix2 b q) = ((r' : ℝ) : EReal)) :
    addf (mulf (broadcastInDim SBQ ![0, 1] h (Host.negf u)) p) (mulf (broadcastInDim SBQ ![0, 1] h v) r) (ix2 b q)
      = ((-u' * p' + v' * r' : ℝ) : EReal) :=
  add_pt _ _ _ _ _ _ _ _ _ ((bcRow_apply h (Host.negf u) b q).trans (neg_pt u _ u' hu)) hp
    ((bcRow_apply h v b q).trans hv) hr

end Broadcast

end Cert.ReferenceIdeal.RefValue

end
-- ==== Proof.RefValueGates.lean ====
/-
  One rotation gate applied to the four state arrays, read at one (sample, qubit): if the four arrays hold the real
  state v at (b, q) and the coefficient rows hold cos (t/2) and sin (t/2) at (0, q), then the four arrays the gate
  produces hold RY(t) v, RZ(t) v or RX(t) v there — each component is one of  c·x ± s·y,  s·x + c·y,  (−s)·x + c·y,
  and the real gate maps are written in the same order of operations.
-/
import proofs.«119607_j65481071399210_2_alg».proof.Proof.Spec
import proofs.«119607_j65481071399210_2_alg».proof.Proof.RefValueLib

noncomputable section

namespace Cert.ReferenceIdeal.RefValue

open Idealize.ShloMosaic Idealize.ShloMosaic.ValueIdx Cert.Spec

/-- The four arrays (ar, ai, br, bi) hold the real state `v` at (b, q). -/
def IsState (ar ai br bi : FVec Ideal SBQ .f32) (b : Fin 262144) (q : Fin 32) (v : St) : Prop :=
  ar (ix2 b q) = ((v 0 : ℝ) : EReal) ∧ ai (ix2 b q) = ((v 1 : ℝ) : EReal)
    ∧ br (ix2 b q) = ((v 2 : ℝ) : EReal) ∧ bi (ix2 b q) = ((v 3 : ℝ) : EReal)

section Gates
variable (h : SRow.BroadcastsInDim SBQ (![0, 1] : Fin 2 → Fin SBQ.rank))
  (c s : FVec Ideal SRow .f32) (ar ai br bi : FVec Ideal SBQ .f32) (b : Fin 262144) (q : Fin 32) (t : ℝ) (v : St)

/-- RY(t): (c·ar − s·br, c·ai − s·bi, s·ar + c·br, s·ai + c·bi). -/
theorem ry_state (hc : c (ix2 (0 : Fin 1) q) = ((Real.cos (t * (1 / 2)) : ℝ) : EReal))
    (hs : s (ix2 (0 : Fin 1) q) = ((Real.sin (t * (1 / 2)) : ℝ) : EReal)) (hv : IsState ar ai br bi b q v) :
    IsState
      (subf (mulf (broadcastInDim SBQ ![0, 1] h c) ar) (mulf (broadcastInDim SBQ ![0, 1] h s) br))
      (subf (mulf (broadcastInDim SBQ ![0, 1] h c) ai) (mulf (broadcastInDim SBQ ![0, 1] h s) bi))
      (addf (mulf (broadcastInDim SBQ ![0, 1] h s) ar) (mulf (broadcastInDim SBQ ![0, 1] h c) br))
      (addf (mulf (broadcastInDim SBQ ![0, 1] h s) ai) (mulf (broadcastInDim SBQ ![0, 1] h c) bi))
      b q (gRy t v) :=
  ⟨sub_bc h c s ar br b q _ _ _ _ hc hv.1 hs hv.2.2.1,
   sub_bc h c s ai bi b q _ _ _ _ hc hv.2.1 hs hv.2.2.2,
   add_bc h s c ar br b q _ _ _ _ hs hv.1 hc hv.2.2.1,
   add_bc h s c ai bi b q _ _ _ _ hs hv.2.1 hc hv.2.2.2⟩

/-- RZ(t): (c·ar + s·ai, c·ai − s·ar, c·br − s·bi, c·bi + s·br). -/
theorem rz_state (hc : c (ix2 (0 : Fin 1) q) = ((Real.cos (t * (1 / 2)) : ℝ) : EReal))
    (hs : s (ix2 (0 : Fin 1) q) = ((Real.sin (t * (1 / 2)) : ℝ) : EReal)) (hv : IsState ar ai br bi b q v) :
    IsState
      (addf (mulf (broadcastInDim SBQ ![0, 1] h c) ar) (mulf (broadcastInDim SBQ ![0, 1] h s) ai))
      (subf (mulf (broadcastInDim SBQ ![0, 1] h c) ai) (mulf (broadcastInDim SBQ ![0, 1] h s) ar))
      (subf (mulf (broadcastInDim SBQ ![0, 1] h c) br) (mulf (broadcastInDim SBQ ![0, 1] h s) bi))
      (addf (mulf (broadcastInDim SBQ ![0, 1] h c) bi) (mulf (broadcastInDim SBQ ![0, 1] h s) br))
      b q (gRz t v) :=
  ⟨add_bc h c s ar ai b q _ _ _ _ hc hv.1 hs hv.2.1,
   sub_bc h c s ai ar b q _ _ _ _ hc hv.2.1 hs hv.1,
   sub_bc h c s br bi b q _ _ _ _ hc hv.2.2.1 hs hv.2.2.2,
   add_bc h c s bi br b q _ _ _ _ hc hv.2.2.2 hs hv.2.2.1⟩

/-- RX(t): (c·ar + s·bi, c·ai − s·br, s·ai + c·br, (−s)·ar + c·bi). -/
theorem rx_state (hc : c (ix2 (0 : Fin 1) q) = ((Real.cos (t * (1 / 2)) : ℝ) : EReal))
    (hs : s (ix2 (0 : Fin 1) q) = ((Real.sin (t * (1 / 2)) : ℝ) : EReal)) (hv : IsState ar ai br bi b q v) :
    IsState
      (addf (mulf (broadcastInDim SBQ ![0, 1] h c) ar) (mulf (broadcastInDim SBQ ![0, 1] h s) bi))
      (subf (mulf (broadcastInDim SBQ ![0, 1] h c) ai) (mulf (broadcastInDim SBQ ![0, 1] h s) br))
      (addf (mulf (broadcastInDim SBQ ![0, 1] h s) ai) (mulf (broadcastInDim SBQ ![0, 1] h c) br))
      (addf (mulf (broadcastInDim SBQ ![0, 1] h (Host.negf s)) ar) (mulf (broadcastInDim SBQ ![0, 1] h c) bi))
      b q (gRx t v) :=
  ⟨add_bc h c s ar bi b q _ _ _ _ hc hv.1 hs hv.2.2.2,
   sub_bc h c s ai br b q _ _ _ _ hc hv.2.1 hs hv.2.2.1,
   add_bc h s c ai br b q _ _ _ _ hs hv.2.1 hc hv.2.2.1,
   negadd_bc h s c ar bi b q _ _ _ _ hs hv.1 hc hv.2.2.2⟩

end Gates

/-! ## The encoding gate: RX(x) on (1, 0, 0, 0), with the angle an array and the state four constants -/

section Encoding
variable (c s one z1 z2 z3 : FVec Ideal SBQ .f32) (b : Fin 262144) (q : Fin 32) (x : ℝ)

/-- RX(x) applied to the constant state (1, 0, 0, 0). -/
theorem enc_state (hc : c (ix2 b q) = ((Real.cos (x * (1 / 2)) : ℝ) : EReal))
    (hs : s (ix2 b q) = ((Real.sin (x * (1 / 2)) : ℝ) : EReal))
    (h1 : one (ix2 b q) = ((1 : ℝ) : EReal)) (hz1 : z1 (ix2 b q) = ((0 : ℝ) : EReal))
    (hz2 : z2 (ix2 b q) = ((0 : ℝ) : EReal)) (hz3 : z3 (ix2 b q) = ((0 : ℝ) : EReal)) :
    IsState
      (addf (mulf c one) (mulf s z3))
      (subf (mulf c z1) (mulf s z2))
      (addf (mulf s z1) (mulf c z2))
      (addf (mulf (Host.negf s) one) (mulf c z3))
      b q (enc x) :=
  ⟨add_pt c one s z3 _ _ _ _ _ hc h1 hs hz3,
   sub_pt c z1 s z2 _ _ _ _ _ hc hz1 hs hz2,
   add_pt s z1 c z2 _ _ _ _ _ hs hz1 hc hz2,
   add_pt (Host.negf s) one c z3 _ _ _ _ _ (neg_pt s _ _ hs) h1 hc hz3⟩

end Encoding

/-! ## The state after a layer, and the observable -/

/-- The state after layer `l` (0 … 7) is RX ∘ RZ ∘ RY of the state before it, with that layer's three angles. -/
theorem st_layer (x : ℝ) (θ : Fin 8 → Fin 3 → ℝ) (l : Fin 8) :
    st x θ (l.val + 1) = gRx (θ l 2) (gRz (θ l 1) (gRy (θ l 0) (st x θ l.val))) := by
  have e : (⟨l.val % 8, Nat.mod_lt _ (by decide)⟩ : Fin 8) = l := Fin.ext (Nat.mod_eq_of_lt l.isLt)
  show layer (θ ⟨l.val % 8, Nat.mod_lt _ (by decide)⟩) (st x θ l.val) = _
  rw [e]
  rfl

/-- ⟨Z⟩ of four arrays that hold the state `v`: ar² + ai² − br² − bi². -/
theorem zexp_apply (ar ai br bi : FVec Ideal SBQ .f32) (b : Fin 262144) (q : Fin 32) (v : St)
    (hv : IsState ar ai br bi b q v) :
    subf (subf (addf (mulf ar ar) (mulf ai ai)) (mulf br br)) (mulf bi bi) (ix2 b q) = ((zexp v : ℝ) : EReal) := by
  show ar (ix2 b q) * ar (ix2 b q) + ai (ix2 b q) * ai (ix2 b q) - br (ix2 b q) * br (ix2 b q)
      - bi (ix2 b q) * bi (ix2 b q) = _
  rw [hv.1, hv.2.1, hv.2.2.1, hv.2.2.2, ← EReal.coe_mul, ← EReal.coe_mul, ← EReal.coe_mul, ← EReal.coe_mul,
    ← EReal.coe_add, ← EReal.coe_sub, ← EReal.coe_sub]
  rfl

end Cert.ReferenceIdeal.RefValue

end
-- ==== Proof.RefValueEnc.lean ====
/-
  The reference program's encoding step read at one (sample, qubit).

  The generated run names every intermediate array of the reference. The first ten are: the four constant state arrays
  (1, 0, 0, 0), the half-angle cosine and sine of the input x, and the four state arrays after the encoding RX(x).
  Read at (b, q) the constants hold 1, 0, 0, 0, the trigonometric arrays hold cos (x/2) and sin (x/2), and the four
  state arrays hold the components of st x θ 0 = RX(x)(1, 0, 0, 0).
-/
import proofs.«119607_j65481071399210_2_alg».proof.Proof.Gen.ReferenceIdeal.Run
import proofs.«119607_j65481071399210_2_alg».proof.Proof.RefValueGates

set_option maxRecDepth 8192

noncomputable section

namespace Cert.ReferenceIdeal.RefValue

open Cert.ReferenceIdeal Cert.ReferenceIdeal.Gen Cert.ReferenceIdeal.Value Idealize.ShloMosaic Idealize.ShloMosaic.ValueIdx
  Idealize.ShloMosaic.StableHlo Idealize.SL.Sem Cert.Spec

/-! ## The encoding: the constant state (1, 0, 0, 0), cos (x/2), sin (x/2), and RX(x) of that state -/

theorem one0 (W : Valuation τ sig (Elt Ideal)) (b : Fin 262144) (q : Fin 32) :
    (res_main_v0 W : S262144x32.Idx → EReal) (ix2 b q) = ((1 : ℝ) : EReal) := by
  rw [res_main_v0]; exact (bcConst_apply _ _ _).trans ofBits_one
theorem zero1 (W : Valuation τ sig (Elt Ideal)) (b : Fin 262144) (q : Fin 32) :
    (res_main_v1 W : S262144x32.Idx → EReal) (ix2 b q) = ((0 : ℝ) : EReal) := by
  rw [res_main_v1]; exact (bcConst_apply _ _ _).trans ofBits_zero
theorem zero2 (W : Valuation τ sig (Elt Ideal)) (b : Fin 262144) (q : Fin 32) :
    (res_main_v2 W : S262144x32.Idx → EReal) (ix2 b q) = ((0 : ℝ) : EReal) := by
  rw [res_main_v2]; exact (bcConst_apply _ _ _).trans ofBits_zero
theorem zero3 (W : Valuation τ sig (Elt Ideal)) (b : Fin 262144) (q : Fin 32) :
    (res_main_v3 W : S262144x32.Idx → EReal) (ix2 b q) = ((0 : ℝ) : EReal) := by
  rw [res_main_v3]; exact (bcConst_apply _ _ _).trans ofBits_zero
theorem cos6 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal)) (b : Fin 262144) (q : Fin 32) :
    (res_main_v6 W : S262144x32.Idx → EReal) (ix2 b q) = ((Real.cos (xr b q * (1 / 2)) : ℝ) : EReal) := by
  rw [res_main_v6]; exact cos_half_apply _ _ _ _ (hx b q)
theorem sin9 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal)) (b : Fin 262144) (q : Fin 32) :
    (res_main_v9 W : S262144x32.Idx → EReal) (ix2 b q) = ((Real.sin (xr b q * (1 / 2)) : ℝ) : EReal) := by
  rw [res_main_v9]; exact sin_half_apply _ _ _ _ (hx b q)

/-- After the encoding the four arrays hold st x θ 0 = RX(x)(1, 0, 0, 0). -/
theorem gate0 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v12 W) (res_main_v15 W) (res_main_v18 W) (res_main_v22 W) b q
      (st (xr b q) (fun a g => pr a q g) 0) := by
  rw [res_main_v12, res_main_v15, res_main_v18, res_main_v22]
  exact enc_state _ _ _ _ _ _ b q (xr b q) (cos6 W xr hx b q) (sin9 W xr hx b q) (one0 W b q) (zero1 W b q) (zero2 W b q)
    (zero3 W b q)

end Cert.ReferenceIdeal.RefValue

end
-- ==== Proof.RefValueTable.lean ====
/-
  The table of the reference's intermediate arrays: for each of the 8 layers and each of its gates RY, RZ, RX, which
  named array is the parameter row θ[l, ·, g], which its half-angle cosine and sine rows, and which four are the state
  after the gate. Each entry instantiates one lemma: a parameter row read at (0, q) is the parameter (l, q, g); its
  cosine and sine rows hold cos (θ/2) and sin (θ/2); the four state arrays after a gate hold that gate's real map of
  the previous state, so that after layer l they hold st x θ (l+1).
-/
import proofs.«119607_j65481071399210_2_alg».proof.Proof.RefValueEnc

set_option maxRecDepth 8192

noncomputable section

namespace Cert.ReferenceIdeal.RefValue

open Cert.ReferenceIdeal Cert.ReferenceIdeal.Gen Cert.ReferenceIdeal.Value Idealize.ShloMosaic Idealize.ShloMosaic.ValueIdx
  Idealize.ShloMosaic.StableHlo Idealize.SL.Sem Cert.Spec

/-! ## The 24 parameter rows and their half-angle cosines and sines, at (0, q) -/

theorem row25 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v25 W : S1x32.Idx → EReal) (ix2 (0 : Fin 1) q) = ((pr 0 q 0 : ℝ) : EReal) := by
  rw [res_main_v25]; exact (paramRow_apply 0 0 _ _ _ _ q).trans (hp 0 q 0)
theorem cos28 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v28 W : S1x32.Idx → EReal) (ix2 (0 : Fin 1) q) = ((Real.cos (pr 0 q 0 * (1 / 2)) : ℝ) : EReal) := by
  rw [res_main_v28]; exact cos_half_apply _ _ _ _ (row25 W pr hp q)
theorem sin31 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v31 W : S1x32.Idx → EReal) (ix2 (0 : Fin 1) q) = ((Real.sin (pr 0 q 0 * (1 / 2)) : ℝ) : EReal) := by
  rw [res_main_v31]; exact sin_half_apply _ _ _ _ (row25 W pr hp q)

theorem row54 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v54 W : S1x32.Idx → EReal) (ix2 (0 : Fin 1) q) = ((pr 0 q 1 : ℝ) : EReal) := by
  rw [res_main_v54]; exact (paramRow_apply 0 1 _ _ _ _ q).trans (hp 0 q 1)
theorem cos57 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v57 W : S1x32.Idx → EReal) (ix2 (0 : Fin 1) q) = ((Real.cos (pr 0 q 1 * (1 / 2)) : ℝ) : EReal) := by
  rw [res_main_v57]; exact cos_half_apply _ _ _ _ (row54 W pr hp q)
theorem sin60 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v60 W : S1x32.Idx → EReal) (ix2 (0 : Fin 1) q) = ((Real.sin (pr 0 q 1 * (1 / 2)) : ℝ) : EReal) := by
  rw [res_main_v60]; exact sin_half_apply _ _ _ _ (row54 W pr hp q)

theorem row83 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v83 W : S1x32.Idx → EReal) (ix2 (0 : Fin 1) q) = ((pr 0 q 2 : ℝ) : EReal) := by
  rw [res_main_v83]; exact (paramRow_apply 0 2 _ _ _ _ q).trans (hp 0 q 2)
theorem cos86 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v86 W : S1x32.Idx → EReal) (ix2 (0 : Fin 1) q) = ((Real.cos (pr 0 q 2 * (1 / 2)) : ℝ) : EReal) := by
  rw [res_main_v86]; exact cos_half_apply _ _ _ _ (row83 W pr hp q)
theorem sin89 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v89 W : S1x32.Idx → EReal) (ix2 (0 : Fin 1) q) = ((Real.sin (pr 0 q 2 * (1 / 2)) : ℝ) : EReal) := by
  rw [res_main_v89]; exact sin_half_apply _ _ _ _ (row83 W pr hp q)

theorem row113 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v113 W : S1x32.Idx → EReal) (ix2 (0 : Fin 1) q) = ((pr 1 q 0 : ℝ) : EReal) := by
  rw [res_main_v113]; exact (paramRow_apply 1 0 _ _ _ _ q).trans (hp 1 q 0)
theorem cos116 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v116 W : S1x32.Idx → EReal) (ix2 (0 : Fin 1) q) = ((Real.cos (pr 1 q 0 * (1 / 2)) : ℝ) : EReal) := by
  rw [res_main_v116]; exact cos_half_apply _ _ _ _ (row113 W pr hp q)
theorem sin119 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v119 W : S1x32.Idx → EReal) (ix2 (0 : Fin 1) q) = ((Real.sin (pr 1 q 0 * (1 / 2)) : ℝ) : EReal) := by
  rw [res_main_v119]; exact sin_half_apply _ _ _ _ (row113 W pr hp q)

theorem row142 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v142 W : S1x32.Idx → EReal) (ix2 (0 : Fin 1) q) = ((pr 1 q 1 : ℝ) : EReal) := by
  rw [res_main_v142]; exact (paramRow_apply 1 1 _ _ _ _ q).trans (hp 1 q 1)
theorem cos145 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v145 W : S1x32.Idx → EReal) (ix2 (0 : Fin 1) q) = ((Real.cos (pr 1 q 1 * (1 / 2)) : ℝ) : EReal) := by
  rw [res_main_v145]; exact cos_half_apply _ _ _ _ (row142 W pr hp q)
theorem sin148 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v148 W : S1x32.Idx → EReal) (ix2 (0 : Fin 1) q) = ((Real.sin (pr 1 q 1 * (1 / 2)) : ℝ) : EReal) := by
  rw [res_main_v148]; exact sin_half_apply _ _ _ _ (row142 W pr hp q)

theorem row171 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v171 W : S1x32.Idx → EReal) (ix2 (0 : Fin 1) q) = ((pr 1 q 2 : ℝ) : EReal) := by
  rw [res_main_v171]; exact (paramRow_apply 1 2 _ _ _ _ q).trans (hp 1 q 2)
theorem cos174 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v174 W : S1x32.Idx → EReal) (ix2 (0 : Fin 1) q) = ((Real.cos (pr 1 q 2 * (1 / 2)) : ℝ) : EReal) := by
  rw [res_main_v174]; exact cos_half_apply _ _ _ _ (row171 W pr hp q)
theorem sin177 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v177 W : S1x32.Idx → EReal) (ix2 (0 : Fin 1) q) = ((Real.sin (pr 1 q 2 * (1 / 2)) : ℝ) : EReal) := by
  rw [res_main_v177]; exact sin_half_apply _ _ _ _ (row171 W pr hp q)

theorem row201 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v201 W : S1x32.Idx → EReal) (ix2 (0 : Fin 1) q) = ((pr 2 q 0 : ℝ) : EReal) := by
  rw [res_main_v201]; exact (paramRow_apply 2 0 _ _ _ _ q).trans (hp 2 q 0)
theorem cos204 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v204 W : S1x32.Idx → EReal) (ix2 (0 : Fin 1) q) = ((Real.cos (pr 2 q 0 * (1 / 2)) : ℝ) : EReal) := by
  rw [res_main_v204]; exact cos_half_apply _ _ _ _ (row201 W pr hp q)
theorem sin207 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v207 W : S1x32.Idx → EReal) (ix2 (0 : Fin 1) q) = ((Real.sin (pr 2 q 0 * (1 / 2)) : ℝ) : EReal) := by
  rw [res_main_v207]; exact sin_half_apply _ _ _ _ (row201 W pr hp q)

theorem row230 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v230 W : S1x32.Idx → EReal) (ix2 (0 : Fin 1) q) = ((pr 2 q 1 : ℝ) : EReal) := by
  rw [res_main_v230]; exact (paramRow_apply 2 1 _ _ _ _ q).trans (hp 2 q 1)
theorem cos233 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v233 W : S1x32.Idx → EReal) (ix2 (0 : Fin 1) q) = ((Real.cos (pr 2 q 1 * (1 / 2)) : ℝ) : EReal) := by
  rw [res_main_v233]; exact cos_half_apply _ _ _ _ (row230 W pr hp q)
theorem sin236 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v236 W : S1x32.Idx → EReal) (ix2 (0 : Fin 1) q) = ((Real.sin (pr 2 q 1 * (1 / 2)) : ℝ) : EReal) := by
  rw [res_main_v236]; exact sin_half_apply _ _ _ _ (row230 W pr hp q)

theorem row259 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v259 W : S1x32.Idx → EReal) (ix2 (0 : Fin 1) q) = ((pr 2 q 2 : ℝ) : EReal) := by
  rw [res_main_v259]; exact (paramRow_apply 2 2 _ _ _ _ q).trans (hp 2 q 2)
theorem cos262 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v262 W : S1x32.Idx → EReal) (ix2 (0 : Fin 1) q) = ((Real.cos (pr 2 q 2 * (1 / 2)) : ℝ) : EReal) := by
  rw [res_main_v262]; exact cos_half_apply _ _ _ _ (row259 W pr hp q)
theorem sin265 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v265 W : S1x32.Idx → EReal) (ix2 (0 : Fin 1) q) = ((Real.sin (pr 2 q 2 * (1 / 2)) : ℝ) : EReal) := by
  rw [res_main_v265]; exact sin_half_apply _ _ _ _ (row259 W pr hp q)

theorem row289 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v289 W : S1x32.Idx → EReal) (ix2 (0 : Fin 1) q) = ((pr 3 q 0 : ℝ) : EReal) := by
  rw [res_main_v289]; exact (paramRow_apply 3 0 _ _ _ _ q).trans (hp 3 q 0)
theorem cos292 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v292 W : S1x32.Idx → EReal) (ix2 (0 : Fin 1) q) = ((Real.cos (pr 3 q 0 * (1 / 2)) : ℝ) : EReal) := by
  rw [res_main_v292]; exact cos_half_apply _ _ _ _ (row289 W pr hp q)
theorem sin295 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v295 W : S1x32.Idx → EReal) (ix2 (0 : Fin 1) q) = ((Real.sin (pr 3 q 0 * (1 / 2)) : ℝ) : EReal) := by
  rw [res_main_v295]; exact sin_half_apply _ _ _ _ (row289 W pr hp q)

theorem row318 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v318 W : S1x32.Idx → EReal) (ix2 (0 : Fin 1) q) = ((pr 3 q 1 : ℝ) : EReal) := by
  rw [res_main_v318]; exact (paramRow_apply 3 1 _ _ _ _ q).trans (hp 3 q 1)
theorem cos321 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v321 W : S1x32.Idx → EReal) (ix2 (0 : Fin 1) q) = ((Real.cos (pr 3 q 1 * (1 / 2)) : ℝ) : EReal) := by
  rw [res_main_v321]; exact cos_half_apply _ _ _ _ (row318 W pr hp q)
theorem sin324 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v324 W : S1x32.Idx → EReal) (ix2 (0 : Fin 1) q) = ((Real.sin (pr 3 q 1 * (1 / 2)) : ℝ) : EReal) := by
  rw [res_main_v324]; exact sin_half_apply _ _ _ _ (row318 W pr hp q)

theorem row347 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v347 W : S1x32.Idx → EReal) (ix2 (0 : Fin 1) q) = ((pr 3 q 2 : ℝ) : EReal) := by
  rw [res_main_v347]; exact (paramRow_apply 3 2 _ _ _ _ q).trans (hp 3 q 2)
theorem cos350 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v350 W : S1x32.Idx → EReal) (ix2 (0 : Fin 1) q) = ((Real.cos (pr 3 q 2 * (1 / 2)) : ℝ) : EReal) := by
  rw [res_main_v350]; exact cos_half_apply _ _ _ _ (row347 W pr hp q)
theorem sin353 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v353 W : S1x32.Idx → EReal) (ix2 (0 : Fin 1) q) = ((Real.sin (pr 3 q 2 * (1 / 2)) : ℝ) : EReal) := by
  rw [res_main_v353]; exact sin_half_apply _ _ _ _ (row347 W pr hp q)

theorem row377 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v377 W : S1x32.Idx → EReal) (ix2 (0 : Fin 1) q) = ((pr 4 q 0 : ℝ) : EReal) := by
  rw [res_main_v377]; exact (paramRow_apply 4 0 _ _ _ _ q).trans (hp 4 q 0)
theorem cos380 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v380 W : S1x32.Idx → EReal) (ix2 (0 : Fin 1) q) = ((Real.cos (pr 4 q 0 * (1 / 2)) : ℝ) : EReal) := by
  rw [res_main_v380]; exact cos_half_apply _ _ _ _ (row377 W pr hp q)
theorem sin383 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v383 W : S1x32.Idx → EReal) (ix2 (0 : Fin 1) q) = ((Real.sin (pr 4 q 0 * (1 / 2)) : ℝ) : EReal) := by
  rw [res_main_v383]; exact sin_half_apply _ _ _ _ (row377 W pr hp q)

theorem row406 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v406 W : S1x32.Idx → EReal) (ix2 (0 : Fin 1) q) = ((pr 4 q 1 : ℝ) : EReal) := by
  rw [res_main_v406]; exact (paramRow_apply 4 1 _ _ _ _ q).trans (hp 4 q 1)
theorem cos409 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v409 W : S1x32.Idx → EReal) (ix2 (0 : Fin 1) q) = ((Real.cos (pr 4 q 1 * (1 / 2)) : ℝ) : EReal) := by
  rw [res_main_v409]; exact cos_half_apply _ _ _ _ (row406 W pr hp q)
theorem sin412 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v412 W : S1x32.Idx → EReal) (ix2 (0 : Fin 1) q) = ((Real.sin (pr 4 q 1 * (1 / 2)) : ℝ) : EReal) := by
  rw [res_main_v412]; exact sin_half_apply _ _ _ _ (row406 W pr hp q)

theorem row435 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v435 W : S1x32.Idx → EReal) (ix2 (0 : Fin 1) q) = ((pr 4 q 2 : ℝ) : EReal) := by
  rw [res_main_v435]; exact (paramRow_apply 4 2 _ _ _ _ q).trans (hp 4 q 2)
theorem cos438 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v438 W : S1x32.Idx → EReal) (ix2 (0 : Fin 1) q) = ((Real.cos (pr 4 q 2 * (1 / 2)) : ℝ) : EReal) := by
  rw [res_main_v438]; exact cos_half_apply _ _ _ _ (row435 W pr hp q)
theorem sin441 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v441 W : S1x32.Idx → EReal) (ix2 (0 : Fin 1) q) = ((Real.sin (pr 4 q 2 * (1 / 2)) : ℝ) : EReal) := by
  rw [res_main_v441]; exact sin_half_apply _ _ _ _ (row435 W pr hp q)

theorem row465 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v465 W : S1x32.Idx → EReal) (ix2 (0 : Fin 1) q) = ((pr 5 q 0 : ℝ) : EReal) := by
  rw [res_main_v465]; exact (paramRow_apply 5 0 _ _ _ _ q).trans (hp 5 q 0)
theorem cos468 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v468 W : S1x32.Idx → EReal) (ix2 (0 : Fin 1) q) = ((Real.cos (pr 5 q 0 * (1 / 2)) : ℝ) : EReal) := by
  rw [res_main_v468]; exact cos_half_apply _ _ _ _ (row465 W pr hp q)
theorem sin471 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v471 W : S1x32.Idx → EReal) (ix2 (0 : Fin 1) q) = ((Real.sin (pr 5 q 0 * (1 / 2)) : ℝ) : EReal) := by
  rw [res_main_v471]; exact sin_half_apply _ _ _ _ (row465 W pr hp q)

theorem row494 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v494 W : S1x32.Idx → EReal) (ix2 (0 : Fin 1) q) = ((pr 5 q 1 : ℝ) : EReal) := by
  rw [res_main_v494]; exact (paramRow_apply 5 1 _ _ _ _ q).trans (hp 5 q 1)
theorem cos497 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v497 W : S1x32.Idx → EReal) (ix2 (0 : Fin 1) q) = ((Real.cos (pr 5 q 1 * (1 / 2)) : ℝ) : EReal) := by
  rw [res_main_v497]; exact cos_half_apply _ _ _ _ (row494 W pr hp q)
theorem sin500 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v500 W : S1x32.Idx → EReal) (ix2 (0 : Fin 1) q) = ((Real.sin (pr 5 q 1 * (1 / 2)) : ℝ) : EReal) := by
  rw [res_main_v500]; exact sin_half_apply _ _ _ _ (row494 W pr hp q)

theorem row523 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v523 W : S1x32.Idx → EReal) (ix2 (0 : Fin 1) q) = ((pr 5 q 2 : ℝ) : EReal) := by
  rw [res_main_v523]; exact (paramRow_apply 5 2 _ _ _ _ q).trans (hp 5 q 2)
theorem cos526 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v526 W : S1x32.Idx → EReal) (ix2 (0 : Fin 1) q) = ((Real.cos (pr 5 q 2 * (1 / 2)) : ℝ) : EReal) := by
  rw [res_main_v526]; exact cos_half_apply _ _ _ _ (row523 W pr hp q)
theorem sin529 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v529 W : S1x32.Idx → EReal) (ix2 (0 : Fin 1) q) = ((Real.sin (pr 5 q 2 * (1 / 2)) : ℝ) : EReal) := by
  rw [res_main_v529]; exact sin_half_apply _ _ _ _ (row523 W pr hp q)

theorem row553 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v553 W : S1x32.Idx → EReal) (ix2 (0 : Fin 1) q) = ((pr 6 q 0 : ℝ) : EReal) := by
  rw [res_main_v553]; exact (paramRow_apply 6 0 _ _ _ _ q).trans (hp 6 q 0)
theorem cos556 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v556 W : S1x32.Idx → EReal) (ix2 (0 : Fin 1) q) = ((Real.cos (pr 6 q 0 * (1 / 2)) : ℝ) : EReal) := by
  rw [res_main_v556]; exact cos_half_apply _ _ _ _ (row553 W pr hp q)
theorem sin559 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v559 W : S1x32.Idx → EReal) (ix2 (0 : Fin 1) q) = ((Real.sin (pr 6 q 0 * (1 / 2)) : ℝ) : EReal) := by
  rw [res_main_v559]; exact sin_half_apply _ _ _ _ (row553 W pr hp q)

theorem row582 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v582 W : S1x32.Idx → EReal) (ix2 (0 : Fin 1) q) = ((pr 6 q 1 : ℝ) : EReal) := by
  rw [res_main_v582]; exact (paramRow_apply 6 1 _ _ _ _ q).trans (hp 6 q 1)
theorem cos585 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v585 W : S1x32.Idx → EReal) (ix2 (0 : Fin 1) q) = ((Real.cos (pr 6 q 1 * (1 / 2)) : ℝ) : EReal) := by
  rw [res_main_v585]; exact cos_half_apply _ _ _ _ (row582 W pr hp q)
theorem sin588 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v588 W : S1x32.Idx → EReal) (ix2 (0 : Fin 1) q) = ((Real.sin (pr 6 q 1 * (1 / 2)) : ℝ) : EReal) := by
  rw [res_main_v588]; exact sin_half_apply _ _ _ _ (row582 W pr hp q)

theorem row611 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v611 W : S1x32.Idx → EReal) (ix2 (0 : Fin 1) q) = ((pr 6 q 2 : ℝ) : EReal) := by
  rw [res_main_v611]; exact (paramRow_apply 6 2 _ _ _ _ q).trans (hp 6 q 2)
theorem cos614 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v614 W : S1x32.Idx → EReal) (ix2 (0 : Fin 1) q) = ((Real.cos (pr 6 q 2 * (1 / 2)) : ℝ) : EReal) := by
  rw [res_main_v614]; exact cos_half_apply _ _ _ _ (row611 W pr hp q)
theorem sin617 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v617 W : S1x32.Idx → EReal) (ix2 (0 : Fin 1) q) = ((Real.sin (pr 6 q 2 * (1 / 2)) : ℝ) : EReal) := by
  rw [res_main_v617]; exact sin_half_apply _ _ _ _ (row611 W pr hp q)

theorem row641 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v641 W : S1x32.Idx → EReal) (ix2 (0 : Fin 1) q) = ((pr 7 q 0 : ℝ) : EReal) := by
  rw [res_main_v641]; exact (paramRow_apply 7 0 _ _ _ _ q).trans (hp 7 q 0)
theorem cos644 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v644 W : S1x32.Idx → EReal) (ix2 (0 : Fin 1) q) = ((Real.cos (pr 7 q 0 * (1 / 2)) : ℝ) : EReal) := by
  rw [res_main_v644]; exact cos_half_apply _ _ _ _ (row641 W pr hp q)
theorem sin647 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v647 W : S1x32.Idx → EReal) (ix2 (0 : Fin 1) q) = ((Real.sin (pr 7 q 0 * (1 / 2)) : ℝ) : EReal) := by
  rw [res_main_v647]; exact sin_half_apply _ _ _ _ (row641 W pr hp q)

theorem row670 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v670 W : S1x32.Idx → EReal) (ix2 (0 : Fin 1) q) = ((pr 7 q 1 : ℝ) : EReal) := by
  rw [res_main_v670]; exact (paramRow_apply 7 1 _ _ _ _ q).trans (hp 7 q 1)
theorem cos673 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v673 W : S1x32.Idx → EReal) (ix2 (0 : Fin 1) q) = ((Real.cos (pr 7 q 1 * (1 / 2)) : ℝ) : EReal) := by
  rw [res_main_v673]; exact cos_half_apply _ _ _ _ (row670 W pr hp q)
theorem sin676 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v676 W : S1x32.Idx → EReal) (ix2 (0 : Fin 1) q) = ((Real.sin (pr 7 q 1 * (1 / 2)) : ℝ) : EReal) := by
  rw [res_main_v676]; exact sin_half_apply _ _ _ _ (row670 W pr hp q)

theorem row699 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v699 W : S1x32.Idx → EReal) (ix2 (0 : Fin 1) q) = ((pr 7 q 2 : ℝ) : EReal) := by
  rw [res_main_v699]; exact (paramRow_apply 7 2 _ _ _ _ q).trans (hp 7 q 2)
theorem cos702 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v702 W : S1x32.Idx → EReal) (ix2 (0 : Fin 1) q) = ((Real.cos (pr 7 q 2 * (1 / 2)) : ℝ) : EReal) := by
  rw [res_main_v702]; exact cos_half_apply _ _ _ _ (row699 W pr hp q)
theorem sin705 (W : Valuation τ sig (Elt Ideal)) (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (q : Fin 32) :
    (res_main_v705 W : S1x32.Idx → EReal) (ix2 (0 : Fin 1) q) = ((Real.sin (pr 7 q 2 * (1 / 2)) : ℝ) : EReal) := by
  rw [res_main_v705]; exact sin_half_apply _ _ _ _ (row699 W pr hp q)

/-! ## The state arrays after each of the 24 gates, at (b, q) -/

theorem gate1 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v36 W) (res_main_v41 W) (res_main_v46 W) (res_main_v51 W) b q
      (gRy (pr 0 q 0) (st (xr b q) (fun a g => pr a q g) 0)) := by
  rw [res_main_v36, res_main_v41, res_main_v46, res_main_v51]
  exact ry_state _ _ _ _ _ _ _ b q _ _ (cos28 W pr hp q) (sin31 W pr hp q) (gate0 W xr hx pr hp b q)

theorem gate2 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v65 W) (res_main_v70 W) (res_main_v75 W) (res_main_v80 W) b q
      (gRz (pr 0 q 1) (gRy (pr 0 q 0) (st (xr b q) (fun a g => pr a q g) 0))) := by
  rw [res_main_v65, res_main_v70, res_main_v75, res_main_v80]
  exact rz_state _ _ _ _ _ _ _ b q _ _ (cos57 W pr hp q) (sin60 W pr hp q) (gate1 W xr hx pr hp b q)

theorem gate3 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v94 W) (res_main_v99 W) (res_main_v104 W) (res_main_v110 W) b q
      (st (xr b q) (fun a g => pr a q g) 1) := by
  rw [show st (xr b q) (fun a g => pr a q g) 1 = gRx (pr 0 q 2) (gRz (pr 0 q 1) (gRy (pr 0 q 0) (st (xr b q) (fun a g => pr a q g) 0))) from st_layer _ _ 0]
  rw [res_main_v94, res_main_v99, res_main_v104, res_main_v110]
  exact rx_state _ _ _ _ _ _ _ b q _ _ (cos86 W pr hp q) (sin89 W pr hp q) (gate2 W xr hx pr hp b q)

theorem gate4 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v124 W) (res_main_v129 W) (res_main_v134 W) (res_main_v139 W) b q
      (gRy (pr 1 q 0) (st (xr b q) (fun a g => pr a q g) 1)) := by
  rw [res_main_v124, res_main_v129, res_main_v134, res_main_v139]
  exact ry_state _ _ _ _ _ _ _ b q _ _ (cos116 W pr hp q) (sin119 W pr hp q) (gate3 W xr hx pr hp b q)

theorem gate5 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v153 W) (res_main_v158 W) (res_main_v163 W) (res_main_v168 W) b q
      (gRz (pr 1 q 1) (gRy (pr 1 q 0) (st (xr b q) (fun a g => pr a q g) 1))) := by
  rw [res_main_v153, res_main_v158, res_main_v163, res_main_v168]
  exact rz_state _ _ _ _ _ _ _ b q _ _ (cos145 W pr hp q) (sin148 W pr hp q) (gate4 W xr hx pr hp b q)

theorem gate6 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v182 W) (res_main_v187 W) (res_main_v192 W) (res_main_v198 W) b q
      (st (xr b q) (fun a g => pr a q g) 2) := by
  rw [show st (xr b q) (fun a g => pr a q g) 2 = gRx (pr 1 q 2) (gRz (pr 1 q 1) (gRy (pr 1 q 0) (st (xr b q) (fun a g => pr a q g) 1))) from st_layer _ _ 1]
  rw [res_main_v182, res_main_v187, res_main_v192, res_main_v198]
  exact rx_state _ _ _ _ _ _ _ b q _ _ (cos174 W pr hp q) (sin177 W pr hp q) (gate5 W xr hx pr hp b q)

theorem gate7 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v212 W) (res_main_v217 W) (res_main_v222 W) (res_main_v227 W) b q
      (gRy (pr 2 q 0) (st (xr b q) (fun a g => pr a q g) 2)) := by
  rw [res_main_v212, res_main_v217, res_main_v222, res_main_v227]
  exact ry_state _ _ _ _ _ _ _ b q _ _ (cos204 W pr hp q) (sin207 W pr hp q) (gate6 W xr hx pr hp b q)

theorem gate8 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v241 W) (res_main_v246 W) (res_main_v251 W) (res_main_v256 W) b q
      (gRz (pr 2 q 1) (gRy (pr 2 q 0) (st (xr b q) (fun a g => pr a q g) 2))) := by
  rw [res_main_v241, res_main_v246, res_main_v251, res_main_v256]
  exact rz_state _ _ _ _ _ _ _ b q _ _ (cos233 W pr hp q) (sin236 W pr hp q) (gate7 W xr hx pr hp b q)

theorem gate9 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v270 W) (res_main_v275 W) (res_main_v280 W) (res_main_v286 W) b q
      (st (xr b q) (fun a g => pr a q g) 3) := by
  rw [show st (xr b q) (fun a g => pr a q g) 3 = gRx (pr 2 q 2) (gRz (pr 2 q 1) (gRy (pr 2 q 0) (st (xr b q) (fun a g => pr a q g) 2))) from st_layer _ _ 2]
  rw [res_main_v270, res_main_v275, res_main_v280, res_main_v286]
  exact rx_state _ _ _ _ _ _ _ b q _ _ (cos262 W pr hp q) (sin265 W pr hp q) (gate8 W xr hx pr hp b q)

theorem gate10 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v300 W) (res_main_v305 W) (res_main_v310 W) (res_main_v315 W) b q
      (gRy (pr 3 q 0) (st (xr b q) (fun a g => pr a q g) 3)) := by
  rw [res_main_v300, res_main_v305, res_main_v310, res_main_v315]
  exact ry_state _ _ _ _ _ _ _ b q _ _ (cos292 W pr hp q) (sin295 W pr hp q) (gate9 W xr hx pr hp b q)

theorem gate11 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v329 W) (res_main_v334 W) (res_main_v339 W) (res_main_v344 W) b q
      (gRz (pr 3 q 1) (gRy (pr 3 q 0) (st (xr b q) (fun a g => pr a q g) 3))) := by
  rw [res_main_v329, res_main_v334, res_main_v339, res_main_v344]
  exact rz_state _ _ _ _ _ _ _ b q _ _ (cos321 W pr hp q) (sin324 W pr hp q) (gate10 W xr hx pr hp b q)

theorem gate12 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v358 W) (res_main_v363 W) (res_main_v368 W) (res_main_v374 W) b q
      (st (xr b q) (fun a g => pr a q g) 4) := by
  rw [show st (xr b q) (fun a g => pr a q g) 4 = gRx (pr 3 q 2) (gRz (pr 3 q 1) (gRy (pr 3 q 0) (st (xr b q) (fun a g => pr a q g) 3))) from st_layer _ _ 3]
  rw [res_main_v358, res_main_v363, res_main_v368, res_main_v374]
  exact rx_state _ _ _ _ _ _ _ b q _ _ (cos350 W pr hp q) (sin353 W pr hp q) (gate11 W xr hx pr hp b q)

theorem gate13 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v388 W) (res_main_v393 W) (res_main_v398 W) (res_main_v403 W) b q
      (gRy (pr 4 q 0) (st (xr b q) (fun a g => pr a q g) 4)) := by
  rw [res_main_v388, res_main_v393, res_main_v398, res_main_v403]
  exact ry_state _ _ _ _ _ _ _ b q _ _ (cos380 W pr hp q) (sin383 W pr hp q) (gate12 W xr hx pr hp b q)

theorem gate14 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v417 W) (res_main_v422 W) (res_main_v427 W) (res_main_v432 W) b q
      (gRz (pr 4 q 1) (gRy (pr 4 q 0) (st (xr b q) (fun a g => pr a q g) 4))) := by
  rw [res_main_v417, res_main_v422, res_main_v427, res_main_v432]
  exact rz_state _ _ _ _ _ _ _ b q _ _ (cos409 W pr hp q) (sin412 W pr hp q) (gate13 W xr hx pr hp b q)

theorem gate15 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v446 W) (res_main_v451 W) (res_main_v456 W) (res_main_v462 W) b q
      (st (xr b q) (fun a g => pr a q g) 5) := by
  rw [show st (xr b q) (fun a g => pr a q g) 5 = gRx (pr 4 q 2) (gRz (pr 4 q 1) (gRy (pr 4 q 0) (st (xr b q) (fun a g => pr a q g) 4))) from st_layer _ _ 4]
  rw [res_main_v446, res_main_v451, res_main_v456, res_main_v462]
  exact rx_state _ _ _ _ _ _ _ b q _ _ (cos438 W pr hp q) (sin441 W pr hp q) (gate14 W xr hx pr hp b q)

theorem gate16 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v476 W) (res_main_v481 W) (res_main_v486 W) (res_main_v491 W) b q
      (gRy (pr 5 q 0) (st (xr b q) (fun a g => pr a q g) 5)) := by
  rw [res_main_v476, res_main_v481, res_main_v486, res_main_v491]
  exact ry_state _ _ _ _ _ _ _ b q _ _ (cos468 W pr hp q) (sin471 W pr hp q) (gate15 W xr hx pr hp b q)

theorem gate17 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v505 W) (res_main_v510 W) (res_main_v515 W) (res_main_v520 W) b q
      (gRz (pr 5 q 1) (gRy (pr 5 q 0) (st (xr b q) (fun a g => pr a q g) 5))) := by
  rw [res_main_v505, res_main_v510, res_main_v515, res_main_v520]
  exact rz_state _ _ _ _ _ _ _ b q _ _ (cos497 W pr hp q) (sin500 W pr hp q) (gate16 W xr hx pr hp b q)

theorem gate18 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v534 W) (res_main_v539 W) (res_main_v544 W) (res_main_v550 W) b q
      (st (xr b q) (fun a g => pr a q g) 6) := by
  rw [show st (xr b q) (fun a g => pr a q g) 6 = gRx (pr 5 q 2) (gRz (pr 5 q 1) (gRy (pr 5 q 0) (st (xr b q) (fun a g => pr a q g) 5))) from st_layer _ _ 5]
  rw [res_main_v534, res_main_v539, res_main_v544, res_main_v550]
  exact rx_state _ _ _ _ _ _ _ b q _ _ (cos526 W pr hp q) (sin529 W pr hp q) (gate17 W xr hx pr hp b q)

theorem gate19 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v564 W) (res_main_v569 W) (res_main_v574 W) (res_main_v579 W) b q
      (gRy (pr 6 q 0) (st (xr b q) (fun a g => pr a q g) 6)) := by
  rw [res_main_v564, res_main_v569, res_main_v574, res_main_v579]
  exact ry_state _ _ _ _ _ _ _ b q _ _ (cos556 W pr hp q) (sin559 W pr hp q) (gate18 W xr hx pr hp b q)

theorem gate20 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v593 W) (res_main_v598 W) (res_main_v603 W) (res_main_v608 W) b q
      (gRz (pr 6 q 1) (gRy (pr 6 q 0) (st (xr b q) (fun a g => pr a q g) 6))) := by
  rw [res_main_v593, res_main_v598, res_main_v603, res_main_v608]
  exact rz_state _ _ _ _ _ _ _ b q _ _ (cos585 W pr hp q) (sin588 W pr hp q) (gate19 W xr hx pr hp b q)

theorem gate21 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v622 W) (res_main_v627 W) (res_main_v632 W) (res_main_v638 W) b q
      (st (xr b q) (fun a g => pr a q g) 7) := by
  rw [show st (xr b q) (fun a g => pr a q g) 7 = gRx (pr 6 q 2) (gRz (pr 6 q 1) (gRy (pr 6 q 0) (st (xr b q) (fun a g => pr a q g) 6))) from st_layer _ _ 6]
  rw [res_main_v622, res_main_v627, res_main_v632, res_main_v638]
  exact rx_state _ _ _ _ _ _ _ b q _ _ (cos614 W pr hp q) (sin617 W pr hp q) (gate20 W xr hx pr hp b q)

theorem gate22 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v652 W) (res_main_v657 W) (res_main_v662 W) (res_main_v667 W) b q
      (gRy (pr 7 q 0) (st (xr b q) (fun a g => pr a q g) 7)) := by
  rw [res_main_v652, res_main_v657, res_main_v662, res_main_v667]
  exact ry_state _ _ _ _ _ _ _ b q _ _ (cos644 W pr hp q) (sin647 W pr hp q) (gate21 W xr hx pr hp b q)

theorem gate23 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v681 W) (res_main_v686 W) (res_main_v691 W) (res_main_v696 W) b q
      (gRz (pr 7 q 1) (gRy (pr 7 q 0) (st (xr b q) (fun a g => pr a q g) 7))) := by
  rw [res_main_v681, res_main_v686, res_main_v691, res_main_v696]
  exact rz_state _ _ _ _ _ _ _ b q _ _ (cos673 W pr hp q) (sin676 W pr hp q) (gate22 W xr hx pr hp b q)

theorem gate24 (W : Valuation τ sig (Elt Ideal)) (xr : Fin 262144 → Fin 32 → ℝ)
    (hx : ∀ (b : Fin 262144) (q : Fin 32), (W (Proc.devRef .tc main_arg0) : S262144x32.Idx → EReal) (ix2 b q) = ((xr b q : ℝ) : EReal))
    (pr : Fin 8 → Fin 32 → Fin 3 → ℝ)
    (hp : ∀ (a : Fin 8) (q : Fin 32) (g : Fin 3), (W (Proc.devRef .tc main_arg1) : S8x32x3.Idx → EReal) (ix3 a q g) = ((pr a q g : ℝ) : EReal)) (b : Fin 262144) (q : Fin 32) :
    IsState (res_main_v710 W) (res_main_v715 W) (res_main_v720 W) (res_main_v726 W) b q
      (st (xr b q) (fun a g => pr a q g) 8) := by
  rw [show st (xr b q) (fun a g => pr a q g) 8 = gRx (pr 7 q 2) (gRz (pr 7 q 1) (gRy (pr 7 q 0) (st (xr b q) (fun a g => pr a q g) 7))) from st_layer _ _ 7]
  rw [res_main_v710, res_main_v715, res_main_v720, res_main_v726]
  exact rx_state _ _ _ _ _ _ _ b q _ _ (cos702 W pr hp q) (sin705 W pr hp q) (gate23 W xr hx pr hp b q)

end Cert.ReferenceIdeal.RefValue

end
-- ==== Proof.RefValue.lean ====
/-
  The reference program's result read at one (sample, qubit): the four state arrays after the last gate hold the
  real state st x θ 8 (the encoding followed by the eight layers), and the result ar² + ai² − br² − bi² of those four
  arrays is ⟨Z⟩ of that state, the specification's refOut.
-/
import proofs.«119607_j65481071399210_2_alg».proof.Proof.RefValueTable

set_option maxRecDepth 8192

noncomputable section

namespace Cert.ReferenceIdeal.RefValue

open Cert.ReferenceIdeal Cert.ReferenceIdeal.Gen Cert.ReferenceIdeal.Value Idealize.ShloMosaic Idealize.ShloMosaic.ValueIdx
  Idealize.ShloMosaic.StableHlo Idealize.SL.Sem Cert.Spec

/-- The reference's result at (b, q) is ⟨Z⟩ of the state after the encoding and the eight layers. -/
theorem result_apply (W : Valuation τ sig (Elt Ideal)) (xr : Fin 262144 → Fin 32 → ℝ) (pr : Fin 8 → Fin 32 → Fin 3 → ℝ)
    (hx : ∀ (b : Fin 262144) (q : Fin 32), (W (Proc.devRef .tc main_arg0) : S262144x32.Idx → EReal) (ix2 b q) = ((xr b q : ℝ) : EReal))
    (hp : ∀ (a : Fin 8) (q : Fin 32) (g : Fin 3), (W (Proc.devRef .tc main_arg1) : S8x32x3.Idx → EReal) (ix3 a q g) = ((pr a q g : ℝ) : EReal))
    (b : Fin 262144) (q : Fin 32) :
    (subf (subf (addf (mulf (res_main_v710 W) (res_main_v710 W)) (mulf (res_main_v715 W) (res_main_v715 W))) (mulf (res_main_v720 W) (res_main_v720 W))) (mulf (res_main_v726 W) (res_main_v726 W)) : S262144x32.Idx → EReal) (ix2 b q)
      = ((Cert.Spec.refOut (xr b q) (fun a g => pr a q g) : ℝ) : EReal) :=
  zexp_apply _ _ _ _ b q _ (gate24 W xr hx pr hp b q)

end Cert.ReferenceIdeal.RefValue

end
-- ==== Proof.lean ====
/-
  The certificate's claims for the quantum-layer kernel (one qubit at a time: RX(x) on |0⟩, eight layers RY·RZ·RX,
  ⟨Z⟩ read out).

  The kernel program composes the 24 trainable gates, as 4×4 real matrices per qubit, into one matrix on the host, reads
  three coefficients P, C, S per qubit off it, and its region computes P + C·cos x + S·sin x; the reference applies the
  25 gates to the four real state components elementwise. Under the precondition every input is a real number, so both
  results are coerced reals, and the two real-number formulas agree by the half-angle identities
  (`Cert.Spec.kerOut_eq_refOut`): the encoded state is (cos (x/2), 0, 0, −sin (x/2)), each gate's map is its matrix applied
  to the state, and ⟨Z⟩ of the accumulated matrix applied to it is a quadratic form in cos (x/2), sin (x/2).

  The three frames: the kernel program's (at both instances) by its frame run; the reference's by its run with the result
  dropped. Nothing was rewritten by the idealization, so that conjunct is trivial.
-/
import proofs.«119607_j65481071399210_2_alg».proof.Defs
import proofs.«119607_j65481071399210_2_alg».proof.Proof.Gen.Kernel
import proofs.«119607_j65481071399210_2_alg».proof.Proof.Gen.Kernel.Skeleton
import proofs.«119607_j65481071399210_2_alg».proof.Proof.Gen.Kernel.Launch
import proofs.«119607_j65481071399210_2_alg».proof.Proof.Gen.Kernel.Points
import proofs.«119607_j65481071399210_2_alg».proof.Proof.Gen.KernelIdeal
import proofs.«119607_j65481071399210_2_alg».proof.Proof.Gen.KernelIdeal.Skeleton
import proofs.«119607_j65481071399210_2_alg».proof.Proof.Gen.KernelIdeal.Launch
import proofs.«119607_j65481071399210_2_alg».proof.Proof.Gen.KernelIdeal.Points
import proofs.«119607_j65481071399210_2_alg».proof.Proof.Gen.ReferenceIdeal
import proofs.«119607_j65481071399210_2_alg».proof.Proof.Gen.Pre_finite_inputs
import proofs.«119607_j65481071399210_2_alg».proof.Proof.Gen.ReferenceIdeal.Run
import proofs.«119607_j65481071399210_2_alg».proof.Proof.SpecLaws
import proofs.«119607_j65481071399210_2_alg».proof.Proof.Finite
import proofs.«119607_j65481071399210_2_alg».proof.Proof.KFrameBits
import proofs.«119607_j65481071399210_2_alg».proof.Proof.KResult
import proofs.«119607_j65481071399210_2_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with equal results: under the precondition every input is real, the kernel's result at
    (b, q) is P + C·cos x + S·sin x and the reference's is ⟨Z⟩ after the 25 gates, and the two agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hxre, hpre'⟩ := Cert.Finite.reals_of_pre _ _ (hpre c)
  choose xR hxR using hxre
  choose pR hpR using hpre'
  funext idx
  obtain ⟨b, q, rfl⟩ : ∃ (b : Fin 262144) (q : Fin 32), idx = ix2 b q := ⟨idx 0, idx 1, eq_ix2 idx⟩
  show _ = Cert.KernelIdeal.KValue.result m c (ix2 b q)
  rw [Cert.KernelIdeal.KValue.result_real m c (fun b q => xR (ix2 b q)) (fun a q g => pR (ix3 a q g))
      (fun b q => hxR _) (fun a q g => hpR _) b q, Cert.Spec.kerOut_eq_refOut]
  exact Cert.ReferenceIdeal.RefValue.result_apply (StableHlo.launchContents m' c) (fun b q => xR (ix2 b q))
    (fun a q g => pR (ix3 a q g))
    (fun b q => by show m' _ _ = _; rw [(hagree c).1]; exact hxR _)
    (fun a q g => by show m' _ _ = _; rw [(hagree c).2]; exact hpR _) b q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
